-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v457)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v457) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v735) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S200000x64 : Shape := ⟨2, ![200000, 64]⟩
abbrev S2x1000000 : Shape := ⟨2, ![2, 1000000]⟩
abbrev S32x64 : Shape := ⟨2, ![32, 64]⟩
abbrev S64 : Shape := ⟨1, ![64]⟩
abbrev S64x64 : Shape := ⟨2, ![64, 64]⟩
abbrev S3x4x64x64 : Shape := ⟨4, ![3, 4, 64, 64]⟩
abbrev S3x4x64 : Shape := ⟨3, ![3, 4, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x4x64x64 : S_.BroadcastsInDim S3x4x64x64 (![] : Fin 0 → Fin S3x4x64x64.rank)
  reducesTo_S3x4x64x64_S_d0_1_2_3 : S3x4x64x64.ReducesTo [0, 1, 2, 3] S_
  bcast_S_S3x4x64 : S_.BroadcastsInDim S3x4x64 (![] : Fin 0 → Fin S3x4x64.rank)
  reducesTo_S3x4x64_S_d0_1_2 : S3x4x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg11 : FVec F S3x4x64 .f32) (main_arg12 : FVec F S64x64 .f32) (main_arg13 : FVec F S64 .f32) (main_arg14 : FVec F S64x1 .f32) (main_arg15 : FVec F S1 .f32) (main_v33 : IVec S_ 1) : IVec S_ 1 :=
  let main_v34 : FVec F S3x4x64 .f32 := Host.absf main_arg11
  let main_cst_12 : FVec F S_ .f32 := constant S_ .f32 0x7F800000#32
  let main_v35 : FVec F S3x4x64 .f32 := broadcastInDim S3x4x64 ![] bcast_S_S3x4x64 main_cst_12
  let main_v36 : IVec S3x4x64 1 := cmpf .olt main_v34 main_v35
  let main_c_13 : IVec S_ 1 := constantI S_ 1 1#1
  let main_v37 : IVec S_ 1 := (fun x v => Host.reduce IntOp.andi x v reducesTo_S3x4x64_S_d0_1_2 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg14
  let main_cst_18 : FVec F S_ .f32 := constant S_ .f32 0x7F800000#32
  let main_v50 : FVec F S64x1 .f32 := broadcastInDim S64x1 ![] bcast_S_S64x1 main_cst_18
  fn_part3 (F := F) main_arg15 main_v48 main_v49 main_v50

def fn_part1 {F : FTy → Type} [FloatOps F] (main_arg8 : FVec F S64x64 .f32) (main_arg9 : FVec F S64 .f32) (main_arg10 : FVec F S3x4x64x64 .f32) (main_arg11 : FVec F S3x4x64 .f32) (main_arg12 : FVec F S64x64 .f32) (main_arg13 : FVec F S64 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x4x64x64 .f32 := Host.absf main_arg10
  let main_cst_10 : FVec F S_ .f32 := constant S_ .f32 0x7F800000#32
  let main_v30 : FVec F S3x4x64x64 .f32 := broadcastInDim S3x4x64x64 ![] bcast_S_S3x4x64x64 main_cst_10
  let main_v31 : IVec S3x4x64x64 1 := cmpf .olt main_v29 main_v30
  let main_c_11 : IVec S_ 1 := constantI S_ 1 1#1
  let main_v32 : IVec S_ 1 := (fun x v => Host.reduce IntOp.andi x v reducesTo_S3x4x64x64_S_d0_1_2_3 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S100000x32 .f32) (main_arg1 : FVec F S200000x64 .f32) (main_arg2 : IVec S2x1000000 32) (main_arg3 : IVec S2x1000000 32) (main_arg4 : IVec S2x1000000 32) (main_arg5 : IVec S2x1000000 32) (main_arg6 : FVec F S32x64 .f32) (main_arg7 : FVec F S64 .f32) (main_arg8 : FVec F S64x64 .f32) (main_arg9 : FVec F S64 .f32) (main_arg10 : FVec F S3x4x64x64 .f32) (main_arg11 : FVec F S3x4x64 .f32) (main_arg12 : FVec F S64x64 .f32) (main_arg13 : FVec F S64 .f32) (main_arg14 : FVec F S64x1 .f32) (main_arg15 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S32x64 .f32 := Host.absf main_arg6
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_v13 main_v16
-- ==== Kernel.lean ====
abbrev S100000x32 : Shape := ⟨2, ![100000, 32]⟩
abbrev S200000x64 : Shape := ⟨2, ![200000, 64]⟩
abbrev S2x1000000 : Shape := ⟨2, ![2, 1000000]⟩
abbrev S32x64 : Shape := ⟨2, ![32, 64]⟩
abbrev S64 : Shape := ⟨1, ![64]⟩
abbrev S64x64 : Shape := ⟨2, ![64, 64]⟩
abbrev S3x4x64x64 : Shape := ⟨4, ![3, 4, 64, 64]⟩
abbrev S3x4x64 : Shape := ⟨3, ![3, 4, 64]⟩
abbrev S64x1 : Shape := ⟨2, ![64, 1]⟩
abbrev S1 : Shape := ⟨1, ![1]⟩
abbrev S100000x64 : Shape := ⟨2, ![100000, 64]⟩
abbrev S5000x32 : Shape := ⟨2, ![5000, 32]⟩
abbrev S5000x64 : Shape := ⟨2, ![5000, 64]⟩
abbrev S1x64 : Shape := ⟨2, ![1, 64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S200000 : Shape := ⟨1, ![200000]⟩
abbrev S1200000 : Shape := ⟨1, ![1200000]⟩
abbrev S1200000x1 : Shape := ⟨2, ![1200000, 1]⟩
abbrev S1000000x1 : Shape := ⟨2, ![1000000, 1]⟩
abbrev S1x1x64x64 : Shape := ⟨4, ![1, 1, 64, 64]⟩
abbrev S64x128 : Shape := ⟨2, ![64, 128]⟩
abbrev S100000x128 : Shape := ⟨2, ![100000, 128]⟩
abbrev S5000x128 : Shape := ⟨2, ![5000, 128]⟩
abbrev S200000x128 : Shape := ⟨2, ![200000, 128]⟩
abbrev S1100000x64 : Shape := ⟨2, ![1100000, 64]⟩
abbrev S1200000x64 : Shape := ⟨2, ![1200000, 64]⟩
abbrev S1000000x64 : Shape := ⟨2, ![1000000, 64]⟩
abbrev S1x1x64 : Shape := ⟨3, ![1, 1, 64]⟩
abbrev S50000x128 : Shape := ⟨2, ![50000, 128]⟩
abbrev S2x64 : Shape := ⟨2, ![2, 64]⟩
abbrev S128 : Shape := ⟨1, ![128]⟩
abbrev S1x128 : Shape := ⟨2, ![1, 128]⟩
abbrev S1x1 : Shape := ⟨2, ![1, 1]⟩

abbrev nBuf : Space → Nat
  | .hbm => 578
  | .vmem => 90
  | .smem => 0
  | _ => 0

abbrev hbmTy0_0 (i : Nat) : BufTy := match i % 128 with
  | 0 => ⟨S100000x32, .f32⟩
  | 1 => ⟨S200000x64, .f32⟩
  | 2 => ⟨S2x1000000, .i32⟩
  | 3 => ⟨S2x1000000, .i32⟩
  | 4 => ⟨S2x1000000, .i32⟩
  | 5 => ⟨S2x1000000, .i32⟩
  | 6 => ⟨S32x64, .f32⟩
  | 7 => ⟨S64, .f32⟩
  | 8 => ⟨S64x64, .f32⟩
  | 9 => ⟨S64, .f32⟩
  | 10 => ⟨S3x4x64x64, .f32⟩
  | 11 => ⟨S3x4x64, .f32⟩
  | 12 => ⟨S64x64, .f32⟩
  | 13 => ⟨S64, .f32⟩
  | 14 => ⟨S64x1, .f32⟩
  | 15 => ⟨S1, .f32⟩
  | 16 => ⟨S100000x64, .f32⟩
  | 17 => ⟨S200000x64, .f32⟩
  | 18 => ⟨S1x1000000, .i32⟩
  | 19 => ⟨S1000000, .i32⟩
  | 20 => ⟨S1x1000000, .i32⟩
  | 21 => ⟨S1000000, .i32⟩
  | 22 => ⟨S100000, .i32⟩
  | 23 => ⟨S1100000, .i32⟩
  | 24 => ⟨S1100000, .i32⟩
  | 25 => ⟨S_, .f32⟩
  | 26 => ⟨S1100000, .f32⟩
  | 27 => ⟨S_, .f32⟩
  | 28 => ⟨S100000, .f32⟩
  | 29 => ⟨S1100000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1100000, .i32⟩
  | 44 => ⟨S1100000, .i1⟩
  | 45 => ⟨S_, .i32⟩
  | 46 => ⟨S1100000, .i32⟩
  | 47 => ⟨S1100000, .i32⟩
  | 48 => ⟨S1100000, .i32⟩
  | 49 => ⟨S1100000x1, .i32⟩
  | 50 => ⟨S1100000, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000, .f32⟩
  | 60 => ⟨S1100000, .f32⟩
  | 61 => ⟨S1x1000000, .i32⟩
  | 62 => ⟨S1000000, .i32⟩
  | 63 => ⟨S1x1000000, .i32⟩
  | 64 => ⟨S1000000, .i32⟩
  | 65 => ⟨S200000, .i32⟩
  | 66 => ⟨S1200000, .i32⟩
  | 67 => ⟨S1200000, .i32⟩
  | 68 => ⟨S_, .f32⟩
  | 69 => ⟨S1200000, .f32⟩
  | 70 => ⟨S_, .f32⟩
  | 71 => ⟨S200000, .f32⟩
  | 72 => ⟨S1200000x1, .i32⟩
  | 73 => ⟨S200000, .f32⟩
  | 74 => ⟨S_, .f32⟩
  | 75 => ⟨S200000, .f32⟩
  | 76 => ⟨S200000, .i1⟩
  | 77 => ⟨S_, .f32⟩
  | 78 => ⟨S200000, .f32⟩
  | 79 => ⟨S200000, .f32⟩
  | 80 => ⟨S200000, .f32⟩
  | 81 => ⟨S_, .f32⟩
  | 82 => ⟨S_, .f32⟩
  | 83 => ⟨S200000, .f32⟩
  | 84 => ⟨S200000, .f32⟩
  | 85 => ⟨S_, .i32⟩
  | 86 => ⟨S1200000, .i32⟩
  | 87 => ⟨S1200000, .i1⟩
  | 88 => ⟨S_, .i32⟩
  | 89 => ⟨S1200000, .i32⟩
  | 90 => ⟨S1200000, .i32⟩
  | 91 => ⟨S1200000, .i32⟩
  | 92 => ⟨S1200000x1, .i32⟩
  | 93 => ⟨S1200000, .f32⟩
  | 94 => ⟨S_, .i32⟩
  | 95 => ⟨S1200000, .i32⟩
  | 96 => ⟨S1200000, .i1⟩
  | 97 => ⟨S_, .i32⟩
  | 98 => ⟨S1200000, .i32⟩
  | 99 => ⟨S1200000, .i32⟩
  | 100 => ⟨S1200000, .i32⟩
  | 101 => ⟨S1200000x1, .i32⟩
  | 102 => ⟨S1200000, .f32⟩
  | 103 => ⟨S1200000, .f32⟩
  | 104 => ⟨S1x1000000, .i32⟩
  | 105 => ⟨S1000000, .i32⟩
  | 106 => ⟨S1x1000000, .i32⟩
  | 107 => ⟨S1000000, .i32⟩
  | 108 => ⟨S_, .f32⟩
  | 109 => ⟨S1000000, .f32⟩
  | 110 => ⟨S_, .f32⟩
  | 111 => ⟨S100000, .f32⟩
  | 112 => ⟨S1000000x1, .i32⟩
  | 113 => ⟨S100000, .f32⟩
  | 114 => ⟨S_, .f32⟩
  | 115 => ⟨S1000000, .f32⟩
  | 116 => ⟨S_, .f32⟩
  | 117 => ⟨S200000, .f32⟩
  | 118 => ⟨S1000000x1, .i32⟩
  | 119 => ⟨S200000, .f32⟩
  | 120 => ⟨S_, .f32⟩
  | 121 => ⟨S100000, .f32⟩
  | 122 => ⟨S100000, .i1⟩
  | 123 => ⟨S_, .f32⟩
  | 124 => ⟨S100000, .f32⟩
  | 125 => ⟨S100000, .f32⟩
  | 126 => ⟨S100000, .f32⟩
  | 127 => ⟨S_, .f32⟩
  | _ => ⟨S100000x32, .f32⟩

abbrev hbmTy0_1 (i : Nat) : BufTy := match i % 128 with
  | 0 => ⟨S_, .f32⟩
  | 1 => ⟨S100000, .f32⟩
  | 2 => ⟨S100000, .f32⟩
  | 3 => ⟨S_, .f32⟩
  | 4 => ⟨S200000, .f32⟩
  | 5 => ⟨S200000, .i1⟩
  | 6 => ⟨S_, .f32⟩
  | 7 => ⟨S200000, .f32⟩
  | 8 => ⟨S200000, .f32⟩
  | 9 => ⟨S200000, .f32⟩
  | 10 => ⟨S_, .f32⟩
  | 11 => ⟨S_, .f32⟩
  | 12 => ⟨S200000, .f32⟩
  | 13 => ⟨S200000, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000, .f32⟩
  | 32 => ⟨S1000000, .f32⟩
  | 33 => ⟨S1x1000000, .i32⟩
  | 34 => ⟨S1000000, .i32⟩
  | 35 => ⟨S1x1000000, .i32⟩
  | 36 => ⟨S1000000, .i32⟩
  | 37 => ⟨S_, .f32⟩
  | 38 => ⟨S1000000, .f32⟩
  | 39 => ⟨S_, .f32⟩
  | 40 => ⟨S200000, .f32⟩
  | 41 => ⟨S1000000x1, .i32⟩
  | 42 => ⟨S200000, .f32⟩
  | 43 => ⟨S_, .f32⟩
  | 44 => ⟨S1000000, .f32⟩
  | 45 => ⟨S_, .f32⟩
  | 46 => ⟨S100000, .f32⟩
  | 47 => ⟨S1000000x1, .i32⟩
  | 48 => ⟨S100000, .f32⟩
  | 49 => ⟨S_, .f32⟩
  | 50 => ⟨S200000, .f32⟩
  | 51 => ⟨S200000, .i1⟩
  | 52 => ⟨S_, .f32⟩
  | 53 => ⟨S200000, .f32⟩
  | 54 => ⟨S200000, .f32⟩
  | 55 => ⟨S200000, .f32⟩
  | 56 => ⟨S_, .f32⟩
  | 57 => ⟨S_, .f32⟩
  | 58 => ⟨S200000, .f32⟩
  | 59 => ⟨S200000, .f32⟩
  | 60 => ⟨S_, .f32⟩
  | 61 => ⟨S100000, .f32⟩
  | 62 => ⟨S100000, .i1⟩
  | 63 => ⟨S_, .f32⟩
  | 64 => ⟨S100000, .f32⟩
  | 65 => ⟨S100000, .f32⟩
  | 66 => ⟨S100000, .f32⟩
  | 67 => ⟨S_, .f32⟩
  | 68 => ⟨S_, .f32⟩
  | 69 => ⟨S100000, .f32⟩
  | 70 => ⟨S100000, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000, .f32⟩
  | 89 => ⟨S1000000, .f32⟩
  | 90 => ⟨S1x1x64x64, .f32⟩
  | 91 => ⟨S64x64, .f32⟩
  | 92 => ⟨S1x1x64x64, .f32⟩
  | 93 => ⟨S64x64, .f32⟩
  | 94 => ⟨S64x128, .f32⟩
  | 95 => ⟨S1x1x64x64, .f32⟩
  | 96 => ⟨S64x64, .f32⟩
  | 97 => ⟨S1x1x64x64, .f32⟩
  | 98 => ⟨S64x64, .f32⟩
  | 99 => ⟨S64x128, .f32⟩
  | 100 => ⟨S100000x128, .f32⟩
  | 101 => ⟨S200000x128, .f32⟩
  | 102 => ⟨S100000x64, .f32⟩
  | 103 => ⟨S100000x64, .f32⟩
  | 104 => ⟨S200000x64, .f32⟩
  | 105 => ⟨S200000x64, .f32⟩
  | 106 => ⟨S_, .i32⟩
  | 107 => ⟨S1100000, .i32⟩
  | 108 => ⟨S1100000, .i1⟩
  | 109 => ⟨S_, .i32⟩
  | 110 => ⟨S1100000, .i32⟩
  | 111 => ⟨S1100000, .i32⟩
  | 112 => ⟨S1100000, .i32⟩
  | 113 => ⟨S1100000x1, .i32⟩
  | 114 => ⟨S1100000x64, .f32⟩
  | 115 => ⟨S1100000x1, .f32⟩
  | 116 => ⟨S1100000x64, .f32⟩
  | 117 => ⟨S1100000x64, .f32⟩
  | 118 => ⟨S_, .f32⟩
  | 119 => ⟨S100000x64, .f32⟩
  | 120 => ⟨S1100000x1, .i32⟩
  | 121 => ⟨S100000x64, .f32⟩
  | 122 => ⟨S_, .i32⟩
  | 123 => ⟨S1200000, .i32⟩
  | 124 => ⟨S1200000, .i1⟩
  | 125 => ⟨S_, .i32⟩
  | 126 => ⟨S1200000, .i32⟩
  | 127 => ⟨S1200000, .i32⟩
  | _ => ⟨S100000x32, .f32⟩

abbrev hbmTy0_2 (i : Nat) : BufTy := match i % 128 with
  | 0 => ⟨S1200000, .i32⟩
  | 1 => ⟨S1200000x1, .i32⟩
  | 2 => ⟨S1200000x64, .f32⟩
  | 3 => ⟨S1200000x1, .f32⟩
  | 4 => ⟨S1200000x64, .f32⟩
  | 5 => ⟨S1200000x64, .f32⟩
  | 6 => ⟨S_, .f32⟩
  | 7 => ⟨S200000x64, .f32⟩
  | 8 => ⟨S1200000x1, .i32⟩
  | 9 => ⟨S200000x64, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x64, .f32⟩
  | 19 => ⟨S1000000x1, .f32⟩
  | 20 => ⟨S1000000x64, .f32⟩
  | 21 => ⟨S1000000x64, .f32⟩
  | 22 => ⟨S_, .f32⟩
  | 23 => ⟨S200000x64, .f32⟩
  | 24 => ⟨S1000000x1, .i32⟩
  | 25 => ⟨S200000x64, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x1, .f32⟩
  | 36 => ⟨S1000000x64, .f32⟩
  | 37 => ⟨S1000000x64, .f32⟩
  | 38 => ⟨S_, .f32⟩
  | 39 => ⟨S100000x64, .f32⟩
  | 40 => ⟨S1000000x1, .i32⟩
  | 41 => ⟨S100000x64, .f32⟩
  | 42 => ⟨S1x1x64, .f32⟩
  | 43 => ⟨S64, .f32⟩
  | 44 => ⟨S1x1x64, .f32⟩
  | 45 => ⟨S64, .f32⟩
  | 46 => ⟨S50000x128, .f32⟩
  | 47 => ⟨S50000x128, .f32⟩
  | 48 => ⟨S1x64, .f32⟩
  | 49 => ⟨S2x64, .f32⟩
  | 50 => ⟨S128, .f32⟩
  | 51 => ⟨S1x64, .f32⟩
  | 52 => ⟨S2x64, .f32⟩
  | 53 => ⟨S128, .f32⟩
  | 54 => ⟨S50000x128, .f32⟩
  | 55 => ⟨S100000x64, .f32⟩
  | 56 => ⟨S1x1x64, .f32⟩
  | 57 => ⟨S64, .f32⟩
  | 58 => ⟨S1x1x64, .f32⟩
  | 59 => ⟨S64, .f32⟩
  | 60 => ⟨S100000x128, .f32⟩
  | 61 => ⟨S100000x128, .f32⟩
  | 62 => ⟨S1x64, .f32⟩
  | 63 => ⟨S2x64, .f32⟩
  | 64 => ⟨S128, .f32⟩
  | 65 => ⟨S1x64, .f32⟩
  | 66 => ⟨S2x64, .f32⟩
  | 67 => ⟨S128, .f32⟩
  | 68 => ⟨S100000x128, .f32⟩
  | 69 => ⟨S200000x64, .f32⟩
  | 70 => ⟨S1x1x64x64, .f32⟩
  | 71 => ⟨S64x64, .f32⟩
  | 72 => ⟨S1x1x64x64, .f32⟩
  | 73 => ⟨S64x64, .f32⟩
  | 74 => ⟨S64x128, .f32⟩
  | 75 => ⟨S1x1x64x64, .f32⟩
  | 76 => ⟨S64x64, .f32⟩
  | 77 => ⟨S1x1x64x64, .f32⟩
  | 78 => ⟨S64x64, .f32⟩
  | 79 => ⟨S64x128, .f32⟩
  | 80 => ⟨S100000x128, .f32⟩
  | 81 => ⟨S200000x128, .f32⟩
  | 82 => ⟨S100000x64, .f32⟩
  | 83 => ⟨S100000x64, .f32⟩
  | 84 => ⟨S200000x64, .f32⟩
  | 85 => ⟨S200000x64, .f32⟩
  | 86 => ⟨S_, .i32⟩
  | 87 => ⟨S1100000, .i32⟩
  | 88 => ⟨S1100000, .i1⟩
  | 89 => ⟨S_, .i32⟩
  | 90 => ⟨S1100000, .i32⟩
  | 91 => ⟨S1100000, .i32⟩
  | 92 => ⟨S1100000, .i32⟩
  | 93 => ⟨S1100000x1, .i32⟩
  | 94 => ⟨S1100000x64, .f32⟩
  | 95 => ⟨S1100000x1, .f32⟩
  | 96 => ⟨S1100000x64, .f32⟩
  | 97 => ⟨S1100000x64, .f32⟩
  | 98 => ⟨S_, .f32⟩
  | 99 => ⟨S100000x64, .f32⟩
  | 100 => ⟨S1100000x1, .i32⟩
  | 101 => ⟨S100000x64, .f32⟩
  | 102 => ⟨S_, .i32⟩
  | 103 => ⟨S1200000, .i32⟩
  | 104 => ⟨S1200000, .i1⟩
  | 105 => ⟨S_, .i32⟩
  | 106 => ⟨S1200000, .i32⟩
  | 107 => ⟨S1200000, .i32⟩
  | 108 => ⟨S1200000, .i32⟩
  | 109 => ⟨S1200000x1, .i32⟩
  | 110 => ⟨S1200000x64, .f32⟩
  | 111 => ⟨S1200000x1, .f32⟩
  | 112 => ⟨S1200000x64, .f32⟩
  | 113 => ⟨S1200000x64, .f32⟩
  | 114 => ⟨S_, .f32⟩
  | 115 => ⟨S200000x64, .f32⟩
  | 116 => ⟨S1200000x1, .i32⟩
  | 117 => ⟨S200000x64, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x64, .f32⟩
  | 127 => ⟨S1000000x1, .f32⟩
  | _ => ⟨S100000x32, .f32⟩

abbrev hbmTy0_3 (i : Nat) : BufTy := match i % 128 with
  | 0 => ⟨S1000000x64, .f32⟩
  | 1 => ⟨S1000000x64, .f32⟩
  | 2 => ⟨S_, .f32⟩
  | 3 => ⟨S200000x64, .f32⟩
  | 4 => ⟨S1000000x1, .i32⟩
  | 5 => ⟨S200000x64, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S1000000x1, .f32⟩
  | 16 => ⟨S1000000x64, .f32⟩
  | 17 => ⟨S1000000x64, .f32⟩
  | 18 => ⟨S_, .f32⟩
  | 19 => ⟨S100000x64, .f32⟩
  | 20 => ⟨S1000000x1, .i32⟩
  | 21 => ⟨S100000x64, .f32⟩
  | 22 => ⟨S1x1x64, .f32⟩
  | 23 => ⟨S64, .f32⟩
  | 24 => ⟨S1x1x64, .f32⟩
  | 25 => ⟨S64, .f32⟩
  | 26 => ⟨S50000x128, .f32⟩
  | 27 => ⟨S50000x128, .f32⟩
  | 28 => ⟨S1x64, .f32⟩
  | 29 => ⟨S2x64, .f32⟩
  | 30 => ⟨S128, .f32⟩
  | 31 => ⟨S1x64, .f32⟩
  | 32 => ⟨S2x64, .f32⟩
  | 33 => ⟨S128, .f32⟩
  | 34 => ⟨S50000x128, .f32⟩
  | 35 => ⟨S100000x64, .f32⟩
  | 36 => ⟨S1x1x64, .f32⟩
  | 37 => ⟨S64, .f32⟩
  | 38 => ⟨S1x1x64, .f32⟩
  | 39 => ⟨S64, .f32⟩
  | 40 => ⟨S100000x128, .f32⟩
  | 41 => ⟨S100000x128, .f32⟩
  | 42 => ⟨S1x64, .f32⟩
  | 43 => ⟨S2x64, .f32⟩
  | 44 => ⟨S128, .f32⟩
  | 45 => ⟨S1x64, .f32⟩
  | 46 => ⟨S2x64, .f32⟩
  | 47 => ⟨S128, .f32⟩
  | 48 => ⟨S100000x128, .f32⟩
  | 49 => ⟨S200000x64, .f32⟩
  | 50 => ⟨S1x1x64x64, .f32⟩
  | 51 => ⟨S64x64, .f32⟩
  | 52 => ⟨S1x1x64x64, .f32⟩
  | 53 => ⟨S64x64, .f32⟩
  | 54 => ⟨S64x128, .f32⟩
  | 55 => ⟨S1x1x64x64, .f32⟩
  | 56 => ⟨S64x64, .f32⟩
  | 57 => ⟨S1x1x64x64, .f32⟩
  | 58 => ⟨S64x64, .f32⟩
  | 59 => ⟨S64x128, .f32⟩
  | 60 => ⟨S100000x128, .f32⟩
  | 61 => ⟨S200000x128, .f32⟩
  | 62 => ⟨S100000x64, .f32⟩
  | 63 => ⟨S100000x64, .f32⟩
  | 64 => ⟨S200000x64, .f32⟩
  | 65 => ⟨S200000x64, .f32⟩
  | 66 => ⟨S_, .i32⟩
  | 67 => ⟨S1100000, .i32⟩
  | 68 => ⟨S1100000, .i1⟩
  | 69 => ⟨S_, .i32⟩
  | 70 => ⟨S1100000, .i32⟩
  | 71 => ⟨S1100000, .i32⟩
  | 72 => ⟨S1100000, .i32⟩
  | 73 => ⟨S1100000x1, .i32⟩
  | 74 => ⟨S1100000x64, .f32⟩
  | 75 => ⟨S1100000x1, .f32⟩
  | 76 => ⟨S1100000x64, .f32⟩
  | 77 => ⟨S1100000x64, .f32⟩
  | 78 => ⟨S_, .f32⟩
  | 79 => ⟨S100000x64, .f32⟩
  | 80 => ⟨S1100000x1, .i32⟩
  | 81 => ⟨S100000x64, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000x64, .f32⟩
  | 91 => ⟨S1200000x1, .f32⟩
  | 92 => ⟨S1200000x64, .f32⟩
  | 93 => ⟨S1200000x64, .f32⟩
  | 94 => ⟨S_, .f32⟩
  | 95 => ⟨S200000x64, .f32⟩
  | 96 => ⟨S1200000x1, .i32⟩
  | 97 => ⟨S200000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x1, .f32⟩
  | 108 => ⟨S1000000x64, .f32⟩
  | 109 => ⟨S1000000x64, .f32⟩
  | 110 => ⟨S_, .f32⟩
  | 111 => ⟨S200000x64, .f32⟩
  | 112 => ⟨S1000000x1, .i32⟩
  | 113 => ⟨S200000x64, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S1000000x1, .f32⟩
  | 124 => ⟨S1000000x64, .f32⟩
  | 125 => ⟨S1000000x64, .f32⟩
  | 126 => ⟨S_, .f32⟩
  | 127 => ⟨S100000x64, .f32⟩
  | _ => ⟨S100000x32, .f32⟩

abbrev hbmTy0_4 (i : Nat) : BufTy := match i % 128 with
  | 0 => ⟨S1000000x1, .i32⟩
  | 1 => ⟨S100000x64, .f32⟩
  | 2 => ⟨S1x1x64, .f32⟩
  | 3 => ⟨S64, .f32⟩
  | 4 => ⟨S1x1x64, .f32⟩
  | 5 => ⟨S64, .f32⟩
  | 6 => ⟨S50000x128, .f32⟩
  | 7 => ⟨S50000x128, .f32⟩
  | 8 => ⟨S1x64, .f32⟩
  | 9 => ⟨S2x64, .f32⟩
  | 10 => ⟨S128, .f32⟩
  | 11 => ⟨S1x64, .f32⟩
  | 12 => ⟨S2x64, .f32⟩
  | 13 => ⟨S128, .f32⟩
  | 14 => ⟨S50000x128, .f32⟩
  | 15 => ⟨S100000x64, .f32⟩
  | 16 => ⟨S1x1x64, .f32⟩
  | 17 => ⟨S64, .f32⟩
  | 18 => ⟨S1x1x64, .f32⟩
  | 19 => ⟨S64, .f32⟩
  | 20 => ⟨S100000x128, .f32⟩
  | 21 => ⟨S100000x128, .f32⟩
  | 22 => ⟨S1x64, .f32⟩
  | 23 => ⟨S2x64, .f32⟩
  | 24 => ⟨S128, .f32⟩
  | 25 => ⟨S1x64, .f32⟩
  | 26 => ⟨S2x64, .f32⟩
  | 27 => ⟨S128, .f32⟩
  | 28 => ⟨S100000x128, .f32⟩
  | 29 => ⟨S200000x64, .f32⟩
  | 30 => ⟨S_, .f32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S_, .f32⟩
  | 38 => ⟨S64, .f32⟩
  | 39 => ⟨S64, .f32⟩
  | 40 => ⟨S1x64, .f32⟩
  | 41 => ⟨S1x64, .f32⟩
  | 42 => ⟨S2x64, .f32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S1x1, .f32⟩
  | 56 => ⟨S1x1, .f32⟩
  | 57 => ⟨S1x1, .f32⟩
  | 58 => ⟨S1x1, .f32⟩
  | 59 => ⟨S1x1, .f32⟩
  | 60 => ⟨S_, .f32⟩
  | 61 => ⟨S1x1, .f32⟩
  | 62 => ⟨S1x1, .f32⟩
  | 63 => ⟨S_, .f32⟩
  | 64 => ⟨S1x1, .f32⟩
  | 65 => ⟨S1x1, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x128, .f32⟩
  | .local _ .vmem, ⟨15, _⟩ => ⟨S5000x128, .f32⟩
  | .local _ .vmem, ⟨16, _⟩ => ⟨S5000x128, .f32⟩
  | .local _ .vmem, ⟨17, _⟩ => ⟨S5000x64, .f32⟩
  | .local _ .vmem, ⟨18, _⟩ => ⟨S5000x64, .f32⟩
  | .local _ .vmem, ⟨19, _⟩ => ⟨S64x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | .local _ .vmem, ⟨38, _⟩ => ⟨S5000x64, .f32⟩
  | .local _ .vmem, ⟨39, _⟩ => ⟨S5000x64, .f32⟩
  | .local _ .vmem, ⟨40, _⟩ => ⟨S64x128, .f32⟩
  | .local _ .vmem, ⟨41, _⟩ => ⟨S5000x128, .f32⟩
  | .local _ .vmem, ⟨42, _⟩ => ⟨S5000x128, .f32⟩
  | .local _ .vmem, ⟨43, _⟩ => ⟨S5000x64, .f32⟩
  | .local _ .vmem, ⟨44, _⟩ => ⟨S5000x64, .f32⟩
  | .local _ .vmem, ⟨45, _⟩ => ⟨S64x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128, .f32⟩
  | .local _ .vmem, ⟨53, _⟩ => ⟨S128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128, .f32⟩
  | .local _ .vmem, ⟨61, _⟩ => ⟨S128, .f32⟩
  | .local _ .vmem, ⟨62, _⟩ => ⟨S5000x128, .f32⟩
  | .local _ .vmem, ⟨63, _⟩ => ⟨S5000x128, .f32⟩
  | .local _ .vmem, ⟨64, _⟩ => ⟨S5000x64, .f32⟩
  | .local _ .vmem, ⟨65, _⟩ => ⟨S5000x64, .f32⟩
  | .local _ .vmem, ⟨66, _⟩ => ⟨S64x128, .f32⟩
  | .local _ .vmem, ⟨67, _⟩ => ⟨S5000x128, .f32⟩
  | .local _ .vmem, ⟨68, _⟩ => ⟨S5000x128, .f32⟩
  | .local _ .vmem, ⟨69, _⟩ => ⟨S5000x64, .f32⟩
  | .local _ .vmem, ⟨70, _⟩ => ⟨S5000x64, .f32⟩
  | .local _ .vmem, ⟨71, _⟩ => ⟨S64x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S128, .f32⟩
  | .local _ .vmem, ⟨79, _⟩ => ⟨S128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S128, .f32⟩
  | .local _ .vmem, ⟨87, _⟩ => ⟨S128, .f32⟩
  | .local _ .vmem, ⟨88, _⟩ => ⟨S5000x128, .f32⟩
  | .local _ .vmem, ⟨89, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_call1_v0 : Ref sig .tc := ⟨.hbm, 82, rfl⟩
abbrev main_call1_v1 : Ref sig .tc := ⟨.hbm, 83, rfl⟩
abbrev main_v50 : Ref sig .tc := ⟨.hbm, 84, rfl⟩
abbrev main_c_12 : Ref sig .tc := ⟨.hbm, 85, rfl⟩
abbrev main_v51 : Ref sig .tc := ⟨.hbm, 86, rfl⟩
abbrev main_v52 : Ref sig .tc := ⟨.hbm, 87, rfl⟩
abbrev main_c_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_14 : Ref sig .tc := ⟨.hbm, 94, rfl⟩
abbrev main_v58 : Ref sig .tc := ⟨.hbm, 95, rfl⟩
abbrev main_v59 : Ref sig .tc := ⟨.hbm, 96, rfl⟩
abbrev main_c_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_16 : Ref sig .tc := ⟨.hbm, 108, rfl⟩
abbrev main_v70 : Ref sig .tc := ⟨.hbm, 109, rfl⟩
abbrev main_cst_17 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_18 : Ref sig .tc := ⟨.hbm, 114, rfl⟩
abbrev main_v74 : Ref sig .tc := ⟨.hbm, 115, rfl⟩
abbrev main_cst_19 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_20 : Ref sig .tc := ⟨.hbm, 120, rfl⟩
abbrev main_v78 : Ref sig .tc := ⟨.hbm, 121, rfl⟩
abbrev main_v79 : Ref sig .tc := ⟨.hbm, 122, rfl⟩
abbrev main_cst_21 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_22 : Ref sig .tc := ⟨.hbm, 127, rfl⟩
abbrev main_call2_v0 : Ref sig .tc := ⟨.hbm, 128, rfl⟩
abbrev main_call2_v1 : Ref sig .tc := ⟨.hbm, 129, rfl⟩
abbrev main_v83 : Ref sig .tc := ⟨.hbm, 130, rfl⟩
abbrev main_cst_23 : Ref sig .tc := ⟨.hbm, 131, rfl⟩
abbrev main_v84 : Ref sig .tc := ⟨.hbm, 132, rfl⟩
abbrev main_v85 : Ref sig .tc := ⟨.hbm, 133, rfl⟩
abbrev main_cst_24 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_25 : Ref sig .tc := ⟨.hbm, 138, rfl⟩
abbrev main_call3_v0 : Ref sig .tc := ⟨.hbm, 139, rfl⟩
abbrev main_call3_v1 : Ref sig .tc := ⟨.hbm, 140, rfl⟩
abbrev main_v89 : Ref sig .tc := ⟨.hbm, 141, rfl⟩
abbrev main_c_26 : Ref sig .tc := ⟨.hbm, 142, rfl⟩
abbrev main_v90 : Ref sig .tc := ⟨.hbm, 143, rfl⟩
abbrev main_v91 : Ref sig .tc := ⟨.hbm, 144, rfl⟩
abbrev main_c_27 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_c_28 : Ref sig .tc := ⟨.hbm, 151, rfl⟩
abbrev main_v97 : Ref sig .tc := ⟨.hbm, 152, rfl⟩
abbrev main_v98 : Ref sig .tc := ⟨.hbm, 153, rfl⟩
abbrev main_c_29 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_30 : Ref sig .tc := ⟨.hbm, 165, rfl⟩
abbrev main_v109 : Ref sig .tc := ⟨.hbm, 166, rfl⟩
abbrev main_cst_31 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_cst_32 : Ref sig .tc := ⟨.hbm, 171, rfl⟩
abbrev main_v113 : Ref sig .tc := ⟨.hbm, 172, rfl⟩
abbrev main_cst_33 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_34 : Ref sig .tc := ⟨.hbm, 177, rfl⟩
abbrev main_v117 : Ref sig .tc := ⟨.hbm, 178, rfl⟩
abbrev main_v118 : Ref sig .tc := ⟨.hbm, 179, rfl⟩
abbrev main_cst_35 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_36 : Ref sig .tc := ⟨.hbm, 184, rfl⟩
abbrev main_call4_v0 : Ref sig .tc := ⟨.hbm, 185, rfl⟩
abbrev main_call4_v1 : Ref sig .tc := ⟨.hbm, 186, rfl⟩
abbrev main_v122 : Ref sig .tc := ⟨.hbm, 187, rfl⟩
abbrev main_cst_37 : Ref sig .tc := ⟨.hbm, 188, rfl⟩
abbrev main_v123 : Ref sig .tc := ⟨.hbm, 189, rfl⟩
abbrev main_v124 : Ref sig .tc := ⟨.hbm, 190, rfl⟩
abbrev main_cst_38 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_39 : Ref sig .tc := ⟨.hbm, 195, rfl⟩
abbrev main_call5_v0 : Ref sig .tc := ⟨.hbm, 196, rfl⟩
abbrev main_call5_v1 : Ref sig .tc := ⟨.hbm, 197, rfl⟩
abbrev main_v128 : Ref sig .tc := ⟨.hbm, 198, rfl⟩
abbrev main_c_40 : Ref sig .tc := ⟨.hbm, 199, rfl⟩
abbrev main_v129 : Ref sig .tc := ⟨.hbm, 200, rfl⟩
abbrev main_v130 : Ref sig .tc := ⟨.hbm, 201, rfl⟩
abbrev main_c_41 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_c_42 : Ref sig .tc := ⟨.hbm, 208, rfl⟩
abbrev main_v136 : Ref sig .tc := ⟨.hbm, 209, rfl⟩
abbrev main_v137 : Ref sig .tc := ⟨.hbm, 210, rfl⟩
abbrev main_c_43 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_c_44 : Ref sig .tc := ⟨.hbm, 234, rfl⟩
abbrev main_v160 : Ref sig .tc := ⟨.hbm, 235, rfl⟩
abbrev main_v161 : Ref sig .tc := ⟨.hbm, 236, rfl⟩
abbrev main_c_45 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_cst_46 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_c_47 : Ref sig .tc := ⟨.hbm, 250, rfl⟩
abbrev main_v173 : Ref sig .tc := ⟨.hbm, 251, rfl⟩
abbrev main_v174 : Ref sig .tc := ⟨.hbm, 252, rfl⟩
abbrev main_c_48 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_cst_49 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_c_50 : Ref sig .tc := ⟨.hbm, 266, rfl⟩
abbrev main_v186 : Ref sig .tc := ⟨.hbm, 267, rfl⟩
abbrev main_v187 : Ref sig .tc := ⟨.hbm, 268, rfl⟩
abbrev main_c_51 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_cst_52 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_c_53 : Ref sig .tc := ⟨.hbm, 282, rfl⟩
abbrev main_v199 : Ref sig .tc := ⟨.hbm, 283, rfl⟩
abbrev main_v200 : Ref sig .tc := ⟨.hbm, 284, rfl⟩
abbrev main_c_54 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_cst_55 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_c_56 : Ref sig .tc := ⟨.hbm, 342, rfl⟩
abbrev main_v256 : Ref sig .tc := ⟨.hbm, 343, rfl⟩
abbrev main_v257 : Ref sig .tc := ⟨.hbm, 344, rfl⟩
abbrev main_c_57 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_cst_58 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_c_59 : Ref sig .tc := ⟨.hbm, 358, rfl⟩
abbrev main_v269 : Ref sig .tc := ⟨.hbm, 359, rfl⟩
abbrev main_v270 : Ref sig .tc := ⟨.hbm, 360, rfl⟩
abbrev main_c_60 : Ref sig .tc := ⟨.hbm, 361, rfl⟩
abbrev main_v271 : Ref sig .tc := ⟨.hbm, 362, rfl⟩
abbrev main_v272 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_cst_61 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_c_62 : Ref sig .tc := ⟨.hbm, 374, rfl⟩
abbrev main_v282 : Ref sig .tc := ⟨.hbm, 375, rfl⟩
abbrev main_v283 : Ref sig .tc := ⟨.hbm, 376, rfl⟩
abbrev main_c_63 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_cst_64 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_c_65 : Ref sig .tc := ⟨.hbm, 390, rfl⟩
abbrev main_v295 : Ref sig .tc := ⟨.hbm, 391, rfl⟩
abbrev main_v296 : Ref sig .tc := ⟨.hbm, 392, rfl⟩
abbrev main_c_66 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_cst_67 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩
abbrev main_v317 : Ref sig .tc := ⟨.hbm, 415, rfl⟩
abbrev main_v318 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_c_68 : Ref sig .tc := ⟨.hbm, 450, rfl⟩
abbrev main_v352 : Ref sig .tc := ⟨.hbm, 451, rfl⟩
abbrev main_v353 : Ref sig .tc := ⟨.hbm, 452, rfl⟩
abbrev main_c_69 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_cst_70 : Ref sig .tc := ⟨.hbm, 462, rfl⟩
abbrev main_v362 : Ref sig .tc := ⟨.hbm, 463, rfl⟩
abbrev main_v363 : Ref sig .tc := ⟨.hbm, 464, rfl⟩
abbrev main_v364 : Ref sig .tc := ⟨.hbm, 465, rfl⟩
abbrev main_c_71 : Ref sig .tc := ⟨.hbm, 466, rfl⟩
abbrev main_v365 : Ref sig .tc := ⟨.hbm, 467, rfl⟩
abbrev main_v366 : Ref sig .tc := ⟨.hbm, 468, rfl⟩
abbrev main_c_72 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_v373 : Ref sig .tc := ⟨.hbm, 476, rfl⟩
abbrev main_v374 : Ref sig .tc := ⟨.hbm, 477, rfl⟩
abbrev main_cst_73 : Ref sig .tc := ⟨.hbm, 478, rfl⟩
abbrev main_v375 : Ref sig .tc := ⟨.hbm, 479, rfl⟩
abbrev main_v376 : Ref sig .tc := ⟨.hbm, 480, rfl⟩
abbrev main_v377 : Ref sig .tc := ⟨.hbm, 481, rfl⟩
abbrev main_c_74 : Ref sig .tc := ⟨.hbm, 482, rfl⟩
abbrev main_v378 : Ref sig .tc := ⟨.hbm, 483, rfl⟩
abbrev main_v379 : Ref sig .tc := ⟨.hbm, 484, rfl⟩
abbrev main_c_75 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_v386 : Ref sig .tc := ⟨.hbm, 492, rfl⟩
abbrev main_v387 : Ref sig .tc := ⟨.hbm, 493, rfl⟩
abbrev main_cst_76 : Ref sig .tc := ⟨.hbm, 494, rfl⟩
abbrev main_v388 : Ref sig .tc := ⟨.hbm, 495, rfl⟩
abbrev main_v389 : Ref sig .tc := ⟨.hbm, 496, rfl⟩
abbrev main_v390 : Ref sig .tc := ⟨.hbm, 497, rfl⟩
abbrev main_c_77 : Ref sig .tc := ⟨.hbm, 498, rfl⟩
abbrev main_v391 : Ref sig .tc := ⟨.hbm, 499, rfl⟩
abbrev main_v392 : Ref sig .tc := ⟨.hbm, 500, rfl⟩
abbrev main_c_78 : Ref sig .tc := ⟨.hbm, 501, rfl⟩
abbrev main_v393 : Ref sig .tc := ⟨.hbm, 502, rfl⟩
abbrev main_v394 : Ref sig .tc := ⟨.hbm, 503, rfl⟩
abbrev main_v395 : Ref sig .tc := ⟨.hbm, 504, rfl⟩
abbrev main_v396 : Ref sig .tc := ⟨.hbm, 505, rfl⟩
abbrev main_v397 : Ref sig .tc := ⟨.hbm, 506, rfl⟩
abbrev main_v398 : Ref sig .tc := ⟨.hbm, 507, rfl⟩
abbrev main_v399 : Ref sig .tc := ⟨.hbm, 508, rfl⟩
abbrev main_v400 : Ref sig .tc := ⟨.hbm, 509, rfl⟩
abbrev main_cst_79 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_v405 : Ref sig .tc := ⟨.hbm, 515, rfl⟩
abbrev main_v406 : Ref sig .tc := ⟨.hbm, 516, rfl⟩
abbrev main_v407 : Ref sig .tc := ⟨.hbm, 517, rfl⟩
abbrev main_v408 : Ref sig .tc := ⟨.hbm, 518, rfl⟩
abbrev main_v409 : Ref sig .tc := ⟨.hbm, 519, rfl⟩
abbrev main_v410 : Ref sig .tc := ⟨.hbm, 520, rfl⟩
abbrev main_v411 : Ref sig .tc := ⟨.hbm, 521, rfl⟩
abbrev main_v412 : Ref sig .tc := ⟨.hbm, 522, rfl⟩
abbrev main_v413 : Ref sig .tc := ⟨.hbm, 523, rfl⟩
abbrev main_v414 : Ref sig .tc := ⟨.hbm, 524, rfl⟩
abbrev main_v415 : Ref sig .tc := ⟨.hbm, 525, rfl⟩
abbrev main_v416 : Ref sig .tc := ⟨.hbm, 526, rfl⟩
abbrev main_v417 : Ref sig .tc := ⟨.hbm, 527, rfl⟩
abbrev main_v418 : Ref sig .tc := ⟨.hbm, 528, rfl⟩
abbrev main_v419 : Ref sig .tc := ⟨.hbm, 529, rfl⟩
abbrev main_v420 : Ref sig .tc := ⟨.hbm, 530, rfl⟩
abbrev main_v421 : Ref sig .tc := ⟨.hbm, 531, rfl⟩
abbrev main_v422 : Ref sig .tc := ⟨.hbm, 532, rfl⟩
abbrev main_v423 : Ref sig .tc := ⟨.hbm, 533, rfl⟩
abbrev main_v424 : Ref sig .tc := ⟨.hbm, 534, rfl⟩
abbrev main_v425 : Ref sig .tc := ⟨.hbm, 535, rfl⟩
abbrev main_v426 : Ref sig .tc := ⟨.hbm, 536, rfl⟩
abbrev main_v427 : Ref sig .tc := ⟨.hbm, 537, rfl⟩
abbrev main_v428 : Ref sig .tc := ⟨.hbm, 538, rfl⟩
abbrev main_v429 : Ref sig .tc := ⟨.hbm, 539, rfl⟩
abbrev main_v430 : Ref sig .tc := ⟨.hbm, 540, rfl⟩
abbrev main_v431 : Ref sig .tc := ⟨.hbm, 541, rfl⟩
abbrev main_cst_80 : Ref sig .tc := ⟨.hbm, 542, rfl⟩
abbrev main_v432 : Ref sig .tc := ⟨.hbm, 543, rfl⟩
abbrev main_cst_81 : Ref sig .tc := ⟨.hbm, 544, rfl⟩
abbrev main_v433 : Ref sig .tc := ⟨.hbm, 545, rfl⟩
abbrev main_v434 : Ref sig .tc := ⟨.hbm, 546, rfl⟩
abbrev main_cst_82 : Ref sig .tc := ⟨.hbm, 547, rfl⟩
abbrev main_v435 : Ref sig .tc := ⟨.hbm, 548, rfl⟩
abbrev main_cst_83 : Ref sig .tc := ⟨.hbm, 549, rfl⟩
abbrev main_v436 : Ref sig .tc := ⟨.hbm, 550, rfl⟩
abbrev main_v437 : Ref sig .tc := ⟨.hbm, 551, rfl⟩
abbrev main_v438 : Ref sig .tc := ⟨.hbm, 552, rfl⟩
abbrev main_v439 : Ref sig .tc := ⟨.hbm, 553, rfl⟩
abbrev main_v440 : Ref sig .tc := ⟨.hbm, 554, rfl⟩
abbrev main_cst_84 : Ref sig .tc := ⟨.hbm, 555, rfl⟩
abbrev main_v441 : Ref sig .tc := ⟨.hbm, 556, rfl⟩
abbrev main_v442 : Ref sig .tc := ⟨.hbm, 557, rfl⟩
abbrev main_cst_85 : Ref sig .tc := ⟨.hbm, 558, rfl⟩
abbrev main_v443 : Ref sig .tc := ⟨.hbm, 559, rfl⟩
abbrev main_v444 : Ref sig .tc := ⟨.hbm, 560, rfl⟩
abbrev main_v445 : Ref sig .tc := ⟨.hbm, 561, rfl⟩
abbrev main_v446 : Ref sig .tc := ⟨.hbm, 562, rfl⟩
abbrev main_v447 : Ref sig .tc := ⟨.hbm, 563, rfl⟩
abbrev main_call6_cst : Ref sig .tc := ⟨.hbm, 564, rfl⟩
abbrev main_call6_v0 : Ref sig .tc := ⟨.hbm, 565, rfl⟩
abbrev main_v448 : Ref sig .tc := ⟨.hbm, 566, rfl⟩
abbrev main_v449 : Ref sig .tc := ⟨.hbm, 567, rfl⟩
abbrev main_v450 : Ref sig .tc := ⟨.hbm, 568, rfl⟩
abbrev main_v451 : Ref sig .tc := ⟨.hbm, 569, rfl⟩
abbrev main_v452 : Ref sig .tc := ⟨.hbm, 570, rfl⟩
abbrev main_v453 : Ref sig .tc := ⟨.hbm, 571, rfl⟩
abbrev main_cst_86 : Ref sig .tc := ⟨.hbm, 572, rfl⟩
abbrev main_v454 : Ref sig .tc := ⟨.hbm, 573, rfl⟩
abbrev main_v455 : Ref sig .tc := ⟨.hbm, 574, rfl⟩
abbrev main_cst_87 : Ref sig .tc := ⟨.hbm, 575, rfl⟩
abbrev main_v456 : Ref sig .tc := ⟨.hbm, 576, rfl⟩
abbrev main_v457 : Ref sig .tc := ⟨.hbm, 577, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg4_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg3_0 : Ref sig .tc := ⟨.vmem, 61, rfl⟩
abbrev cc9_stg4_0 : Ref sig .tc := ⟨.vmem, 62, rfl⟩
abbrev cc9_stg4_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg2_0 : Ref sig .tc := ⟨.vmem, 67, rfl⟩
abbrev cc10_stg2_1 : Ref sig .tc := ⟨.vmem, 68, rfl⟩
abbrev cc11_stg0_0 : Ref sig .tc := ⟨.vmem, 69, rfl⟩
abbrev cc11_stg0_1 : Ref sig .tc := ⟨.vmem, 70, rfl⟩
abbrev cc11_stg1_0 : Ref sig .tc := ⟨.vmem, 71, rfl⟩
abbrev cc11_stg2_0 : Ref sig .tc := ⟨.vmem, 72, rfl⟩
abbrev cc11_stg2_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc12_stg2_0 : Ref sig .tc := ⟨.vmem, 78, rfl⟩
abbrev cc12_stg3_0 : Ref sig .tc := ⟨.vmem, 79, rfl⟩
abbrev cc12_stg4_0 : Ref sig .tc := ⟨.vmem, 80, rfl⟩
abbrev cc12_stg4_1 : Ref sig .tc := ⟨.vmem, 81, rfl⟩
abbrev cc13_stg0_0 : Ref sig .tc := ⟨.vmem, 82, rfl⟩
abbrev cc13_stg0_1 : Ref sig .tc := ⟨.vmem, 83, rfl⟩
abbrev cc13_stg1_0 : Ref sig .tc := ⟨.vmem, 84, rfl⟩
abbrev cc13_stg1_1 : Ref sig .tc := ⟨.vmem, 85, rfl⟩
abbrev cc13_stg2_0 : Ref sig .tc := ⟨.vmem, 86, rfl⟩
abbrev cc13_stg3_0 : Ref sig .tc := ⟨.vmem, 87, rfl⟩
abbrev cc13_stg4_0 : Ref sig .tc := ⟨.vmem, 88, rfl⟩
abbrev cc13_stg4_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem3_0 : DmaSem sig := 27
abbrev cc4_sem4_0 : DmaSem sig := 28
abbrev cc4_sem4_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem4_0 : DmaSem sig := 36
abbrev cc5_sem4_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem3_0 : DmaSem sig := 53
abbrev cc8_sem4_0 : DmaSem sig := 54
abbrev cc8_sem4_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem3_0 : DmaSem sig := 61
abbrev cc9_sem4_0 : DmaSem sig := 62
abbrev cc9_sem4_1 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem2_1 : DmaSem sig := 68
abbrev cc11_sem0_0 : DmaSem sig := 69
abbrev cc11_sem0_1 : DmaSem sig := 70
abbrev cc11_sem1_0 : DmaSem sig := 71
abbrev cc11_sem2_0 : DmaSem sig := 72
abbrev cc11_sem2_1 : DmaSem sig := 73
abbrev cc12_sem0_0 : DmaSem sig := 74
abbrev cc12_sem0_1 : DmaSem sig := 75
abbrev cc12_sem1_0 : DmaSem sig := 76
abbrev cc12_sem1_1 : DmaSem sig := 77
abbrev cc12_sem2_0 : DmaSem sig := 78
abbrev cc12_sem3_0 : DmaSem sig := 79
abbrev cc12_sem4_0 : DmaSem sig := 80
abbrev cc12_sem4_1 : DmaSem sig := 81
abbrev cc13_sem0_0 : DmaSem sig := 82
abbrev cc13_sem0_1 : DmaSem sig := 83
abbrev cc13_sem1_0 : DmaSem sig := 84
abbrev cc13_sem1_1 : DmaSem sig := 85
abbrev cc13_sem2_0 : DmaSem sig := 86
abbrev cc13_sem3_0 : DmaSem sig := 87
abbrev cc13_sem4_0 : DmaSem sig := 88
abbrev cc13_sem4_1 : DmaSem sig := 89

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_3 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

class Facts₀ : Prop where
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  concatenates_S1000000_S200000_S1200000_d0 : Shape.Concatenates [S1000000, S200000] S1200000 0
  bcast_S_S1200000 : S_.BroadcastsInDim S1200000 (![] : Fin 0 → Fin S1200000.rank)
  bcast_S_S200000 : S_.BroadcastsInDim S200000 (![] : Fin 0 → Fin S200000.rank)
  bcast_S1200000_S1200000x1_0 : S1200000.BroadcastsInDim S1200000x1 (![0] : Fin 1 → Fin S1200000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S3x4x64x64_S1x1x64x64_0_0_0_0 : S3x4x64x64.Slices ![0, 0, 0, 0] S1x1x64x64
  shapeCasts_S1x1x64x64_S64x64 : S1x1x64x64.ShapeCasts S64x64
  slices_S3x4x64x64_S1x1x64x64_0_2_0_0 : S3x4x64x64.Slices ![0, 2, 0, 0] S1x1x64x64
  concatenates_S64x64_S64x64_S64x128_d1 : Shape.Concatenates [S64x64, S64x64] S64x128 1
  slices_S3x4x64x64_S1x1x64x64_0_1_0_0 : S3x4x64x64.Slices ![0, 1, 0, 0] S1x1x64x64
  slices_S3x4x64x64_S1x1x64x64_0_3_0_0 : S3x4x64x64.Slices ![0, 3, 0, 0] S1x1x64x64
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  slices_S100000x128_S100000x64_0_0 : S100000x128.Slices ![0, 0] S100000x64
  slices_S100000x128_S100000x64_0_64 : S100000x128.Slices ![0, 64] S100000x64
  slices_S200000x128_S200000x64_0_0 : S200000x128.Slices ![0, 0] S200000x64
  slices_S200000x128_S200000x64_0_64 : S200000x128.Slices ![0, 64] S200000x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  bcast_S1000000x1_S1000000x64_0_1 : S1000000x1.BroadcastsInDim S1000000x64 (![0, 1] : Fin 2 → Fin S1000000x64.rank)
  slices_S3x4x64_S1x1x64_0_0_0 : S3x4x64.Slices ![0, 0, 0] S1x1x64
  shapeCasts_S1x1x64_S64 : S1x1x64.ShapeCasts S64
  slices_S3x4x64_S1x1x64_0_3_0 : S3x4x64.Slices ![0, 3, 0] S1x1x64
  shapeCasts_S100000x64_S50000x128 : S100000x64.ShapeCasts S50000x128
  bcast_S1x64_S2x64_0_1 : S1x64.BroadcastsInDim S2x64 (![0, 1] : Fin 2 → Fin S2x64.rank)
  shapeCasts_S2x64_S128 : S2x64.ShapeCasts S128
  shapeCasts_S5000x128_S5000x128 : S5000x128.ShapeCasts S5000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  shapeCasts_S50000x128_S100000x64 : S50000x128.ShapeCasts S100000x64
  slices_S3x4x64_S1x1x64_0_1_0 : S3x4x64.Slices ![0, 1, 0] S1x1x64
  slices_S3x4x64_S1x1x64_0_2_0 : S3x4x64.Slices ![0, 2, 0] S1x1x64
  shapeCasts_S200000x64_S100000x128 : S200000x64.ShapeCasts S100000x128
  shapeCasts_S100000x128_S200000x64 : S100000x128.ShapeCasts S200000x64
  slices_S3x4x64x64_S1x1x64x64_1_0_0_0 : S3x4x64x64.Slices ![1, 0, 0, 0] S1x1x64x64
  slices_S3x4x64x64_S1x1x64x64_1_2_0_0 : S3x4x64x64.Slices ![1, 2, 0, 0] S1x1x64x64
  slices_S3x4x64x64_S1x1x64x64_1_1_0_0 : S3x4x64x64.Slices ![1, 1, 0, 0] S1x1x64x64
  slices_S3x4x64x64_S1x1x64x64_1_3_0_0 : S3x4x64x64.Slices ![1, 3, 0, 0] S1x1x64x64
  slices_S3x4x64_S1x1x64_1_0_0 : S3x4x64.Slices ![1, 0, 0] S1x1x64
  slices_S3x4x64_S1x1x64_1_3_0 : S3x4x64.Slices ![1, 3, 0] S1x1x64
  slices_S3x4x64_S1x1x64_1_1_0 : S3x4x64.Slices ![1, 1, 0] S1x1x64
  slices_S3x4x64_S1x1x64_1_2_0 : S3x4x64.Slices ![1, 2, 0] S1x1x64
  slices_S3x4x64x64_S1x1x64x64_2_0_0_0 : S3x4x64x64.Slices ![2, 0, 0, 0] S1x1x64x64
  slices_S3x4x64x64_S1x1x64x64_2_2_0_0 : S3x4x64x64.Slices ![2, 2, 0, 0] S1x1x64x64
  slices_S3x4x64x64_S1x1x64x64_2_1_0_0 : S3x4x64x64.Slices ![2, 1, 0, 0] S1x1x64x64
  slices_S3x4x64x64_S1x1x64x64_2_3_0_0 : S3x4x64x64.Slices ![2, 3, 0, 0] S1x1x64x64
  slices_S3x4x64_S1x1x64_2_0_0 : S3x4x64.Slices ![2, 0, 0] S1x1x64
  slices_S3x4x64_S1x1x64_2_3_0 : S3x4x64.Slices ![2, 3, 0] S1x1x64
  slices_S3x4x64_S1x1x64_2_1_0 : S3x4x64.Slices ![2, 1, 0] S1x1x64
  slices_S3x4x64_S1x1x64_2_2_0 : S3x4x64.Slices ![2, 2, 0] S1x1x64
  reducesTo_S100000x64_S64_d0 : S100000x64.ReducesTo [0] S64
  h_S_ : 0 < S_.numel
  bcast_S_S64 : S_.BroadcastsInDim S64 (![] : Fin 0 → Fin S64.rank)
  reducesTo_S200000x64_S64_d0 : S200000x64.ReducesTo [0] S64
  bcast_S64_S1x64_1 : S64.BroadcastsInDim S1x64 (![1] : Fin 1 → Fin S1x64.rank)
  concatenates_S1x64_S1x64_S2x64_d0 : Shape.Concatenates [S1x64, S1x64] S2x64 0
  reducesTo_S2x64_S64_d0 : S2x64.ReducesTo [0] S64
  bcast_S_S1x64 : S_.BroadcastsInDim S1x64 (![] : Fin 0 → Fin S1x64.rank)
  bcast_S1_S1x1_1 : S1.BroadcastsInDim S1x1 (![1] : Fin 1 → Fin S1x1.rank)
  bcast_S_S1x1 : S_.BroadcastsInDim S1x1 (![] : Fin 0 → Fin S1x1.rank)
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  scatter_S200000_S1200000x1_S1200000_n_0_0_1_wf : ScatterDims.WF S200000 S1200000x1 S1200000 [] [0] [0] 1
  gather_S200000_S1200000x1_S1200000_n_0_n_n_0_1_1_wf : GatherDims.WF S200000 S1200000x1 S1200000 [] [0] [] [0] [] 1 ![1]
  scatter_S100000_S1000000x1_S1000000_n_0_0_1_wf : ScatterDims.WF S100000 S1000000x1 S1000000 [] [0] [0] 1
  scatter_S200000_S1000000x1_S1000000_n_0_0_1_wf : ScatterDims.WF S200000 S1000000x1 S1000000 [] [0] [0] 1
  gather_S100000_S1000000x1_S1000000_n_0_n_n_0_1_1_wf : GatherDims.WF S100000 S1000000x1 S1000000 [] [0] [] [0] [] 1 ![1]
  gather_S200000_S1000000x1_S1000000_n_0_n_n_0_1_1_wf : GatherDims.WF S200000 S1000000x1 S1000000 [] [0] [] [0] [] 1 ![1]
  dot_S5000x64_S64x128_S5000x128_1_0_0_1_n_n_wf : DotDims.WF S5000x64 S64x128 S5000x128 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S200000x64.size a
  hwx1_3 : ∀ i : grid1.Coords, EltTy.bits .f32 = 32 ∨ (Rect.block (s := S200000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S200000x128.size a
  hwx3_2 : ∀ i : grid3.Coords, EltTy.bits .f32 = 32 ∨ (Rect.block (s := S200000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S200000x64.size a
  hwx7_0 : ∀ i : grid7.Coords, EltTy.bits .f32 = 32 ∨ (Rect.block (s := S200000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S200000x128.size a
  hwx7_2 : ∀ i : grid7.Coords, EltTy.bits .f32 = 32 ∨ (Rect.block (s := S200000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S100000x128.size a
  hwx9_4 : ∀ i : grid9.Coords, EltTy.bits .f32 = 32 ∨ (Rect.block (s := S100000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x128.size a ≤ S64x128.size a
  hwx10_1 : ∀ i : grid10.Coords, EltTy.bits .f32 = 32 ∨ (Rect.block (s := S64x128) S64x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S100000x128.size a
  hwx10_2 : ∀ i : grid10.Coords, EltTy.bits .f32 = 32 ∨ (Rect.block (s := S100000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S200000x64.size a
  hwx11_0 : ∀ i : grid11.Coords, EltTy.bits .f32 = 32 ∨ (Rect.block (s := S200000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x128.size a ≤ S64x128.size a
  hwx11_1 : ∀ i : grid11.Coords, EltTy.bits .f32 = 32 ∨ (Rect.block (s := S64x128) S64x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S200000x128.size a
  hwx11_2 : ∀ i : grid11.Coords, EltTy.bits .f32 = 32 ∨ (Rect.block (s := S200000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .f32 = 32 ∨ (Rect.block (s := S50000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128.size a ≤ S128.size a
  hwx12_2 : ∀ i : grid12.Coords, EltTy.bits .f32 = 32 ∨ (Rect.block (s := S128) S128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128.size a ≤ S128.size a
  hwx12_3 : ∀ i : grid12.Coords, EltTy.bits .f32 = 32 ∨ (Rect.block (s := S128) S128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S50000x128.size a
  hwx12_4 : ∀ i : grid12.Coords, EltTy.bits .f32 = 32 ∨ (Rect.block (s := S50000x128) S5000x128.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S100000x128.size a
  hwx13_1 : ∀ i : grid13.Coords, EltTy.bits .f32 = 32 ∨ (Rect.block (s := S100000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128.size a ≤ S128.size a
  hwx13_2 : ∀ i : grid13.Coords, EltTy.bits .f32 = 32 ∨ (Rect.block (s := S128) S128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128.size a ≤ S128.size a
  hwx13_3 : ∀ i : grid13.Coords, EltTy.bits .f32 = 32 ∨ (Rect.block (s := S128) S128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S100000x128.size a
  hwx13_4 : ∀ i : grid13.Coords, EltTy.bits .f32 = 32 ∨ (Rect.block (s := S100000x128) S5000x128.size (cc13_transform_4 i) (hinb13_4 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v148) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v154) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v153) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v155) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v216) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v217) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v220) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v223) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v224) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v230) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v231) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v234) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v237) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v238) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v225) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v244) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v250) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v239) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v249) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v251) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v312) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v313) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v316) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v319) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v320) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v326) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v327) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v330) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v333) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v334) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v321) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v340) S64x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v346) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v335) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v345) S64x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v347) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v408) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v409) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v412) S128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v415) S128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v416) S5000x128.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v422) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v423) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v426) S128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v429) S128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v430) S5000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

class Facts : Prop extends Facts₀ where

variable [Facts]
-- ==== ReferenceIdeal.lean ====
abbrev S100000x32 : Shape := ⟨2, ![100000, 32]⟩
abbrev S200000x64 : Shape := ⟨2, ![200000, 64]⟩
abbrev S2x1000000 : Shape := ⟨2, ![2, 1000000]⟩
abbrev S32x64 : Shape := ⟨2, ![32, 64]⟩
abbrev S64 : Shape := ⟨1, ![64]⟩
abbrev S64x64 : Shape := ⟨2, ![64, 64]⟩
abbrev S3x4x64x64 : Shape := ⟨4, ![3, 4, 64, 64]⟩
abbrev S3x4x64 : Shape := ⟨3, ![3, 4, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S1x1x64x64 : Shape := ⟨4, ![1, 1, 64, 64]⟩
abbrev S1x1x64 : Shape := ⟨3, ![1, 1, 64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S200000 : Shape := ⟨1, ![200000]⟩
abbrev S1200000 : Shape := ⟨1, ![1200000]⟩
abbrev S1200000x1 : Shape := ⟨2, ![1200000, 1]⟩
abbrev S1200000x64 : Shape := ⟨2, ![1200000, 64]⟩
abbrev S1000000x1 : Shape := ⟨2, ![1000000, 1]⟩
abbrev S1000000x64 : Shape := ⟨2, ![1000000, 64]⟩
abbrev S2x64 : Shape := ⟨2, ![2, 64]⟩
abbrev S1x1 : Shape := ⟨2, ![1, 1]⟩

abbrev nBuf : Space → Nat
  | .hbm => 990
  | .vmem => 0
  | .smem => 0
  | _ => 0

abbrev hbmTy0_0 (i : Nat) : BufTy := match i % 128 with
  | 0 => ⟨S100000x32, .f32⟩
  | 1 => ⟨S200000x64, .f32⟩
  | 2 => ⟨S2x1000000, .i32⟩
  | 3 => ⟨S2x1000000, .i32⟩
  | 4 => ⟨S2x1000000, .i32⟩
  | 5 => ⟨S2x1000000, .i32⟩
  | 6 => ⟨S32x64, .f32⟩
  | 7 => ⟨S64, .f32⟩
  | 8 => ⟨S64x64, .f32⟩
  | 9 => ⟨S64, .f32⟩
  | 10 => ⟨S3x4x64x64, .f32⟩
  | 11 => ⟨S3x4x64, .f32⟩
  | 12 => ⟨S64x64, .f32⟩
  | 13 => ⟨S64, .f32⟩
  | 14 => ⟨S64x1, .f32⟩
  | 15 => ⟨S1, .f32⟩
  | 16 => ⟨S100000x64, .f32⟩
  | 17 => ⟨S1x64, .f32⟩
  | 18 => ⟨S100000x64, .f32⟩
  | 19 => ⟨S100000x64, .f32⟩
  | 20 => ⟨S200000x64, .f32⟩
  | 21 => ⟨S1x64, .f32⟩
  | 22 => ⟨S200000x64, .f32⟩
  | 23 => ⟨S200000x64, .f32⟩
  | 24 => ⟨S1x1x64x64, .f32⟩
  | 25 => ⟨S64x64, .f32⟩
  | 26 => ⟨S1x1x64, .f32⟩
  | 27 => ⟨S64, .f32⟩
  | 28 => ⟨S1x1000000, .i32⟩
  | 29 => ⟨S1000000, .i32⟩
  | 30 => ⟨S1x1000000, .i32⟩
  | 31 => ⟨S1000000, .i32⟩
  | 32 => ⟨S100000, .i32⟩
  | 33 => ⟨S1100000, .i32⟩
  | 34 => ⟨S1100000, .i32⟩
  | 35 => ⟨S_, .f32⟩
  | 36 => ⟨S1100000, .f32⟩
  | 37 => ⟨S_, .f32⟩
  | 38 => ⟨S100000, .f32⟩
  | 39 => ⟨S1100000x1, .i32⟩
  | 40 => ⟨S100000, .f32⟩
  | 41 => ⟨S_, .f32⟩
  | 42 => ⟨S100000, .f32⟩
  | 43 => ⟨S100000, .i1⟩
  | 44 => ⟨S_, .f32⟩
  | 45 => ⟨S100000, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S1100000, .i32⟩
  | 54 => ⟨S1100000, .i1⟩
  | 55 => ⟨S_, .i32⟩
  | 56 => ⟨S1100000, .i32⟩
  | 57 => ⟨S1100000, .i32⟩
  | 58 => ⟨S1100000, .i32⟩
  | 59 => ⟨S1100000x1, .i32⟩
  | 60 => ⟨S1100000, .f32⟩
  | 61 => ⟨S_, .i32⟩
  | 62 => ⟨S1100000, .i32⟩
  | 63 => ⟨S1100000, .i1⟩
  | 64 => ⟨S_, .i32⟩
  | 65 => ⟨S1100000, .i32⟩
  | 66 => ⟨S1100000, .i32⟩
  | 67 => ⟨S1100000, .i32⟩
  | 68 => ⟨S1100000x1, .i32⟩
  | 69 => ⟨S1100000, .f32⟩
  | 70 => ⟨S1100000, .f32⟩
  | 71 => ⟨S100000x64, .f32⟩
  | 72 => ⟨S_, .i32⟩
  | 73 => ⟨S1100000, .i32⟩
  | 74 => ⟨S1100000, .i1⟩
  | 75 => ⟨S_, .i32⟩
  | 76 => ⟨S1100000, .i32⟩
  | 77 => ⟨S1100000, .i32⟩
  | 78 => ⟨S1100000, .i32⟩
  | 79 => ⟨S1100000x1, .i32⟩
  | 80 => ⟨S1100000x64, .f32⟩
  | 81 => ⟨S1100000x1, .f32⟩
  | 82 => ⟨S1100000x64, .f32⟩
  | 83 => ⟨S1100000x64, .f32⟩
  | 84 => ⟨S_, .f32⟩
  | 85 => ⟨S100000x64, .f32⟩
  | 86 => ⟨S1100000x1, .i32⟩
  | 87 => ⟨S100000x64, .f32⟩
  | 88 => ⟨S1x64, .f32⟩
  | 89 => ⟨S100000x64, .f32⟩
  | 90 => ⟨S100000x64, .f32⟩
  | 91 => ⟨S1x1x64x64, .f32⟩
  | 92 => ⟨S64x64, .f32⟩
  | 93 => ⟨S1x1x64, .f32⟩
  | 94 => ⟨S64, .f32⟩
  | 95 => ⟨S1x1000000, .i32⟩
  | 96 => ⟨S1000000, .i32⟩
  | 97 => ⟨S1x1000000, .i32⟩
  | 98 => ⟨S1000000, .i32⟩
  | 99 => ⟨S200000, .i32⟩
  | 100 => ⟨S1200000, .i32⟩
  | 101 => ⟨S1200000, .i32⟩
  | 102 => ⟨S_, .f32⟩
  | 103 => ⟨S1200000, .f32⟩
  | 104 => ⟨S_, .f32⟩
  | 105 => ⟨S200000, .f32⟩
  | 106 => ⟨S1200000x1, .i32⟩
  | 107 => ⟨S200000, .f32⟩
  | 108 => ⟨S_, .f32⟩
  | 109 => ⟨S200000, .f32⟩
  | 110 => ⟨S200000, .i1⟩
  | 111 => ⟨S_, .f32⟩
  | 112 => ⟨S200000, .f32⟩
  | 113 => ⟨S200000, .f32⟩
  | 114 => ⟨S200000, .f32⟩
  | 115 => ⟨S_, .f32⟩
  | 116 => ⟨S_, .f32⟩
  | 117 => ⟨S200000, .f32⟩
  | 118 => ⟨S200000, .f32⟩
  | 119 => ⟨S_, .i32⟩
  | 120 => ⟨S1200000, .i32⟩
  | 121 => ⟨S1200000, .i1⟩
  | 122 => ⟨S_, .i32⟩
  | 123 => ⟨S1200000, .i32⟩
  | 124 => ⟨S1200000, .i32⟩
  | 125 => ⟨S1200000, .i32⟩
  | 126 => ⟨S1200000x1, .i32⟩
  | 127 => ⟨S1200000, .f32⟩
  | _ => ⟨S100000x32, .f32⟩

abbrev hbmTy0_1 (i : Nat) : BufTy := match i % 128 with
  | 0 => ⟨S_, .i32⟩
  | 1 => ⟨S1200000, .i32⟩
  | 2 => ⟨S1200000, .i1⟩
  | 3 => ⟨S_, .i32⟩
  | 4 => ⟨S1200000, .i32⟩
  | 5 => ⟨S1200000, .i32⟩
  | 6 => ⟨S1200000, .i32⟩
  | 7 => ⟨S1200000x1, .i32⟩
  | 8 => ⟨S1200000, .f32⟩
  | 9 => ⟨S1200000, .f32⟩
  | 10 => ⟨S200000x64, .f32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1200000x64, .f32⟩
  | 20 => ⟨S1200000x1, .f32⟩
  | 21 => ⟨S1200000x64, .f32⟩
  | 22 => ⟨S1200000x64, .f32⟩
  | 23 => ⟨S_, .f32⟩
  | 24 => ⟨S200000x64, .f32⟩
  | 25 => ⟨S1200000x1, .i32⟩
  | 26 => ⟨S200000x64, .f32⟩
  | 27 => ⟨S1x64, .f32⟩
  | 28 => ⟨S200000x64, .f32⟩
  | 29 => ⟨S200000x64, .f32⟩
  | 30 => ⟨S1x1x64x64, .f32⟩
  | 31 => ⟨S64x64, .f32⟩
  | 32 => ⟨S1x1x64, .f32⟩
  | 33 => ⟨S64, .f32⟩
  | 34 => ⟨S1x1000000, .i32⟩
  | 35 => ⟨S1000000, .i32⟩
  | 36 => ⟨S1x1000000, .i32⟩
  | 37 => ⟨S1000000, .i32⟩
  | 38 => ⟨S_, .f32⟩
  | 39 => ⟨S1000000, .f32⟩
  | 40 => ⟨S_, .f32⟩
  | 41 => ⟨S100000, .f32⟩
  | 42 => ⟨S1000000x1, .i32⟩
  | 43 => ⟨S100000, .f32⟩
  | 44 => ⟨S_, .f32⟩
  | 45 => ⟨S1000000, .f32⟩
  | 46 => ⟨S_, .f32⟩
  | 47 => ⟨S200000, .f32⟩
  | 48 => ⟨S1000000x1, .i32⟩
  | 49 => ⟨S200000, .f32⟩
  | 50 => ⟨S_, .f32⟩
  | 51 => ⟨S100000, .f32⟩
  | 52 => ⟨S100000, .i1⟩
  | 53 => ⟨S_, .f32⟩
  | 54 => ⟨S100000, .f32⟩
  | 55 => ⟨S100000, .f32⟩
  | 56 => ⟨S100000, .f32⟩
  | 57 => ⟨S_, .f32⟩
  | 58 => ⟨S_, .f32⟩
  | 59 => ⟨S100000, .f32⟩
  | 60 => ⟨S100000, .f32⟩
  | 61 => ⟨S_, .f32⟩
  | 62 => ⟨S200000, .f32⟩
  | 63 => ⟨S200000, .i1⟩
  | 64 => ⟨S_, .f32⟩
  | 65 => ⟨S200000, .f32⟩
  | 66 => ⟨S200000, .f32⟩
  | 67 => ⟨S200000, .f32⟩
  | 68 => ⟨S_, .f32⟩
  | 69 => ⟨S_, .f32⟩
  | 70 => ⟨S200000, .f32⟩
  | 71 => ⟨S200000, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000, .f32⟩
  | 90 => ⟨S1000000, .f32⟩
  | 91 => ⟨S100000x64, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x64, .f32⟩
  | 101 => ⟨S1000000x1, .f32⟩
  | 102 => ⟨S1000000x64, .f32⟩
  | 103 => ⟨S1000000x64, .f32⟩
  | 104 => ⟨S_, .f32⟩
  | 105 => ⟨S200000x64, .f32⟩
  | 106 => ⟨S1000000x1, .i32⟩
  | 107 => ⟨S200000x64, .f32⟩
  | 108 => ⟨S1x64, .f32⟩
  | 109 => ⟨S200000x64, .f32⟩
  | 110 => ⟨S200000x64, .f32⟩
  | 111 => ⟨S1x1x64x64, .f32⟩
  | 112 => ⟨S64x64, .f32⟩
  | 113 => ⟨S1x1x64, .f32⟩
  | 114 => ⟨S64, .f32⟩
  | 115 => ⟨S1x1000000, .i32⟩
  | 116 => ⟨S1000000, .i32⟩
  | 117 => ⟨S1x1000000, .i32⟩
  | 118 => ⟨S1000000, .i32⟩
  | 119 => ⟨S_, .f32⟩
  | 120 => ⟨S1000000, .f32⟩
  | 121 => ⟨S_, .f32⟩
  | 122 => ⟨S200000, .f32⟩
  | 123 => ⟨S1000000x1, .i32⟩
  | 124 => ⟨S200000, .f32⟩
  | 125 => ⟨S_, .f32⟩
  | 126 => ⟨S1000000, .f32⟩
  | 127 => ⟨S_, .f32⟩
  | _ => ⟨S100000x32, .f32⟩

abbrev hbmTy0_2 (i : Nat) : BufTy := match i % 128 with
  | 0 => ⟨S100000, .f32⟩
  | 1 => ⟨S1000000x1, .i32⟩
  | 2 => ⟨S100000, .f32⟩
  | 3 => ⟨S_, .f32⟩
  | 4 => ⟨S200000, .f32⟩
  | 5 => ⟨S200000, .i1⟩
  | 6 => ⟨S_, .f32⟩
  | 7 => ⟨S200000, .f32⟩
  | 8 => ⟨S200000, .f32⟩
  | 9 => ⟨S200000, .f32⟩
  | 10 => ⟨S_, .f32⟩
  | 11 => ⟨S_, .f32⟩
  | 12 => ⟨S200000, .f32⟩
  | 13 => ⟨S200000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S1000000, .f32⟩
  | 44 => ⟨S200000x64, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S1000000x1, .f32⟩
  | 55 => ⟨S1000000x64, .f32⟩
  | 56 => ⟨S1000000x64, .f32⟩
  | 57 => ⟨S_, .f32⟩
  | 58 => ⟨S100000x64, .f32⟩
  | 59 => ⟨S1000000x1, .i32⟩
  | 60 => ⟨S100000x64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S200000x64, .f32⟩
  | 72 => ⟨S_, .f32⟩
  | 73 => ⟨S200000x64, .f32⟩
  | 74 => ⟨S200000x64, .f32⟩
  | 75 => ⟨S_, .f32⟩
  | 76 => ⟨S200000x64, .f32⟩
  | 77 => ⟨S200000x64, .f32⟩
  | 78 => ⟨S1x1x64x64, .f32⟩
  | 79 => ⟨S64x64, .f32⟩
  | 80 => ⟨S1x1x64, .f32⟩
  | 81 => ⟨S64, .f32⟩
  | 82 => ⟨S1x1000000, .i32⟩
  | 83 => ⟨S1000000, .i32⟩
  | 84 => ⟨S1x1000000, .i32⟩
  | 85 => ⟨S1000000, .i32⟩
  | 86 => ⟨S100000, .i32⟩
  | 87 => ⟨S1100000, .i32⟩
  | 88 => ⟨S1100000, .i32⟩
  | 89 => ⟨S_, .f32⟩
  | 90 => ⟨S1100000, .f32⟩
  | 91 => ⟨S_, .f32⟩
  | 92 => ⟨S100000, .f32⟩
  | 93 => ⟨S1100000x1, .i32⟩
  | 94 => ⟨S100000, .f32⟩
  | 95 => ⟨S_, .f32⟩
  | 96 => ⟨S100000, .f32⟩
  | 97 => ⟨S100000, .i1⟩
  | 98 => ⟨S_, .f32⟩
  | 99 => ⟨S100000, .f32⟩
  | 100 => ⟨S100000, .f32⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S1100000, .i32⟩
  | 108 => ⟨S1100000, .i1⟩
  | 109 => ⟨S_, .i32⟩
  | 110 => ⟨S1100000, .i32⟩
  | 111 => ⟨S1100000, .i32⟩
  | 112 => ⟨S1100000, .i32⟩
  | 113 => ⟨S1100000x1, .i32⟩
  | 114 => ⟨S1100000, .f32⟩
  | 115 => ⟨S_, .i32⟩
  | 116 => ⟨S1100000, .i32⟩
  | 117 => ⟨S1100000, .i1⟩
  | 118 => ⟨S_, .i32⟩
  | 119 => ⟨S1100000, .i32⟩
  | 120 => ⟨S1100000, .i32⟩
  | 121 => ⟨S1100000, .i32⟩
  | 122 => ⟨S1100000x1, .i32⟩
  | 123 => ⟨S1100000, .f32⟩
  | 124 => ⟨S1100000, .f32⟩
  | 125 => ⟨S100000x64, .f32⟩
  | 126 => ⟨S_, .i32⟩
  | 127 => ⟨S1100000, .i32⟩
  | _ => ⟨S100000x32, .f32⟩

abbrev hbmTy0_3 (i : Nat) : BufTy := match i % 128 with
  | 0 => ⟨S1100000, .i1⟩
  | 1 => ⟨S_, .i32⟩
  | 2 => ⟨S1100000, .i32⟩
  | 3 => ⟨S1100000, .i32⟩
  | 4 => ⟨S1100000, .i32⟩
  | 5 => ⟨S1100000x1, .i32⟩
  | 6 => ⟨S1100000x64, .f32⟩
  | 7 => ⟨S1100000x1, .f32⟩
  | 8 => ⟨S1100000x64, .f32⟩
  | 9 => ⟨S1100000x64, .f32⟩
  | 10 => ⟨S_, .f32⟩
  | 11 => ⟨S100000x64, .f32⟩
  | 12 => ⟨S1100000x1, .i32⟩
  | 13 => ⟨S100000x64, .f32⟩
  | 14 => ⟨S1x64, .f32⟩
  | 15 => ⟨S100000x64, .f32⟩
  | 16 => ⟨S100000x64, .f32⟩
  | 17 => ⟨S1x1x64x64, .f32⟩
  | 18 => ⟨S64x64, .f32⟩
  | 19 => ⟨S1x1x64, .f32⟩
  | 20 => ⟨S64, .f32⟩
  | 21 => ⟨S1x1000000, .i32⟩
  | 22 => ⟨S1000000, .i32⟩
  | 23 => ⟨S1x1000000, .i32⟩
  | 24 => ⟨S1000000, .i32⟩
  | 25 => ⟨S200000, .i32⟩
  | 26 => ⟨S1200000, .i32⟩
  | 27 => ⟨S1200000, .i32⟩
  | 28 => ⟨S_, .f32⟩
  | 29 => ⟨S1200000, .f32⟩
  | 30 => ⟨S_, .f32⟩
  | 31 => ⟨S200000, .f32⟩
  | 32 => ⟨S1200000x1, .i32⟩
  | 33 => ⟨S200000, .f32⟩
  | 34 => ⟨S_, .f32⟩
  | 35 => ⟨S200000, .f32⟩
  | 36 => ⟨S200000, .i1⟩
  | 37 => ⟨S_, .f32⟩
  | 38 => ⟨S200000, .f32⟩
  | 39 => ⟨S200000, .f32⟩
  | 40 => ⟨S200000, .f32⟩
  | 41 => ⟨S_, .f32⟩
  | 42 => ⟨S_, .f32⟩
  | 43 => ⟨S200000, .f32⟩
  | 44 => ⟨S200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S_, .i32⟩
  | 55 => ⟨S1200000, .i32⟩
  | 56 => ⟨S1200000, .i1⟩
  | 57 => ⟨S_, .i32⟩
  | 58 => ⟨S1200000, .i32⟩
  | 59 => ⟨S1200000, .i32⟩
  | 60 => ⟨S1200000, .i32⟩
  | 61 => ⟨S1200000x1, .i32⟩
  | 62 => ⟨S1200000, .f32⟩
  | 63 => ⟨S1200000, .f32⟩
  | 64 => ⟨S200000x64, .f32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i32⟩
  | 71 => ⟨S1200000, .i32⟩
  | 72 => ⟨S1200000x1, .i32⟩
  | 73 => ⟨S1200000x64, .f32⟩
  | 74 => ⟨S1200000x1, .f32⟩
  | 75 => ⟨S1200000x64, .f32⟩
  | 76 => ⟨S1200000x64, .f32⟩
  | 77 => ⟨S_, .f32⟩
  | 78 => ⟨S200000x64, .f32⟩
  | 79 => ⟨S1200000x1, .i32⟩
  | 80 => ⟨S200000x64, .f32⟩
  | 81 => ⟨S1x64, .f32⟩
  | 82 => ⟨S200000x64, .f32⟩
  | 83 => ⟨S200000x64, .f32⟩
  | 84 => ⟨S1x1x64x64, .f32⟩
  | 85 => ⟨S64x64, .f32⟩
  | 86 => ⟨S1x1x64, .f32⟩
  | 87 => ⟨S64, .f32⟩
  | 88 => ⟨S1x1000000, .i32⟩
  | 89 => ⟨S1000000, .i32⟩
  | 90 => ⟨S1x1000000, .i32⟩
  | 91 => ⟨S1000000, .i32⟩
  | 92 => ⟨S_, .f32⟩
  | 93 => ⟨S1000000, .f32⟩
  | 94 => ⟨S_, .f32⟩
  | 95 => ⟨S100000, .f32⟩
  | 96 => ⟨S1000000x1, .i32⟩
  | 97 => ⟨S100000, .f32⟩
  | 98 => ⟨S_, .f32⟩
  | 99 => ⟨S1000000, .f32⟩
  | 100 => ⟨S_, .f32⟩
  | 101 => ⟨S200000, .f32⟩
  | 102 => ⟨S1000000x1, .i32⟩
  | 103 => ⟨S200000, .f32⟩
  | 104 => ⟨S_, .f32⟩
  | 105 => ⟨S100000, .f32⟩
  | 106 => ⟨S100000, .i1⟩
  | 107 => ⟨S_, .f32⟩
  | 108 => ⟨S100000, .f32⟩
  | 109 => ⟨S100000, .f32⟩
  | 110 => ⟨S100000, .f32⟩
  | 111 => ⟨S_, .f32⟩
  | 112 => ⟨S_, .f32⟩
  | 113 => ⟨S100000, .f32⟩
  | 114 => ⟨S100000, .f32⟩
  | 115 => ⟨S_, .f32⟩
  | 116 => ⟨S200000, .f32⟩
  | 117 => ⟨S200000, .i1⟩
  | 118 => ⟨S_, .f32⟩
  | 119 => ⟨S200000, .f32⟩
  | 120 => ⟨S200000, .f32⟩
  | 121 => ⟨S200000, .f32⟩
  | 122 => ⟨S_, .f32⟩
  | 123 => ⟨S_, .f32⟩
  | 124 => ⟨S200000, .f32⟩
  | 125 => ⟨S200000, .f32⟩
  | 126 => ⟨S_, .i32⟩
  | 127 => ⟨S1000000, .i32⟩
  | _ => ⟨S100000x32, .f32⟩

abbrev hbmTy0_4 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000, .f32⟩
  | 7 => ⟨S_, .i32⟩
  | 8 => ⟨S1000000, .i32⟩
  | 9 => ⟨S1000000, .i1⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000, .f32⟩
  | 16 => ⟨S1000000, .f32⟩
  | 17 => ⟨S100000x64, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x64, .f32⟩
  | 27 => ⟨S1000000x1, .f32⟩
  | 28 => ⟨S1000000x64, .f32⟩
  | 29 => ⟨S1000000x64, .f32⟩
  | 30 => ⟨S_, .f32⟩
  | 31 => ⟨S200000x64, .f32⟩
  | 32 => ⟨S1000000x1, .i32⟩
  | 33 => ⟨S200000x64, .f32⟩
  | 34 => ⟨S1x64, .f32⟩
  | 35 => ⟨S200000x64, .f32⟩
  | 36 => ⟨S200000x64, .f32⟩
  | 37 => ⟨S1x1x64x64, .f32⟩
  | 38 => ⟨S64x64, .f32⟩
  | 39 => ⟨S1x1x64, .f32⟩
  | 40 => ⟨S64, .f32⟩
  | 41 => ⟨S1x1000000, .i32⟩
  | 42 => ⟨S1000000, .i32⟩
  | 43 => ⟨S1x1000000, .i32⟩
  | 44 => ⟨S1000000, .i32⟩
  | 45 => ⟨S_, .f32⟩
  | 46 => ⟨S1000000, .f32⟩
  | 47 => ⟨S_, .f32⟩
  | 48 => ⟨S200000, .f32⟩
  | 49 => ⟨S1000000x1, .i32⟩
  | 50 => ⟨S200000, .f32⟩
  | 51 => ⟨S_, .f32⟩
  | 52 => ⟨S1000000, .f32⟩
  | 53 => ⟨S_, .f32⟩
  | 54 => ⟨S100000, .f32⟩
  | 55 => ⟨S1000000x1, .i32⟩
  | 56 => ⟨S100000, .f32⟩
  | 57 => ⟨S_, .f32⟩
  | 58 => ⟨S200000, .f32⟩
  | 59 => ⟨S200000, .i1⟩
  | 60 => ⟨S_, .f32⟩
  | 61 => ⟨S200000, .f32⟩
  | 62 => ⟨S200000, .f32⟩
  | 63 => ⟨S200000, .f32⟩
  | 64 => ⟨S_, .f32⟩
  | 65 => ⟨S_, .f32⟩
  | 66 => ⟨S200000, .f32⟩
  | 67 => ⟨S200000, .f32⟩
  | 68 => ⟨S_, .f32⟩
  | 69 => ⟨S100000, .f32⟩
  | 70 => ⟨S100000, .i1⟩
  | 71 => ⟨S_, .f32⟩
  | 72 => ⟨S100000, .f32⟩
  | 73 => ⟨S100000, .f32⟩
  | 74 => ⟨S100000, .f32⟩
  | 75 => ⟨S_, .f32⟩
  | 76 => ⟨S_, .f32⟩
  | 77 => ⟨S100000, .f32⟩
  | 78 => ⟨S100000, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000, .f32⟩
  | 97 => ⟨S1000000, .f32⟩
  | 98 => ⟨S200000x64, .f32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x64, .f32⟩
  | 108 => ⟨S1000000x1, .f32⟩
  | 109 => ⟨S1000000x64, .f32⟩
  | 110 => ⟨S1000000x64, .f32⟩
  | 111 => ⟨S_, .f32⟩
  | 112 => ⟨S100000x64, .f32⟩
  | 113 => ⟨S1000000x1, .i32⟩
  | 114 => ⟨S100000x64, .f32⟩
  | 115 => ⟨S1x64, .f32⟩
  | 116 => ⟨S100000x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S200000x64, .f32⟩
  | 126 => ⟨S_, .f32⟩
  | 127 => ⟨S200000x64, .f32⟩
  | _ => ⟨S100000x32, .f32⟩

abbrev hbmTy0_5 (i : Nat) : BufTy := match i % 128 with
  | 0 => ⟨S200000x64, .f32⟩
  | 1 => ⟨S_, .f32⟩
  | 2 => ⟨S200000x64, .f32⟩
  | 3 => ⟨S200000x64, .f32⟩
  | 4 => ⟨S1x1x64x64, .f32⟩
  | 5 => ⟨S64x64, .f32⟩
  | 6 => ⟨S1x1x64, .f32⟩
  | 7 => ⟨S64, .f32⟩
  | 8 => ⟨S1x1000000, .i32⟩
  | 9 => ⟨S1000000, .i32⟩
  | 10 => ⟨S1x1000000, .i32⟩
  | 11 => ⟨S1000000, .i32⟩
  | 12 => ⟨S100000, .i32⟩
  | 13 => ⟨S1100000, .i32⟩
  | 14 => ⟨S1100000, .i32⟩
  | 15 => ⟨S_, .f32⟩
  | 16 => ⟨S1100000, .f32⟩
  | 17 => ⟨S_, .f32⟩
  | 18 => ⟨S100000, .f32⟩
  | 19 => ⟨S1100000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S1100000, .f32⟩
  | 51 => ⟨S100000x64, .f32⟩
  | 52 => ⟨S_, .i32⟩
  | 53 => ⟨S1100000, .i32⟩
  | 54 => ⟨S1100000, .i1⟩
  | 55 => ⟨S_, .i32⟩
  | 56 => ⟨S1100000, .i32⟩
  | 57 => ⟨S1100000, .i32⟩
  | 58 => ⟨S1100000, .i32⟩
  | 59 => ⟨S1100000x1, .i32⟩
  | 60 => ⟨S1100000x64, .f32⟩
  | 61 => ⟨S1100000x1, .f32⟩
  | 62 => ⟨S1100000x64, .f32⟩
  | 63 => ⟨S1100000x64, .f32⟩
  | 64 => ⟨S_, .f32⟩
  | 65 => ⟨S100000x64, .f32⟩
  | 66 => ⟨S1100000x1, .i32⟩
  | 67 => ⟨S100000x64, .f32⟩
  | 68 => ⟨S1x64, .f32⟩
  | 69 => ⟨S100000x64, .f32⟩
  | 70 => ⟨S100000x64, .f32⟩
  | 71 => ⟨S1x1x64x64, .f32⟩
  | 72 => ⟨S64x64, .f32⟩
  | 73 => ⟨S1x1x64, .f32⟩
  | 74 => ⟨S64, .f32⟩
  | 75 => ⟨S1x1000000, .i32⟩
  | 76 => ⟨S1000000, .i32⟩
  | 77 => ⟨S1x1000000, .i32⟩
  | 78 => ⟨S1000000, .i32⟩
  | 79 => ⟨S200000, .i32⟩
  | 80 => ⟨S1200000, .i32⟩
  | 81 => ⟨S1200000, .i32⟩
  | 82 => ⟨S_, .f32⟩
  | 83 => ⟨S1200000, .f32⟩
  | 84 => ⟨S_, .f32⟩
  | 85 => ⟨S200000, .f32⟩
  | 86 => ⟨S1200000x1, .i32⟩
  | 87 => ⟨S200000, .f32⟩
  | 88 => ⟨S_, .f32⟩
  | 89 => ⟨S200000, .f32⟩
  | 90 => ⟨S200000, .i1⟩
  | 91 => ⟨S_, .f32⟩
  | 92 => ⟨S200000, .f32⟩
  | 93 => ⟨S200000, .f32⟩
  | 94 => ⟨S200000, .f32⟩
  | 95 => ⟨S_, .f32⟩
  | 96 => ⟨S_, .f32⟩
  | 97 => ⟨S200000, .f32⟩
  | 98 => ⟨S200000, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000, .f32⟩
  | 108 => ⟨S_, .i32⟩
  | 109 => ⟨S1200000, .i32⟩
  | 110 => ⟨S1200000, .i1⟩
  | 111 => ⟨S_, .i32⟩
  | 112 => ⟨S1200000, .i32⟩
  | 113 => ⟨S1200000, .i32⟩
  | 114 => ⟨S1200000, .i32⟩
  | 115 => ⟨S1200000x1, .i32⟩
  | 116 => ⟨S1200000, .f32⟩
  | 117 => ⟨S1200000, .f32⟩
  | 118 => ⟨S200000x64, .f32⟩
  | 119 => ⟨S_, .i32⟩
  | 120 => ⟨S1200000, .i32⟩
  | 121 => ⟨S1200000, .i1⟩
  | 122 => ⟨S_, .i32⟩
  | 123 => ⟨S1200000, .i32⟩
  | 124 => ⟨S1200000, .i32⟩
  | 125 => ⟨S1200000, .i32⟩
  | 126 => ⟨S1200000x1, .i32⟩
  | 127 => ⟨S1200000x64, .f32⟩
  | _ => ⟨S100000x32, .f32⟩

abbrev hbmTy0_6 (i : Nat) : BufTy := match i % 128 with
  | 0 => ⟨S1200000x1, .f32⟩
  | 1 => ⟨S1200000x64, .f32⟩
  | 2 => ⟨S1200000x64, .f32⟩
  | 3 => ⟨S_, .f32⟩
  | 4 => ⟨S200000x64, .f32⟩
  | 5 => ⟨S1200000x1, .i32⟩
  | 6 => ⟨S200000x64, .f32⟩
  | 7 => ⟨S1x64, .f32⟩
  | 8 => ⟨S200000x64, .f32⟩
  | 9 => ⟨S200000x64, .f32⟩
  | 10 => ⟨S1x1x64x64, .f32⟩
  | 11 => ⟨S64x64, .f32⟩
  | 12 => ⟨S1x1x64, .f32⟩
  | 13 => ⟨S64, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S100000, .f32⟩
  | 22 => ⟨S1000000x1, .i32⟩
  | 23 => ⟨S100000, .f32⟩
  | 24 => ⟨S_, .f32⟩
  | 25 => ⟨S1000000, .f32⟩
  | 26 => ⟨S_, .f32⟩
  | 27 => ⟨S200000, .f32⟩
  | 28 => ⟨S1000000x1, .i32⟩
  | 29 => ⟨S200000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .f32⟩
  | 42 => ⟨S200000, .f32⟩
  | 43 => ⟨S200000, .i1⟩
  | 44 => ⟨S_, .f32⟩
  | 45 => ⟨S200000, .f32⟩
  | 46 => ⟨S200000, .f32⟩
  | 47 => ⟨S200000, .f32⟩
  | 48 => ⟨S_, .f32⟩
  | 49 => ⟨S_, .f32⟩
  | 50 => ⟨S200000, .f32⟩
  | 51 => ⟨S200000, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000, .f32⟩
  | 70 => ⟨S1000000, .f32⟩
  | 71 => ⟨S100000x64, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x64, .f32⟩
  | 81 => ⟨S1000000x1, .f32⟩
  | 82 => ⟨S1000000x64, .f32⟩
  | 83 => ⟨S1000000x64, .f32⟩
  | 84 => ⟨S_, .f32⟩
  | 85 => ⟨S200000x64, .f32⟩
  | 86 => ⟨S1000000x1, .i32⟩
  | 87 => ⟨S200000x64, .f32⟩
  | 88 => ⟨S1x64, .f32⟩
  | 89 => ⟨S200000x64, .f32⟩
  | 90 => ⟨S200000x64, .f32⟩
  | 91 => ⟨S1x1x64x64, .f32⟩
  | 92 => ⟨S64x64, .f32⟩
  | 93 => ⟨S1x1x64, .f32⟩
  | 94 => ⟨S64, .f32⟩
  | 95 => ⟨S1x1000000, .i32⟩
  | 96 => ⟨S1000000, .i32⟩
  | 97 => ⟨S1x1000000, .i32⟩
  | 98 => ⟨S1000000, .i32⟩
  | 99 => ⟨S_, .f32⟩
  | 100 => ⟨S1000000, .f32⟩
  | 101 => ⟨S_, .f32⟩
  | 102 => ⟨S200000, .f32⟩
  | 103 => ⟨S1000000x1, .i32⟩
  | 104 => ⟨S200000, .f32⟩
  | 105 => ⟨S_, .f32⟩
  | 106 => ⟨S1000000, .f32⟩
  | 107 => ⟨S_, .f32⟩
  | 108 => ⟨S100000, .f32⟩
  | 109 => ⟨S1000000x1, .i32⟩
  | 110 => ⟨S100000, .f32⟩
  | 111 => ⟨S_, .f32⟩
  | 112 => ⟨S200000, .f32⟩
  | 113 => ⟨S200000, .i1⟩
  | 114 => ⟨S_, .f32⟩
  | 115 => ⟨S200000, .f32⟩
  | 116 => ⟨S200000, .f32⟩
  | 117 => ⟨S200000, .f32⟩
  | 118 => ⟨S_, .f32⟩
  | 119 => ⟨S_, .f32⟩
  | 120 => ⟨S200000, .f32⟩
  | 121 => ⟨S200000, .f32⟩
  | 122 => ⟨S_, .f32⟩
  | 123 => ⟨S100000, .f32⟩
  | 124 => ⟨S100000, .i1⟩
  | 125 => ⟨S_, .f32⟩
  | 126 => ⟨S100000, .f32⟩
  | 127 => ⟨S100000, .f32⟩
  | _ => ⟨S100000x32, .f32⟩

abbrev hbmTy0_7 (i : Nat) : BufTy := match i % 128 with
  | 0 => ⟨S100000, .f32⟩
  | 1 => ⟨S_, .f32⟩
  | 2 => ⟨S_, .f32⟩
  | 3 => ⟨S100000, .f32⟩
  | 4 => ⟨S100000, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000, .f32⟩
  | 23 => ⟨S1000000, .f32⟩
  | 24 => ⟨S200000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S1000000x1, .f32⟩
  | 35 => ⟨S1000000x64, .f32⟩
  | 36 => ⟨S1000000x64, .f32⟩
  | 37 => ⟨S_, .f32⟩
  | 38 => ⟨S100000x64, .f32⟩
  | 39 => ⟨S1000000x1, .i32⟩
  | 40 => ⟨S100000x64, .f32⟩
  | 41 => ⟨S1x64, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S200000x64, .f32⟩
  | 52 => ⟨S_, .f32⟩
  | 53 => ⟨S200000x64, .f32⟩
  | 54 => ⟨S200000x64, .f32⟩
  | 55 => ⟨S_, .f32⟩
  | 56 => ⟨S200000x64, .f32⟩
  | 57 => ⟨S200000x64, .f32⟩
  | 58 => ⟨S_, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S_, .f32⟩
  | 66 => ⟨S64, .f32⟩
  | 67 => ⟨S64, .f32⟩
  | 68 => ⟨S1x64, .f32⟩
  | 69 => ⟨S1x64, .f32⟩
  | 70 => ⟨S2x64, .f32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S1x1, .f32⟩
  | 84 => ⟨S1x1, .f32⟩
  | 85 => ⟨S1x1, .f32⟩
  | 86 => ⟨S1x1, .f32⟩
  | 87 => ⟨S1x1, .f32⟩
  | 88 => ⟨S_, .f32⟩
  | 89 => ⟨S1x1, .f32⟩
  | 90 => ⟨S1x1, .f32⟩
  | 91 => ⟨S_, .f32⟩
  | 92 => ⟨S1x1, .f32⟩
  | 93 => ⟨S1x1, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v28 : Ref sig .tc := ⟨.hbm, 51, rfl⟩
abbrev main_c : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_5 : Ref sig .tc := ⟨.hbm, 61, rfl⟩
abbrev main_v36 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_cst_11 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_12 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_call1_v0 : Ref sig .tc := ⟨.hbm, 116, rfl⟩
abbrev main_call1_v1 : Ref sig .tc := ⟨.hbm, 117, rfl⟩
abbrev main_v81 : Ref sig .tc := ⟨.hbm, 118, rfl⟩
abbrev main_c_15 : Ref sig .tc := ⟨.hbm, 119, rfl⟩
abbrev main_v82 : Ref sig .tc := ⟨.hbm, 120, rfl⟩
abbrev main_v83 : Ref sig .tc := ⟨.hbm, 121, rfl⟩
abbrev main_c_16 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_17 : Ref sig .tc := ⟨.hbm, 128, rfl⟩
abbrev main_v89 : Ref sig .tc := ⟨.hbm, 129, rfl⟩
abbrev main_v90 : Ref sig .tc := ⟨.hbm, 130, rfl⟩
abbrev main_c_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_19 : Ref sig .tc := ⟨.hbm, 139, rfl⟩
abbrev main_v98 : Ref sig .tc := ⟨.hbm, 140, rfl⟩
abbrev main_v99 : Ref sig .tc := ⟨.hbm, 141, rfl⟩
abbrev main_c_20 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_21 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_22 : Ref sig .tc := ⟨.hbm, 166, rfl⟩
abbrev main_v122 : Ref sig .tc := ⟨.hbm, 167, rfl⟩
abbrev main_cst_23 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_24 : Ref sig .tc := ⟨.hbm, 172, rfl⟩
abbrev main_v126 : Ref sig .tc := ⟨.hbm, 173, rfl⟩
abbrev main_cst_25 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_26 : Ref sig .tc := ⟨.hbm, 178, rfl⟩
abbrev main_v130 : Ref sig .tc := ⟨.hbm, 179, rfl⟩
abbrev main_v131 : Ref sig .tc := ⟨.hbm, 180, rfl⟩
abbrev main_cst_27 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_28 : Ref sig .tc := ⟨.hbm, 185, rfl⟩
abbrev main_call2_v0 : Ref sig .tc := ⟨.hbm, 186, rfl⟩
abbrev main_call2_v1 : Ref sig .tc := ⟨.hbm, 187, rfl⟩
abbrev main_v135 : Ref sig .tc := ⟨.hbm, 188, rfl⟩
abbrev main_cst_29 : Ref sig .tc := ⟨.hbm, 189, rfl⟩
abbrev main_v136 : Ref sig .tc := ⟨.hbm, 190, rfl⟩
abbrev main_v137 : Ref sig .tc := ⟨.hbm, 191, rfl⟩
abbrev main_cst_30 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_31 : Ref sig .tc := ⟨.hbm, 196, rfl⟩
abbrev main_call3_v0 : Ref sig .tc := ⟨.hbm, 197, rfl⟩
abbrev main_call3_v1 : Ref sig .tc := ⟨.hbm, 198, rfl⟩
abbrev main_v141 : Ref sig .tc := ⟨.hbm, 199, rfl⟩
abbrev main_c_32 : Ref sig .tc := ⟨.hbm, 200, rfl⟩
abbrev main_v142 : Ref sig .tc := ⟨.hbm, 201, rfl⟩
abbrev main_v143 : Ref sig .tc := ⟨.hbm, 202, rfl⟩
abbrev main_c_33 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_34 : Ref sig .tc := ⟨.hbm, 209, rfl⟩
abbrev main_v149 : Ref sig .tc := ⟨.hbm, 210, rfl⟩
abbrev main_v150 : Ref sig .tc := ⟨.hbm, 211, rfl⟩
abbrev main_c_35 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_c_36 : Ref sig .tc := ⟨.hbm, 220, rfl⟩
abbrev main_v158 : Ref sig .tc := ⟨.hbm, 221, rfl⟩
abbrev main_v159 : Ref sig .tc := ⟨.hbm, 222, rfl⟩
abbrev main_c_37 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_38 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_39 : Ref sig .tc := ⟨.hbm, 247, rfl⟩
abbrev main_v182 : Ref sig .tc := ⟨.hbm, 248, rfl⟩
abbrev main_cst_40 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_41 : Ref sig .tc := ⟨.hbm, 253, rfl⟩
abbrev main_v186 : Ref sig .tc := ⟨.hbm, 254, rfl⟩
abbrev main_cst_42 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_43 : Ref sig .tc := ⟨.hbm, 259, rfl⟩
abbrev main_v190 : Ref sig .tc := ⟨.hbm, 260, rfl⟩
abbrev main_v191 : Ref sig .tc := ⟨.hbm, 261, rfl⟩
abbrev main_cst_44 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_cst_45 : Ref sig .tc := ⟨.hbm, 266, rfl⟩
abbrev main_call4_v0 : Ref sig .tc := ⟨.hbm, 267, rfl⟩
abbrev main_call4_v1 : Ref sig .tc := ⟨.hbm, 268, rfl⟩
abbrev main_v195 : Ref sig .tc := ⟨.hbm, 269, rfl⟩
abbrev main_cst_46 : Ref sig .tc := ⟨.hbm, 270, rfl⟩
abbrev main_v196 : Ref sig .tc := ⟨.hbm, 271, rfl⟩
abbrev main_v197 : Ref sig .tc := ⟨.hbm, 272, rfl⟩
abbrev main_cst_47 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_cst_48 : Ref sig .tc := ⟨.hbm, 277, rfl⟩
abbrev main_call5_v0 : Ref sig .tc := ⟨.hbm, 278, rfl⟩
abbrev main_call5_v1 : Ref sig .tc := ⟨.hbm, 279, rfl⟩
abbrev main_v201 : Ref sig .tc := ⟨.hbm, 280, rfl⟩
abbrev main_c_49 : Ref sig .tc := ⟨.hbm, 281, rfl⟩
abbrev main_v202 : Ref sig .tc := ⟨.hbm, 282, rfl⟩
abbrev main_v203 : Ref sig .tc := ⟨.hbm, 283, rfl⟩
abbrev main_c_50 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_c_51 : Ref sig .tc := ⟨.hbm, 290, rfl⟩
abbrev main_v209 : Ref sig .tc := ⟨.hbm, 291, rfl⟩
abbrev main_v210 : Ref sig .tc := ⟨.hbm, 292, rfl⟩
abbrev main_c_52 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_c_53 : Ref sig .tc := ⟨.hbm, 301, rfl⟩
abbrev main_v218 : Ref sig .tc := ⟨.hbm, 302, rfl⟩
abbrev main_v219 : Ref sig .tc := ⟨.hbm, 303, rfl⟩
abbrev main_c_54 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_cst_55 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_cst_56 : Ref sig .tc := ⟨.hbm, 321, rfl⟩
abbrev main_v235 : Ref sig .tc := ⟨.hbm, 322, rfl⟩
abbrev main_v236 : Ref sig .tc := ⟨.hbm, 323, rfl⟩
abbrev main_call6_cst : Ref sig .tc := ⟨.hbm, 324, rfl⟩
abbrev main_call6_v0 : Ref sig .tc := ⟨.hbm, 325, rfl⟩
abbrev main_v237 : Ref sig .tc := ⟨.hbm, 326, rfl⟩
abbrev main_v238 : Ref sig .tc := ⟨.hbm, 327, rfl⟩
abbrev main_cst_57 : Ref sig .tc := ⟨.hbm, 328, rfl⟩
abbrev main_v239 : Ref sig .tc := ⟨.hbm, 329, rfl⟩
abbrev main_v240 : Ref sig .tc := ⟨.hbm, 330, rfl⟩
abbrev main_call7_cst : Ref sig .tc := ⟨.hbm, 331, rfl⟩
abbrev main_call7_v0 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_cst_58 : Ref sig .tc := ⟨.hbm, 345, rfl⟩
abbrev main_v253 : Ref sig .tc := ⟨.hbm, 346, rfl⟩
abbrev main_cst_59 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_cst_60 : Ref sig .tc := ⟨.hbm, 351, rfl⟩
abbrev main_v257 : Ref sig .tc := ⟨.hbm, 352, rfl⟩
abbrev main_v258 : Ref sig .tc := ⟨.hbm, 353, rfl⟩
abbrev main_cst_61 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_cst_62 : Ref sig .tc := ⟨.hbm, 358, rfl⟩
abbrev main_call8_v0 : Ref sig .tc := ⟨.hbm, 359, rfl⟩
abbrev main_call8_v1 : Ref sig .tc := ⟨.hbm, 360, rfl⟩
abbrev main_v262 : Ref sig .tc := ⟨.hbm, 361, rfl⟩
abbrev main_c_63 : Ref sig .tc := ⟨.hbm, 362, rfl⟩
abbrev main_v263 : Ref sig .tc := ⟨.hbm, 363, rfl⟩
abbrev main_v264 : Ref sig .tc := ⟨.hbm, 364, rfl⟩
abbrev main_c_64 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_c_65 : Ref sig .tc := ⟨.hbm, 371, rfl⟩
abbrev main_v270 : Ref sig .tc := ⟨.hbm, 372, rfl⟩
abbrev main_v271 : Ref sig .tc := ⟨.hbm, 373, rfl⟩
abbrev main_c_66 : Ref sig .tc := ⟨.hbm, 374, rfl⟩
abbrev main_v272 : Ref sig .tc := ⟨.hbm, 375, rfl⟩
abbrev main_v273 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_c_67 : Ref sig .tc := ⟨.hbm, 382, rfl⟩
abbrev main_v279 : Ref sig .tc := ⟨.hbm, 383, rfl⟩
abbrev main_v280 : Ref sig .tc := ⟨.hbm, 384, rfl⟩
abbrev main_c_68 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev main_v287 : Ref sig .tc := ⟨.hbm, 392, rfl⟩
abbrev main_v288 : Ref sig .tc := ⟨.hbm, 393, rfl⟩
abbrev main_cst_69 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_v303 : Ref sig .tc := ⟨.hbm, 409, rfl⟩
abbrev main_v304 : Ref sig .tc := ⟨.hbm, 410, rfl⟩
abbrev main_v305 : Ref sig .tc := ⟨.hbm, 411, rfl⟩
abbrev main_cst_70 : Ref sig .tc := ⟨.hbm, 412, rfl⟩
abbrev main_v306 : Ref sig .tc := ⟨.hbm, 413, rfl⟩
abbrev main_cst_71 : Ref sig .tc := ⟨.hbm, 414, rfl⟩
abbrev main_v307 : Ref sig .tc := ⟨.hbm, 415, rfl⟩
abbrev main_v308 : Ref sig .tc := ⟨.hbm, 416, rfl⟩
abbrev main_v309 : Ref sig .tc := ⟨.hbm, 417, rfl⟩
abbrev main_cst_72 : Ref sig .tc := ⟨.hbm, 418, rfl⟩
abbrev main_v310 : Ref sig .tc := ⟨.hbm, 419, rfl⟩
abbrev main_v311 : Ref sig .tc := ⟨.hbm, 420, rfl⟩
abbrev main_cst_73 : Ref sig .tc := ⟨.hbm, 421, rfl⟩
abbrev main_v312 : Ref sig .tc := ⟨.hbm, 422, rfl⟩
abbrev main_v313 : Ref sig .tc := ⟨.hbm, 423, rfl⟩
abbrev main_v314 : Ref sig .tc := ⟨.hbm, 424, rfl⟩
abbrev main_cst_74 : Ref sig .tc := ⟨.hbm, 425, rfl⟩
abbrev main_call9_v0 : Ref sig .tc := ⟨.hbm, 426, rfl⟩
abbrev main_call9_v1 : Ref sig .tc := ⟨.hbm, 427, rfl⟩
abbrev main_v315 : Ref sig .tc := ⟨.hbm, 428, rfl⟩
abbrev main_c_75 : Ref sig .tc := ⟨.hbm, 429, rfl⟩
abbrev main_v316 : Ref sig .tc := ⟨.hbm, 430, rfl⟩
abbrev main_v317 : Ref sig .tc := ⟨.hbm, 431, rfl⟩
abbrev main_c_76 : Ref sig .tc := ⟨.hbm, 432, rfl⟩
abbrev main_v318 : Ref sig .tc := ⟨.hbm, 433, rfl⟩
abbrev main_v319 : Ref sig .tc := ⟨.hbm, 434, rfl⟩
abbrev main_v320 : Ref sig .tc := ⟨.hbm, 435, rfl⟩
abbrev main_v321 : Ref sig .tc := ⟨.hbm, 436, rfl⟩
abbrev main_v322 : Ref sig .tc := ⟨.hbm, 437, rfl⟩
abbrev main_c_77 : Ref sig .tc := ⟨.hbm, 438, rfl⟩
abbrev main_v323 : Ref sig .tc := ⟨.hbm, 439, rfl⟩
abbrev main_v324 : Ref sig .tc := ⟨.hbm, 440, rfl⟩
abbrev main_c_78 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_v329 : Ref sig .tc := ⟨.hbm, 446, rfl⟩
abbrev main_v330 : Ref sig .tc := ⟨.hbm, 447, rfl⟩
abbrev main_v331 : Ref sig .tc := ⟨.hbm, 448, rfl⟩
abbrev main_c_79 : Ref sig .tc := ⟨.hbm, 449, rfl⟩
abbrev main_v332 : Ref sig .tc := ⟨.hbm, 450, rfl⟩
abbrev main_v333 : Ref sig .tc := ⟨.hbm, 451, rfl⟩
abbrev main_c_80 : Ref sig .tc := ⟨.hbm, 452, rfl⟩
abbrev main_v334 : Ref sig .tc := ⟨.hbm, 453, rfl⟩
abbrev main_v335 : Ref sig .tc := ⟨.hbm, 454, rfl⟩
abbrev main_v336 : Ref sig .tc := ⟨.hbm, 455, rfl⟩
abbrev main_v337 : Ref sig .tc := ⟨.hbm, 456, rfl⟩
abbrev main_v338 : Ref sig .tc := ⟨.hbm, 457, rfl⟩
abbrev main_v339 : Ref sig .tc := ⟨.hbm, 458, rfl⟩
abbrev main_v340 : Ref sig .tc := ⟨.hbm, 459, rfl⟩
abbrev main_v341 : Ref sig .tc := ⟨.hbm, 460, rfl⟩
abbrev main_cst_81 : Ref sig .tc := ⟨.hbm, 461, rfl⟩
abbrev main_v342 : Ref sig .tc := ⟨.hbm, 462, rfl⟩
abbrev main_v343 : Ref sig .tc := ⟨.hbm, 463, rfl⟩
abbrev main_v344 : Ref sig .tc := ⟨.hbm, 464, rfl⟩
abbrev main_v345 : Ref sig .tc := ⟨.hbm, 465, rfl⟩
abbrev main_v346 : Ref sig .tc := ⟨.hbm, 466, rfl⟩
abbrev main_v347 : Ref sig .tc := ⟨.hbm, 467, rfl⟩
abbrev main_v348 : Ref sig .tc := ⟨.hbm, 468, rfl⟩
abbrev main_v349 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_v353 : Ref sig .tc := ⟨.hbm, 473, rfl⟩
abbrev main_v354 : Ref sig .tc := ⟨.hbm, 474, rfl⟩
abbrev main_v355 : Ref sig .tc := ⟨.hbm, 475, rfl⟩
abbrev main_cst_82 : Ref sig .tc := ⟨.hbm, 476, rfl⟩
abbrev main_v356 : Ref sig .tc := ⟨.hbm, 477, rfl⟩
abbrev main_cst_83 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_cst_84 : Ref sig .tc := ⟨.hbm, 482, rfl⟩
abbrev main_v360 : Ref sig .tc := ⟨.hbm, 483, rfl⟩
abbrev main_cst_85 : Ref sig .tc := ⟨.hbm, 484, rfl⟩
abbrev main_v361 : Ref sig .tc := ⟨.hbm, 485, rfl⟩
abbrev main_v362 : Ref sig .tc := ⟨.hbm, 486, rfl⟩
abbrev main_v363 : Ref sig .tc := ⟨.hbm, 487, rfl⟩
abbrev main_cst_86 : Ref sig .tc := ⟨.hbm, 488, rfl⟩
abbrev main_v364 : Ref sig .tc := ⟨.hbm, 489, rfl⟩
abbrev main_v365 : Ref sig .tc := ⟨.hbm, 490, rfl⟩
abbrev main_cst_87 : Ref sig .tc := ⟨.hbm, 491, rfl⟩
abbrev main_v366 : Ref sig .tc := ⟨.hbm, 492, rfl⟩
abbrev main_v367 : Ref sig .tc := ⟨.hbm, 493, rfl⟩
abbrev main_v368 : Ref sig .tc := ⟨.hbm, 494, rfl⟩
abbrev main_cst_88 : Ref sig .tc := ⟨.hbm, 495, rfl⟩
abbrev main_call10_v0 : Ref sig .tc := ⟨.hbm, 496, rfl⟩
abbrev main_call10_v1 : Ref sig .tc := ⟨.hbm, 497, rfl⟩
abbrev main_v369 : Ref sig .tc := ⟨.hbm, 498, rfl⟩
abbrev main_cst_89 : Ref sig .tc := ⟨.hbm, 499, rfl⟩
abbrev main_v370 : Ref sig .tc := ⟨.hbm, 500, rfl⟩
abbrev main_v371 : Ref sig .tc := ⟨.hbm, 501, rfl⟩
abbrev main_cst_90 : Ref sig .tc := ⟨.hbm, 502, rfl⟩
abbrev main_v372 : Ref sig .tc := ⟨.hbm, 503, rfl⟩
abbrev main_v373 : Ref sig .tc := ⟨.hbm, 504, rfl⟩
abbrev main_v374 : Ref sig .tc := ⟨.hbm, 505, rfl⟩
abbrev main_cst_91 : Ref sig .tc := ⟨.hbm, 506, rfl⟩
abbrev main_call11_v0 : Ref sig .tc := ⟨.hbm, 507, rfl⟩
abbrev main_call11_v1 : Ref sig .tc := ⟨.hbm, 508, rfl⟩
abbrev main_v375 : Ref sig .tc := ⟨.hbm, 509, rfl⟩
abbrev main_c_92 : Ref sig .tc := ⟨.hbm, 510, rfl⟩
abbrev main_v376 : Ref sig .tc := ⟨.hbm, 511, rfl⟩
abbrev main_v377 : Ref sig .tc := ⟨.hbm, 512, rfl⟩
abbrev main_c_93 : Ref sig .tc := ⟨.hbm, 513, rfl⟩
abbrev main_v378 : Ref sig .tc := ⟨.hbm, 514, rfl⟩
abbrev main_v379 : Ref sig .tc := ⟨.hbm, 515, rfl⟩
abbrev main_v380 : Ref sig .tc := ⟨.hbm, 516, rfl⟩
abbrev main_v381 : Ref sig .tc := ⟨.hbm, 517, rfl⟩
abbrev main_v382 : Ref sig .tc := ⟨.hbm, 518, rfl⟩
abbrev main_c_94 : Ref sig .tc := ⟨.hbm, 519, rfl⟩
abbrev main_v383 : Ref sig .tc := ⟨.hbm, 520, rfl⟩
abbrev main_v384 : Ref sig .tc := ⟨.hbm, 521, rfl⟩
abbrev main_c_95 : Ref sig .tc := ⟨.hbm, 522, rfl⟩
abbrev main_v385 : Ref sig .tc := ⟨.hbm, 523, rfl⟩
abbrev main_v386 : Ref sig .tc := ⟨.hbm, 524, rfl⟩
abbrev main_v387 : Ref sig .tc := ⟨.hbm, 525, rfl⟩
abbrev main_v388 : Ref sig .tc := ⟨.hbm, 526, rfl⟩
abbrev main_v389 : Ref sig .tc := ⟨.hbm, 527, rfl⟩
abbrev main_v390 : Ref sig .tc := ⟨.hbm, 528, rfl⟩
abbrev main_v391 : Ref sig .tc := ⟨.hbm, 529, rfl⟩
abbrev main_c_96 : Ref sig .tc := ⟨.hbm, 530, rfl⟩
abbrev main_v392 : Ref sig .tc := ⟨.hbm, 531, rfl⟩
abbrev main_v393 : Ref sig .tc := ⟨.hbm, 532, rfl⟩
abbrev main_c_97 : Ref sig .tc := ⟨.hbm, 533, rfl⟩
abbrev main_v394 : Ref sig .tc := ⟨.hbm, 534, rfl⟩
abbrev main_v395 : Ref sig .tc := ⟨.hbm, 535, rfl⟩
abbrev main_v396 : Ref sig .tc := ⟨.hbm, 536, rfl⟩
abbrev main_v397 : Ref sig .tc := ⟨.hbm, 537, rfl⟩
abbrev main_v398 : Ref sig .tc := ⟨.hbm, 538, rfl⟩
abbrev main_v399 : Ref sig .tc := ⟨.hbm, 539, rfl⟩
abbrev main_v400 : Ref sig .tc := ⟨.hbm, 540, rfl⟩
abbrev main_v401 : Ref sig .tc := ⟨.hbm, 541, rfl⟩
abbrev main_cst_98 : Ref sig .tc := ⟨.hbm, 542, rfl⟩
abbrev main_v402 : Ref sig .tc := ⟨.hbm, 543, rfl⟩
abbrev main_v403 : Ref sig .tc := ⟨.hbm, 544, rfl⟩
abbrev main_v404 : Ref sig .tc := ⟨.hbm, 545, rfl⟩
abbrev main_v405 : Ref sig .tc := ⟨.hbm, 546, rfl⟩
abbrev main_v406 : Ref sig .tc := ⟨.hbm, 547, rfl⟩
abbrev main_v407 : Ref sig .tc := ⟨.hbm, 548, rfl⟩
abbrev main_v408 : Ref sig .tc := ⟨.hbm, 549, rfl⟩
abbrev main_v409 : Ref sig .tc := ⟨.hbm, 550, rfl⟩
abbrev main_v410 : Ref sig .tc := ⟨.hbm, 551, rfl⟩
abbrev main_v411 : Ref sig .tc := ⟨.hbm, 552, rfl⟩
abbrev main_v412 : Ref sig .tc := ⟨.hbm, 553, rfl⟩
abbrev main_v413 : Ref sig .tc := ⟨.hbm, 554, rfl⟩
abbrev main_v414 : Ref sig .tc := ⟨.hbm, 555, rfl⟩
abbrev main_v415 : Ref sig .tc := ⟨.hbm, 556, rfl⟩
abbrev main_cst_99 : Ref sig .tc := ⟨.hbm, 557, rfl⟩
abbrev main_v416 : Ref sig .tc := ⟨.hbm, 558, rfl⟩
abbrev main_cst_100 : Ref sig .tc := ⟨.hbm, 559, rfl⟩
abbrev main_v417 : Ref sig .tc := ⟨.hbm, 560, rfl⟩
abbrev main_v418 : Ref sig .tc := ⟨.hbm, 561, rfl⟩
abbrev main_v419 : Ref sig .tc := ⟨.hbm, 562, rfl⟩
abbrev main_cst_101 : Ref sig .tc := ⟨.hbm, 563, rfl⟩
abbrev main_v420 : Ref sig .tc := ⟨.hbm, 564, rfl⟩
abbrev main_cst_102 : Ref sig .tc := ⟨.hbm, 565, rfl⟩
abbrev main_v421 : Ref sig .tc := ⟨.hbm, 566, rfl⟩
abbrev main_v422 : Ref sig .tc := ⟨.hbm, 567, rfl⟩
abbrev main_v423 : Ref sig .tc := ⟨.hbm, 568, rfl⟩
abbrev main_cst_103 : Ref sig .tc := ⟨.hbm, 569, rfl⟩
abbrev main_v424 : Ref sig .tc := ⟨.hbm, 570, rfl⟩
abbrev main_v425 : Ref sig .tc := ⟨.hbm, 571, rfl⟩
abbrev main_cst_104 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_cst_105 : Ref sig .tc := ⟨.hbm, 576, rfl⟩
abbrev main_call12_v0 : Ref sig .tc := ⟨.hbm, 577, rfl⟩
abbrev main_call12_v1 : Ref sig .tc := ⟨.hbm, 578, rfl⟩
abbrev main_v429 : Ref sig .tc := ⟨.hbm, 579, rfl⟩
abbrev main_cst_106 : Ref sig .tc := ⟨.hbm, 580, rfl⟩
abbrev main_v430 : Ref sig .tc := ⟨.hbm, 581, rfl⟩
abbrev main_v431 : Ref sig .tc := ⟨.hbm, 582, rfl⟩
abbrev main_cst_107 : Ref sig .tc := ⟨.hbm, 583, rfl⟩
abbrev main_v432 : Ref sig .tc := ⟨.hbm, 584, rfl⟩
abbrev main_v433 : Ref sig .tc := ⟨.hbm, 585, rfl⟩
abbrev main_v434 : Ref sig .tc := ⟨.hbm, 586, rfl⟩
abbrev main_cst_108 : Ref sig .tc := ⟨.hbm, 587, rfl⟩
abbrev main_call13_v0 : Ref sig .tc := ⟨.hbm, 588, rfl⟩
abbrev main_call13_v1 : Ref sig .tc := ⟨.hbm, 589, rfl⟩
abbrev main_v435 : Ref sig .tc := ⟨.hbm, 590, rfl⟩
abbrev main_c_109 : Ref sig .tc := ⟨.hbm, 591, rfl⟩
abbrev main_v436 : Ref sig .tc := ⟨.hbm, 592, rfl⟩
abbrev main_v437 : Ref sig .tc := ⟨.hbm, 593, rfl⟩
abbrev main_c_110 : Ref sig .tc := ⟨.hbm, 594, rfl⟩
abbrev main_v438 : Ref sig .tc := ⟨.hbm, 595, rfl⟩
abbrev main_v439 : Ref sig .tc := ⟨.hbm, 596, rfl⟩
abbrev main_v440 : Ref sig .tc := ⟨.hbm, 597, rfl⟩
abbrev main_v441 : Ref sig .tc := ⟨.hbm, 598, rfl⟩
abbrev main_v442 : Ref sig .tc := ⟨.hbm, 599, rfl⟩
abbrev main_c_111 : Ref sig .tc := ⟨.hbm, 600, rfl⟩
abbrev main_v443 : Ref sig .tc := ⟨.hbm, 601, rfl⟩
abbrev main_v444 : Ref sig .tc := ⟨.hbm, 602, rfl⟩
abbrev main_c_112 : Ref sig .tc := ⟨.hbm, 603, rfl⟩
abbrev main_v445 : Ref sig .tc := ⟨.hbm, 604, rfl⟩
abbrev main_v446 : Ref sig .tc := ⟨.hbm, 605, rfl⟩
abbrev main_v447 : Ref sig .tc := ⟨.hbm, 606, rfl⟩
abbrev main_v448 : Ref sig .tc := ⟨.hbm, 607, rfl⟩
abbrev main_v449 : Ref sig .tc := ⟨.hbm, 608, rfl⟩
abbrev main_v450 : Ref sig .tc := ⟨.hbm, 609, rfl⟩
abbrev main_v451 : Ref sig .tc := ⟨.hbm, 610, rfl⟩
abbrev main_c_113 : Ref sig .tc := ⟨.hbm, 611, rfl⟩
abbrev main_v452 : Ref sig .tc := ⟨.hbm, 612, rfl⟩
abbrev main_v453 : Ref sig .tc := ⟨.hbm, 613, rfl⟩
abbrev main_c_114 : Ref sig .tc := ⟨.hbm, 614, rfl⟩
abbrev main_v454 : Ref sig .tc := ⟨.hbm, 615, rfl⟩
abbrev main_v455 : Ref sig .tc := ⟨.hbm, 616, rfl⟩
abbrev main_v456 : Ref sig .tc := ⟨.hbm, 617, rfl⟩
abbrev main_v457 : Ref sig .tc := ⟨.hbm, 618, rfl⟩
abbrev main_v458 : Ref sig .tc := ⟨.hbm, 619, rfl⟩
abbrev main_v459 : Ref sig .tc := ⟨.hbm, 620, rfl⟩
abbrev main_v460 : Ref sig .tc := ⟨.hbm, 621, rfl⟩
abbrev main_v461 : Ref sig .tc := ⟨.hbm, 622, rfl⟩
abbrev main_cst_115 : Ref sig .tc := ⟨.hbm, 623, rfl⟩
abbrev main_v462 : Ref sig .tc := ⟨.hbm, 624, rfl⟩
abbrev main_v463 : Ref sig .tc := ⟨.hbm, 625, rfl⟩
abbrev main_v464 : Ref sig .tc := ⟨.hbm, 626, rfl⟩
abbrev main_v465 : Ref sig .tc := ⟨.hbm, 627, rfl⟩
abbrev main_v466 : Ref sig .tc := ⟨.hbm, 628, rfl⟩
abbrev main_v467 : Ref sig .tc := ⟨.hbm, 629, rfl⟩
abbrev main_v468 : Ref sig .tc := ⟨.hbm, 630, rfl⟩
abbrev main_cst_116 : Ref sig .tc := ⟨.hbm, 631, rfl⟩
abbrev main_v469 : Ref sig .tc := ⟨.hbm, 632, rfl⟩
abbrev main_v470 : Ref sig .tc := ⟨.hbm, 633, rfl⟩
abbrev main_call14_cst : Ref sig .tc := ⟨.hbm, 634, rfl⟩
abbrev main_call14_v0 : Ref sig .tc := ⟨.hbm, 635, rfl⟩
abbrev main_v471 : Ref sig .tc := ⟨.hbm, 636, rfl⟩
abbrev main_v472 : Ref sig .tc := ⟨.hbm, 637, rfl⟩
abbrev main_cst_117 : Ref sig .tc := ⟨.hbm, 638, rfl⟩
abbrev main_v473 : Ref sig .tc := ⟨.hbm, 639, rfl⟩
abbrev main_v474 : Ref sig .tc := ⟨.hbm, 640, rfl⟩
abbrev main_call15_cst : Ref sig .tc := ⟨.hbm, 641, rfl⟩
abbrev main_call15_v0 : Ref sig .tc := ⟨.hbm, 642, rfl⟩
abbrev main_v475 : Ref sig .tc := ⟨.hbm, 643, rfl⟩
abbrev main_v476 : Ref sig .tc := ⟨.hbm, 644, rfl⟩
abbrev main_v477 : Ref sig .tc := ⟨.hbm, 645, rfl⟩
abbrev main_v478 : Ref sig .tc := ⟨.hbm, 646, rfl⟩
abbrev main_v479 : Ref sig .tc := ⟨.hbm, 647, rfl⟩
abbrev main_v480 : Ref sig .tc := ⟨.hbm, 648, rfl⟩
abbrev main_v481 : Ref sig .tc := ⟨.hbm, 649, rfl⟩
abbrev main_v482 : Ref sig .tc := ⟨.hbm, 650, rfl⟩
abbrev main_v483 : Ref sig .tc := ⟨.hbm, 651, rfl⟩
abbrev main_v484 : Ref sig .tc := ⟨.hbm, 652, rfl⟩
abbrev main_v485 : Ref sig .tc := ⟨.hbm, 653, rfl⟩
abbrev main_v486 : Ref sig .tc := ⟨.hbm, 654, rfl⟩
abbrev main_cst_118 : Ref sig .tc := ⟨.hbm, 655, rfl⟩
abbrev main_v487 : Ref sig .tc := ⟨.hbm, 656, rfl⟩
abbrev main_cst_119 : Ref sig .tc := ⟨.hbm, 657, rfl⟩
abbrev main_v488 : Ref sig .tc := ⟨.hbm, 658, rfl⟩
abbrev main_v489 : Ref sig .tc := ⟨.hbm, 659, rfl⟩
abbrev main_v490 : Ref sig .tc := ⟨.hbm, 660, rfl⟩
abbrev main_cst_120 : Ref sig .tc := ⟨.hbm, 661, rfl⟩
abbrev main_v491 : Ref sig .tc := ⟨.hbm, 662, rfl⟩
abbrev main_v492 : Ref sig .tc := ⟨.hbm, 663, rfl⟩
abbrev main_cst_121 : Ref sig .tc := ⟨.hbm, 664, rfl⟩
abbrev main_v493 : Ref sig .tc := ⟨.hbm, 665, rfl⟩
abbrev main_v494 : Ref sig .tc := ⟨.hbm, 666, rfl⟩
abbrev main_v495 : Ref sig .tc := ⟨.hbm, 667, rfl⟩
abbrev main_cst_122 : Ref sig .tc := ⟨.hbm, 668, rfl⟩
abbrev main_call16_v0 : Ref sig .tc := ⟨.hbm, 669, rfl⟩
abbrev main_call16_v1 : Ref sig .tc := ⟨.hbm, 670, rfl⟩
abbrev main_v496 : Ref sig .tc := ⟨.hbm, 671, rfl⟩
abbrev main_c_123 : Ref sig .tc := ⟨.hbm, 672, rfl⟩
abbrev main_v497 : Ref sig .tc := ⟨.hbm, 673, rfl⟩
abbrev main_v498 : Ref sig .tc := ⟨.hbm, 674, rfl⟩
abbrev main_c_124 : Ref sig .tc := ⟨.hbm, 675, rfl⟩
abbrev main_v499 : Ref sig .tc := ⟨.hbm, 676, rfl⟩
abbrev main_v500 : Ref sig .tc := ⟨.hbm, 677, rfl⟩
abbrev main_v501 : Ref sig .tc := ⟨.hbm, 678, rfl⟩
abbrev main_v502 : Ref sig .tc := ⟨.hbm, 679, rfl⟩
abbrev main_v503 : Ref sig .tc := ⟨.hbm, 680, rfl⟩
abbrev main_c_125 : Ref sig .tc := ⟨.hbm, 681, rfl⟩
abbrev main_v504 : Ref sig .tc := ⟨.hbm, 682, rfl⟩
abbrev main_v505 : Ref sig .tc := ⟨.hbm, 683, rfl⟩
abbrev main_c_126 : Ref sig .tc := ⟨.hbm, 684, rfl⟩
abbrev main_v506 : Ref sig .tc := ⟨.hbm, 685, rfl⟩
abbrev main_v507 : Ref sig .tc := ⟨.hbm, 686, rfl⟩
abbrev main_v508 : Ref sig .tc := ⟨.hbm, 687, rfl⟩
abbrev main_v509 : Ref sig .tc := ⟨.hbm, 688, rfl⟩
abbrev main_v510 : Ref sig .tc := ⟨.hbm, 689, rfl⟩
abbrev main_v511 : Ref sig .tc := ⟨.hbm, 690, rfl⟩
abbrev main_v512 : Ref sig .tc := ⟨.hbm, 691, rfl⟩
abbrev main_c_127 : Ref sig .tc := ⟨.hbm, 692, rfl⟩
abbrev main_v513 : Ref sig .tc := ⟨.hbm, 693, rfl⟩
abbrev main_v514 : Ref sig .tc := ⟨.hbm, 694, rfl⟩
abbrev main_c_128 : Ref sig .tc := ⟨.hbm, 695, rfl⟩
abbrev main_v515 : Ref sig .tc := ⟨.hbm, 696, rfl⟩
abbrev main_v516 : Ref sig .tc := ⟨.hbm, 697, rfl⟩
abbrev main_v517 : Ref sig .tc := ⟨.hbm, 698, rfl⟩
abbrev main_v518 : Ref sig .tc := ⟨.hbm, 699, rfl⟩
abbrev main_v519 : Ref sig .tc := ⟨.hbm, 700, rfl⟩
abbrev main_v520 : Ref sig .tc := ⟨.hbm, 701, rfl⟩
abbrev main_v521 : Ref sig .tc := ⟨.hbm, 702, rfl⟩
abbrev main_v522 : Ref sig .tc := ⟨.hbm, 703, rfl⟩
abbrev main_cst_129 : Ref sig .tc := ⟨.hbm, 704, rfl⟩
abbrev main_v523 : Ref sig .tc := ⟨.hbm, 705, rfl⟩
abbrev main_v524 : Ref sig .tc := ⟨.hbm, 706, rfl⟩
abbrev main_v525 : Ref sig .tc := ⟨.hbm, 707, rfl⟩
abbrev main_v526 : Ref sig .tc := ⟨.hbm, 708, rfl⟩
abbrev main_v527 : Ref sig .tc := ⟨.hbm, 709, rfl⟩
abbrev main_v528 : Ref sig .tc := ⟨.hbm, 710, rfl⟩
abbrev main_v529 : Ref sig .tc := ⟨.hbm, 711, rfl⟩
abbrev main_v530 : Ref sig .tc := ⟨.hbm, 712, rfl⟩
abbrev main_v531 : Ref sig .tc := ⟨.hbm, 713, rfl⟩
abbrev main_v532 : Ref sig .tc := ⟨.hbm, 714, rfl⟩
abbrev main_v533 : Ref sig .tc := ⟨.hbm, 715, rfl⟩
abbrev main_v534 : Ref sig .tc := ⟨.hbm, 716, rfl⟩
abbrev main_v535 : Ref sig .tc := ⟨.hbm, 717, rfl⟩
abbrev main_v536 : Ref sig .tc := ⟨.hbm, 718, rfl⟩
abbrev main_v537 : Ref sig .tc := ⟨.hbm, 719, rfl⟩
abbrev main_v538 : Ref sig .tc := ⟨.hbm, 720, rfl⟩
abbrev main_v539 : Ref sig .tc := ⟨.hbm, 721, rfl⟩
abbrev main_cst_130 : Ref sig .tc := ⟨.hbm, 722, rfl⟩
abbrev main_v540 : Ref sig .tc := ⟨.hbm, 723, rfl⟩
abbrev main_cst_131 : Ref sig .tc := ⟨.hbm, 724, rfl⟩
abbrev main_v541 : Ref sig .tc := ⟨.hbm, 725, rfl⟩
abbrev main_v542 : Ref sig .tc := ⟨.hbm, 726, rfl⟩
abbrev main_v543 : Ref sig .tc := ⟨.hbm, 727, rfl⟩
abbrev main_cst_132 : Ref sig .tc := ⟨.hbm, 728, rfl⟩
abbrev main_v544 : Ref sig .tc := ⟨.hbm, 729, rfl⟩
abbrev main_v545 : Ref sig .tc := ⟨.hbm, 730, rfl⟩
abbrev main_cst_133 : Ref sig .tc := ⟨.hbm, 731, rfl⟩
abbrev main_v546 : Ref sig .tc := ⟨.hbm, 732, rfl⟩
abbrev main_v547 : Ref sig .tc := ⟨.hbm, 733, rfl⟩
abbrev main_v548 : Ref sig .tc := ⟨.hbm, 734, rfl⟩
abbrev main_cst_134 : Ref sig .tc := ⟨.hbm, 735, rfl⟩
abbrev main_call17_v0 : Ref sig .tc := ⟨.hbm, 736, rfl⟩
abbrev main_call17_v1 : Ref sig .tc := ⟨.hbm, 737, rfl⟩
abbrev main_v549 : Ref sig .tc := ⟨.hbm, 738, rfl⟩
abbrev main_c_135 : Ref sig .tc := ⟨.hbm, 739, rfl⟩
abbrev main_v550 : Ref sig .tc := ⟨.hbm, 740, rfl⟩
abbrev main_v551 : Ref sig .tc := ⟨.hbm, 741, rfl⟩
abbrev main_c_136 : Ref sig .tc := ⟨.hbm, 742, rfl⟩
abbrev main_v552 : Ref sig .tc := ⟨.hbm, 743, rfl⟩
abbrev main_v553 : Ref sig .tc := ⟨.hbm, 744, rfl⟩
abbrev main_v554 : Ref sig .tc := ⟨.hbm, 745, rfl⟩
abbrev main_v555 : Ref sig .tc := ⟨.hbm, 746, rfl⟩
abbrev main_v556 : Ref sig .tc := ⟨.hbm, 747, rfl⟩
abbrev main_c_137 : Ref sig .tc := ⟨.hbm, 748, rfl⟩
abbrev main_v557 : Ref sig .tc := ⟨.hbm, 749, rfl⟩
abbrev main_v558 : Ref sig .tc := ⟨.hbm, 750, rfl⟩
abbrev main_c_138 : Ref sig .tc := ⟨.hbm, 751, rfl⟩
abbrev main_v559 : Ref sig .tc := ⟨.hbm, 752, rfl⟩
abbrev main_v560 : Ref sig .tc := ⟨.hbm, 753, rfl⟩
abbrev main_v561 : Ref sig .tc := ⟨.hbm, 754, rfl⟩
abbrev main_v562 : Ref sig .tc := ⟨.hbm, 755, rfl⟩
abbrev main_v563 : Ref sig .tc := ⟨.hbm, 756, rfl⟩
abbrev main_v564 : Ref sig .tc := ⟨.hbm, 757, rfl⟩
abbrev main_v565 : Ref sig .tc := ⟨.hbm, 758, rfl⟩
abbrev main_c_139 : Ref sig .tc := ⟨.hbm, 759, rfl⟩
abbrev main_v566 : Ref sig .tc := ⟨.hbm, 760, rfl⟩
abbrev main_v567 : Ref sig .tc := ⟨.hbm, 761, rfl⟩
abbrev main_c_140 : Ref sig .tc := ⟨.hbm, 762, rfl⟩
abbrev main_v568 : Ref sig .tc := ⟨.hbm, 763, rfl⟩
abbrev main_v569 : Ref sig .tc := ⟨.hbm, 764, rfl⟩
abbrev main_v570 : Ref sig .tc := ⟨.hbm, 765, rfl⟩
abbrev main_v571 : Ref sig .tc := ⟨.hbm, 766, rfl⟩
abbrev main_v572 : Ref sig .tc := ⟨.hbm, 767, rfl⟩
abbrev main_v573 : Ref sig .tc := ⟨.hbm, 768, rfl⟩
abbrev main_v574 : Ref sig .tc := ⟨.hbm, 769, rfl⟩
abbrev main_v575 : Ref sig .tc := ⟨.hbm, 770, rfl⟩
abbrev main_cst_141 : Ref sig .tc := ⟨.hbm, 771, rfl⟩
abbrev main_v576 : Ref sig .tc := ⟨.hbm, 772, rfl⟩
abbrev main_v577 : Ref sig .tc := ⟨.hbm, 773, rfl⟩
abbrev main_v578 : Ref sig .tc := ⟨.hbm, 774, rfl⟩
abbrev main_v579 : Ref sig .tc := ⟨.hbm, 775, rfl⟩
abbrev main_v580 : Ref sig .tc := ⟨.hbm, 776, rfl⟩
abbrev main_v581 : Ref sig .tc := ⟨.hbm, 777, rfl⟩
abbrev main_v582 : Ref sig .tc := ⟨.hbm, 778, rfl⟩
abbrev main_v583 : Ref sig .tc := ⟨.hbm, 779, rfl⟩
abbrev main_v584 : Ref sig .tc := ⟨.hbm, 780, rfl⟩
abbrev main_v585 : Ref sig .tc := ⟨.hbm, 781, rfl⟩
abbrev main_v586 : Ref sig .tc := ⟨.hbm, 782, rfl⟩
abbrev main_v587 : Ref sig .tc := ⟨.hbm, 783, rfl⟩
abbrev main_v588 : Ref sig .tc := ⟨.hbm, 784, rfl⟩
abbrev main_v589 : Ref sig .tc := ⟨.hbm, 785, rfl⟩
abbrev main_cst_142 : Ref sig .tc := ⟨.hbm, 786, rfl⟩
abbrev main_v590 : Ref sig .tc := ⟨.hbm, 787, rfl⟩
abbrev main_cst_143 : Ref sig .tc := ⟨.hbm, 788, rfl⟩
abbrev main_v591 : Ref sig .tc := ⟨.hbm, 789, rfl⟩
abbrev main_v592 : Ref sig .tc := ⟨.hbm, 790, rfl⟩
abbrev main_v593 : Ref sig .tc := ⟨.hbm, 791, rfl⟩
abbrev main_cst_144 : Ref sig .tc := ⟨.hbm, 792, rfl⟩
abbrev main_v594 : Ref sig .tc := ⟨.hbm, 793, rfl⟩
abbrev main_cst_145 : Ref sig .tc := ⟨.hbm, 794, rfl⟩
abbrev main_v595 : Ref sig .tc := ⟨.hbm, 795, rfl⟩
abbrev main_v596 : Ref sig .tc := ⟨.hbm, 796, rfl⟩
abbrev main_v597 : Ref sig .tc := ⟨.hbm, 797, rfl⟩
abbrev main_cst_146 : Ref sig .tc := ⟨.hbm, 798, rfl⟩
abbrev main_v598 : Ref sig .tc := ⟨.hbm, 799, rfl⟩
abbrev main_v599 : Ref sig .tc := ⟨.hbm, 800, rfl⟩
abbrev main_cst_147 : Ref sig .tc := ⟨.hbm, 801, rfl⟩
abbrev main_v600 : Ref sig .tc := ⟨.hbm, 802, rfl⟩
abbrev main_v601 : Ref sig .tc := ⟨.hbm, 803, rfl⟩
abbrev main_v602 : Ref sig .tc := ⟨.hbm, 804, rfl⟩
abbrev main_cst_148 : Ref sig .tc := ⟨.hbm, 805, rfl⟩
abbrev main_call18_v0 : Ref sig .tc := ⟨.hbm, 806, rfl⟩
abbrev main_call18_v1 : Ref sig .tc := ⟨.hbm, 807, rfl⟩
abbrev main_v603 : Ref sig .tc := ⟨.hbm, 808, rfl⟩
abbrev main_cst_149 : Ref sig .tc := ⟨.hbm, 809, rfl⟩
abbrev main_v604 : Ref sig .tc := ⟨.hbm, 810, rfl⟩
abbrev main_v605 : Ref sig .tc := ⟨.hbm, 811, rfl⟩
abbrev main_cst_150 : Ref sig .tc := ⟨.hbm, 812, rfl⟩
abbrev main_v606 : Ref sig .tc := ⟨.hbm, 813, rfl⟩
abbrev main_v607 : Ref sig .tc := ⟨.hbm, 814, rfl⟩
abbrev main_v608 : Ref sig .tc := ⟨.hbm, 815, rfl⟩
abbrev main_cst_151 : Ref sig .tc := ⟨.hbm, 816, rfl⟩
abbrev main_call19_v0 : Ref sig .tc := ⟨.hbm, 817, rfl⟩
abbrev main_call19_v1 : Ref sig .tc := ⟨.hbm, 818, rfl⟩
abbrev main_v609 : Ref sig .tc := ⟨.hbm, 819, rfl⟩
abbrev main_c_152 : Ref sig .tc := ⟨.hbm, 820, rfl⟩
abbrev main_v610 : Ref sig .tc := ⟨.hbm, 821, rfl⟩
abbrev main_v611 : Ref sig .tc := ⟨.hbm, 822, rfl⟩
abbrev main_c_153 : Ref sig .tc := ⟨.hbm, 823, rfl⟩
abbrev main_v612 : Ref sig .tc := ⟨.hbm, 824, rfl⟩
abbrev main_v613 : Ref sig .tc := ⟨.hbm, 825, rfl⟩
abbrev main_v614 : Ref sig .tc := ⟨.hbm, 826, rfl⟩
abbrev main_v615 : Ref sig .tc := ⟨.hbm, 827, rfl⟩
abbrev main_v616 : Ref sig .tc := ⟨.hbm, 828, rfl⟩
abbrev main_c_154 : Ref sig .tc := ⟨.hbm, 829, rfl⟩
abbrev main_v617 : Ref sig .tc := ⟨.hbm, 830, rfl⟩
abbrev main_v618 : Ref sig .tc := ⟨.hbm, 831, rfl⟩
abbrev main_c_155 : Ref sig .tc := ⟨.hbm, 832, rfl⟩
abbrev main_v619 : Ref sig .tc := ⟨.hbm, 833, rfl⟩
abbrev main_v620 : Ref sig .tc := ⟨.hbm, 834, rfl⟩
abbrev main_v621 : Ref sig .tc := ⟨.hbm, 835, rfl⟩
abbrev main_v622 : Ref sig .tc := ⟨.hbm, 836, rfl⟩
abbrev main_v623 : Ref sig .tc := ⟨.hbm, 837, rfl⟩
abbrev main_v624 : Ref sig .tc := ⟨.hbm, 838, rfl⟩
abbrev main_v625 : Ref sig .tc := ⟨.hbm, 839, rfl⟩
abbrev main_c_156 : Ref sig .tc := ⟨.hbm, 840, rfl⟩
abbrev main_v626 : Ref sig .tc := ⟨.hbm, 841, rfl⟩
abbrev main_v627 : Ref sig .tc := ⟨.hbm, 842, rfl⟩
abbrev main_c_157 : Ref sig .tc := ⟨.hbm, 843, rfl⟩
abbrev main_v628 : Ref sig .tc := ⟨.hbm, 844, rfl⟩
abbrev main_v629 : Ref sig .tc := ⟨.hbm, 845, rfl⟩
abbrev main_v630 : Ref sig .tc := ⟨.hbm, 846, rfl⟩
abbrev main_v631 : Ref sig .tc := ⟨.hbm, 847, rfl⟩
abbrev main_v632 : Ref sig .tc := ⟨.hbm, 848, rfl⟩
abbrev main_v633 : Ref sig .tc := ⟨.hbm, 849, rfl⟩
abbrev main_v634 : Ref sig .tc := ⟨.hbm, 850, rfl⟩
abbrev main_v635 : Ref sig .tc := ⟨.hbm, 851, rfl⟩
abbrev main_cst_158 : Ref sig .tc := ⟨.hbm, 852, rfl⟩
abbrev main_v636 : Ref sig .tc := ⟨.hbm, 853, rfl⟩
abbrev main_v637 : Ref sig .tc := ⟨.hbm, 854, rfl⟩
abbrev main_v638 : Ref sig .tc := ⟨.hbm, 855, rfl⟩
abbrev main_v639 : Ref sig .tc := ⟨.hbm, 856, rfl⟩
abbrev main_v640 : Ref sig .tc := ⟨.hbm, 857, rfl⟩
abbrev main_v641 : Ref sig .tc := ⟨.hbm, 858, rfl⟩
abbrev main_v642 : Ref sig .tc := ⟨.hbm, 859, rfl⟩
abbrev main_v643 : Ref sig .tc := ⟨.hbm, 860, rfl⟩
abbrev main_v644 : Ref sig .tc := ⟨.hbm, 861, rfl⟩
abbrev main_v645 : Ref sig .tc := ⟨.hbm, 862, rfl⟩
abbrev main_v646 : Ref sig .tc := ⟨.hbm, 863, rfl⟩
abbrev main_v647 : Ref sig .tc := ⟨.hbm, 864, rfl⟩
abbrev main_v648 : Ref sig .tc := ⟨.hbm, 865, rfl⟩
abbrev main_v649 : Ref sig .tc := ⟨.hbm, 866, rfl⟩
abbrev main_cst_159 : Ref sig .tc := ⟨.hbm, 867, rfl⟩
abbrev main_v650 : Ref sig .tc := ⟨.hbm, 868, rfl⟩
abbrev main_cst_160 : Ref sig .tc := ⟨.hbm, 869, rfl⟩
abbrev main_v651 : Ref sig .tc := ⟨.hbm, 870, rfl⟩
abbrev main_v652 : Ref sig .tc := ⟨.hbm, 871, rfl⟩
abbrev main_v653 : Ref sig .tc := ⟨.hbm, 872, rfl⟩
abbrev main_cst_161 : Ref sig .tc := ⟨.hbm, 873, rfl⟩
abbrev main_v654 : Ref sig .tc := ⟨.hbm, 874, rfl⟩
abbrev main_cst_162 : Ref sig .tc := ⟨.hbm, 875, rfl⟩
abbrev main_v655 : Ref sig .tc := ⟨.hbm, 876, rfl⟩
abbrev main_v656 : Ref sig .tc := ⟨.hbm, 877, rfl⟩
abbrev main_v657 : Ref sig .tc := ⟨.hbm, 878, rfl⟩
abbrev main_cst_163 : Ref sig .tc := ⟨.hbm, 879, rfl⟩
abbrev main_v658 : Ref sig .tc := ⟨.hbm, 880, rfl⟩
abbrev main_v659 : Ref sig .tc := ⟨.hbm, 881, rfl⟩
abbrev main_cst_164 : Ref sig .tc := ⟨.hbm, 882, rfl⟩
abbrev main_v660 : Ref sig .tc := ⟨.hbm, 883, rfl⟩
abbrev main_v661 : Ref sig .tc := ⟨.hbm, 884, rfl⟩
abbrev main_v662 : Ref sig .tc := ⟨.hbm, 885, rfl⟩
abbrev main_cst_165 : Ref sig .tc := ⟨.hbm, 886, rfl⟩
abbrev main_call20_v0 : Ref sig .tc := ⟨.hbm, 887, rfl⟩
abbrev main_call20_v1 : Ref sig .tc := ⟨.hbm, 888, rfl⟩
abbrev main_v663 : Ref sig .tc := ⟨.hbm, 889, rfl⟩
abbrev main_cst_166 : Ref sig .tc := ⟨.hbm, 890, rfl⟩
abbrev main_v664 : Ref sig .tc := ⟨.hbm, 891, rfl⟩
abbrev main_v665 : Ref sig .tc := ⟨.hbm, 892, rfl⟩
abbrev main_cst_167 : Ref sig .tc := ⟨.hbm, 893, rfl⟩
abbrev main_v666 : Ref sig .tc := ⟨.hbm, 894, rfl⟩
abbrev main_v667 : Ref sig .tc := ⟨.hbm, 895, rfl⟩
abbrev main_v668 : Ref sig .tc := ⟨.hbm, 896, rfl⟩
abbrev main_cst_168 : Ref sig .tc := ⟨.hbm, 897, rfl⟩
abbrev main_call21_v0 : Ref sig .tc := ⟨.hbm, 898, rfl⟩
abbrev main_call21_v1 : Ref sig .tc := ⟨.hbm, 899, rfl⟩
abbrev main_v669 : Ref sig .tc := ⟨.hbm, 900, rfl⟩
abbrev main_c_169 : Ref sig .tc := ⟨.hbm, 901, rfl⟩
abbrev main_v670 : Ref sig .tc := ⟨.hbm, 902, rfl⟩
abbrev main_v671 : Ref sig .tc := ⟨.hbm, 903, rfl⟩
abbrev main_c_170 : Ref sig .tc := ⟨.hbm, 904, rfl⟩
abbrev main_v672 : Ref sig .tc := ⟨.hbm, 905, rfl⟩
abbrev main_v673 : Ref sig .tc := ⟨.hbm, 906, rfl⟩
abbrev main_v674 : Ref sig .tc := ⟨.hbm, 907, rfl⟩
abbrev main_v675 : Ref sig .tc := ⟨.hbm, 908, rfl⟩
abbrev main_v676 : Ref sig .tc := ⟨.hbm, 909, rfl⟩
abbrev main_c_171 : Ref sig .tc := ⟨.hbm, 910, rfl⟩
abbrev main_v677 : Ref sig .tc := ⟨.hbm, 911, rfl⟩
abbrev main_v678 : Ref sig .tc := ⟨.hbm, 912, rfl⟩
abbrev main_c_172 : Ref sig .tc := ⟨.hbm, 913, rfl⟩
abbrev main_v679 : Ref sig .tc := ⟨.hbm, 914, rfl⟩
abbrev main_v680 : Ref sig .tc := ⟨.hbm, 915, rfl⟩
abbrev main_v681 : Ref sig .tc := ⟨.hbm, 916, rfl⟩
abbrev main_v682 : Ref sig .tc := ⟨.hbm, 917, rfl⟩
abbrev main_v683 : Ref sig .tc := ⟨.hbm, 918, rfl⟩
abbrev main_v684 : Ref sig .tc := ⟨.hbm, 919, rfl⟩
abbrev main_v685 : Ref sig .tc := ⟨.hbm, 920, rfl⟩
abbrev main_c_173 : Ref sig .tc := ⟨.hbm, 921, rfl⟩
abbrev main_v686 : Ref sig .tc := ⟨.hbm, 922, rfl⟩
abbrev main_v687 : Ref sig .tc := ⟨.hbm, 923, rfl⟩
abbrev main_c_174 : Ref sig .tc := ⟨.hbm, 924, rfl⟩
abbrev main_v688 : Ref sig .tc := ⟨.hbm, 925, rfl⟩
abbrev main_v689 : Ref sig .tc := ⟨.hbm, 926, rfl⟩
abbrev main_v690 : Ref sig .tc := ⟨.hbm, 927, rfl⟩
abbrev main_v691 : Ref sig .tc := ⟨.hbm, 928, rfl⟩
abbrev main_v692 : Ref sig .tc := ⟨.hbm, 929, rfl⟩
abbrev main_v693 : Ref sig .tc := ⟨.hbm, 930, rfl⟩
abbrev main_v694 : Ref sig .tc := ⟨.hbm, 931, rfl⟩
abbrev main_v695 : Ref sig .tc := ⟨.hbm, 932, rfl⟩
abbrev main_cst_175 : Ref sig .tc := ⟨.hbm, 933, rfl⟩
abbrev main_v696 : Ref sig .tc := ⟨.hbm, 934, rfl⟩
abbrev main_v697 : Ref sig .tc := ⟨.hbm, 935, rfl⟩
abbrev main_v698 : Ref sig .tc := ⟨.hbm, 936, rfl⟩
abbrev main_v699 : Ref sig .tc := ⟨.hbm, 937, rfl⟩
abbrev main_v700 : Ref sig .tc := ⟨.hbm, 938, rfl⟩
abbrev main_v701 : Ref sig .tc := ⟨.hbm, 939, rfl⟩
abbrev main_v702 : Ref sig .tc := ⟨.hbm, 940, rfl⟩
abbrev main_cst_176 : Ref sig .tc := ⟨.hbm, 941, rfl⟩
abbrev main_v703 : Ref sig .tc := ⟨.hbm, 942, rfl⟩
abbrev main_v704 : Ref sig .tc := ⟨.hbm, 943, rfl⟩
abbrev main_call22_cst : Ref sig .tc := ⟨.hbm, 944, rfl⟩
abbrev main_call22_v0 : Ref sig .tc := ⟨.hbm, 945, rfl⟩
abbrev main_v705 : Ref sig .tc := ⟨.hbm, 946, rfl⟩
abbrev main_v706 : Ref sig .tc := ⟨.hbm, 947, rfl⟩
abbrev main_cst_177 : Ref sig .tc := ⟨.hbm, 948, rfl⟩
abbrev main_v707 : Ref sig .tc := ⟨.hbm, 949, rfl⟩
abbrev main_v708 : Ref sig .tc := ⟨.hbm, 950, rfl⟩
abbrev main_call23_cst : Ref sig .tc := ⟨.hbm, 951, rfl⟩
abbrev main_call23_v0 : Ref sig .tc := ⟨.hbm, 952, rfl⟩
abbrev main_v709 : Ref sig .tc := ⟨.hbm, 953, rfl⟩
abbrev main_cst_178 : Ref sig .tc := ⟨.hbm, 954, rfl⟩
abbrev main_v710 : Ref sig .tc := ⟨.hbm, 955, rfl⟩
abbrev main_cst_179 : Ref sig .tc := ⟨.hbm, 956, rfl⟩
abbrev main_v711 : Ref sig .tc := ⟨.hbm, 957, rfl⟩
abbrev main_v712 : Ref sig .tc := ⟨.hbm, 958, rfl⟩
abbrev main_cst_180 : Ref sig .tc := ⟨.hbm, 959, rfl⟩
abbrev main_v713 : Ref sig .tc := ⟨.hbm, 960, rfl⟩
abbrev main_cst_181 : Ref sig .tc := ⟨.hbm, 961, rfl⟩
abbrev main_v714 : Ref sig .tc := ⟨.hbm, 962, rfl⟩
abbrev main_v715 : Ref sig .tc := ⟨.hbm, 963, rfl⟩
abbrev main_v716 : Ref sig .tc := ⟨.hbm, 964, rfl⟩
abbrev main_v717 : Ref sig .tc := ⟨.hbm, 965, rfl⟩
abbrev main_v718 : Ref sig .tc := ⟨.hbm, 966, rfl⟩
abbrev main_cst_182 : Ref sig .tc := ⟨.hbm, 967, rfl⟩
abbrev main_v719 : Ref sig .tc := ⟨.hbm, 968, rfl⟩
abbrev main_v720 : Ref sig .tc := ⟨.hbm, 969, rfl⟩
abbrev main_cst_183 : Ref sig .tc := ⟨.hbm, 970, rfl⟩
abbrev main_v721 : Ref sig .tc := ⟨.hbm, 971, rfl⟩
abbrev main_v722 : Ref sig .tc := ⟨.hbm, 972, rfl⟩
abbrev main_v723 : Ref sig .tc := ⟨.hbm, 973, rfl⟩
abbrev main_v724 : Ref sig .tc := ⟨.hbm, 974, rfl⟩
abbrev main_v725 : Ref sig .tc := ⟨.hbm, 975, rfl⟩
abbrev main_call24_cst : Ref sig .tc := ⟨.hbm, 976, rfl⟩
abbrev main_call24_v0 : Ref sig .tc := ⟨.hbm, 977, rfl⟩
abbrev main_v726 : Ref sig .tc := ⟨.hbm, 978, rfl⟩
abbrev main_v727 : Ref sig .tc := ⟨.hbm, 979, rfl⟩
abbrev main_v728 : Ref sig .tc := ⟨.hbm, 980, rfl⟩
abbrev main_v729 : Ref sig .tc := ⟨.hbm, 981, rfl⟩
abbrev main_v730 : Ref sig .tc := ⟨.hbm, 982, rfl⟩
abbrev main_v731 : Ref sig .tc := ⟨.hbm, 983, rfl⟩
abbrev main_cst_184 : Ref sig .tc := ⟨.hbm, 984, rfl⟩
abbrev main_v732 : Ref sig .tc := ⟨.hbm, 985, rfl⟩
abbrev main_v733 : Ref sig .tc := ⟨.hbm, 986, rfl⟩
abbrev main_cst_185 : Ref sig .tc := ⟨.hbm, 987, rfl⟩
abbrev main_v734 : Ref sig .tc := ⟨.hbm, 988, rfl⟩
abbrev main_v735 : Ref sig .tc := ⟨.hbm, 989, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S200000x64_0_1 : S1x64.BroadcastsInDim S200000x64 (![0, 1] : Fin 2 → Fin S200000x64.rank)
  slices_S3x4x64x64_S1x1x64x64_0_0_0_0 : S3x4x64x64.Slices ![0, 0, 0, 0] S1x1x64x64
  shapeCasts_S1x1x64x64_S64x64 : S1x1x64x64.ShapeCasts S64x64
  slices_S3x4x64_S1x1x64_0_0_0 : S3x4x64.Slices ![0, 0, 0] S1x1x64
  shapeCasts_S1x1x64_S64 : S1x1x64.ShapeCasts S64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  slices_S3x4x64x64_S1x1x64x64_0_1_0_0 : S3x4x64x64.Slices ![0, 1, 0, 0] S1x1x64x64
  slices_S3x4x64_S1x1x64_0_1_0 : S3x4x64.Slices ![0, 1, 0] S1x1x64
  concatenates_S1000000_S200000_S1200000_d0 : Shape.Concatenates [S1000000, S200000] S1200000 0
  bcast_S_S1200000 : S_.BroadcastsInDim S1200000 (![] : Fin 0 → Fin S1200000.rank)
  bcast_S_S200000 : S_.BroadcastsInDim S200000 (![] : Fin 0 → Fin S200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  slices_S3x4x64x64_S1x1x64x64_0_2_0_0 : S3x4x64x64.Slices ![0, 2, 0, 0] S1x1x64x64
  slices_S3x4x64_S1x1x64_0_2_0 : S3x4x64.Slices ![0, 2, 0] S1x1x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  slices_S3x4x64x64_S1x1x64x64_0_3_0_0 : S3x4x64x64.Slices ![0, 3, 0, 0] S1x1x64x64
  slices_S3x4x64_S1x1x64_0_3_0 : S3x4x64.Slices ![0, 3, 0] S1x1x64
  slices_S3x4x64x64_S1x1x64x64_1_0_0_0 : S3x4x64x64.Slices ![1, 0, 0, 0] S1x1x64x64
  slices_S3x4x64_S1x1x64_1_0_0 : S3x4x64.Slices ![1, 0, 0] S1x1x64
  slices_S3x4x64x64_S1x1x64x64_1_1_0_0 : S3x4x64x64.Slices ![1, 1, 0, 0] S1x1x64x64
  slices_S3x4x64_S1x1x64_1_1_0 : S3x4x64.Slices ![1, 1, 0] S1x1x64
  slices_S3x4x64x64_S1x1x64x64_1_2_0_0 : S3x4x64x64.Slices ![1, 2, 0, 0] S1x1x64x64
  slices_S3x4x64_S1x1x64_1_2_0 : S3x4x64.Slices ![1, 2, 0] S1x1x64
  slices_S3x4x64x64_S1x1x64x64_1_3_0_0 : S3x4x64x64.Slices ![1, 3, 0, 0] S1x1x64x64
  slices_S3x4x64_S1x1x64_1_3_0 : S3x4x64.Slices ![1, 3, 0] S1x1x64
  slices_S3x4x64x64_S1x1x64x64_2_0_0_0 : S3x4x64x64.Slices ![2, 0, 0, 0] S1x1x64x64
  slices_S3x4x64_S1x1x64_2_0_0 : S3x4x64.Slices ![2, 0, 0] S1x1x64
  slices_S3x4x64x64_S1x1x64x64_2_1_0_0 : S3x4x64x64.Slices ![2, 1, 0, 0] S1x1x64x64
  slices_S3x4x64_S1x1x64_2_1_0 : S3x4x64.Slices ![2, 1, 0] S1x1x64
  slices_S3x4x64x64_S1x1x64x64_2_2_0_0 : S3x4x64x64.Slices ![2, 2, 0, 0] S1x1x64x64
  slices_S3x4x64_S1x1x64_2_2_0 : S3x4x64.Slices ![2, 2, 0] S1x1x64
  slices_S3x4x64x64_S1x1x64x64_2_3_0_0 : S3x4x64x64.Slices ![2, 3, 0, 0] S1x1x64x64
  slices_S3x4x64_S1x1x64_2_3_0 : S3x4x64.Slices ![2, 3, 0] S1x1x64
  reducesTo_S100000x64_S64_d0 : S100000x64.ReducesTo [0] S64
  h_S_ : 0 < S_.numel
  bcast_S_S64 : S_.BroadcastsInDim S64 (![] : Fin 0 → Fin S64.rank)
  reducesTo_S200000x64_S64_d0 : S200000x64.ReducesTo [0] S64
  concatenates_S1x64_S1x64_S2x64_d0 : Shape.Concatenates [S1x64, S1x64] S2x64 0
  reducesTo_S2x64_S64_d0 : S2x64.ReducesTo [0] S64
  bcast_S_S1x64 : S_.BroadcastsInDim S1x64 (![] : Fin 0 → Fin S1x64.rank)
  bcast_S1_S1x1_1 : S1.BroadcastsInDim S1x1 (![1] : Fin 1 → Fin S1x1.rank)
  bcast_S_S1x1 : S_.BroadcastsInDim S1x1 (![] : Fin 0 → Fin S1x1.rank)
  dot_S100000x32_S32x64_S100000x64_1_0_0_1_n_n_wf : DotDims.WF S100000x32 S32x64 S100000x64 [1] [0] [0] [1] [] []
  dot_S200000x64_S64x64_S200000x64_1_0_0_1_n_n_wf : DotDims.WF S200000x64 S64x64 S200000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S200000_S1200000x1_S1200000_n_0_0_1_wf : ScatterDims.WF S200000 S1200000x1 S1200000 [] [0] [0] 1
  gather_S200000_S1200000x1_S1200000_n_0_n_n_0_1_1_wf : GatherDims.WF S200000 S1200000x1 S1200000 [] [0] [] [0] [] 1 ![1]
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  scatter_S100000_S1000000x1_S1000000_n_0_0_1_wf : ScatterDims.WF S100000 S1000000x1 S1000000 [] [0] [0] 1
  scatter_S200000_S1000000x1_S1000000_n_0_0_1_wf : ScatterDims.WF S200000 S1000000x1 S1000000 [] [0] [0] 1
  gather_S100000_S1000000x1_S1000000_n_0_n_n_0_1_1_wf : GatherDims.WF S100000 S1000000x1 S1000000 [] [0] [] [0] [] 1 ![1]
  gather_S200000_S1000000x1_S1000000_n_0_n_n_0_1_1_wf : GatherDims.WF S200000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.LibConcatColumns.lean ====
/-
  Two tables laid side by side, and a row of the result against a table of weights.

  An [a, n₁] table and an [a, n₂] table concatenated along the columns give an [a, n₁ + n₂] table whose row p holds
  the first table's row p in columns 0 … n₁ − 1 and the second's in columns n₁ … n₁ + n₂ − 1. So a sum over the
  n₁ + n₂ columns of row p against weights splits into the sum over the first table's columns plus the sum over the
  second's — the sum over a range cut in two, which needs only that addition is commutative and associative. When the
  weights are the rows of an [n₁ + n₂, b] table read down column q, the two parts read the table's top n₁ rows and its
  bottom n₂ rows: the two row slices of the weight table.
-/
import Idealize.ShloMosaic.Lib.Pipeline.Value
import Idealize.ShloMosaic.Lib.ValueIdx

noncomputable section

open scoped BigOperators

namespace Cert.LibConcatColumns

open Idealize.ShloMosaic Idealize.ShloMosaic.ValueIdx

variable {α : Type}

/-- A column of the concatenation that lies in the first table reads the first table there. -/
theorem concat_columns_left {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ (1 : Fin 2))
    (p : Fin a) (k : Fin n₁) (c : Fin n) (hc : c.val = k.val) :
    concatenate ⟨2, ![a, n]⟩ (1 : Fin 2) [⟨⟨2, ![a, n₁]⟩, x₁⟩, ⟨⟨2, ![a, n₂]⟩, x₂⟩] h (ix2 p c) = x₁ (ix2 p k) :=
  concatenate_pair_apply_left (1 : Fin 2) x₁ x₂ h (ix2 p c) rfl (ix2 p k) fun b => by
    match b with
    | ⟨0, _⟩ => rfl
    | ⟨1, _⟩ => exact hc.symm

/-- A column of the concatenation past the first table reads the second table, the first table's width less. -/
theorem concat_columns_right {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ (1 : Fin 2))
    (p : Fin a) (k : Fin n₂) (c : Fin n) (hc : c.val = n₁ + k.val) :
    concatenate ⟨2, ![a, n]⟩ (1 : Fin 2) [⟨⟨2, ![a, n₁]⟩, x₁⟩, ⟨⟨2, ![a, n₂]⟩, x₂⟩] h (ix2 p c) = x₂ (ix2 p k) :=
  concatenate_pair_apply_right (1 : Fin 2) x₁ x₂ h (ix2 p c) rfl rfl (ix2 p k)
    (fun b hb => by
      match b with
      | ⟨0, _⟩ => rfl
      | ⟨1, _⟩ => exact absurd rfl hb)
    (by show k.val + n₁ = c.val; omega)

/-- Rows o … o + m − 1 of an [n, b] table, as a slice: at (k, q) the table at (o + k, q). -/
theorem row_slice_apply {n m b o : ℕ} (W : (⟨2, ![n, b]⟩ : Shape).Idx → α)
    (h : (⟨2, ![n, b]⟩ : Shape).Slices ![o, 0] ⟨2, ![m, b]⟩) (k : Fin m) (q : Fin b) (r : Fin n) (hr : r.val = o + k.val) :
    extractStridedSlice ⟨2, ![m, b]⟩ ![o, 0] W h (ix2 k q) = W (ix2 r q) :=
  extractStridedSlice_apply ![o, 0] W h (ix2 k q) (ix2 r q) fun ax => by
    match ax with
    | ⟨0, _⟩ => exact hr
    | ⟨1, _⟩ => show q.val = 0 + q.val; omega

section Sums
variable {M : Type} [Mul M] [AddCommMonoid M]

/-- A row of the concatenation against weights, summed over all columns: the first table's part plus the second's. -/
theorem sum_concat_columns {a n₁ n₂ n : ℕ} (hn : n = n₁ + n₂)
    (x₁ : (⟨2, ![a, n₁]⟩ : Shape).Idx → M) (x₂ : (⟨2, ![a, n₂]⟩ : Shape).Idx → M)
    (h : Shape.Concatenates [(⟨2, ![a, n₁]⟩ : Shape), ⟨2, ![a, n₂]⟩] ⟨2, ![a, n]⟩ (1 : Fin 2))
    (w : Fin n → M) (p : Fin a) :
    ∑ c : Fin n, concatenate ⟨2, ![a, n]⟩ (1 : Fin 2) [⟨⟨2, ![a, n₁]⟩, x₁⟩, ⟨⟨2, ![a, n₂]⟩, x₂⟩] h (ix2 p c) * w c
      = (∑ k : Fin n₁, x₁ (ix2 p k) * w ⟨k.val, by omega⟩) + ∑ k : Fin n₂, x₂ (ix2 p k) * w ⟨n₁ + k.val, by omega⟩ := by
  subst hn
  rw [Fin.sum_univ_add]
  refine congrArg₂ (· + ·) (Finset.sum_congr rfl fun k _ => ?_) (Finset.sum_congr rfl fun k _ => ?_)
  · rw [concat_columns_left x₁ x₂ h p k (Fin.castAdd n₂ k) rfl]; rfl
  · rw [concat_columns_right x₁ x₂ h p k (Fin.natAdd n₁ k) rfl]; rfl

/-- A row of the concatenation times column q of an [n₁ + n₂, b] weight table: the first table's row times the
    weight table's top n₁ rows, plus the second table's row times its bottom n₂ rows. -/
theorem sum_concat_columns_mul_rows {a n₁ n₂ n b : ℕ} (hn : n = n₁ + n₂)
    (x₁ : (⟨2, ![a, n₁]⟩ : Shape).Idx → M) (x₂ : (⟨2, ![a, n₂]⟩ : Shape).Idx → M)
    (h : Shape.Concatenates [(⟨2, ![a, n₁]⟩ : Shape), ⟨2, ![a, n₂]⟩] ⟨2, ![a, n]⟩ (1 : Fin 2))
    (W : (⟨2, ![n, b]⟩ : Shape).Idx → M)
    (h₁ : (⟨2, ![n, b]⟩ : Shape).Slices ![0, 0] ⟨2, ![n₁, b]⟩) (h₂ : (⟨2, ![n, b]⟩ : Shape).Slices ![n₁, 0] ⟨2, ![n₂, b]⟩)
    (p : Fin a) (q : Fin b) :
    ∑ c : Fin n, concatenate ⟨2, ![a, n]⟩ (1 : Fin 2) [⟨⟨2, ![a, n₁]⟩, x₁⟩, ⟨⟨2, ![a, n₂]⟩, x₂⟩] h (ix2 p c) * W (ix2 c q)
      = (∑ k : Fin n₁, x₁ (ix2 p k) * extractStridedSlice ⟨2, ![n₁, b]⟩ ![0, 0] W h₁ (ix2 k q))
        + ∑ k : Fin n₂, x₂ (ix2 p k) * extractStridedSlice ⟨2, ![n₂, b]⟩ ![n₁, 0] W h₂ (ix2 k q) := by
  refine (sum_concat_columns hn x₁ x₂ h (fun c => W (ix2 c q)) p).trans ?_
  refine congrArg₂ (· + ·) (Finset.sum_congr rfl fun k _ => ?_) (Finset.sum_congr rfl fun k _ => ?_)
  · rw [row_slice_apply W h₁ k q ⟨k.val, by omega⟩ (by show k.val = 0 + k.val; omega)]
  · rw [row_slice_apply W h₂ k q ⟨n₁ + k.val, by omega⟩ rfl]

end Sums

end Cert.LibConcatColumns

end
-- ==== Proof.LibTileTwice.lean ====
/-
  A vector laid twice along one row, and a table packed two rows to a row.

  A length-n vector made a [1, n] row, then a [1, 1, 1, n] array, repeated along the third axis to [1, 1, 2, n] and
  flattened to a [1, 2n] row holds the vector twice, one copy after the other: the entry of column C is the vector's
  entry C mod n. In row-major order position C of the flattened row is position (C / n, C mod n) of the last two axes,
  and the repetition forgets the first of the two.

  An [a, b] table flattened and recut as an [a', b'] table (a · b = a' · b') holds at (R, C) the entry (r, c) with the
  same row-major position: r · b + c = R · b' + C.
-/
import Idealize.ShloMosaic.Lib.Pipeline.Value
import Idealize.ShloMosaic.Lib.ValueIdx
import Idealize.ShloMosaic.Lib.ValueLayout

noncomputable section

namespace Cert.LibTileTwice

open Idealize.ShloMosaic Idealize.ShloMosaic.ValueIdx

variable {α : Type}

/-- A table recut with another row length reads, at `(R, C)`, the entry `(r, c)` of the same row-major position. -/
theorem recut_apply {a b a' b' : ℕ} (x : (⟨2, ![a, b]⟩ : Shape).Idx → α)
    (h : (⟨2, ![a, b]⟩ : Shape).ShapeCasts ⟨2, ![a', b']⟩) (R : Fin a') (C : Fin b') (r : Fin a) (c : Fin b)
    (hpos : r.val * b + c.val = R.val * b' + C.val) :
    shapeCast ⟨2, ![a', b']⟩ x h (ix2 R C) = x (ix2 r c) :=
  shapeCast_apply x h _ _ (by
    rw [Shape.rowMajor_val_two, Shape.rowMajor_val_two]
    exact hpos)

/-- The vector laid twice along a row of length `m = 2 · n` reads, at column `C`, the vector's entry `C mod n`. -/
theorem tile_twice_apply {n m : ℕ} (v : (⟨1, ![n]⟩ : Shape).Idx → α)
    (h1 : (⟨1, ![n]⟩ : Shape).ShapeCasts ⟨2, ![1, n]⟩)
    (h2 : (⟨2, ![1, n]⟩ : Shape).ShapeCasts ⟨4, ![1, 1, 1, n]⟩)
    (h3 : (⟨4, ![1, 1, 1, n]⟩ : Shape).BroadcastsInDim ⟨4, ![1, 1, 2, n]⟩ ![0, 1, 2, 3])
    (h4 : (⟨4, ![1, 1, 2, n]⟩ : Shape).ShapeCasts ⟨2, ![1, m]⟩)
    (C : Fin m) (k : Fin n) (hm : m = 2 * n) (hk : k.val = C.val % n) :
    shapeCast ⟨2, ![1, m]⟩
        (broadcastInDim ⟨4, ![1, 1, 2, n]⟩ ![0, 1, 2, 3] h3
          (shapeCast ⟨4, ![1, 1, 1, n]⟩ (shapeCast ⟨2, ![1, n]⟩ v h1) h2)) h4 (ix2 (0 : Fin 1) C)
      = v (ix1 k) := by
  have hC : C.val < 2 * n := hm ▸ C.isLt
  have hn : 0 < n := by omega
  have hq : C.val / n < 2 := (Nat.div_lt_iff_lt_mul hn).mpr hC
  -- position C of the flattened row is position (C / n, C mod n) of the last two axes
  refine (shapeCast_apply _ h4 (ix2 (0 : Fin 1) C)
    (ix4 (0 : Fin 1) (0 : Fin 1) (⟨C.val / n, hq⟩ : Fin 2) k) ?_).trans ?_
  · rw [Shape.rowMajor_val_four, Shape.rowMajor_val_two]
    show ((0 * 1 + 0) * 2 + C.val / n) * n + k.val = 0 * m + C.val
    rw [hk]
    simp only [Nat.zero_mul, Nat.zero_add]
    exact Nat.div_add_mod' C.val n
  -- the repetition forgets the coordinate of the repeated axis
  refine (broadcastInDim_apply ![0, 1, 2, 3] h3 _ (ix4 (0 : Fin 1) (0 : Fin 1) (⟨C.val / n, hq⟩ : Fin 2) k)
    (ix4 (0 : Fin 1) (0 : Fin 1) (0 : Fin 1) k) fun ax => ?_).trans ?_
  · match ax with
    | ⟨0, _⟩ => rfl
    | ⟨1, _⟩ => rfl
    | ⟨2, _⟩ => rfl
    | ⟨3, _⟩ =>
      show k.val = if n = 1 then 0 else k.val
      split
      · have := k.isLt; omega
      · rfl
  -- the two unit-axis reshapes keep the one coordinate
  refine (shapeCast_apply _ h2 (ix4 (0 : Fin 1) (0 : Fin 1) (0 : Fin 1) k) (ix2 (0 : Fin 1) k) ?_).trans
    (shapeCast_a_1a_apply v h1 0 k)
  rw [Shape.rowMajor_val_four, Shape.rowMajor_val_two]
  show 0 * n + k.val = ((0 * 1 + 0) * 1 + 0) * n + k.val
  rfl

end Cert.LibTileTwice

end
-- ==== Proof.DenseMath.lean ====
/-
  The three dense pieces of the network as functions of whole arrays, on the extended reals.

  * an affine map  x · w + b  (the two embeddings),
  * a plain product  x · w  (the per-layer transforms, done for two weight tables side by side),
  * the mean of two biased arrays followed by a cut at zero (the combination of two relations).

  For each: what one block of rows of the kernel body computes at an index, and the equality of the
  whole-array function with the host's own spelling of it (a `dot_general` plus a broadcast row; a column slice
  of a product against two tables laid side by side; the pointwise chain on rows re-cut two to a line with the
  bias written twice).  No law beyond commutativity of reading is used: the sums are the same sums, term by
  term, so nothing here needs the inputs to be finite.
-/
import Idealize.ShloMosaic.PureOps.Ideal.Laws
import Idealize.ShloMosaic.Lib.ValueIdx
import Idealize.ShloMosaic.Lib.ValueLayout
import Idealize.ShloMosaic.Lib.Pipeline.Value
import proofs.«167272_j20323785244837_2_alg».proof.Proof.LibPlainDot
import proofs.«167272_j20323785244837_2_alg».proof.Proof.LibHostDot
import proofs.«167272_j20323785244837_2_alg».proof.Proof.LibBiasRow
import proofs.«167272_j20323785244837_2_alg».proof.Proof.LibConcatColumns
import proofs.«167272_j20323785244837_2_alg».proof.Proof.LibTileTwice

noncomputable section

open scoped BigOperators

namespace Cert.Dense

open Idealize.ShloMosaic Idealize.ShloMosaic.ValueIdx

/-- A table of extended reals with `a` rows and `b` columns. -/
abbrev Mat (a b : ℕ) := FVec Ideal ⟨2, ![a, b]⟩ .f32
/-- A vector of extended reals of length `b`. -/
abbrev Row (b : ℕ) := FVec Ideal ⟨1, ![b]⟩ .f32

/-- One half and zero, as the words both programs write. -/
abbrev half : Ideal .f32 := Ideal.ofBits .f32 0x3F000000#32
abbrev zero : Ideal .f32 := Ideal.ofBits .f32 0x00000000#32

/-- `x · w + b`: entry (p, q) is `Σ k, x (p, k) · w (k, q)` plus `b q`. -/
def affine {n K P : ℕ} (x : Mat n K) (w : Mat K P) (b : Row P) : Mat n P :=
  fun i => (∑ k : Fin K, x (ix2 (i 0) k) * w (ix2 k (i 1))) + b (ix1 (i 1))

/-- `x · w`: entry (p, q) is `Σ k, x (p, k) · w (k, q)`. -/
def product {n K P : ℕ} (x : Mat n K) (w : Mat K P) : Mat n P :=
  fun i => ∑ k : Fin K, x (ix2 (i 0) k) * w (ix2 k (i 1))

/-- Half the sum of two arrays, each with its bias added along the rows, cut at zero. -/
def meanRelu {n P : ℕ} (a b : Mat n P) (ba bb : Row P) : Mat n P :=
  fun i => max (((a i + ba (ix1 (i 1))) + (b i + bb (ix1 (i 1)))) * half) zero

/-! ## One block of rows of each kernel body, read at an index -/

/-- The affine body on a block: the product into a zero accumulator plus the bias laid along the rows. -/
theorem affine_block {m K P : ℕ} (D : DotDims ⟨2, ![m, K]⟩ ⟨2, ![K, P]⟩ ⟨2, ![m, P]⟩)
    (hlc : D.lhsContracting = [1]) (hrc : D.rhsContracting = [0])
    (hl0 : ∀ (j : (⟨2, ![m, P]⟩ : Shape).Idx) (c : D.contr.Idx), (D.lhsIdx j c 0).val = (j 0).val)
    (hr1 : ∀ (j : (⟨2, ![m, P]⟩ : Shape).Idx) (c : D.contr.Idx), (D.rhsIdx j c 1).val = (j 1).val)
    (hrank : D.contr.rank = 1) (hsize : D.contr.size ⟨0, by omega⟩ = K)
    (ht : FTy.bf16.bits < FTy.f32.bits)
    (h1 : (⟨1, ![P]⟩ : Shape).ShapeCasts ⟨2, ![1, P]⟩) (h2 : (⟨2, ![1, P]⟩ : Shape).Broadcasts ⟨2, ![m, P]⟩)
    (x0 : Mat m K) (x1 : Mat K P) (x2 : Row P) (p : Fin m) (q : Fin P) :
    addf (matmul D none (truncf .bf16 x0 ht) (truncf .bf16 x1 ht) (constant ⟨2, ![m, P]⟩ .f32 0x00000000#32))
        (broadcastTo ⟨2, ![m, P]⟩ (shapeCast ⟨2, ![1, P]⟩ x2 h1) h2) (ix2 p q)
      = (∑ k : Fin K, x0 (ix2 p k) * x1 (ix2 k q)) + x2 (ix1 q) := by
  rw [addf_apply, LibBiasRow.reshaped_row_apply]
  exact congrArg (· + x2 (ix1 q)) (LibPlainDot.matmul_zero_apply D hlc hrc hl0 hr1 hrank hsize none _ _ p q)

/-- The product body on a block. -/
theorem product_block {m K P : ℕ} (D : DotDims ⟨2, ![m, K]⟩ ⟨2, ![K, P]⟩ ⟨2, ![m, P]⟩)
    (hlc : D.lhsContracting = [1]) (hrc : D.rhsContracting = [0])
    (hl0 : ∀ (j : (⟨2, ![m, P]⟩ : Shape).Idx) (c : D.contr.Idx), (D.lhsIdx j c 0).val = (j 0).val)
    (hr1 : ∀ (j : (⟨2, ![m, P]⟩ : Shape).Idx) (c : D.contr.Idx), (D.rhsIdx j c 1).val = (j 1).val)
    (hrank : D.contr.rank = 1) (hsize : D.contr.size ⟨0, by omega⟩ = K)
    (ht : FTy.bf16.bits < FTy.f32.bits)
    (hx : (⟨2, ![m, K]⟩ : Shape).ShapeCasts ⟨2, ![m, K]⟩) (hw : (⟨2, ![K, P]⟩ : Shape).ShapeCasts ⟨2, ![K, P]⟩)
    (x0 : Mat m K) (x1 : Mat K P) (p : Fin m) (q : Fin P) :
    matmul D none (truncf .bf16 (shapeCast ⟨2, ![m, K]⟩ x0 hx) ht) (truncf .bf16 (shapeCast ⟨2, ![K, P]⟩ x1 hw) ht)
        (constant ⟨2, ![m, P]⟩ .f32 0x00000000#32) (ix2 p q)
      = ∑ k : Fin K, x0 (ix2 p k) * x1 (ix2 k q) := by
  rw [shapeCast_self, shapeCast_self]
  exact LibPlainDot.matmul_zero_apply D hlc hrc hl0 hr1 hrank hsize none _ _ p q

/-- The combining body on a block, at an index. -/
theorem meanRelu_block {m P : ℕ}
    (hs : (⟨2, ![m, P]⟩ : Shape).ShapeCasts ⟨2, ![m, P]⟩) (hr : (⟨1, ![P]⟩ : Shape).ShapeCasts ⟨1, ![P]⟩)
    (h1 : (⟨1, ![P]⟩ : Shape).ShapeCasts ⟨2, ![1, P]⟩) (h2 : (⟨2, ![1, P]⟩ : Shape).Broadcasts ⟨2, ![m, P]⟩)
    (a : Mat m P) (ba : Row P) (b : Mat m P) (bb : Row P) (p : Fin m) (q : Fin P) :
    maximumf
        (mulf
          (addf (addf (shapeCast ⟨2, ![m, P]⟩ a hs) (broadcastTo ⟨2, ![m, P]⟩ (shapeCast ⟨2, ![1, P]⟩ (shapeCast ⟨1, ![P]⟩ ba hr) h1) h2))
                (addf (shapeCast ⟨2, ![m, P]⟩ b hs) (broadcastTo ⟨2, ![m, P]⟩ (shapeCast ⟨2, ![1, P]⟩ (shapeCast ⟨1, ![P]⟩ bb hr) h1) h2)))
          (broadcast ⟨2, ![m, P]⟩ (Scalar.ofBits (F := Ideal) .f32 0x3F000000#32)))
        (broadcast ⟨2, ![m, P]⟩ (Scalar.ofBits (F := Ideal) .f32 0x00000000#32)) (ix2 p q)
      = max (((a (ix2 p q) + ba (ix1 q)) + (b (ix2 p q) + bb (ix1 q))) * half) zero := by
  rw [maximumf_apply, mulf_apply, addf_apply, addf_apply, addf_apply, shapeCast_self, shapeCast_self, shapeCast_self, shapeCast_self,
    LibBiasRow.reshaped_row_apply, LibBiasRow.reshaped_row_apply]
  rfl

/-! ## The host's spellings -/

/-- The affine map is the host's product plus the bias placed as a row and repeated over the rows. -/
theorem affine_eq_host {n K P : ℕ} (D : DotDims ⟨2, ![n, K]⟩ ⟨2, ![K, P]⟩ ⟨2, ![n, P]⟩)
    (hlc : D.lhsContracting = [1]) (hrc : D.rhsContracting = [0])
    (hl0 : ∀ (j : (⟨2, ![n, P]⟩ : Shape).Idx) (c : D.contr.Idx), (D.lhsIdx j c 0).val = (j 0).val)
    (hr1 : ∀ (j : (⟨2, ![n, P]⟩ : Shape).Idx) (c : D.contr.Idx), (D.rhsIdx j c 1).val = (j 1).val)
    (hrank : D.contr.rank = 1) (hsize : D.contr.size ⟨0, by omega⟩ = K)
    (h1 : (⟨1, ![P]⟩ : Shape).BroadcastsInDim ⟨2, ![1, P]⟩ ![1])
    (h2 : (⟨2, ![1, P]⟩ : Shape).BroadcastsInDim ⟨2, ![n, P]⟩ ![0, 1])
    (x : Mat n K) (w : Mat K P) (b : Row P) :
    affine x w b
      = addf (Host.dotGeneral D none x w) (broadcastInDim ⟨2, ![n, P]⟩ ![0, 1] h2 (broadcastInDim ⟨2, ![1, P]⟩ ![1] h1 b)) := by
  funext i
  obtain ⟨p, q, rfl⟩ : ∃ (p : Fin n) (q : Fin P), i = ix2 p q := ⟨i 0, i 1, eq_ix2 i⟩
  rw [addf_apply, LibBiasRow.placed_row_apply, LibHostDot.dotGeneral_plain_apply D hlc hrc hl0 hr1 hrank hsize]
  rfl

/-- A column slice read at an index: the operand at the column shifted by the offset. -/
theorem column_slice_apply {n P Q o : ℕ} (x : Mat n Q) (h : (⟨2, ![n, Q]⟩ : Shape).Slices ![0, o] ⟨2, ![n, P]⟩)
    (p : Fin n) (q : Fin P) (c : Fin Q) (hc : c.val = o + q.val) :
    extractStridedSlice ⟨2, ![n, P]⟩ ![0, o] x h (ix2 p q) = x (ix2 p c) :=
  extractStridedSlice_apply ![0, o] x h (ix2 p q) (ix2 p c) fun a => by
    match a with
    | ⟨0, _⟩ => show p.val = 0 + p.val; omega
    | ⟨1, _⟩ => exact hc

/-- The left half of the columns of a product against two tables side by side is the host's product against the
    first table: at column `q < P` the side-by-side table holds the first table's column `q`. -/
theorem left_columns_of_product {n K P Q : ℕ} (D : DotDims ⟨2, ![n, K]⟩ ⟨2, ![K, P]⟩ ⟨2, ![n, P]⟩)
    (hlc : D.lhsContracting = [1]) (hrc : D.rhsContracting = [0])
    (hl0 : ∀ (j : (⟨2, ![n, P]⟩ : Shape).Idx) (c : D.contr.Idx), (D.lhsIdx j c 0).val = (j 0).val)
    (hr1 : ∀ (j : (⟨2, ![n, P]⟩ : Shape).Idx) (c : D.contr.Idx), (D.rhsIdx j c 1).val = (j 1).val)
    (hrank : D.contr.rank = 1) (hsize : D.contr.size ⟨0, by omega⟩ = K) (hQ : Q = P + P)
    (hc : Shape.Concatenates [(⟨2, ![K, P]⟩ : Shape), ⟨2, ![K, P]⟩] ⟨2, ![K, Q]⟩ (1 : Fin 2))
    (hs : (⟨2, ![n, Q]⟩ : Shape).Slices ![0, 0] ⟨2, ![n, P]⟩)
    (x : Mat n K) (wa wb : Mat K P) :
    extractStridedSlice ⟨2, ![n, P]⟩ ![0, 0]
        (product x (concatenate ⟨2, ![K, Q]⟩ (1 : Fin 2) [⟨⟨2, ![K, P]⟩, wa⟩, ⟨⟨2, ![K, P]⟩, wb⟩] hc)) hs
      = Host.dotGeneral D none x wa := by
  funext i
  obtain ⟨p, q, rfl⟩ : ∃ (p : Fin n) (q : Fin P), i = ix2 p q := ⟨i 0, i 1, eq_ix2 i⟩
  rw [column_slice_apply _ hs p q ⟨q.val, by have := q.isLt; omega⟩ (by show q.val = 0 + q.val; omega),
    LibHostDot.dotGeneral_plain_apply D hlc hrc hl0 hr1 hrank hsize]
  exact Finset.sum_congr rfl fun k _ =>
    congrArg (x (ix2 p k) * ·) (LibConcatColumns.concat_columns_left wa wb hc k q _ rfl)

/-- The right half of the columns is the product against the second table. -/
theorem right_columns_of_product {n K P Q : ℕ} (D : DotDims ⟨2, ![n, K]⟩ ⟨2, ![K, P]⟩ ⟨2, ![n, P]⟩)
    (hlc : D.lhsContracting = [1]) (hrc : D.rhsContracting = [0])
    (hl0 : ∀ (j : (⟨2, ![n, P]⟩ : Shape).Idx) (c : D.contr.Idx), (D.lhsIdx j c 0).val = (j 0).val)
    (hr1 : ∀ (j : (⟨2, ![n, P]⟩ : Shape).Idx) (c : D.contr.Idx), (D.rhsIdx j c 1).val = (j 1).val)
    (hrank : D.contr.rank = 1) (hsize : D.contr.size ⟨0, by omega⟩ = K) (hQ : Q = P + P)
    (hc : Shape.Concatenates [(⟨2, ![K, P]⟩ : Shape), ⟨2, ![K, P]⟩] ⟨2, ![K, Q]⟩ (1 : Fin 2))
    (hs : (⟨2, ![n, Q]⟩ : Shape).Slices ![0, P] ⟨2, ![n, P]⟩)
    (x : Mat n K) (wa wb : Mat K P) :
    extractStridedSlice ⟨2, ![n, P]⟩ ![0, P]
        (product x (concatenate ⟨2, ![K, Q]⟩ (1 : Fin 2) [⟨⟨2, ![K, P]⟩, wa⟩, ⟨⟨2, ![K, P]⟩, wb⟩] hc)) hs
      = Host.dotGeneral D none x wb := by
  funext i
  obtain ⟨p, q, rfl⟩ : ∃ (p : Fin n) (q : Fin P), i = ix2 p q := ⟨i 0, i 1, eq_ix2 i⟩
  rw [column_slice_apply _ hs p q ⟨P + q.val, by have := q.isLt; omega⟩ rfl,
    LibHostDot.dotGeneral_plain_apply D hlc hrc hl0 hr1 hrank hsize]
  exact Finset.sum_congr rfl fun k _ =>
    congrArg (x (ix2 p k) * ·) (LibConcatColumns.concat_columns_right wa wb hc k q _ rfl)

/-- A vector written twice in a line: made a one-row table, the row repeated, the two rows read as one line.
    At position `C` it holds the vector's entry `C mod n`. -/
theorem twice_apply {n m : ℕ} (v : Row n)
    (h1 : (⟨1, ![n]⟩ : Shape).ShapeCasts ⟨2, ![1, n]⟩)
    (h2 : (⟨2, ![1, n]⟩ : Shape).BroadcastsInDim ⟨2, ![2, n]⟩ ![0, 1])
    (h3 : (⟨2, ![2, n]⟩ : Shape).ShapeCasts ⟨1, ![m]⟩)
    (C : Fin m) (k : Fin n) (hm : m = 2 * n) (hk : k.val = C.val % n) :
    shapeCast ⟨1, ![m]⟩ (broadcastInDim ⟨2, ![2, n]⟩ ![0, 1] h2 (shapeCast ⟨2, ![1, n]⟩ v h1)) h3 (ix1 C) = v (ix1 k) := by
  have hn : 0 < n := by have := k.isLt; omega
  have hC : C.val < 2 * n := hm ▸ C.isLt
  have hq : C.val / n < 2 := (Nat.div_lt_iff_lt_mul hn).mpr hC
  refine (shapeCast_apply _ h3 (ix1 C) (ix2 (⟨C.val / n, hq⟩ : Fin 2) k) ?_).trans ?_
  · rw [Shape.rowMajor_val_two, Shape.rowMajor_val_one]
    show C.val / n * n + k.val = C.val
    rw [hk]
    exact Nat.div_add_mod' C.val n
  refine (broadcastInDim_apply ![0, 1] h2 _ (ix2 (⟨C.val / n, hq⟩ : Fin 2) k) (ix2 (0 : Fin 1) k) fun ax => ?_).trans ?_
  · match ax with
    | ⟨0, _⟩ => rfl
    | ⟨1, _⟩ =>
      show k.val = if n = 1 then 0 else k.val
      split
      · have := k.isLt; omega
      · rfl
  exact shapeCast_apply v h1 (ix2 (0 : Fin 1) k) (ix1 k) (by
    rw [Shape.rowMajor_val_one, Shape.rowMajor_val_two]
    show k.val = 0 * n + k.val
    omega)

/-- Rows packed two to a line, combined with the biases written twice, and unpacked again, are the rows combined
    with the biases themselves: the line `R = r / 2` holds row `r` at columns `(r mod 2) · P + c`, and the
    twice-written bias there is the bias at `c`. -/
theorem packed_meanRelu {n n' P Q : ℕ} (hn : n = 2 * n') (hQ : Q = 2 * P)
    (hp : (⟨2, ![n, P]⟩ : Shape).ShapeCasts ⟨2, ![n', Q]⟩) (hu : (⟨2, ![n', Q]⟩ : Shape).ShapeCasts ⟨2, ![n, P]⟩)
    (t1 : (⟨1, ![P]⟩ : Shape).ShapeCasts ⟨2, ![1, P]⟩)
    (t2 : (⟨2, ![1, P]⟩ : Shape).BroadcastsInDim ⟨2, ![2, P]⟩ ![0, 1])
    (t3 : (⟨2, ![2, P]⟩ : Shape).ShapeCasts ⟨1, ![Q]⟩)
    (r1 : (⟨1, ![P]⟩ : Shape).BroadcastsInDim ⟨2, ![1, P]⟩ ![1])
    (r2 : (⟨2, ![1, P]⟩ : Shape).BroadcastsInDim ⟨2, ![n, P]⟩ ![0, 1])
    (f : (⟨0, ![]⟩ : Shape).BroadcastsInDim ⟨2, ![n, P]⟩ ![])
    (a b : Mat n P) (ba bb : Row P) :
    shapeCast ⟨2, ![n, P]⟩
        (meanRelu (shapeCast ⟨2, ![n', Q]⟩ a hp) (shapeCast ⟨2, ![n', Q]⟩ b hp)
          (shapeCast ⟨1, ![Q]⟩ (broadcastInDim ⟨2, ![2, P]⟩ ![0, 1] t2 (shapeCast ⟨2, ![1, P]⟩ ba t1)) t3)
          (shapeCast ⟨1, ![Q]⟩ (broadcastInDim ⟨2, ![2, P]⟩ ![0, 1] t2 (shapeCast ⟨2, ![1, P]⟩ bb t1)) t3)) hu
      = maximumf
          (mulf
            (addf (addf a (broadcastInDim ⟨2, ![n, P]⟩ ![0, 1] r2 (broadcastInDim ⟨2, ![1, P]⟩ ![1] r1 ba)))
                  (addf b (broadcastInDim ⟨2, ![n, P]⟩ ![0, 1] r2 (broadcastInDim ⟨2, ![1, P]⟩ ![1] r1 bb))))
            (broadcastInDim ⟨2, ![n, P]⟩ ![] f (constant (F := Ideal) ⟨0, ![]⟩ .f32 0x3F000000#32)))
          (broadcastInDim ⟨2, ![n, P]⟩ ![] f (constant (F := Ideal) ⟨0, ![]⟩ .f32 0x00000000#32)) := by
  funext i
  obtain ⟨r, c, rfl⟩ : ∃ (r : Fin n) (c : Fin P), i = ix2 r c := ⟨i 0, i 1, eq_ix2 i⟩
  have hr := r.isLt
  have hcl := c.isLt
  have hR : r.val / 2 < n' := by omega
  have hCc : r.val % 2 * P + c.val < Q := by
    have : r.val % 2 < 2 := Nat.mod_lt _ (by omega)
    rcases Nat.lt_succ_iff_lt_or_eq.mp this with h | h
    · have : r.val % 2 = 0 := by omega
      rw [this]; omega
    · rw [h]; omega
  have hpos : r.val * P + c.val = (⟨r.val / 2, hR⟩ : Fin n').val * Q + (⟨r.val % 2 * P + c.val, hCc⟩ : Fin Q).val := by
    show r.val * P + c.val = r.val / 2 * Q + (r.val % 2 * P + c.val)
    have h2 := Nat.div_add_mod r.val 2
    subst hQ
    calc r.val * P + c.val = (2 * (r.val / 2) + r.val % 2) * P + c.val := by rw [h2]
      _ = r.val / 2 * (2 * P) + (r.val % 2 * P + c.val) := by ring
  have hmod : c.val = (⟨r.val % 2 * P + c.val, hCc⟩ : Fin Q).val % P := by
    show c.val = (r.val % 2 * P + c.val) % P
    rw [Nat.mul_add_mod_of_lt hcl]
  -- the unpacking reads the packed line at the equal row-major position
  rw [LibTileTwice.recut_apply _ hu r c ⟨r.val / 2, hR⟩ ⟨r.val % 2 * P + c.val, hCc⟩ hpos.symm]
  show max (((shapeCast ⟨2, ![n', Q]⟩ a hp (ix2 (⟨r.val / 2, hR⟩ : Fin n') (⟨r.val % 2 * P + c.val, hCc⟩ : Fin Q))
        + shapeCast ⟨1, ![Q]⟩ (broadcastInDim ⟨2, ![2, P]⟩ ![0, 1] t2 (shapeCast ⟨2, ![1, P]⟩ ba t1)) t3 (ix1 (⟨r.val % 2 * P + c.val, hCc⟩ : Fin Q)))
      + (shapeCast ⟨2, ![n', Q]⟩ b hp (ix2 (⟨r.val / 2, hR⟩ : Fin n') (⟨r.val % 2 * P + c.val, hCc⟩ : Fin Q))
        + shapeCast ⟨1, ![Q]⟩ (broadcastInDim ⟨2, ![2, P]⟩ ![0, 1] t2 (shapeCast ⟨2, ![1, P]⟩ bb t1)) t3 (ix1 (⟨r.val % 2 * P + c.val, hCc⟩ : Fin Q)))) * half) zero = _
  rw [LibTileTwice.recut_apply a hp ⟨r.val / 2, hR⟩ ⟨r.val % 2 * P + c.val, hCc⟩ r c hpos,
    LibTileTwice.recut_apply b hp ⟨r.val / 2, hR⟩ ⟨r.val % 2 * P + c.val, hCc⟩ r c hpos,
    twice_apply ba t1 t2 t3 ⟨r.val % 2 * P + c.val, hCc⟩ c hQ hmod,
    twice_apply bb t1 t2 t3 ⟨r.val % 2 * P + c.val, hCc⟩ c hQ hmod,
    maximumf_apply, mulf_apply, addf_apply, addf_apply, addf_apply,
    LibBiasRow.placed_row_apply, LibBiasRow.placed_row_apply, LibBiasRow.fill_apply, LibBiasRow.fill_apply]
  rfl

end Cert.Dense

end
-- ==== Proof.RegionBase.lean ====
/-
  What every region's reading uses: a block offset written coordinate by coordinate is the zero offset; and each of the
  three whole-array functions read at an index through given positions of its arguments.
-/
import proofs.«167272_j20323785244837_2_alg».proof.Proof.DenseMath
import Mathlib.Data.Fin.VecNotation
import Mathlib.Tactic.FinCases

noncomputable section

open scoped BigOperators

namespace Cert.KernelIdeal.Regions

open Idealize.ShloMosaic Idealize.ShloMosaic.ValueIdx Cert.Dense

theorem zero2 : (![0, 0] : Fin 2 → Nat) = fun _ => 0 := funext fun a => by fin_cases a <;> rfl
theorem zero1 : (![0] : Fin 1 → Nat) = fun _ => 0 := funext fun a => by fin_cases a; rfl

/-- The affine map at `i`, from its arguments read at the row of `i`, the column of `i`, and the bias at the column. -/
theorem affine_at {n K P : ℕ} (X : Mat n K) (W : Mat K P) (B : Row P) (i : (⟨2, ![n, P]⟩ : Shape).Idx)
    (xr : Fin K → (⟨2, ![n, K]⟩ : Shape).Idx) (wr : Fin K → (⟨2, ![K, P]⟩ : Shape).Idx) (br : (⟨1, ![P]⟩ : Shape).Idx)
    (hx : ∀ k, xr k = ix2 (i 0) k) (hw : ∀ k, wr k = ix2 k (i 1)) (hb : br = ix1 (i 1)) :
    (∑ k : Fin K, X (xr k) * W (wr k)) + B br = affine X W B i := by
  unfold affine
  subst hb
  exact congrArg (· + B (ix1 (i 1))) (Finset.sum_congr rfl fun k _ => congrArg₂ (· * ·) (congrArg X (hx k)) (congrArg W (hw k)))

/-- The product at `i`. -/
theorem product_at {n K P : ℕ} (X : Mat n K) (W : Mat K P) (i : (⟨2, ![n, P]⟩ : Shape).Idx)
    (xr : Fin K → (⟨2, ![n, K]⟩ : Shape).Idx) (wr : Fin K → (⟨2, ![K, P]⟩ : Shape).Idx)
    (hx : ∀ k, xr k = ix2 (i 0) k) (hw : ∀ k, wr k = ix2 k (i 1)) :
    (∑ k : Fin K, X (xr k) * W (wr k)) = product X W i := by
  unfold product
  exact Finset.sum_congr rfl fun k _ => congrArg₂ (· * ·) (congrArg X (hx k)) (congrArg W (hw k))

/-- The combination at `i`. -/
theorem meanRelu_at {n P : ℕ} (A B : Mat n P) (ba bb : Row P) (i ia ib : (⟨2, ![n, P]⟩ : Shape).Idx)
    (ja jb : (⟨1, ![P]⟩ : Shape).Idx) (ha : ia = i) (hb : ib = i) (hja : ja = ix1 (i 1)) (hjb : jb = ix1 (i 1)) :
    max (((A ia + ba ja) + (B ib + bb jb)) * half) zero = meanRelu A B ba bb i := by
  subst ha hb hja hjb
  rfl

end Cert.KernelIdeal.Regions

end
-- ==== Proof.Region0.lean ====
/-
  Region 0: an embedding, one block of 5000 rows per grid point.

  Point `t` reads rows `5000 t … 5000 t + 4999` of the features, the whole weight table and the whole bias, and writes
  the same rows of the output.  So the output array ends holding `x · w + b` row by row: every row lies in the block
  of the point `row / 5000`.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body0_apply (x0 : Vec Ideal S5000x32 .f32) (x1 : Vec Ideal S32x64 .f32) (x2 : Vec Ideal S64 .f32) (p : Fin 5000) (q : Fin 64) :
    k0_pay1 x0 x1 x2 (ix2 p q) = (∑ k : Fin 32, x0 (ix2 p k) * x1 (ix2 k q)) + x2 (ix1 q) := by
  unfold k0_pay1
  exact affine_block dot_S5000x32_S32x64_S5000x64_1_0_0_1_n_n rfl rfl (fun _ _ => rfl) (fun _ _ => rfl) rfl rfl _ _ _ x0 x1 x2 p q

/-- The printed index maps over the grid: the row windows sit at block `t`, the table and the bias at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `x · w + b`. -/
theorem flushed0 (c : Dev nD) (t : Fin cfg0.N) :
    (dat0 V c).flushed 3 t = ((cfg0.win 3).blk t).view.read (Elt Ideal) (affine (n := 100000) (K := 32) (P := 64) (V c main_arg0) (V c main_arg6) (V c main_arg7)) := by
  show (cfg0.win 3).cut (grid0.coords t) ((dat0 V c).after 3 t) = _
  rw [after0_3]
  unfold out0_3
  rw [View.canon_unit_zero zero2]
  simp only [View.ld_unit_zero (S := S5000x32) zero2, View.ld_unit_zero (S := S32x64) zero2, View.ld_unit_zero (S := S64) zero1]
  obtain ⟨e0, e1, e2, e3, e4, e5, e6⟩ := idx0 t
  funext j
  obtain ⟨p, q, rfl⟩ : ∃ (p : Fin 5000) (q : Fin 64), j = ix2 p q := ⟨j 0, j 1, eq_ix2 j⟩
  refine (body0_apply _ _ _ p q).trans ?_
  have hp := p.isLt
  have hq := q.isLt
  refine affine_at (n := 100000) (K := 32) (P := 64) (V c main_arg0) (V c main_arg6) (V c main_arg7) (((cfg0.win 3).blk t).view.emb (ix2 p q))
    (fun k => (((cfg0.win 0).blk t).view.emb (ix2 p k))) (fun k => (((cfg0.win 1).blk t).view.emb (ix2 k q))) (((cfg0.win 2).blk t).view.emb (ix1 q)) (fun k => ?_) (fun k => ?_) ?_
  ·
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 32 + 1 * k.val = k.val; omega
  ·
    funext a; apply Fin.ext
    match a with
    | ⟨0, _⟩ => show win0_1.index t (0 : Fin 2) * 32 + 1 * k.val = k.val; omega
    | ⟨1, _⟩ => show win0_1.index t (1 : Fin 2) * 64 + 1 * q.val = win0_3.index t (1 : Fin 2) * 64 + 1 * q.val; omega
  ·
    funext a; apply Fin.ext
    match a with
    | ⟨0, _⟩ => show win0_2.index t (0 : Fin 1) * 64 + 1 * q.val = win0_3.index t (1 : Fin 2) * 64 + 1 * q.val; omega

/-- An index is in point `t`'s block iff each coordinate is in the block's range. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Every row is in the block of the point `row / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_3 _, ?_⟩
  rw [mem_blk0]
  have e := idx0 ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    have e' : win0_3.index ⟨(i 0).val / 5000, ht⟩ (0 : Fin 2) = (i 0).val / 5000 := e.2.2.2.2.2.1
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    have e' : win0_3.index ⟨(i 0).val / 5000, ht⟩ (1 : Fin 2) = 0 := e.2.2.2.2.2.2
    omega

/-- The output array after the region. -/
theorem final0 (c : Dev nD) :
    (dat0 V c).arrAt 3 cfg0.N = affine (n := 100000) (K := 32) (P := 64) (V c main_arg0) (V c main_arg6) (V c main_arg7) :=
  (dat0 V c).arrAt_eq_of_cover 3 _ (fun t _ => flushed0 V c t) cover0

end Cert.KernelIdeal.Regions

end
-- ==== Proof.Region1.lean ====
/-
  Region 1: an embedding, one block of 5000 rows per grid point.

  Point `t` reads rows `5000 t … 5000 t + 4999` of the features, the whole weight table and the whole bias, and writes
  the same rows of the output.  So the output array ends holding `x · w + b` row by row: every row lies in the block
  of the point `row / 5000`.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body1_apply (x0 : Vec Ideal S5000x64 .f32) (x1 : Vec Ideal S64x64 .f32) (x2 : Vec Ideal S64 .f32) (p : Fin 5000) (q : Fin 64) :
    k1_pay1 x0 x1 x2 (ix2 p q) = (∑ k : Fin 64, x0 (ix2 p k) * x1 (ix2 k q)) + x2 (ix1 q) := by
  unfold k1_pay1
  exact affine_block dot_S5000x64_S64x64_S5000x64_1_0_0_1_n_n rfl rfl (fun _ _ => rfl) (fun _ _ => rfl) rfl rfl _ _ _ x0 x1 x2 p q

/-- The printed index maps over the grid: the row windows sit at block `t`, the table and the bias at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- What point `t` writes back is block `t` of `x · w + b`. -/
theorem flushed1 (c : Dev nD) (t : Fin cfg1.N) :
    (dat1 V c).flushed 3 t = ((cfg1.win 3).blk t).view.read (Elt Ideal) (affine (n := 200000) (K := 64) (P := 64) (V c main_arg1) (V c main_arg8) (V c main_arg9)) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S64x64) zero2, View.ld_unit_zero (S := S64) zero1]
  obtain ⟨e0, e1, e2, e3, e4, e5, e6⟩ := idx1 t
  funext j
  obtain ⟨p, q, rfl⟩ : ∃ (p : Fin 5000) (q : Fin 64), j = ix2 p q := ⟨j 0, j 1, eq_ix2 j⟩
  refine (body1_apply _ _ _ p q).trans ?_
  have hp := p.isLt
  have hq := q.isLt
  refine affine_at (n := 200000) (K := 64) (P := 64) (V c main_arg1) (V c main_arg8) (V c main_arg9) (((cfg1.win 3).blk t).view.emb (ix2 p q))
    (fun k => (((cfg1.win 0).blk t).view.emb (ix2 p k))) (fun k => (((cfg1.win 1).blk t).view.emb (ix2 k q))) (((cfg1.win 2).blk t).view.emb (ix1 q)) (fun k => ?_) (fun k => ?_) ?_
  ·
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  ·
    funext a; apply Fin.ext
    match a with
    | ⟨0, _⟩ => show win1_1.index t (0 : Fin 2) * 64 + 1 * k.val = k.val; omega
    | ⟨1, _⟩ => show win1_1.index t (1 : Fin 2) * 64 + 1 * q.val = win1_3.index t (1 : Fin 2) * 64 + 1 * q.val; omega
  ·
    funext a; apply Fin.ext
    match a with
    | ⟨0, _⟩ => show win1_2.index t (0 : Fin 1) * 64 + 1 * q.val = win1_3.index t (1 : Fin 2) * 64 + 1 * q.val; omega

/-- An index is in point `t`'s block iff each coordinate is in the block's range. -/
theorem mem_blk1 (t : Fin cfg1.N) (i : S200000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v1).slice (win1_3.rect t)).set ↔ _
  rw [View.set_slice_whole, Rect.mem_set_unit]
  exact Iff.rfl

/-- Every row is in the block of the point `row / 5000`. -/
theorem cover1 (i : S200000x64.Idx) : ∃ t : Fin cfg1.N, (cfg1.win 3).flush t = true ∧ i ∈ ((cfg1.win 3).blk t).view.set := by
  have hi0 : (i 0).val < 200000 := (i 0).isLt
  have hi1 : (i 1).val < 64 := (i 1).isLt
  have hN : cfg1.N = 40 := N_1
  have ht : (i 0).val / 5000 < cfg1.N := by rw [hN]; omega
  refine ⟨⟨(i 0).val / 5000, ht⟩, flush1_3 _, ?_⟩
  rw [mem_blk1]
  have e := idx1 ⟨(i 0).val / 5000, ht⟩
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    have e' : win1_3.index ⟨(i 0).val / 5000, ht⟩ (0 : Fin 2) = (i 0).val / 5000 := e.2.2.2.2.2.1
    omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    have e' : win1_3.index ⟨(i 0).val / 5000, ht⟩ (1 : Fin 2) = 0 := e.2.2.2.2.2.2
    omega

/-- The output array after the region. -/
theorem final1 (c : Dev nD) :
    (dat1 V c).arrAt 3 cfg1.N = affine (n := 200000) (K := 64) (P := 64) (V c main_arg1) (V c main_arg8) (V c main_arg9) :=
  (dat1 V c).arrAt_eq_of_cover 3 _ (fun t _ => flushed1 V c t) cover1

end Cert.KernelIdeal.Regions

end
-- ==== Proof.Region2.lean ====
/-
  Region 2: a weight transform against two tables side by side, one block of 5000 rows per grid point.

  Point `t` reads rows `5000 t … 5000 t + 4999` of the node table and the whole 64 × 128 weight table, and writes the
  same rows of the output.  So the output array ends holding `x · w` row by row.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body2_apply (x0 : Vec Ideal S5000x64 .f32) (x1 : Vec Ideal S64x128 .f32) (p : Fin 5000) (q : Fin 128) :
    k2_pay1 x0 x1 (ix2 p q) = ∑ k : Fin 64, x0 (ix2 p k) * x1 (ix2 k q) := by
  unfold k2_pay1
  exact product_block dot_S5000x64_S64x128_S5000x128_1_0_0_1_n_n rfl rfl (fun _ _ => rfl) (fun _ _ => rfl) rfl rfl _ _ _ x0 x1 p q

/-- The printed index maps over the grid: the row windows sit at block `t`, the table at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `x · w`. -/
theorem flushed2 (c : Dev nD) (t : Fin cfg2.N) :
    (dat2 V c).flushed 2 t = ((cfg2.win 2).blk t).view.read (Elt Ideal) (product (n := 100000) (K := 64) (P := 128) (V c main_v0) (V c main_v148)) := by
  show (cfg2.win 2).cut (grid2.coords t) ((dat2 V c).after 2 t) = _
  rw [after2_2]
  unfold out2_2
  rw [View.canon_unit_zero zero2]
  simp only [View.ld_unit_zero (S := S5000x64) zero2, View.ld_unit_zero (S := S64x128) zero2]
  obtain ⟨e0, e1, e2, e3, e4, e5⟩ := idx2 t
  funext j
  obtain ⟨p, q, rfl⟩ : ∃ (p : Fin 5000) (q : Fin 128), j = ix2 p q := ⟨j 0, j 1, eq_ix2 j⟩
  refine (body2_apply _ _ p q).trans ?_
  have hp := p.isLt
  have hq := q.isLt
  refine product_at (n := 100000) (K := 64) (P := 128) (V c main_v0) (V c main_v148) (((cfg2.win 2).blk t).view.emb (ix2 p q))
    (fun k => (((cfg2.win 0).blk t).view.emb (ix2 p k))) (fun k => (((cfg2.win 1).blk t).view.emb (ix2 k q))) (fun k => ?_) (fun k => ?_)
  ·
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  ·
    funext a; apply Fin.ext
    match a with
    | ⟨0, _⟩ => show win2_1.index t (0 : Fin 2) * 64 + 1 * k.val = k.val; omega
    | ⟨1, _⟩ => show win2_1.index t (1 : Fin 2) * 128 + 1 * q.val = win2_2.index t (1 : Fin 2) * 128 + 1 * q.val; omega

/-- An index is in point `t`'s block iff each coordinate is in the block's range. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v154).slice (win2_2.rect t)).set ↔ _
  rw [View.set_slice_whole, Rect.mem_set_unit]
  exact Iff.rfl

/-- Every row is in the block of the point `row / 5000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_2 _, ?_⟩
  rw [mem_blk2]
  have e := idx2 ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    have e' : win2_2.index ⟨(i 0).val / 5000, ht⟩ (0 : Fin 2) = (i 0).val / 5000 := e.2.2.2.2.1
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    have e' : win2_2.index ⟨(i 0).val / 5000, ht⟩ (1 : Fin 2) = 0 := e.2.2.2.2.2
    omega

/-- The output array after the region. -/
theorem final2 (c : Dev nD) :
    (dat2 V c).arrAt 2 cfg2.N = product (n := 100000) (K := 64) (P := 128) (V c main_v0) (V c main_v148) :=
  (dat2 V c).arrAt_eq_of_cover 2 _ (fun t _ => flushed2 V c t) cover2

end Cert.KernelIdeal.Regions

end
-- ==== Proof.Region3.lean ====
/-
  Region 3: a weight transform against two tables side by side, one block of 5000 rows per grid point.

  Point `t` reads rows `5000 t … 5000 t + 4999` of the node table and the whole 64 × 128 weight table, and writes the
  same rows of the output.  So the output array ends holding `x · w` row by row.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body3_apply (x0 : Vec Ideal S5000x64 .f32) (x1 : Vec Ideal S64x128 .f32) (p : Fin 5000) (q : Fin 128) :
    k3_pay1 x0 x1 (ix2 p q) = ∑ k : Fin 64, x0 (ix2 p k) * x1 (ix2 k q) := by
  unfold k3_pay1
  exact product_block dot_S5000x64_S64x128_S5000x128_1_0_0_1_n_n rfl rfl (fun _ _ => rfl) (fun _ _ => rfl) rfl rfl _ _ _ x0 x1 p q

/-- The printed index maps over the grid: the row windows sit at block `t`, the table at block 0. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `x · w`. -/
theorem flushed3 (c : Dev nD) (t : Fin cfg3.N) :
    (dat3 V c).flushed 2 t = ((cfg3.win 2).blk t).view.read (Elt Ideal) (product (n := 200000) (K := 64) (P := 128) (V c main_v1) (V c main_v153)) := by
  show (cfg3.win 2).cut (grid3.coords t) ((dat3 V c).after 2 t) = _
  rw [after3_2]
  unfold out3_2
  rw [View.canon_unit_zero zero2]
  simp only [View.ld_unit_zero (S := S5000x64) zero2, View.ld_unit_zero (S := S64x128) zero2]
  obtain ⟨e0, e1, e2, e3, e4, e5⟩ := idx3 t
  funext j
  obtain ⟨p, q, rfl⟩ : ∃ (p : Fin 5000) (q : Fin 128), j = ix2 p q := ⟨j 0, j 1, eq_ix2 j⟩
  refine (body3_apply _ _ p q).trans ?_
  have hp := p.isLt
  have hq := q.isLt
  refine product_at (n := 200000) (K := 64) (P := 128) (V c main_v1) (V c main_v153) (((cfg3.win 2).blk t).view.emb (ix2 p q))
    (fun k => (((cfg3.win 0).blk t).view.emb (ix2 p k))) (fun k => (((cfg3.win 1).blk t).view.emb (ix2 k q))) (fun k => ?_) (fun k => ?_)
  ·
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  ·
    funext a; apply Fin.ext
    match a with
    | ⟨0, _⟩ => show win3_1.index t (0 : Fin 2) * 64 + 1 * k.val = k.val; omega
    | ⟨1, _⟩ => show win3_1.index t (1 : Fin 2) * 128 + 1 * q.val = win3_2.index t (1 : Fin 2) * 128 + 1 * q.val; omega

/-- An index is in point `t`'s block iff each coordinate is in the block's range. -/
theorem mem_blk3 (t : Fin cfg3.N) (i : S200000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v155).slice (win3_2.rect t)).set ↔ _
  rw [View.set_slice_whole, Rect.mem_set_unit]
  exact Iff.rfl

/-- Every row is in the block of the point `row / 5000`. -/
theorem cover3 (i : S200000x128.Idx) : ∃ t : Fin cfg3.N, (cfg3.win 2).flush t = true ∧ i ∈ ((cfg3.win 2).blk t).view.set := by
  have hi0 : (i 0).val < 200000 := (i 0).isLt
  have hi1 : (i 1).val < 128 := (i 1).isLt
  have hN : cfg3.N = 40 := N_3
  have ht : (i 0).val / 5000 < cfg3.N := by rw [hN]; omega
  refine ⟨⟨(i 0).val / 5000, ht⟩, flush3_2 _, ?_⟩
  rw [mem_blk3]
  have e := idx3 ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    have e' : win3_2.index ⟨(i 0).val / 5000, ht⟩ (0 : Fin 2) = (i 0).val / 5000 := e.2.2.2.2.1
    omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    have e' : win3_2.index ⟨(i 0).val / 5000, ht⟩ (1 : Fin 2) = 0 := e.2.2.2.2.2
    omega

/-- The output array after the region. -/
theorem final3 (c : Dev nD) :
    (dat3 V c).arrAt 2 cfg3.N = product (n := 200000) (K := 64) (P := 128) (V c main_v1) (V c main_v153) :=
  (dat3 V c).arrAt_eq_of_cover 2 _ (fun t _ => flushed3 V c t) cover3

end Cert.KernelIdeal.Regions

end
-- ==== Proof.Region4.lean ====
/-
  Region 4: the combination of two relations on rows packed two to a line, one block of 5000 lines per grid point.

  Point `t` reads lines `5000 t … 5000 t + 4999` of the two packed arrays and the two whole (twice-written) biases, and
  writes the same lines of the output.  So the output array ends holding, line by line, half the sum of the two biased
  arrays cut at zero.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of lines, at an index. -/
theorem body4_apply (a : Vec Ideal S5000x128 .f32) (ba : Vec Ideal S128 .f32) (b : Vec Ideal S5000x128 .f32) (bb : Vec Ideal S128 .f32)
    (p : Fin 5000) (q : Fin 128) :
    k4_pay1 a ba b bb (ix2 p q) = max (((a (ix2 p q) + ba (ix1 q)) + (b (ix2 p q) + bb (ix1 q))) * half) zero := by
  unfold k4_pay1
  exact meanRelu_block _ _ _ _ a ba b bb p q

/-- The printed index maps over the grid: the line windows sit at block `t`, the biases at block 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 1) = 0 ∧ win4_3.index t (0 : Fin 1) = 0
    ∧ win4_4.index t (0 : Fin 2) = t.val ∧ win4_4.index t (1 : Fin 2) = 0 :=
  (by decide +kernel : ∀ t : Fin grid4.N, _)

/-- What point `t` writes back is block `t` of the combination. -/
theorem flushed4 (c : Dev nD) (t : Fin cfg4.N) :
    (dat4 V c).flushed 4 t = ((cfg4.win 4).blk t).view.read (Elt Ideal) (meanRelu (n := 50000) (P := 128) (V c main_v216) (V c main_v217) (V c main_v220) (V c main_v223)) := by
  show (cfg4.win 4).cut (grid4.coords t) ((dat4 V c).after 4 t) = _
  rw [after4_4]
  unfold out4_4
  rw [View.canon_unit_zero zero2]
  simp only [View.ld_unit_zero (S := S5000x128) zero2, View.ld_unit_zero (S := S128) zero1]
  obtain ⟨e0, e1, e2, e3, e4, e5, e6, e7⟩ := idx4 t
  funext j
  obtain ⟨p, q, rfl⟩ : ∃ (p : Fin 5000) (q : Fin 128), j = ix2 p q := ⟨j 0, j 1, eq_ix2 j⟩
  refine (body4_apply _ _ _ _ p q).trans ?_
  have hp := p.isLt
  have hq := q.isLt
  refine meanRelu_at (n := 50000) (P := 128) (V c main_v216) (V c main_v217) (V c main_v220) (V c main_v223) (((cfg4.win 4).blk t).view.emb (ix2 p q))
    (((cfg4.win 0).blk t).view.emb (ix2 p q)) (((cfg4.win 1).blk t).view.emb (ix2 p q)) (((cfg4.win 2).blk t).view.emb (ix1 q)) (((cfg4.win 3).blk t).view.emb (ix1 q)) ?_ ?_ ?_ ?_
  ·
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * q.val = win4_4.index t (1 : Fin 2) * 128 + 1 * q.val; omega
  ·
    funext a; apply Fin.ext
    match a with
    | ⟨0, _⟩ => show win4_1.index t (0 : Fin 2) * 5000 + 1 * p.val = win4_4.index t (0 : Fin 2) * 5000 + 1 * p.val; omega
    | ⟨1, _⟩ => show win4_1.index t (1 : Fin 2) * 128 + 1 * q.val = win4_4.index t (1 : Fin 2) * 128 + 1 * q.val; omega
  ·
    funext a; apply Fin.ext
    match a with
    | ⟨0, _⟩ => show win4_2.index t (0 : Fin 1) * 128 + 1 * q.val = win4_4.index t (1 : Fin 2) * 128 + 1 * q.val; omega
  ·
    funext a; apply Fin.ext
    match a with
    | ⟨0, _⟩ => show win4_3.index t (0 : Fin 1) * 128 + 1 * q.val = win4_4.index t (1 : Fin 2) * 128 + 1 * q.val; omega

/-- An index is in point `t`'s block iff each coordinate is in the block's range. -/
theorem mem_blk4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v224).slice (win4_4.rect t)).set ↔ _
  rw [View.set_slice_whole, Rect.mem_set_unit]
  exact Iff.rfl

/-- Every row is in the block of the point `row / 5000`. -/
theorem cover4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  have ht : (i 0).val / 5000 < cfg4.N := by rw [hN]; omega
  refine ⟨⟨(i 0).val / 5000, ht⟩, flush4_4 _, ?_⟩
  rw [mem_blk4]
  have e := idx4 ⟨(i 0).val / 5000, ht⟩
  intro a
  match a with
  | ⟨0, _⟩ =>
    show win4_4.index ⟨(i 0).val / 5000, ht⟩ (0 : Fin 2) * 5000 ≤ (i 0).val ∧ (i 0).val < win4_4.index ⟨(i 0).val / 5000, ht⟩ (0 : Fin 2) * 5000 + 5000
    have e' : win4_4.index ⟨(i 0).val / 5000, ht⟩ (0 : Fin 2) = (i 0).val / 5000 := e.2.2.2.2.2.2.1
    omega
  | ⟨1, _⟩ =>
    show win4_4.index ⟨(i 0).val / 5000, ht⟩ (1 : Fin 2) * 128 ≤ (i 1).val ∧ (i 1).val < win4_4.index ⟨(i 0).val / 5000, ht⟩ (1 : Fin 2) * 128 + 128
    have e' : win4_4.index ⟨(i 0).val / 5000, ht⟩ (1 : Fin 2) = 0 := e.2.2.2.2.2.2.2
    omega

/-- The output array after the region. -/
theorem final4 (c : Dev nD) :
    (dat4 V c).arrAt 4 cfg4.N = meanRelu (n := 50000) (P := 128) (V c main_v216) (V c main_v217) (V c main_v220) (V c main_v223) :=
  (dat4 V c).arrAt_eq_of_cover 4 _ (fun t _ => flushed4 V c t) cover4

end Cert.KernelIdeal.Regions

end
-- ==== Proof.Region5.lean ====
/-
  Region 5: the combination of two relations on rows packed two to a line, one block of 5000 lines per grid point.

  Point `t` reads lines `5000 t … 5000 t + 4999` of the two packed arrays and the two whole (twice-written) biases, and
  writes the same lines of the output.  So the output array ends holding, line by line, half the sum of the two biased
  arrays cut at zero.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of lines, at an index. -/
theorem body5_apply (a : Vec Ideal S5000x128 .f32) (ba : Vec Ideal S128 .f32) (b : Vec Ideal S5000x128 .f32) (bb : Vec Ideal S128 .f32)
    (p : Fin 5000) (q : Fin 128) :
    k5_pay1 a ba b bb (ix2 p q) = max (((a (ix2 p q) + ba (ix1 q)) + (b (ix2 p q) + bb (ix1 q))) * half) zero := by
  unfold k5_pay1
  exact meanRelu_block _ _ _ _ a ba b bb p q

/-- The printed index maps over the grid: the line windows sit at block `t`, the biases at block 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 1) = 0 ∧ win5_3.index t (0 : Fin 1) = 0
    ∧ win5_4.index t (0 : Fin 2) = t.val ∧ win5_4.index t (1 : Fin 2) = 0 :=
  (by decide +kernel : ∀ t : Fin grid5.N, _)

/-- What point `t` writes back is block `t` of the combination. -/
theorem flushed5 (c : Dev nD) (t : Fin cfg5.N) :
    (dat5 V c).flushed 4 t = ((cfg5.win 4).blk t).view.read (Elt Ideal) (meanRelu (n := 100000) (P := 128) (V c main_v230) (V c main_v231) (V c main_v234) (V c main_v237)) := by
  show (cfg5.win 4).cut (grid5.coords t) ((dat5 V c).after 4 t) = _
  rw [after5_4]
  unfold out5_4
  rw [View.canon_unit_zero zero2]
  simp only [View.ld_unit_zero (S := S5000x128) zero2, View.ld_unit_zero (S := S128) zero1]
  obtain ⟨e0, e1, e2, e3, e4, e5, e6, e7⟩ := idx5 t
  funext j
  obtain ⟨p, q, rfl⟩ : ∃ (p : Fin 5000) (q : Fin 128), j = ix2 p q := ⟨j 0, j 1, eq_ix2 j⟩
  refine (body5_apply _ _ _ _ p q).trans ?_
  have hp := p.isLt
  have hq := q.isLt
  refine meanRelu_at (n := 100000) (P := 128) (V c main_v230) (V c main_v231) (V c main_v234) (V c main_v237) (((cfg5.win 4).blk t).view.emb (ix2 p q))
    (((cfg5.win 0).blk t).view.emb (ix2 p q)) (((cfg5.win 1).blk t).view.emb (ix2 p q)) (((cfg5.win 2).blk t).view.emb (ix1 q)) (((cfg5.win 3).blk t).view.emb (ix1 q)) ?_ ?_ ?_ ?_
  ·
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  ·
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * q.val = win5_4.index t (1 : Fin 2) * 128 + 1 * q.val; omega
  ·
    funext a; apply Fin.ext
    match a with
    | ⟨0, _⟩ => show win5_2.index t (0 : Fin 1) * 128 + 1 * q.val = win5_4.index t (1 : Fin 2) * 128 + 1 * q.val; omega
  ·
    funext a; apply Fin.ext
    match a with
    | ⟨0, _⟩ => show win5_3.index t (0 : Fin 1) * 128 + 1 * q.val = win5_4.index t (1 : Fin 2) * 128 + 1 * q.val; omega

/-- An index is in point `t`'s block iff each coordinate is in the block's range. -/
theorem mem_blk5 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v238).slice (win5_4.rect t)).set ↔ _
  rw [View.set_slice_whole, Rect.mem_set_unit]
  exact Iff.rfl

/-- Every row is in the block of the point `row / 5000`. -/
theorem cover5 (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  have ht : (i 0).val / 5000 < cfg5.N := by rw [hN]; omega
  refine ⟨⟨(i 0).val / 5000, ht⟩, flush5_4 _, ?_⟩
  rw [mem_blk5]
  have e := idx5 ⟨(i 0).val / 5000, ht⟩
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    have e' : win5_4.index ⟨(i 0).val / 5000, ht⟩ (0 : Fin 2) = (i 0).val / 5000 := e.2.2.2.2.2.2.1
    omega
  | ⟨1, _⟩ =>
    show win5_4.index ⟨(i 0).val / 5000, ht⟩ (1 : Fin 2) * 128 ≤ (i 1).val ∧ (i 1).val < win5_4.index ⟨(i 0).val / 5000, ht⟩ (1 : Fin 2) * 128 + 128
    have e' : win5_4.index ⟨(i 0).val / 5000, ht⟩ (1 : Fin 2) = 0 := e.2.2.2.2.2.2.2
    omega

/-- The output array after the region. -/
theorem final5 (c : Dev nD) :
    (dat5 V c).arrAt 4 cfg5.N = meanRelu (n := 100000) (P := 128) (V c main_v230) (V c main_v231) (V c main_v234) (V c main_v237) :=
  (dat5 V c).arrAt_eq_of_cover 4 _ (fun t _ => flushed5 V c t) cover5

end Cert.KernelIdeal.Regions

end
-- ==== Proof.Region6.lean ====
/-
  Region 6: a weight transform against two tables side by side, one block of 5000 rows per grid point.

  Point `t` reads rows `5000 t … 5000 t + 4999` of the node table and the whole 64 × 128 weight table, and writes the
  same rows of the output.  So the output array ends holding `x · w` row by row.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body6_apply (x0 : Vec Ideal S5000x64 .f32) (x1 : Vec Ideal S64x128 .f32) (p : Fin 5000) (q : Fin 128) :
    k6_pay1 x0 x1 (ix2 p q) = ∑ k : Fin 64, x0 (ix2 p k) * x1 (ix2 k q) := by
  unfold k6_pay1
  exact product_block dot_S5000x64_S64x128_S5000x128_1_0_0_1_n_n rfl rfl (fun _ _ => rfl) (fun _ _ => rfl) rfl rfl _ _ _ x0 x1 p q

/-- The printed index maps over the grid: the row windows sit at block `t`, the table at block 0. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of `x · w`. -/
theorem flushed6 (c : Dev nD) (t : Fin cfg6.N) :
    (dat6 V c).flushed 2 t = ((cfg6.win 2).blk t).view.read (Elt Ideal) (product (n := 100000) (K := 64) (P := 128) (V c main_v225) (V c main_v244)) := by
  show (cfg6.win 2).cut (grid6.coords t) ((dat6 V c).after 2 t) = _
  rw [after6_2]
  unfold out6_2
  rw [View.canon_unit_zero zero2]
  simp only [View.ld_unit_zero (S := S5000x64) zero2, View.ld_unit_zero (S := S64x128) zero2]
  obtain ⟨e0, e1, e2, e3, e4, e5⟩ := idx6 t
  funext j
  obtain ⟨p, q, rfl⟩ : ∃ (p : Fin 5000) (q : Fin 128), j = ix2 p q := ⟨j 0, j 1, eq_ix2 j⟩
  refine (body6_apply _ _ p q).trans ?_
  have hp := p.isLt
  have hq := q.isLt
  refine product_at (n := 100000) (K := 64) (P := 128) (V c main_v225) (V c main_v244) (((cfg6.win 2).blk t).view.emb (ix2 p q))
    (fun k => (((cfg6.win 0).blk t).view.emb (ix2 p k))) (fun k => (((cfg6.win 1).blk t).view.emb (ix2 k q))) (fun k => ?_) (fun k => ?_)
  ·
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 64 + 1 * k.val = k.val; omega
  ·
    funext a; apply Fin.ext
    match a with
    | ⟨0, _⟩ => show win6_1.index t (0 : Fin 2) * 64 + 1 * k.val = k.val; omega
    | ⟨1, _⟩ => show win6_1.index t (1 : Fin 2) * 128 + 1 * q.val = win6_2.index t (1 : Fin 2) * 128 + 1 * q.val; omega

/-- An index is in point `t`'s block iff each coordinate is in the block's range. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v250).slice (win6_2.rect t)).set ↔ _
  rw [View.set_slice_whole, Rect.mem_set_unit]
  exact Iff.rfl

/-- Every row is in the block of the point `row / 5000`. -/
theorem cover6 (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  have ht : (i 0).val / 5000 < cfg6.N := by rw [hN]; omega
  refine ⟨⟨(i 0).val / 5000, ht⟩, flush6_2 _, ?_⟩
  rw [mem_blk6]
  have e := idx6 ⟨(i 0).val / 5000, ht⟩
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    have e' : win6_2.index ⟨(i 0).val / 5000, ht⟩ (0 : Fin 2) = (i 0).val / 5000 := e.2.2.2.2.1
    omega
  | ⟨1, _⟩ =>
    show win6_2.index ⟨(i 0).val / 5000, ht⟩ (1 : Fin 2) * 128 ≤ (i 1).val ∧ (i 1).val < win6_2.index ⟨(i 0).val / 5000, ht⟩ (1 : Fin 2) * 128 + 128
    have e' : win6_2.index ⟨(i 0).val / 5000, ht⟩ (1 : Fin 2) = 0 := e.2.2.2.2.2
    omega

/-- The output array after the region. -/
theorem final6 (c : Dev nD) :
    (dat6 V c).arrAt 2 cfg6.N = product (n := 100000) (K := 64) (P := 128) (V c main_v225) (V c main_v244) :=
  (dat6 V c).arrAt_eq_of_cover 2 _ (fun t _ => flushed6 V c t) cover6

end Cert.KernelIdeal.Regions

end
-- ==== Proof.Region7.lean ====
/-
  Region 7: a weight transform against two tables side by side, one block of 5000 rows per grid point.

  Point `t` reads rows `5000 t … 5000 t + 4999` of the node table and the whole 64 × 128 weight table, and writes the
  same rows of the output.  So the output array ends holding `x · w` row by row.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body7_apply (x0 : Vec Ideal S5000x64 .f32) (x1 : Vec Ideal S64x128 .f32) (p : Fin 5000) (q : Fin 128) :
    k7_pay1 x0 x1 (ix2 p q) = ∑ k : Fin 64, x0 (ix2 p k) * x1 (ix2 k q) := by
  unfold k7_pay1
  exact product_block dot_S5000x64_S64x128_S5000x128_1_0_0_1_n_n rfl rfl (fun _ _ => rfl) (fun _ _ => rfl) rfl rfl _ _ _ x0 x1 p q

/-- The printed index maps over the grid: the row windows sit at block `t`, the table at block 0. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of `x · w`. -/
theorem flushed7 (c : Dev nD) (t : Fin cfg7.N) :
    (dat7 V c).flushed 2 t = ((cfg7.win 2).blk t).view.read (Elt Ideal) (product (n := 200000) (K := 64) (P := 128) (V c main_v239) (V c main_v249)) := by
  show (cfg7.win 2).cut (grid7.coords t) ((dat7 V c).after 2 t) = _
  rw [after7_2]
  unfold out7_2
  rw [View.canon_unit_zero zero2]
  simp only [View.ld_unit_zero (S := S5000x64) zero2, View.ld_unit_zero (S := S64x128) zero2]
  obtain ⟨e0, e1, e2, e3, e4, e5⟩ := idx7 t
  funext j
  obtain ⟨p, q, rfl⟩ : ∃ (p : Fin 5000) (q : Fin 128), j = ix2 p q := ⟨j 0, j 1, eq_ix2 j⟩
  refine (body7_apply _ _ p q).trans ?_
  have hp := p.isLt
  have hq := q.isLt
  refine product_at (n := 200000) (K := 64) (P := 128) (V c main_v239) (V c main_v249) (((cfg7.win 2).blk t).view.emb (ix2 p q))
    (fun k => (((cfg7.win 0).blk t).view.emb (ix2 p k))) (fun k => (((cfg7.win 1).blk t).view.emb (ix2 k q))) (fun k => ?_) (fun k => ?_)
  ·
    funext a; apply Fin.ext
    match a with
    | ⟨0, _⟩ => show win7_0.index t (0 : Fin 2) * 5000 + 1 * p.val = win7_2.index t (0 : Fin 2) * 5000 + 1 * p.val; omega
    | ⟨1, _⟩ => show win7_0.index t (1 : Fin 2) * 64 + 1 * k.val = k.val; omega
  ·
    funext a; apply Fin.ext
    match a with
    | ⟨0, _⟩ => show win7_1.index t (0 : Fin 2) * 64 + 1 * k.val = k.val; omega
    | ⟨1, _⟩ => show win7_1.index t (1 : Fin 2) * 128 + 1 * q.val = win7_2.index t (1 : Fin 2) * 128 + 1 * q.val; omega

/-- An index is in point `t`'s block iff each coordinate is in the block's range. -/
theorem mem_blk7 (t : Fin cfg7.N) (i : S200000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v251).slice (win7_2.rect t)).set ↔ _
  rw [View.set_slice_whole, Rect.mem_set_unit]
  exact Iff.rfl

/-- Every row is in the block of the point `row / 5000`. -/
theorem cover7 (i : S200000x128.Idx) : ∃ t : Fin cfg7.N, (cfg7.win 2).flush t = true ∧ i ∈ ((cfg7.win 2).blk t).view.set := by
  have hi0 : (i 0).val < 200000 := (i 0).isLt
  have hi1 : (i 1).val < 128 := (i 1).isLt
  have hN : cfg7.N = 40 := N_7
  have ht : (i 0).val / 5000 < cfg7.N := by rw [hN]; omega
  refine ⟨⟨(i 0).val / 5000, ht⟩, flush7_2 _, ?_⟩
  rw [mem_blk7]
  have e := idx7 ⟨(i 0).val / 5000, ht⟩
  intro a
  match a with
  | ⟨0, _⟩ =>
    show win7_2.index ⟨(i 0).val / 5000, ht⟩ (0 : Fin 2) * 5000 ≤ (i 0).val ∧ (i 0).val < win7_2.index ⟨(i 0).val / 5000, ht⟩ (0 : Fin 2) * 5000 + 5000
    have e' : win7_2.index ⟨(i 0).val / 5000, ht⟩ (0 : Fin 2) = (i 0).val / 5000 := e.2.2.2.2.1
    omega
  | ⟨1, _⟩ =>
    show win7_2.index ⟨(i 0).val / 5000, ht⟩ (1 : Fin 2) * 128 ≤ (i 1).val ∧ (i 1).val < win7_2.index ⟨(i 0).val / 5000, ht⟩ (1 : Fin 2) * 128 + 128
    have e' : win7_2.index ⟨(i 0).val / 5000, ht⟩ (1 : Fin 2) = 0 := e.2.2.2.2.2
    omega

/-- The output array after the region. -/
theorem final7 (c : Dev nD) :
    (dat7 V c).arrAt 2 cfg7.N = product (n := 200000) (K := 64) (P := 128) (V c main_v239) (V c main_v249) :=
  (dat7 V c).arrAt_eq_of_cover 2 _ (fun t _ => flushed7 V c t) cover7

end Cert.KernelIdeal.Regions

end
-- ==== Proof.Region8.lean ====
/-
  Region 8: the combination of two relations on rows packed two to a line, one block of 5000 lines per grid point.

  Point `t` reads lines `5000 t … 5000 t + 4999` of the two packed arrays and the two whole (twice-written) biases, and
  writes the same lines of the output.  So the output array ends holding, line by line, half the sum of the two biased
  arrays cut at zero.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of lines, at an index. -/
theorem body8_apply (a : Vec Ideal S5000x128 .f32) (ba : Vec Ideal S128 .f32) (b : Vec Ideal S5000x128 .f32) (bb : Vec Ideal S128 .f32)
    (p : Fin 5000) (q : Fin 128) :
    k8_pay1 a ba b bb (ix2 p q) = max (((a (ix2 p q) + ba (ix1 q)) + (b (ix2 p q) + bb (ix1 q))) * half) zero := by
  unfold k8_pay1
  exact meanRelu_block _ _ _ _ a ba b bb p q

/-- The printed index maps over the grid: the line windows sit at block `t`, the biases at block 0. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 1) = 0 ∧ win8_3.index t (0 : Fin 1) = 0
    ∧ win8_4.index t (0 : Fin 2) = t.val ∧ win8_4.index t (1 : Fin 2) = 0 :=
  (by decide +kernel : ∀ t : Fin grid8.N, _)

/-- What point `t` writes back is block `t` of the combination. -/
theorem flushed8 (c : Dev nD) (t : Fin cfg8.N) :
    (dat8 V c).flushed 4 t = ((cfg8.win 4).blk t).view.read (Elt Ideal) (meanRelu (n := 50000) (P := 128) (V c main_v312) (V c main_v313) (V c main_v316) (V c main_v319)) := by
  show (cfg8.win 4).cut (grid8.coords t) ((dat8 V c).after 4 t) = _
  rw [after8_4]
  unfold out8_4
  rw [View.canon_unit_zero zero2]
  simp only [View.ld_unit_zero (S := S5000x128) zero2, View.ld_unit_zero (S := S128) zero1]
  obtain ⟨e0, e1, e2, e3, e4, e5, e6, e7⟩ := idx8 t
  funext j
  obtain ⟨p, q, rfl⟩ : ∃ (p : Fin 5000) (q : Fin 128), j = ix2 p q := ⟨j 0, j 1, eq_ix2 j⟩
  refine (body8_apply _ _ _ _ p q).trans ?_
  have hp := p.isLt
  have hq := q.isLt
  refine meanRelu_at (n := 50000) (P := 128) (V c main_v312) (V c main_v313) (V c main_v316) (V c main_v319) (((cfg8.win 4).blk t).view.emb (ix2 p q))
    (((cfg8.win 0).blk t).view.emb (ix2 p q)) (((cfg8.win 1).blk t).view.emb (ix2 p q)) (((cfg8.win 2).blk t).view.emb (ix1 q)) (((cfg8.win 3).blk t).view.emb (ix1 q)) ?_ ?_ ?_ ?_
  ·
    funext a; apply Fin.ext
    match a with
    | ⟨0, _⟩ => show win8_0.index t (0 : Fin 2) * 5000 + 1 * p.val = win8_4.index t (0 : Fin 2) * 5000 + 1 * p.val; omega
    | ⟨1, _⟩ => show win8_0.index t (1 : Fin 2) * 128 + 1 * q.val = win8_4.index t (1 : Fin 2) * 128 + 1 * q.val; omega
  ·
    funext a; apply Fin.ext
    match a with
    | ⟨0, _⟩ => show win8_1.index t (0 : Fin 2) * 5000 + 1 * p.val = win8_4.index t (0 : Fin 2) * 5000 + 1 * p.val; omega
    | ⟨1, _⟩ => show win8_1.index t (1 : Fin 2) * 128 + 1 * q.val = win8_4.index t (1 : Fin 2) * 128 + 1 * q.val; omega
  ·
    funext a; apply Fin.ext
    match a with
    | ⟨0, _⟩ => show win8_2.index t (0 : Fin 1) * 128 + 1 * q.val = win8_4.index t (1 : Fin 2) * 128 + 1 * q.val; omega
  ·
    funext a; apply Fin.ext
    match a with
    | ⟨0, _⟩ => show win8_3.index t (0 : Fin 1) * 128 + 1 * q.val = win8_4.index t (1 : Fin 2) * 128 + 1 * q.val; omega

/-- An index is in point `t`'s block iff each coordinate is in the block's range. -/
theorem mem_blk8 (t : Fin cfg8.N) (i : S50000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v320).slice (win8_4.rect t)).set ↔ _
  rw [View.set_slice_whole, Rect.mem_set_unit]
  exact Iff.rfl

/-- Every row is in the block of the point `row / 5000`. -/
theorem cover8 (i : S50000x128.Idx) : ∃ t : Fin cfg8.N, (cfg8.win 4).flush t = true ∧ i ∈ ((cfg8.win 4).blk t).view.set := by
  have hi0 : (i 0).val < 50000 := (i 0).isLt
  have hi1 : (i 1).val < 128 := (i 1).isLt
  have hN : cfg8.N = 10 := N_8
  have ht : (i 0).val / 5000 < cfg8.N := by rw [hN]; omega
  refine ⟨⟨(i 0).val / 5000, ht⟩, flush8_4 _, ?_⟩
  rw [mem_blk8]
  have e := idx8 ⟨(i 0).val / 5000, ht⟩
  intro a
  match a with
  | ⟨0, _⟩ =>
    show win8_4.index ⟨(i 0).val / 5000, ht⟩ (0 : Fin 2) * 5000 ≤ (i 0).val ∧ (i 0).val < win8_4.index ⟨(i 0).val / 5000, ht⟩ (0 : Fin 2) * 5000 + 5000
    have e' : win8_4.index ⟨(i 0).val / 5000, ht⟩ (0 : Fin 2) = (i 0).val / 5000 := e.2.2.2.2.2.2.1
    omega
  | ⟨1, _⟩ =>
    show win8_4.index ⟨(i 0).val / 5000, ht⟩ (1 : Fin 2) * 128 ≤ (i 1).val ∧ (i 1).val < win8_4.index ⟨(i 0).val / 5000, ht⟩ (1 : Fin 2) * 128 + 128
    have e' : win8_4.index ⟨(i 0).val / 5000, ht⟩ (1 : Fin 2) = 0 := e.2.2.2.2.2.2.2
    omega

/-- The output array after the region. -/
theorem final8 (c : Dev nD) :
    (dat8 V c).arrAt 4 cfg8.N = meanRelu (n := 50000) (P := 128) (V c main_v312) (V c main_v313) (V c main_v316) (V c main_v319) :=
  (dat8 V c).arrAt_eq_of_cover 4 _ (fun t _ => flushed8 V c t) cover8

end Cert.KernelIdeal.Regions

end
-- ==== Proof.Region9.lean ====
/-
  Region 9: the combination of two relations on rows packed two to a line, one block of 5000 lines per grid point.

  Point `t` reads lines `5000 t … 5000 t + 4999` of the two packed arrays and the two whole (twice-written) biases, and
  writes the same lines of the output.  So the output array ends holding, line by line, half the sum of the two biased
  arrays cut at zero.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of lines, at an index. -/
theorem body9_apply (a : Vec Ideal S5000x128 .f32) (ba : Vec Ideal S128 .f32) (b : Vec Ideal S5000x128 .f32) (bb : Vec Ideal S128 .f32)
    (p : Fin 5000) (q : Fin 128) :
    k9_pay1 a ba b bb (ix2 p q) = max (((a (ix2 p q) + ba (ix1 q)) + (b (ix2 p q) + bb (ix1 q))) * half) zero := by
  unfold k9_pay1
  exact meanRelu_block _ _ _ _ a ba b bb p q

/-- The printed index maps over the grid: the line windows sit at block `t`, the biases at block 0. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 1) = 0 ∧ win9_3.index t (0 : Fin 1) = 0
    ∧ win9_4.index t (0 : Fin 2) = t.val ∧ win9_4.index t (1 : Fin 2) = 0 :=
  (by decide +kernel : ∀ t : Fin grid9.N, _)

/-- What point `t` writes back is block `t` of the combination. -/
theorem flushed9 (c : Dev nD) (t : Fin cfg9.N) :
    (dat9 V c).flushed 4 t = ((cfg9.win 4).blk t).view.read (Elt Ideal) (meanRelu (n := 100000) (P := 128) (V c main_v326) (V c main_v327) (V c main_v330) (V c main_v333)) := by
  show (cfg9.win 4).cut (grid9.coords t) ((dat9 V c).after 4 t) = _
  rw [after9_4]
  unfold out9_4
  rw [View.canon_unit_zero zero2]
  simp only [View.ld_unit_zero (S := S5000x128) zero2, View.ld_unit_zero (S := S128) zero1]
  obtain ⟨e0, e1, e2, e3, e4, e5, e6, e7⟩ := idx9 t
  funext j
  obtain ⟨p, q, rfl⟩ : ∃ (p : Fin 5000) (q : Fin 128), j = ix2 p q := ⟨j 0, j 1, eq_ix2 j⟩
  refine (body9_apply _ _ _ _ p q).trans ?_
  have hp := p.isLt
  have hq := q.isLt
  refine meanRelu_at (n := 100000) (P := 128) (V c main_v326) (V c main_v327) (V c main_v330) (V c main_v333) (((cfg9.win 4).blk t).view.emb (ix2 p q))
    (((cfg9.win 0).blk t).view.emb (ix2 p q)) (((cfg9.win 1).blk t).view.emb (ix2 p q)) (((cfg9.win 2).blk t).view.emb (ix1 q)) (((cfg9.win 3).blk t).view.emb (ix1 q)) ?_ ?_ ?_ ?_
  ·
    funext a; apply Fin.ext
    match a with
    | ⟨0, _⟩ => show win9_0.index t (0 : Fin 2) * 5000 + 1 * p.val = win9_4.index t (0 : Fin 2) * 5000 + 1 * p.val; omega
    | ⟨1, _⟩ => show win9_0.index t (1 : Fin 2) * 128 + 1 * q.val = win9_4.index t (1 : Fin 2) * 128 + 1 * q.val; omega
  ·
    funext a; apply Fin.ext
    match a with
    | ⟨0, _⟩ => show win9_1.index t (0 : Fin 2) * 5000 + 1 * p.val = win9_4.index t (0 : Fin 2) * 5000 + 1 * p.val; omega
    | ⟨1, _⟩ => show win9_1.index t (1 : Fin 2) * 128 + 1 * q.val = win9_4.index t (1 : Fin 2) * 128 + 1 * q.val; omega
  ·
    funext a; apply Fin.ext
    match a with
    | ⟨0, _⟩ => show win9_2.index t (0 : Fin 1) * 128 + 1 * q.val = win9_4.index t (1 : Fin 2) * 128 + 1 * q.val; omega
  ·
    funext a; apply Fin.ext
    match a with
    | ⟨0, _⟩ => show win9_3.index t (0 : Fin 1) * 128 + 1 * q.val = win9_4.index t (1 : Fin 2) * 128 + 1 * q.val; omega

/-- An index is in point `t`'s block iff each coordinate is in the block's range. -/
theorem mem_blk9 (t : Fin cfg9.N) (i : S100000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v334).slice (win9_4.rect t)).set ↔ _
  rw [View.set_slice_whole, Rect.mem_set_unit]
  exact Iff.rfl

/-- Every row is in the block of the point `row / 5000`. -/
theorem cover9 (i : S100000x128.Idx) : ∃ t : Fin cfg9.N, (cfg9.win 4).flush t = true ∧ i ∈ ((cfg9.win 4).blk t).view.set := by
  have hi0 : (i 0).val < 100000 := (i 0).isLt
  have hi1 : (i 1).val < 128 := (i 1).isLt
  have hN : cfg9.N = 20 := N_9
  have ht : (i 0).val / 5000 < cfg9.N := by rw [hN]; omega
  refine ⟨⟨(i 0).val / 5000, ht⟩, flush9_4 _, ?_⟩
  rw [mem_blk9]
  have e := idx9 ⟨(i 0).val / 5000, ht⟩
  intro a
  match a with
  | ⟨0, _⟩ =>
    show win9_4.index ⟨(i 0).val / 5000, ht⟩ (0 : Fin 2) * 5000 ≤ (i 0).val ∧ (i 0).val < win9_4.index ⟨(i 0).val / 5000, ht⟩ (0 : Fin 2) * 5000 + 5000
    have e' : win9_4.index ⟨(i 0).val / 5000, ht⟩ (0 : Fin 2) = (i 0).val / 5000 := e.2.2.2.2.2.2.1
    omega
  | ⟨1, _⟩ =>
    show win9_4.index ⟨(i 0).val / 5000, ht⟩ (1 : Fin 2) * 128 ≤ (i 1).val ∧ (i 1).val < win9_4.index ⟨(i 0).val / 5000, ht⟩ (1 : Fin 2) * 128 + 128
    have e' : win9_4.index ⟨(i 0).val / 5000, ht⟩ (1 : Fin 2) = 0 := e.2.2.2.2.2.2.2
    omega

/-- The output array after the region. -/
theorem final9 (c : Dev nD) :
    (dat9 V c).arrAt 4 cfg9.N = meanRelu (n := 100000) (P := 128) (V c main_v326) (V c main_v327) (V c main_v330) (V c main_v333) :=
  (dat9 V c).arrAt_eq_of_cover 4 _ (fun t _ => flushed9 V c t) cover9

end Cert.KernelIdeal.Regions

end
-- ==== Proof.Region10.lean ====
/-
  Region 10: a weight transform against two tables side by side, one block of 5000 rows per grid point.

  Point `t` reads rows `5000 t … 5000 t + 4999` of the node table and the whole 64 × 128 weight table, and writes the
  same rows of the output.  So the output array ends holding `x · w` row by row.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body10_apply (x0 : Vec Ideal S5000x64 .f32) (x1 : Vec Ideal S64x128 .f32) (p : Fin 5000) (q : Fin 128) :
    k10_pay1 x0 x1 (ix2 p q) = ∑ k : Fin 64, x0 (ix2 p k) * x1 (ix2 k q) := by
  unfold k10_pay1
  exact product_block dot_S5000x64_S64x128_S5000x128_1_0_0_1_n_n rfl rfl (fun _ _ => rfl) (fun _ _ => rfl) rfl rfl _ _ _ x0 x1 p q

/-- The printed index maps over the grid: the row windows sit at block `t`, the table at block 0. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point `t` writes back is block `t` of `x · w`. -/
theorem flushed10 (c : Dev nD) (t : Fin cfg10.N) :
    (dat10 V c).flushed 2 t = ((cfg10.win 2).blk t).view.read (Elt Ideal) (product (n := 100000) (K := 64) (P := 128) (V c main_v321) (V c main_v340)) := by
  show (cfg10.win 2).cut (grid10.coords t) ((dat10 V c).after 2 t) = _
  rw [after10_2]
  unfold out10_2
  rw [View.canon_unit_zero zero2]
  simp only [View.ld_unit_zero (S := S5000x64) zero2, View.ld_unit_zero (S := S64x128) zero2]
  obtain ⟨e0, e1, e2, e3, e4, e5⟩ := idx10 t
  funext j
  obtain ⟨p, q, rfl⟩ : ∃ (p : Fin 5000) (q : Fin 128), j = ix2 p q := ⟨j 0, j 1, eq_ix2 j⟩
  refine (body10_apply _ _ p q).trans ?_
  have hp := p.isLt
  have hq := q.isLt
  refine product_at (n := 100000) (K := 64) (P := 128) (V c main_v321) (V c main_v340) (((cfg10.win 2).blk t).view.emb (ix2 p q))
    (fun k => (((cfg10.win 0).blk t).view.emb (ix2 p k))) (fun k => (((cfg10.win 1).blk t).view.emb (ix2 k q))) (fun k => ?_) (fun k => ?_)
  ·
    funext a; apply Fin.ext
    match a with
    | ⟨0, _⟩ => show win10_0.index t (0 : Fin 2) * 5000 + 1 * p.val = win10_2.index t (0 : Fin 2) * 5000 + 1 * p.val; omega
    | ⟨1, _⟩ => show win10_0.index t (1 : Fin 2) * 64 + 1 * k.val = k.val; omega
  ·
    funext a; apply Fin.ext
    match a with
    | ⟨0, _⟩ => show win10_1.index t (0 : Fin 2) * 64 + 1 * k.val = k.val; omega
    | ⟨1, _⟩ => show win10_1.index t (1 : Fin 2) * 128 + 1 * q.val = win10_2.index t (1 : Fin 2) * 128 + 1 * q.val; omega

/-- An index is in point `t`'s block iff each coordinate is in the block's range. -/
theorem mem_blk10 (t : Fin cfg10.N) (i : S100000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole main_v346).slice (win10_2.rect t)).set ↔ _
  rw [View.set_slice_whole, Rect.mem_set_unit]
  exact Iff.rfl

/-- Every row is in the block of the point `row / 5000`. -/
theorem cover10 (i : S100000x128.Idx) : ∃ t : Fin cfg10.N, (cfg10.win 2).flush t = true ∧ i ∈ ((cfg10.win 2).blk t).view.set := by
  have hi0 : (i 0).val < 100000 := (i 0).isLt
  have hi1 : (i 1).val < 128 := (i 1).isLt
  have hN : cfg10.N = 20 := N_10
  have ht : (i 0).val / 5000 < cfg10.N := by rw [hN]; omega
  refine ⟨⟨(i 0).val / 5000, ht⟩, flush10_2 _, ?_⟩
  rw [mem_blk10]
  have e := idx10 ⟨(i 0).val / 5000, ht⟩
  intro a
  match a with
  | ⟨0, _⟩ =>
    show win10_2.index ⟨(i 0).val / 5000, ht⟩ (0 : Fin 2) * 5000 ≤ (i 0).val ∧ (i 0).val < win10_2.index ⟨(i 0).val / 5000, ht⟩ (0 : Fin 2) * 5000 + 5000
    have e' : win10_2.index ⟨(i 0).val / 5000, ht⟩ (0 : Fin 2) = (i 0).val / 5000 := e.2.2.2.2.1
    omega
  | ⟨1, _⟩ =>
    show win10_2.index ⟨(i 0).val / 5000, ht⟩ (1 : Fin 2) * 128 ≤ (i 1).val ∧ (i 1).val < win10_2.index ⟨(i 0).val / 5000, ht⟩ (1 : Fin 2) * 128 + 128
    have e' : win10_2.index ⟨(i 0).val / 5000, ht⟩ (1 : Fin 2) = 0 := e.2.2.2.2.2
    omega

/-- The output array after the region. -/
theorem final10 (c : Dev nD) :
    (dat10 V c).arrAt 2 cfg10.N = product (n := 100000) (K := 64) (P := 128) (V c main_v321) (V c main_v340) :=
  (dat10 V c).arrAt_eq_of_cover 2 _ (fun t _ => flushed10 V c t) cover10

end Cert.KernelIdeal.Regions

end
-- ==== Proof.Region11.lean ====
/-
  Region 11: a weight transform against two tables side by side, one block of 5000 rows per grid point.

  Point `t` reads rows `5000 t … 5000 t + 4999` of the node table and the whole 64 × 128 weight table, and writes the
  same rows of the output.  So the output array ends holding `x · w` row by row.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of rows, at an index. -/
theorem body11_apply (x0 : Vec Ideal S5000x64 .f32) (x1 : Vec Ideal S64x128 .f32) (p : Fin 5000) (q : Fin 128) :
    k11_pay1 x0 x1 (ix2 p q) = ∑ k : Fin 64, x0 (ix2 p k) * x1 (ix2 k q) := by
  unfold k11_pay1
  exact product_block dot_S5000x64_S64x128_S5000x128_1_0_0_1_n_n rfl rfl (fun _ _ => rfl) (fun _ _ => rfl) rfl rfl _ _ _ x0 x1 p q

/-- The printed index maps over the grid: the row windows sit at block `t`, the table at block 0. -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What point `t` writes back is block `t` of `x · w`. -/
theorem flushed11 (c : Dev nD) (t : Fin cfg11.N) :
    (dat11 V c).flushed 2 t = ((cfg11.win 2).blk t).view.read (Elt Ideal) (product (n := 200000) (K := 64) (P := 128) (V c main_v335) (V c main_v345)) := by
  show (cfg11.win 2).cut (grid11.coords t) ((dat11 V c).after 2 t) = _
  rw [after11_2]
  unfold out11_2
  rw [View.canon_unit_zero zero2]
  simp only [View.ld_unit_zero (S := S5000x64) zero2, View.ld_unit_zero (S := S64x128) zero2]
  obtain ⟨e0, e1, e2, e3, e4, e5⟩ := idx11 t
  funext j
  obtain ⟨p, q, rfl⟩ : ∃ (p : Fin 5000) (q : Fin 128), j = ix2 p q := ⟨j 0, j 1, eq_ix2 j⟩
  refine (body11_apply _ _ p q).trans ?_
  have hp := p.isLt
  have hq := q.isLt
  refine product_at (n := 200000) (K := 64) (P := 128) (V c main_v335) (V c main_v345) (((cfg11.win 2).blk t).view.emb (ix2 p q))
    (fun k => (((cfg11.win 0).blk t).view.emb (ix2 p k))) (fun k => (((cfg11.win 1).blk t).view.emb (ix2 k q))) (fun k => ?_) (fun k => ?_)
  ·
    funext a; apply Fin.ext
    match a with
    | ⟨0, _⟩ => show win11_0.index t (0 : Fin 2) * 5000 + 1 * p.val = win11_2.index t (0 : Fin 2) * 5000 + 1 * p.val; omega
    | ⟨1, _⟩ => show win11_0.index t (1 : Fin 2) * 64 + 1 * k.val = k.val; omega
  ·
    funext a; apply Fin.ext
    match a with
    | ⟨0, _⟩ => show win11_1.index t (0 : Fin 2) * 64 + 1 * k.val = k.val; omega
    | ⟨1, _⟩ => show win11_1.index t (1 : Fin 2) * 128 + 1 * q.val = win11_2.index t (1 : Fin 2) * 128 + 1 * q.val; omega

/-- An index is in point `t`'s block iff each coordinate is in the block's range. -/
theorem mem_blk11 (t : Fin cfg11.N) (i : S200000x128.Idx) :
    i ∈ ((cfg11.win 2).blk t).view.set ↔ ∀ a : Fin 2, win11_2.index t a * S5000x128.size a ≤ (i a).val ∧ (i a).val < win11_2.index t a * S5000x128.size a + S5000x128.size a := by
  show i ∈ ((View.whole main_v347).slice (win11_2.rect t)).set ↔ _
  rw [View.set_slice_whole, Rect.mem_set_unit]
  exact Iff.rfl

/-- Every row is in the block of the point `row / 5000`. -/
theorem cover11 (i : S200000x128.Idx) : ∃ t : Fin cfg11.N, (cfg11.win 2).flush t = true ∧ i ∈ ((cfg11.win 2).blk t).view.set := by
  have hi0 : (i 0).val < 200000 := (i 0).isLt
  have hi1 : (i 1).val < 128 := (i 1).isLt
  have hN : cfg11.N = 40 := N_11
  have ht : (i 0).val / 5000 < cfg11.N := by rw [hN]; omega
  refine ⟨⟨(i 0).val / 5000, ht⟩, flush11_2 _, ?_⟩
  rw [mem_blk11]
  have e := idx11 ⟨(i 0).val / 5000, ht⟩
  intro a
  match a with
  | ⟨0, _⟩ =>
    show win11_2.index ⟨(i 0).val / 5000, ht⟩ (0 : Fin 2) * 5000 ≤ (i 0).val ∧ (i 0).val < win11_2.index ⟨(i 0).val / 5000, ht⟩ (0 : Fin 2) * 5000 + 5000
    have e' : win11_2.index ⟨(i 0).val / 5000, ht⟩ (0 : Fin 2) = (i 0).val / 5000 := e.2.2.2.2.1
    omega
  | ⟨1, _⟩ =>
    show win11_2.index ⟨(i 0).val / 5000, ht⟩ (1 : Fin 2) * 128 ≤ (i 1).val ∧ (i 1).val < win11_2.index ⟨(i 0).val / 5000, ht⟩ (1 : Fin 2) * 128 + 128
    have e' : win11_2.index ⟨(i 0).val / 5000, ht⟩ (1 : Fin 2) = 0 := e.2.2.2.2.2
    omega

/-- The output array after the region. -/
theorem final11 (c : Dev nD) :
    (dat11 V c).arrAt 2 cfg11.N = product (n := 200000) (K := 64) (P := 128) (V c main_v335) (V c main_v345) :=
  (dat11 V c).arrAt_eq_of_cover 2 _ (fun t _ => flushed11 V c t) cover11

end Cert.KernelIdeal.Regions

end
-- ==== Proof.Region12.lean ====
/-
  Region 12: the combination of two relations on rows packed two to a line, one block of 5000 lines per grid point.

  Point `t` reads lines `5000 t … 5000 t + 4999` of the two packed arrays and the two whole (twice-written) biases, and
  writes the same lines of the output.  So the output array ends holding, line by line, half the sum of the two biased
  arrays cut at zero.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of lines, at an index. -/
theorem body12_apply (a : Vec Ideal S5000x128 .f32) (ba : Vec Ideal S128 .f32) (b : Vec Ideal S5000x128 .f32) (bb : Vec Ideal S128 .f32)
    (p : Fin 5000) (q : Fin 128) :
    k12_pay1 a ba b bb (ix2 p q) = max (((a (ix2 p q) + ba (ix1 q)) + (b (ix2 p q) + bb (ix1 q))) * half) zero := by
  unfold k12_pay1
  exact meanRelu_block _ _ _ _ a ba b bb p q

/-- The printed index maps over the grid: the line windows sit at block `t`, the biases at block 0. -/
theorem idx12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 1) = 0 ∧ win12_3.index t (0 : Fin 1) = 0
    ∧ win12_4.index t (0 : Fin 2) = t.val ∧ win12_4.index t (1 : Fin 2) = 0 :=
  (by decide +kernel : ∀ t : Fin grid12.N, _)

/-- What point `t` writes back is block `t` of the combination. -/
theorem flushed12 (c : Dev nD) (t : Fin cfg12.N) :
    (dat12 V c).flushed 4 t = ((cfg12.win 4).blk t).view.read (Elt Ideal) (meanRelu (n := 50000) (P := 128) (V c main_v408) (V c main_v409) (V c main_v412) (V c main_v415)) := by
  show (cfg12.win 4).cut (grid12.coords t) ((dat12 V c).after 4 t) = _
  rw [after12_4]
  unfold out12_4
  rw [View.canon_unit_zero zero2]
  simp only [View.ld_unit_zero (S := S5000x128) zero2, View.ld_unit_zero (S := S128) zero1]
  obtain ⟨e0, e1, e2, e3, e4, e5, e6, e7⟩ := idx12 t
  funext j
  obtain ⟨p, q, rfl⟩ : ∃ (p : Fin 5000) (q : Fin 128), j = ix2 p q := ⟨j 0, j 1, eq_ix2 j⟩
  refine (body12_apply _ _ _ _ p q).trans ?_
  have hp := p.isLt
  have hq := q.isLt
  refine meanRelu_at (n := 50000) (P := 128) (V c main_v408) (V c main_v409) (V c main_v412) (V c main_v415) (((cfg12.win 4).blk t).view.emb (ix2 p q))
    (((cfg12.win 0).blk t).view.emb (ix2 p q)) (((cfg12.win 1).blk t).view.emb (ix2 p q)) (((cfg12.win 2).blk t).view.emb (ix1 q)) (((cfg12.win 3).blk t).view.emb (ix1 q)) ?_ ?_ ?_ ?_
  ·
    funext a; apply Fin.ext
    match a with
    | ⟨0, _⟩ => show win12_0.index t (0 : Fin 2) * 5000 + 1 * p.val = win12_4.index t (0 : Fin 2) * 5000 + 1 * p.val; omega
    | ⟨1, _⟩ => show win12_0.index t (1 : Fin 2) * 128 + 1 * q.val = win12_4.index t (1 : Fin 2) * 128 + 1 * q.val; omega
  ·
    funext a; apply Fin.ext
    match a with
    | ⟨0, _⟩ => show win12_1.index t (0 : Fin 2) * 5000 + 1 * p.val = win12_4.index t (0 : Fin 2) * 5000 + 1 * p.val; omega
    | ⟨1, _⟩ => show win12_1.index t (1 : Fin 2) * 128 + 1 * q.val = win12_4.index t (1 : Fin 2) * 128 + 1 * q.val; omega
  ·
    funext a; apply Fin.ext
    match a with
    | ⟨0, _⟩ => show win12_2.index t (0 : Fin 1) * 128 + 1 * q.val = win12_4.index t (1 : Fin 2) * 128 + 1 * q.val; omega
  ·
    funext a; apply Fin.ext
    match a with
    | ⟨0, _⟩ => show win12_3.index t (0 : Fin 1) * 128 + 1 * q.val = win12_4.index t (1 : Fin 2) * 128 + 1 * q.val; omega

/-- An index is in point `t`'s block iff each coordinate is in the block's range. -/
theorem mem_blk12 (t : Fin cfg12.N) (i : S50000x128.Idx) :
    i ∈ ((cfg12.win 4).blk t).view.set ↔ ∀ a : Fin 2, win12_4.index t a * S5000x128.size a ≤ (i a).val ∧ (i a).val < win12_4.index t a * S5000x128.size a + S5000x128.size a := by
  show i ∈ ((View.whole main_v416).slice (win12_4.rect t)).set ↔ _
  rw [View.set_slice_whole, Rect.mem_set_unit]
  exact Iff.rfl

/-- Every row is in the block of the point `row / 5000`. -/
theorem cover12 (i : S50000x128.Idx) : ∃ t : Fin cfg12.N, (cfg12.win 4).flush t = true ∧ i ∈ ((cfg12.win 4).blk t).view.set := by
  have hi0 : (i 0).val < 50000 := (i 0).isLt
  have hi1 : (i 1).val < 128 := (i 1).isLt
  have hN : cfg12.N = 10 := N_12
  have ht : (i 0).val / 5000 < cfg12.N := by rw [hN]; omega
  refine ⟨⟨(i 0).val / 5000, ht⟩, flush12_4 _, ?_⟩
  rw [mem_blk12]
  have e := idx12 ⟨(i 0).val / 5000, ht⟩
  intro a
  match a with
  | ⟨0, _⟩ =>
    show win12_4.index ⟨(i 0).val / 5000, ht⟩ (0 : Fin 2) * 5000 ≤ (i 0).val ∧ (i 0).val < win12_4.index ⟨(i 0).val / 5000, ht⟩ (0 : Fin 2) * 5000 + 5000
    have e' : win12_4.index ⟨(i 0).val / 5000, ht⟩ (0 : Fin 2) = (i 0).val / 5000 := e.2.2.2.2.2.2.1
    omega
  | ⟨1, _⟩ =>
    show win12_4.index ⟨(i 0).val / 5000, ht⟩ (1 : Fin 2) * 128 ≤ (i 1).val ∧ (i 1).val < win12_4.index ⟨(i 0).val / 5000, ht⟩ (1 : Fin 2) * 128 + 128
    have e' : win12_4.index ⟨(i 0).val / 5000, ht⟩ (1 : Fin 2) = 0 := e.2.2.2.2.2.2.2
    omega

/-- The output array after the region. -/
theorem final12 (c : Dev nD) :
    (dat12 V c).arrAt 4 cfg12.N = meanRelu (n := 50000) (P := 128) (V c main_v408) (V c main_v409) (V c main_v412) (V c main_v415) :=
  (dat12 V c).arrAt_eq_of_cover 4 _ (fun t _ => flushed12 V c t) cover12

end Cert.KernelIdeal.Regions

end
-- ==== Proof.Region13.lean ====
/-
  Region 13: the combination of two relations on rows packed two to a line, one block of 5000 lines per grid point.

  Point `t` reads lines `5000 t … 5000 t + 4999` of the two packed arrays and the two whole (twice-written) biases, and
  writes the same lines of the output.  So the output array ends holding, line by line, half the sum of the two biased
  arrays cut at zero.
-/
import proofs.«167272_j20323785244837_2_alg».proof.Proof.KernelIdealFrameP1
import proofs.«167272_j20323785244837_2_alg».proof.Proof.DenseMath
import proofs.«167272_j20323785244837_2_alg».proof.Proof.RegionBase
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.GenP Cert.Dense

variable (V : (c : Dev nD) → (b : Ref sig .tc) → Buf (Elt Ideal) ((c : Thread nD τ).loc b))

/-- The body on a block of lines, at an index. -/
theorem body13_apply (a : Vec Ideal S5000x128 .f32) (ba : Vec Ideal S128 .f32) (b : Vec Ideal S5000x128 .f32) (bb : Vec Ideal S128 .f32)
    (p : Fin 5000) (q : Fin 128) :
    k13_pay1 a ba b bb (ix2 p q) = max (((a (ix2 p q) + ba (ix1 q)) + (b (ix2 p q) + bb (ix1 q))) * half) zero := by
  unfold k13_pay1
  exact meanRelu_block _ _ _ _ a ba b bb p q

/-- The printed index maps over the grid: the line windows sit at block `t`, the biases at block 0. -/
theorem idx13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 1) = 0 ∧ win13_3.index t (0 : Fin 1) = 0
    ∧ win13_4.index t (0 : Fin 2) = t.val ∧ win13_4.index t (1 : Fin 2) = 0 :=
  (by decide +kernel : ∀ t : Fin grid13.N, _)

/-- What point `t` writes back is block `t` of the combination. -/
theorem flushed13 (c : Dev nD) (t : Fin cfg13.N) :
    (dat13 V c).flushed 4 t = ((cfg13.win 4).blk t).view.read (Elt Ideal) (meanRelu (n := 100000) (P := 128) (V c main_v422) (V c main_v423) (V c main_v426) (V c main_v429)) := by
  show (cfg13.win 4).cut (grid13.coords t) ((dat13 V c).after 4 t) = _
  rw [after13_4]
  unfold out13_4
  rw [View.canon_unit_zero zero2]
  simp only [View.ld_unit_zero (S := S5000x128) zero2, View.ld_unit_zero (S := S128) zero1]
  obtain ⟨e0, e1, e2, e3, e4, e5, e6, e7⟩ := idx13 t
  funext j
  obtain ⟨p, q, rfl⟩ : ∃ (p : Fin 5000) (q : Fin 128), j = ix2 p q := ⟨j 0, j 1, eq_ix2 j⟩
  refine (body13_apply _ _ _ _ p q).trans ?_
  have hp := p.isLt
  have hq := q.isLt
  refine meanRelu_at (n := 100000) (P := 128) (V c main_v422) (V c main_v423) (V c main_v426) (V c main_v429) (((cfg13.win 4).blk t).view.emb (ix2 p q))
    (((cfg13.win 0).blk t).view.emb (ix2 p q)) (((cfg13.win 1).blk t).view.emb (ix2 p q)) (((cfg13.win 2).blk t).view.emb (ix1 q)) (((cfg13.win 3).blk t).view.emb (ix1 q)) ?_ ?_ ?_ ?_
  ·
    funext a; apply Fin.ext
    match a with
    | ⟨0, _⟩ => show win13_0.index t (0 : Fin 2) * 5000 + 1 * p.val = win13_4.index t (0 : Fin 2) * 5000 + 1 * p.val; omega
    | ⟨1, _⟩ => show win13_0.index t (1 : Fin 2) * 128 + 1 * q.val = win13_4.index t (1 : Fin 2) * 128 + 1 * q.val; omega
  ·
    funext a; apply Fin.ext
    match a with
    | ⟨0, _⟩ => show win13_1.index t (0 : Fin 2) * 5000 + 1 * p.val = win13_4.index t (0 : Fin 2) * 5000 + 1 * p.val; omega
    | ⟨1, _⟩ => show win13_1.index t (1 : Fin 2) * 128 + 1 * q.val = win13_4.index t (1 : Fin 2) * 128 + 1 * q.val; omega
  ·
    funext a; apply Fin.ext
    match a with
    | ⟨0, _⟩ => show win13_2.index t (0 : Fin 1) * 128 + 1 * q.val = win13_4.index t (1 : Fin 2) * 128 + 1 * q.val; omega
  ·
    funext a; apply Fin.ext
    match a with
    | ⟨0, _⟩ => show win13_3.index t (0 : Fin 1) * 128 + 1 * q.val = win13_4.index t (1 : Fin 2) * 128 + 1 * q.val; omega

/-- An index is in point `t`'s block iff each coordinate is in the block's range. -/
theorem mem_blk13 (t : Fin cfg13.N) (i : S100000x128.Idx) :
    i ∈ ((cfg13.win 4).blk t).view.set ↔ ∀ a : Fin 2, win13_4.index t a * S5000x128.size a ≤ (i a).val ∧ (i a).val < win13_4.index t a * S5000x128.size a + S5000x128.size a := by
  show i ∈ ((View.whole main_v430).slice (win13_4.rect t)).set ↔ _
  rw [View.set_slice_whole, Rect.mem_set_unit]
  exact Iff.rfl

/-- Every row is in the block of the point `row / 5000`. -/
theorem cover13 (i : S100000x128.Idx) : ∃ t : Fin cfg13.N, (cfg13.win 4).flush t = true ∧ i ∈ ((cfg13.win 4).blk t).view.set := by
  have hi0 : (i 0).val < 100000 := (i 0).isLt
  have hi1 : (i 1).val < 128 := (i 1).isLt
  have hN : cfg13.N = 20 := N_13
  have ht : (i 0).val / 5000 < cfg13.N := by rw [hN]; omega
  refine ⟨⟨(i 0).val / 5000, ht⟩, flush13_4 _, ?_⟩
  rw [mem_blk13]
  have e := idx13 ⟨(i 0).val / 5000, ht⟩
  intro a
  match a with
  | ⟨0, _⟩ =>
    show win13_4.index ⟨(i 0).val / 5000, ht⟩ (0 : Fin 2) * 5000 ≤ (i 0).val ∧ (i 0).val < win13_4.index ⟨(i 0).val / 5000, ht⟩ (0 : Fin 2) * 5000 + 5000
    have e' : win13_4.index ⟨(i 0).val / 5000, ht⟩ (0 : Fin 2) = (i 0).val / 5000 := e.2.2.2.2.2.2.1
    omega
  | ⟨1, _⟩ =>
    show win13_4.index ⟨(i 0).val / 5000, ht⟩ (1 : Fin 2) * 128 ≤ (i 1).val ∧ (i 1).val < win13_4.index ⟨(i 0).val / 5000, ht⟩ (1 : Fin 2) * 128 + 128
    have e' : win13_4.index ⟨(i 0).val / 5000, ht⟩ (1 : Fin 2) = 0 := e.2.2.2.2.2.2.2
    omega

/-- The output array after the region. -/
theorem final13 (c : Dev nD) :
    (dat13 V c).arrAt 4 cfg13.N = meanRelu (n := 100000) (P := 128) (V c main_v422) (V c main_v423) (V c main_v426) (V c main_v429) :=
  (dat13 V c).arrAt_eq_of_cover 4 _ (fun t _ => flushed13 V c t) cover13

end Cert.KernelIdeal.Regions

end
-- ==== Proof.Regions.lean ====
/-
  The fourteen regions' output arrays, gathered.
-/
import proofs.«167272_j20323785244837_2_alg».proof.Proof.Region0
import proofs.«167272_j20323785244837_2_alg».proof.Proof.Region1
import proofs.«167272_j20323785244837_2_alg».proof.Proof.Region2
import proofs.«167272_j20323785244837_2_alg».proof.Proof.Region3
import proofs.«167272_j20323785244837_2_alg».proof.Proof.Region4
import proofs.«167272_j20323785244837_2_alg».proof.Proof.Region5
import proofs.«167272_j20323785244837_2_alg».proof.Proof.Region6
import proofs.«167272_j20323785244837_2_alg».proof.Proof.Region7
import proofs.«167272_j20323785244837_2_alg».proof.Proof.Region8
import proofs.«167272_j20323785244837_2_alg».proof.Proof.Region9
import proofs.«167272_j20323785244837_2_alg».proof.Proof.Region10
import proofs.«167272_j20323785244837_2_alg».proof.Proof.Region11
import proofs.«167272_j20323785244837_2_alg».proof.Proof.Region12
import proofs.«167272_j20323785244837_2_alg».proof.Proof.Region13
-- ==== Proof.LibRegionOp.lean ====
/-
  A pipelined region as one pure operation on the buffer contents.

  When a region ends, its windows' arrays hold what the pipeline leaves and every other buffer what it held at entry.
  If exactly one window is written — the others end as they were entered — and the written array ends at a value that
  a host-style operation would put there, then the contents at the region's exit are that operation's result on the
  contents at entry.  This lets a program of several regions among host operations be read as ONE list of operations.
-/
import Idealize.ShloMosaic.Lib.Pipeline.FrameSuffix
import Idealize.ShloMosaic.Lib.StableHlo.Run

noncomputable section

namespace Cert.LibRegionOp

open Idealize.ShloMosaic Idealize.ShloMosaic.StableHlo Idealize.ShloMosaic.Pipeline

variable {nD : Nat} {τ : Topo} {sig : RefSig} {Val : EltTy → Type}

/-- The exit contents of a region whose only changed array is window `wo`'s are the result of an operation that
    writes exactly that array with the same value. -/
theorem withArrays_eq_result {gr : Nat} {W : Nat} (win : Fin W → WinSpec sig gr)
    (hinj : Function.Injective (arrRef win)) (c : Dev nD) (V : Valuation τ sig Val)
    (A : (w : Fin W) → Buf Val ((win w).arr.view.loc (c.tc : Thread nD τ))) (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo
      exact hout
    · rw [hin w hwo]
      refine (op.result_of_not_mem V ?_).symm
      rw [hw, Finset.mem_singleton]
      exact fun e => hwo (hinj (Proc.devRef_injective _ e))
  · have hV : withArrays win c V A b = V b := by
      unfold withArrays
      rw [dif_neg h]
    rw [hV]
    refine (op.result_of_not_mem V ?_).symm
    rw [hw, Finset.mem_singleton]
    exact fun e => h ⟨wo, e.symm⟩

end Cert.LibRegionOp

end
-- ==== Proof.LibConcat2.lean ====
/-
  Two pieces laid side by side along an axis, as a plain function of the two pieces.

  A concatenation is written over a LIST of pieces, each paired with its shape.  When a composed term is evaluated by
  rewriting, the two pieces sit inside those pairs, where rewriting does not reach them.  Naming the two-piece case as a
  function of the two pieces — before the rewriting descends — lets the pieces be rewritten like any other argument;
  the name unfolds back to the concatenation by definition.
-/
import Idealize.ShloMosaic.Lib.Pipeline.Value

noncomputable section

namespace Cert.LibConcat2

open Idealize.ShloMosaic

/-- Two pieces concatenated along axis `d`, as a function of the two pieces. -/
def concat2 {α : Type} (t : Shape) (d : Fin t.rank) (s1 s2 : Shape) (h : Shape.Concatenates [s1, s2] t d)
    (a : s1.Idx → α) (b : s2.Idx → α) : t.Idx → α :=
  concatenate t d [⟨s1, a⟩, ⟨s2, b⟩] h

/-- A two-piece concatenation is `concat2` of its pieces (by definition). -/
theorem concat2_intro {α : Type} (t : Shape) (d : Fin t.rank) (s1 s2 : Shape) (h : Shape.Concatenates [s1, s2] t d)
    (a : s1.Idx → α) (b : s2.Idx → α) :
    concatenate t d [⟨s1, a⟩, ⟨s2, b⟩] h = concat2 t d s1 s2 h a b := rfl

end Cert.LibConcat2

end
-- ==== Proof.KernelEval.lean ====
/-
  The results of the kernel's host operations whose generic evaluation leaves a transport behind.

  A reshape's result is stated through a transport along the (definitional) equality of the two buffers' element
  types, and an outlined call's operations are typed at the call's own tensor types and move contents between those
  and the buffers' types.  For each such operation of this program the result is stated here directly — the reshaped
  operand, the operation's function of its operands — so that a composed term evaluated with these comes out free of
  transports.  Each is the generic result followed by a definitional check on that one operation.
-/
import proofs.«167272_j20323785244837_2_alg».proof.Proof.KernelIdealFrameP1
import Idealize.ShloMosaic.Lib.StableHlo.Run

noncomputable section

namespace Cert.KernelIdeal.Eval

open Idealize.ShloMosaic Idealize.ShloMosaic.TcCoe Idealize.ShloMosaic.StableHlo
open Cert.KernelIdeal Cert.KernelIdeal.Gen

variable {F : FTy → Type} [FloatOps F]

theorem krs_v3 (he : main_v2.ty.elt = main_v3.ty.elt) (V : Valuation τ sig (Elt F)) :
    (StableHlo.reshape (τ := τ) (Val := Elt F) main_v2 main_v3 he shapeCasts_S1x1000000_S1000000).result V (no_index (Proc.devRef .tc main_v3))
      = shapeCast S1000000 (V (Proc.devRef .tc main_v2)) shapeCasts_S1x1000000_S1000000 := by
  simp only [reshape_result']; rfl

theorem krs_v5 (he : main_v4.ty.elt = main_v5.ty.elt) (V : Valuation τ sig (Elt F)) :
    (StableHlo.reshape (τ := τ) (Val := Elt F) main_v4 main_v5 he shapeCasts_S1x1000000_S1000000).result V (no_index (Proc.devRef .tc main_v5))
      = shapeCast S1000000 (V (Proc.devRef .tc main_v4)) shapeCasts_S1x1000000_S1000000 := by
  simp only [reshape_result']; rfl

theorem ktr_call0_v0 (V : Valuation τ sig (Elt F)) :
    (StableHlo.TRef.unary (τ := τ) (Val := Elt F) (.of main_cst_3 : StableHlo.TRef sig ⟨S_, .f32⟩) (.of main_call0_v0 : StableHlo.TRef sig ⟨S_, .f32⟩) id).result V (no_index (Proc.devRef .tc main_call0_v0))
      = (id : (⟨S_, .f32⟩ : BufTy).Contents (Elt F) → (⟨S_, .f32⟩ : BufTy).Contents (Elt F)) (V (Proc.devRef .tc main_cst_3)) := by
  simp only [unary_result', binary_result', ternary_result']; rfl

theorem ktr_call0_v1 (V : Valuation τ sig (Elt F)) :
    (StableHlo.TRef.unary (τ := τ) (Val := Elt F) (.of main_call0_v0 : StableHlo.TRef sig ⟨S_, .f32⟩) (.of main_call0_v1 : StableHlo.TRef sig ⟨S100000, .f32⟩) (broadcastInDim S100000 ![] bcast_S_S100000)).result V (no_index (Proc.devRef .tc main_call0_v1))
      = ((broadcastInDim S100000 ![] bcast_S_S100000) : (⟨S_, .f32⟩ : BufTy).Contents (Elt F) → (⟨S100000, .f32⟩ : BufTy).Contents (Elt F)) (V (Proc.devRef .tc main_call0_v0)) := by
  simp only [unary_result', binary_result', ternary_result']; rfl

theorem ktr_v18 (V : Valuation τ sig (Elt F)) :
    (StableHlo.TRef.ternary (τ := τ) (Val := Elt F) (.of main_v14 : StableHlo.TRef sig ⟨S100000, .i1⟩) (.of main_v17 : StableHlo.TRef sig ⟨S100000, .f32⟩) (.of main_call0_v1 : StableHlo.TRef sig ⟨S100000, .f32⟩) (.of main_v18 : StableHlo.TRef sig ⟨S100000, .f32⟩) select).result V (no_index (Proc.devRef .tc main_v18))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v14)) (V (Proc.devRef .tc main_v17)) (V (Proc.devRef .tc main_call0_v1)) := by
  simp only [unary_result', binary_result', ternary_result']; rfl

theorem krs_v35 (he : main_v34.ty.elt = main_v35.ty.elt) (V : Valuation τ sig (Elt F)) :
    (StableHlo.reshape (τ := τ) (Val := Elt F) main_v34 main_v35 he shapeCasts_S1x1000000_S1000000).result V (no_index (Proc.devRef .tc main_v35))
      = shapeCast S1000000 (V (Proc.devRef .tc main_v34)) shapeCasts_S1x1000000_S1000000 := by
  simp only [reshape_result']; rfl

theorem krs_v37 (he : main_v36.ty.elt = main_v37.ty.elt) (V : Valuation τ sig (Elt F)) :
    (StableHlo.reshape (τ := τ) (Val := Elt F) main_v36 main_v37 he shapeCasts_S1x1000000_S1000000).result V (no_index (Proc.devRef .tc main_v37))
      = shapeCast S1000000 (V (Proc.devRef .tc main_v36)) shapeCasts_S1x1000000_S1000000 := by
  simp only [reshape_result']; rfl

theorem ktr_call1_v0 (V : Valuation τ sig (Elt F)) :
    (StableHlo.TRef.unary (τ := τ) (Val := Elt F) (.of main_cst_11 : StableHlo.TRef sig ⟨S_, .f32⟩) (.of main_call1_v0 : StableHlo.TRef sig ⟨S_, .f32⟩) id).result V (no_index (Proc.devRef .tc main_call1_v0))
      = (id : (⟨S_, .f32⟩ : BufTy).Contents (Elt F) → (⟨S_, .f32⟩ : BufTy).Contents (Elt F)) (V (Proc.devRef .tc main_cst_11)) := by
  simp only [unary_result', binary_result', ternary_result']; rfl

theorem ktr_call1_v1 (V : Valuation τ sig (Elt F)) :
    (StableHlo.TRef.unary (τ := τ) (Val := Elt F) (.of main_call1_v0 : StableHlo.TRef sig ⟨S_, .f32⟩) (.of main_call1_v1 : StableHlo.TRef sig ⟨S200000, .f32⟩) (broadcastInDim S200000 ![] bcast_S_S200000)).result V (no_index (Proc.devRef .tc main_call1_v1))
      = ((broadcastInDim S200000 ![] bcast_S_S200000) : (⟨S_, .f32⟩ : BufTy).Contents (Elt F) → (⟨S200000, .f32⟩ : BufTy).Contents (Elt F)) (V (Proc.devRef .tc main_call1_v0)) := by
  simp only [unary_result', binary_result', ternary_result']; rfl

theorem ktr_v50 (V : Valuation τ sig (Elt F)) :
    (StableHlo.TRef.ternary (τ := τ) (Val := Elt F) (.of main_v46 : StableHlo.TRef sig ⟨S200000, .i1⟩) (.of main_v49 : StableHlo.TRef sig ⟨S200000, .f32⟩) (.of main_call1_v1 : StableHlo.TRef sig ⟨S200000, .f32⟩) (.of main_v50 : StableHlo.TRef sig ⟨S200000, .f32⟩) select).result V (no_index (Proc.devRef .tc main_v50))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v46)) (V (Proc.devRef .tc main_v49)) (V (Proc.devRef .tc main_call1_v1)) := by
  simp only [unary_result', binary_result', ternary_result']; rfl

theorem krs_v67 (he : main_v66.ty.elt = main_v67.ty.elt) (V : Valuation τ sig (Elt F)) :
    (StableHlo.reshape (τ := τ) (Val := Elt F) main_v66 main_v67 he shapeCasts_S1x1000000_S1000000).result V (no_index (Proc.devRef .tc main_v67))
      = shapeCast S1000000 (V (Proc.devRef .tc main_v66)) shapeCasts_S1x1000000_S1000000 := by
  simp only [reshape_result']; rfl

theorem krs_v69 (he : main_v68.ty.elt = main_v69.ty.elt) (V : Valuation τ sig (Elt F)) :
    (StableHlo.reshape (τ := τ) (Val := Elt F) main_v68 main_v69 he shapeCasts_S1x1000000_S1000000).result V (no_index (Proc.devRef .tc main_v69))
      = shapeCast S1000000 (V (Proc.devRef .tc main_v68)) shapeCasts_S1x1000000_S1000000 := by
  simp only [reshape_result']; rfl

theorem ktr_call2_v0 (V : Valuation τ sig (Elt F)) :
    (StableHlo.TRef.unary (τ := τ) (Val := Elt F) (.of main_cst_22 : StableHlo.TRef sig ⟨S_, .f32⟩) (.of main_call2_v0 : StableHlo.TRef sig ⟨S_, .f32⟩) id).result V (no_index (Proc.devRef .tc main_call2_v0))
      = (id : (⟨S_, .f32⟩ : BufTy).Contents (Elt F) → (⟨S_, .f32⟩ : BufTy).Contents (Elt F)) (V (Proc.devRef .tc main_cst_22)) := by
  simp only [unary_result', binary_result', ternary_result']; rfl

theorem ktr_call2_v1 (V : Valuation τ sig (Elt F)) :
    (StableHlo.TRef.unary (τ := τ) (Val := Elt F) (.of main_call2_v0 : StableHlo.TRef sig ⟨S_, .f32⟩) (.of main_call2_v1 : StableHlo.TRef sig ⟨S100000, .f32⟩) (broadcastInDim S100000 ![] bcast_S_S100000)).result V (no_index (Proc.devRef .tc main_call2_v1))
      = ((broadcastInDim S100000 ![] bcast_S_S100000) : (⟨S_, .f32⟩ : BufTy).Contents (Elt F) → (⟨S100000, .f32⟩ : BufTy).Contents (Elt F)) (V (Proc.devRef .tc main_call2_v0)) := by
  simp only [unary_result', binary_result', ternary_result']; rfl

theorem ktr_v83 (V : Valuation τ sig (Elt F)) :
    (StableHlo.TRef.ternary (τ := τ) (Val := Elt F) (.of main_v79 : StableHlo.TRef sig ⟨S100000, .i1⟩) (.of main_v82 : StableHlo.TRef sig ⟨S100000, .f32⟩) (.of main_call2_v1 : StableHlo.TRef sig ⟨S100000, .f32⟩) (.of main_v83 : StableHlo.TRef sig ⟨S100000, .f32⟩) select).result V (no_index (Proc.devRef .tc main_v83))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v79)) (V (Proc.devRef .tc main_v82)) (V (Proc.devRef .tc main_call2_v1)) := by
  simp only [unary_result', binary_result', ternary_result']; rfl

theorem ktr_call3_v0 (V : Valuation τ sig (Elt F)) :
    (StableHlo.TRef.unary (τ := τ) (Val := Elt F) (.of main_cst_25 : StableHlo.TRef sig ⟨S_, .f32⟩) (.of main_call3_v0 : StableHlo.TRef sig ⟨S_, .f32⟩) id).result V (no_index (Proc.devRef .tc main_call3_v0))
      = (id : (⟨S_, .f32⟩ : BufTy).Contents (Elt F) → (⟨S_, .f32⟩ : BufTy).Contents (Elt F)) (V (Proc.devRef .tc main_cst_25)) := by
  simp only [unary_result', binary_result', ternary_result']; rfl

theorem ktr_call3_v1 (V : Valuation τ sig (Elt F)) :
    (StableHlo.TRef.unary (τ := τ) (Val := Elt F) (.of main_call3_v0 : StableHlo.TRef sig ⟨S_, .f32⟩) (.of main_call3_v1 : StableHlo.TRef sig ⟨S200000, .f32⟩) (broadcastInDim S200000 ![] bcast_S_S200000)).result V (no_index (Proc.devRef .tc main_call3_v1))
      = ((broadcastInDim S200000 ![] bcast_S_S200000) : (⟨S_, .f32⟩ : BufTy).Contents (Elt F) → (⟨S200000, .f32⟩ : BufTy).Contents (Elt F)) (V (Proc.devRef .tc main_call3_v0)) := by
  simp only [unary_result', binary_result', ternary_result']; rfl

theorem ktr_v89 (V : Valuation τ sig (Elt F)) :
    (StableHlo.TRef.ternary (τ := τ) (Val := Elt F) (.of main_v85 : StableHlo.TRef sig ⟨S200000, .i1⟩) (.of main_v88 : StableHlo.TRef sig ⟨S200000, .f32⟩) (.of main_call3_v1 : StableHlo.TRef sig ⟨S200000, .f32⟩) (.of main_v89 : StableHlo.TRef sig ⟨S200000, .f32⟩) select).result V (no_index (Proc.devRef .tc main_v89))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v85)) (V (Proc.devRef .tc main_v88)) (V (Proc.devRef .tc main_call3_v1)) := by
  simp only [unary_result', binary_result', ternary_result']; rfl

theorem krs_v106 (he : main_v105.ty.elt = main_v106.ty.elt) (V : Valuation τ sig (Elt F)) :
    (StableHlo.reshape (τ := τ) (Val := Elt F) main_v105 main_v106 he shapeCasts_S1x1000000_S1000000).result V (no_index (Proc.devRef .tc main_v106))
      = shapeCast S1000000 (V (Proc.devRef .tc main_v105)) shapeCasts_S1x1000000_S1000000 := by
  simp only [reshape_result']; rfl

theorem krs_v108 (he : main_v107.ty.elt = main_v108.ty.elt) (V : Valuation τ sig (Elt F)) :
    (StableHlo.reshape (τ := τ) (Val := Elt F) main_v107 main_v108 he shapeCasts_S1x1000000_S1000000).result V (no_index (Proc.devRef .tc main_v108))
      = shapeCast S1000000 (V (Proc.devRef .tc main_v107)) shapeCasts_S1x1000000_S1000000 := by
  simp only [reshape_result']; rfl

theorem ktr_call4_v0 (V : Valuation τ sig (Elt F)) :
    (StableHlo.TRef.unary (τ := τ) (Val := Elt F) (.of main_cst_36 : StableHlo.TRef sig ⟨S_, .f32⟩) (.of main_call4_v0 : StableHlo.TRef sig ⟨S_, .f32⟩) id).result V (no_index (Proc.devRef .tc main_call4_v0))
      = (id : (⟨S_, .f32⟩ : BufTy).Contents (Elt F) → (⟨S_, .f32⟩ : BufTy).Contents (Elt F)) (V (Proc.devRef .tc main_cst_36)) := by
  simp only [unary_result', binary_result', ternary_result']; rfl

theorem ktr_call4_v1 (V : Valuation τ sig (Elt F)) :
    (StableHlo.TRef.unary (τ := τ) (Val := Elt F) (.of main_call4_v0 : StableHlo.TRef sig ⟨S_, .f32⟩) (.of main_call4_v1 : StableHlo.TRef sig ⟨S200000, .f32⟩) (broadcastInDim S200000 ![] bcast_S_S200000)).result V (no_index (Proc.devRef .tc main_call4_v1))
      = ((broadcastInDim S200000 ![] bcast_S_S200000) : (⟨S_, .f32⟩ : BufTy).Contents (Elt F) → (⟨S200000, .f32⟩ : BufTy).Contents (Elt F)) (V (Proc.devRef .tc main_call4_v0)) := by
  simp only [unary_result', binary_result', ternary_result']; rfl

theorem ktr_v122 (V : Valuation τ sig (Elt F)) :
    (StableHlo.TRef.ternary (τ := τ) (Val := Elt F) (.of main_v118 : StableHlo.TRef sig ⟨S200000, .i1⟩) (.of main_v121 : StableHlo.TRef sig ⟨S200000, .f32⟩) (.of main_call4_v1 : StableHlo.TRef sig ⟨S200000, .f32⟩) (.of main_v122 : StableHlo.TRef sig ⟨S200000, .f32⟩) select).result V (no_index (Proc.devRef .tc main_v122))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v118)) (V (Proc.devRef .tc main_v121)) (V (Proc.devRef .tc main_call4_v1)) := by
  simp only [unary_result', binary_result', ternary_result']; rfl

theorem ktr_call5_v0 (V : Valuation τ sig (Elt F)) :
    (StableHlo.TRef.unary (τ := τ) (Val := Elt F) (.of main_cst_39 : StableHlo.TRef sig ⟨S_, .f32⟩) (.of main_call5_v0 : StableHlo.TRef sig ⟨S_, .f32⟩) id).result V (no_index (Proc.devRef .tc main_call5_v0))
      = (id : (⟨S_, .f32⟩ : BufTy).Contents (Elt F) → (⟨S_, .f32⟩ : BufTy).Contents (Elt F)) (V (Proc.devRef .tc main_cst_39)) := by
  simp only [unary_result', binary_result', ternary_result']; rfl

theorem ktr_call5_v1 (V : Valuation τ sig (Elt F)) :
    (StableHlo.TRef.unary (τ := τ) (Val := Elt F) (.of main_call5_v0 : StableHlo.TRef sig ⟨S_, .f32⟩) (.of main_call5_v1 : StableHlo.TRef sig ⟨S100000, .f32⟩) (broadcastInDim S100000 ![] bcast_S_S100000)).result V (no_index (Proc.devRef .tc main_call5_v1))
      = ((broadcastInDim S100000 ![] bcast_S_S100000) : (⟨S_, .f32⟩ : BufTy).Contents (Elt F) → (⟨S100000, .f32⟩ : BufTy).Contents (Elt F)) (V (Proc.devRef .tc main_call5_v0)) := by
  simp only [unary_result', binary_result', ternary_result']; rfl

theorem ktr_v128 (V : Valuation τ sig (Elt F)) :
    (StableHlo.TRef.ternary (τ := τ) (Val := Elt F) (.of main_v124 : StableHlo.TRef sig ⟨S100000, .i1⟩) (.of main_v127 : StableHlo.TRef sig ⟨S100000, .f32⟩) (.of main_call5_v1 : StableHlo.TRef sig ⟨S100000, .f32⟩) (.of main_v128 : StableHlo.TRef sig ⟨S100000, .f32⟩) select).result V (no_index (Proc.devRef .tc main_v128))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v124)) (V (Proc.devRef .tc main_v127)) (V (Proc.devRef .tc main_call5_v1)) := by
  simp only [unary_result', binary_result', ternary_result']; rfl

theorem krs_v145 (he : main_v144.ty.elt = main_v145.ty.elt) (V : Valuation τ sig (Elt F)) :
    (StableHlo.reshape (τ := τ) (Val := Elt F) main_v144 main_v145 he shapeCasts_S1x1x64x64_S64x64).result V (no_index (Proc.devRef .tc main_v145))
      = shapeCast S64x64 (V (Proc.devRef .tc main_v144)) shapeCasts_S1x1x64x64_S64x64 := by
  simp only [reshape_result']; rfl

theorem krs_v147 (he : main_v146.ty.elt = main_v147.ty.elt) (V : Valuation τ sig (Elt F)) :
    (StableHlo.reshape (τ := τ) (Val := Elt F) main_v146 main_v147 he shapeCasts_S1x1x64x64_S64x64).result V (no_index (Proc.devRef .tc main_v147))
      = shapeCast S64x64 (V (Proc.devRef .tc main_v146)) shapeCasts_S1x1x64x64_S64x64 := by
  simp only [reshape_result']; rfl

theorem krs_v150 (he : main_v149.ty.elt = main_v150.ty.elt) (V : Valuation τ sig (Elt F)) :
    (StableHlo.reshape (τ := τ) (Val := Elt F) main_v149 main_v150 he shapeCasts_S1x1x64x64_S64x64).result V (no_index (Proc.devRef .tc main_v150))
      = shapeCast S64x64 (V (Proc.devRef .tc main_v149)) shapeCasts_S1x1x64x64_S64x64 := by
  simp only [reshape_result']; rfl

theorem krs_v152 (he : main_v151.ty.elt = main_v152.ty.elt) (V : Valuation τ sig (Elt F)) :
    (StableHlo.reshape (τ := τ) (Val := Elt F) main_v151 main_v152 he shapeCasts_S1x1x64x64_S64x64).result V (no_index (Proc.devRef .tc main_v152))
      = shapeCast S64x64 (V (Proc.devRef .tc main_v151)) shapeCasts_S1x1x64x64_S64x64 := by
  simp only [reshape_result']; rfl

theorem krs_v213 (he : main_v212.ty.elt = main_v213.ty.elt) (V : Valuation τ sig (Elt F)) :
    (StableHlo.reshape (τ := τ) (Val := Elt F) main_v212 main_v213 he shapeCasts_S1x1x64_S64).result V (no_index (Proc.devRef .tc main_v213))
      = shapeCast S64 (V (Proc.devRef .tc main_v212)) shapeCasts_S1x1x64_S64 := by
  simp only [reshape_result']; rfl

theorem krs_v215 (he : main_v214.ty.elt = main_v215.ty.elt) (V : Valuation τ sig (Elt F)) :
    (StableHlo.reshape (τ := τ) (Val := Elt F) main_v214 main_v215 he shapeCasts_S1x1x64_S64).result V (no_index (Proc.devRef .tc main_v215))
      = shapeCast S64 (V (Proc.devRef .tc main_v214)) shapeCasts_S1x1x64_S64 := by
  simp only [reshape_result']; rfl

theorem krs_v216 (he : main_v172.ty.elt = main_v216.ty.elt) (V : Valuation τ sig (Elt F)) :
    (StableHlo.reshape (τ := τ) (Val := Elt F) main_v172 main_v216 he shapeCasts_S100000x64_S50000x128).result V (no_index (Proc.devRef .tc main_v216))
      = shapeCast S50000x128 (V (Proc.devRef .tc main_v172)) shapeCasts_S100000x64_S50000x128 := by
  simp only [reshape_result']; rfl

theorem krs_v217 (he : main_v211.ty.elt = main_v217.ty.elt) (V : Valuation τ sig (Elt F)) :
    (StableHlo.reshape (τ := τ) (Val := Elt F) main_v211 main_v217 he shapeCasts_S100000x64_S50000x128).result V (no_index (Proc.devRef .tc main_v217))
      = shapeCast S50000x128 (V (Proc.devRef .tc main_v211)) shapeCasts_S100000x64_S50000x128 := by
  simp only [reshape_result']; rfl

theorem krs_v218 (he : main_v213.ty.elt = main_v218.ty.elt) (V : Valuation τ sig (Elt F)) :
    (StableHlo.reshape (τ := τ) (Val := Elt F) main_v213 main_v218 he shapeCasts_S64_S1x64).result V (no_index (Proc.devRef .tc main_v218))
      = shapeCast S1x64 (V (Proc.devRef .tc main_v213)) shapeCasts_S64_S1x64 := by
  simp only [reshape_result']; rfl

theorem krs_v220 (he : main_v219.ty.elt = main_v220.ty.elt) (V : Valuation τ sig (Elt F)) :
    (StableHlo.reshape (τ := τ) (Val := Elt F) main_v219 main_v220 he shapeCasts_S2x64_S128).result V (no_index (Proc.devRef .tc main_v220))
      = shapeCast S128 (V (Proc.devRef .tc main_v219)) shapeCasts_S2x64_S128 := by
  simp only [reshape_result']; rfl

theorem krs_v221 (he : main_v215.ty.elt = main_v221.ty.elt) (V : Valuation τ sig (Elt F)) :
    (StableHlo.reshape (τ := τ) (Val := Elt F) main_v215 main_v221 he shapeCasts_S64_S1x64).result V (no_index (Proc.devRef .tc main_v221))
      = shapeCast S1x64 (V (Proc.devRef .tc main_v215)) shapeCasts_S64_S1x64 := by
  simp only [reshape_result']; rfl

theorem krs_v223 (he : main_v222.ty.elt = main_v223.ty.elt) (V : Valuation τ sig (Elt F)) :
    (StableHlo.reshape (τ := τ) (Val := Elt F) main_v222 main_v223 he shapeCasts_S2x64_S128).result V (no_index (Proc.devRef .tc main_v223))
      = shapeCast S128 (V (Proc.devRef .tc main_v222)) shapeCasts_S2x64_S128 := by
  simp only [reshape_result']; rfl

theorem krs_v225 (he : main_v224.ty.elt = main_v225.ty.elt) (V : Valuation τ sig (Elt F)) :
    (StableHlo.reshape (τ := τ) (Val := Elt F) main_v224 main_v225 he shapeCasts_S50000x128_S100000x64).result V (no_index (Proc.devRef .tc main_v225))
      = shapeCast S100000x64 (V (Proc.devRef .tc main_v224)) shapeCasts_S50000x128_S100000x64 := by
  simp only [reshape_result']; rfl

theorem krs_v227 (he : main_v226.ty.elt = main_v227.ty.elt) (V : Valuation τ sig (Elt F)) :
    (StableHlo.reshape (τ := τ) (Val := Elt F) main_v226 main_v227 he shapeCasts_S1x1x64_S64).result V (no_index (Proc.devRef .tc main_v227))
      = shapeCast S64 (V (Proc.devRef .tc main_v226)) shapeCasts_S1x1x64_S64 := by
  simp only [reshape_result']; rfl

theorem krs_v229 (he : main_v228.ty.elt = main_v229.ty.elt) (V : Valuation τ sig (Elt F)) :
    (StableHlo.reshape (τ := τ) (Val := Elt F) main_v228 main_v229 he shapeCasts_S1x1x64_S64).result V (no_index (Proc.devRef .tc main_v229))
      = shapeCast S64 (V (Proc.devRef .tc main_v228)) shapeCasts_S1x1x64_S64 := by
  simp only [reshape_result']; rfl

theorem krs_v230 (he : main_v185.ty.elt = main_v230.ty.elt) (V : Valuation τ sig (Elt F)) :
    (StableHlo.reshape (τ := τ) (Val := Elt F) main_v185 main_v230 he shapeCasts_S200000x64_S100000x128).result V (no_index (Proc.devRef .tc main_v230))
      = shapeCast S100000x128 (V (Proc.devRef .tc main_v185)) shapeCasts_S200000x64_S100000x128 := by
  simp only [reshape_result']; rfl

theorem krs_v231 (he : main_v198.ty.elt = main_v231.ty.elt) (V : Valuation τ sig (Elt F)) :
    (StableHlo.reshape (τ := τ) (Val := Elt F) main_v198 main_v231 he shapeCasts_S200000x64_S100000x128).result V (no_index (Proc.devRef .tc main_v231))
      = shapeCast S100000x128 (V (Proc.devRef .tc main_v198)) shapeCasts_S200000x64_S100000x128 := by
  simp only [reshape_result']; rfl

theorem krs_v232 (he : main_v227.ty.elt = main_v232.ty.elt) (V : Valuation τ sig (Elt F)) :
    (StableHlo.reshape (τ := τ) (Val := Elt F) main_v227 main_v232 he shapeCasts_S64_S1x64).result V (no_index (Proc.devRef .tc main_v232))
      = shapeCast S1x64 (V (Proc.devRef .tc main_v227)) shapeCasts_S64_S1x64 := by
  simp only [reshape_result']; rfl

theorem krs_v234 (he : main_v233.ty.elt = main_v234.ty.elt) (V : Valuation τ sig (Elt F)) :
    (StableHlo.reshape (τ := τ) (Val := Elt F) main_v233 main_v234 he shapeCasts_S2x64_S128).result V (no_index (Proc.devRef .tc main_v234))
      = shapeCast S128 (V (Proc.devRef .tc main_v233)) shapeCasts_S2x64_S128 := by
  simp only [reshape_result']; rfl

theorem krs_v235 (he : main_v229.ty.elt = main_v235.ty.elt) (V : Valuation τ sig (Elt F)) :
    (StableHlo.reshape (τ := τ) (Val := Elt F) main_v229 main_v235 he shapeCasts_S64_S1x64).result V (no_index (Proc.devRef .tc main_v235))
      = shapeCast S1x64 (V (Proc.devRef .tc main_v229)) shapeCasts_S64_S1x64 := by
  simp only [reshape_result']; rfl

theorem krs_v237 (he : main_v236.ty.elt = main_v237.ty.elt) (V : Valuation τ sig (Elt F)) :
    (StableHlo.reshape (τ := τ) (Val := Elt F) main_v236 main_v237 he shapeCasts_S2x64_S128).result V (no_index (Proc.devRef .tc main_v237))
      = shapeCast S128 (V (Proc.devRef .tc main_v236)) shapeCasts_S2x64_S128 := by
  simp only [reshape_result']; rfl

theorem krs_v239 (he : main_v238.ty.elt = main_v239.ty.elt) (V : Valuation τ sig (Elt F)) :
    (StableHlo.reshape (τ := τ) (Val := Elt F) main_v238 main_v239 he shapeCasts_S100000x128_S200000x64).result V (no_index (Proc.devRef .tc main_v239))
      = shapeCast S200000x64 (V (Proc.devRef .tc main_v238)) shapeCasts_S100000x128_S200000x64 := by
  simp only [reshape_result']; rfl

theorem krs_v241 (he : main_v240.ty.elt = main_v241.ty.elt) (V : Valuation τ sig (Elt F)) :
    (StableHlo.reshape (τ := τ) (Val := Elt F) main_v240 main_v241 he shapeCasts_S1x1x64x64_S64x64).result V (no_index (Proc.devRef .tc main_v241))
      = shapeCast S64x64 (V (Proc.devRef .tc main_v240)) shapeCasts_S1x1x64x64_S64x64 := by
  simp only [reshape_result']; rfl

theorem krs_v243 (he : main_v242.ty.elt = main_v243.ty.elt) (V : Valuation τ sig (Elt F)) :
    (StableHlo.reshape (τ := τ) (Val := Elt F) main_v242 main_v243 he shapeCasts_S1x1x64x64_S64x64).result V (no_index (Proc.devRef .tc main_v243))
      = shapeCast S64x64 (V (Proc.devRef .tc main_v242)) shapeCasts_S1x1x64x64_S64x64 := by
  simp only [reshape_result']; rfl

theorem krs_v246 (he : main_v245.ty.elt = main_v246.ty.elt) (V : Valuation τ sig (Elt F)) :
    (StableHlo.reshape (τ := τ) (Val := Elt F) main_v245 main_v246 he shapeCasts_S1x1x64x64_S64x64).result V (no_index (Proc.devRef .tc main_v246))
      = shapeCast S64x64 (V (Proc.devRef .tc main_v245)) shapeCasts_S1x1x64x64_S64x64 := by
  simp only [reshape_result']; rfl

theorem krs_v248 (he : main_v247.ty.elt = main_v248.ty.elt) (V : Valuation τ sig (Elt F)) :
    (StableHlo.reshape (τ := τ) (Val := Elt F) main_v247 main_v248 he shapeCasts_S1x1x64x64_S64x64).result V (no_index (Proc.devRef .tc main_v248))
      = shapeCast S64x64 (V (Proc.devRef .tc main_v247)) shapeCasts_S1x1x64x64_S64x64 := by
  simp only [reshape_result']; rfl

theorem krs_v309 (he : main_v308.ty.elt = main_v309.ty.elt) (V : Valuation τ sig (Elt F)) :
    (StableHlo.reshape (τ := τ) (Val := Elt F) main_v308 main_v309 he shapeCasts_S1x1x64_S64).result V (no_index (Proc.devRef .tc main_v309))
      = shapeCast S64 (V (Proc.devRef .tc main_v308)) shapeCasts_S1x1x64_S64 := by
  simp only [reshape_result']; rfl

theorem krs_v311 (he : main_v310.ty.elt = main_v311.ty.elt) (V : Valuation τ sig (Elt F)) :
    (StableHlo.reshape (τ := τ) (Val := Elt F) main_v310 main_v311 he shapeCasts_S1x1x64_S64).result V (no_index (Proc.devRef .tc main_v311))
      = shapeCast S64 (V (Proc.devRef .tc main_v310)) shapeCasts_S1x1x64_S64 := by
  simp only [reshape_result']; rfl

theorem krs_v312 (he : main_v268.ty.elt = main_v312.ty.elt) (V : Valuation τ sig (Elt F)) :
    (StableHlo.reshape (τ := τ) (Val := Elt F) main_v268 main_v312 he shapeCasts_S100000x64_S50000x128).result V (no_index (Proc.devRef .tc main_v312))
      = shapeCast S50000x128 (V (Proc.devRef .tc main_v268)) shapeCasts_S100000x64_S50000x128 := by
  simp only [reshape_result']; rfl

theorem krs_v313 (he : main_v307.ty.elt = main_v313.ty.elt) (V : Valuation τ sig (Elt F)) :
    (StableHlo.reshape (τ := τ) (Val := Elt F) main_v307 main_v313 he shapeCasts_S100000x64_S50000x128).result V (no_index (Proc.devRef .tc main_v313))
      = shapeCast S50000x128 (V (Proc.devRef .tc main_v307)) shapeCasts_S100000x64_S50000x128 := by
  simp only [reshape_result']; rfl

theorem krs_v314 (he : main_v309.ty.elt = main_v314.ty.elt) (V : Valuation τ sig (Elt F)) :
    (StableHlo.reshape (τ := τ) (Val := Elt F) main_v309 main_v314 he shapeCasts_S64_S1x64).result V (no_index (Proc.devRef .tc main_v314))
      = shapeCast S1x64 (V (Proc.devRef .tc main_v309)) shapeCasts_S64_S1x64 := by
  simp only [reshape_result']; rfl

theorem krs_v316 (he : main_v315.ty.elt = main_v316.ty.elt) (V : Valuation τ sig (Elt F)) :
    (StableHlo.reshape (τ := τ) (Val := Elt F) main_v315 main_v316 he shapeCasts_S2x64_S128).result V (no_index (Proc.devRef .tc main_v316))
      = shapeCast S128 (V (Proc.devRef .tc main_v315)) shapeCasts_S2x64_S128 := by
  simp only [reshape_result']; rfl

theorem krs_v317 (he : main_v311.ty.elt = main_v317.ty.elt) (V : Valuation τ sig (Elt F)) :
    (StableHlo.reshape (τ := τ) (Val := Elt F) main_v311 main_v317 he shapeCasts_S64_S1x64).result V (no_index (Proc.devRef .tc main_v317))
      = shapeCast S1x64 (V (Proc.devRef .tc main_v311)) shapeCasts_S64_S1x64 := by
  simp only [reshape_result']; rfl

theorem krs_v319 (he : main_v318.ty.elt = main_v319.ty.elt) (V : Valuation τ sig (Elt F)) :
    (StableHlo.reshape (τ := τ) (Val := Elt F) main_v318 main_v319 he shapeCasts_S2x64_S128).result V (no_index (Proc.devRef .tc main_v319))
      = shapeCast S128 (V (Proc.devRef .tc main_v318)) shapeCasts_S2x64_S128 := by
  simp only [reshape_result']; rfl

theorem krs_v321 (he : main_v320.ty.elt = main_v321.ty.elt) (V : Valuation τ sig (Elt F)) :
    (StableHlo.reshape (τ := τ) (Val := Elt F) main_v320 main_v321 he shapeCasts_S50000x128_S100000x64).result V (no_index (Proc.devRef .tc main_v321))
      = shapeCast S100000x64 (V (Proc.devRef .tc main_v320)) shapeCasts_S50000x128_S100000x64 := by
  simp only [reshape_result']; rfl

theorem krs_v323 (he : main_v322.ty.elt = main_v323.ty.elt) (V : Valuation τ sig (Elt F)) :
    (StableHlo.reshape (τ := τ) (Val := Elt F) main_v322 main_v323 he shapeCasts_S1x1x64_S64).result V (no_index (Proc.devRef .tc main_v323))
      = shapeCast S64 (V (Proc.devRef .tc main_v322)) shapeCasts_S1x1x64_S64 := by
  simp only [reshape_result']; rfl

theorem krs_v325 (he : main_v324.ty.elt = main_v325.ty.elt) (V : Valuation τ sig (Elt F)) :
    (StableHlo.reshape (τ := τ) (Val := Elt F) main_v324 main_v325 he shapeCasts_S1x1x64_S64).result V (no_index (Proc.devRef .tc main_v325))
      = shapeCast S64 (V (Proc.devRef .tc main_v324)) shapeCasts_S1x1x64_S64 := by
  simp only [reshape_result']; rfl

theorem krs_v326 (he : main_v281.ty.elt = main_v326.ty.elt) (V : Valuation τ sig (Elt F)) :
    (StableHlo.reshape (τ := τ) (Val := Elt F) main_v281 main_v326 he shapeCasts_S200000x64_S100000x128).result V (no_index (Proc.devRef .tc main_v326))
      = shapeCast S100000x128 (V (Proc.devRef .tc main_v281)) shapeCasts_S200000x64_S100000x128 := by
  simp only [reshape_result']; rfl

theorem krs_v327 (he : main_v294.ty.elt = main_v327.ty.elt) (V : Valuation τ sig (Elt F)) :
    (StableHlo.reshape (τ := τ) (Val := Elt F) main_v294 main_v327 he shapeCasts_S200000x64_S100000x128).result V (no_index (Proc.devRef .tc main_v327))
      = shapeCast S100000x128 (V (Proc.devRef .tc main_v294)) shapeCasts_S200000x64_S100000x128 := by
  simp only [reshape_result']; rfl

theorem krs_v328 (he : main_v323.ty.elt = main_v328.ty.elt) (V : Valuation τ sig (Elt F)) :
    (StableHlo.reshape (τ := τ) (Val := Elt F) main_v323 main_v328 he shapeCasts_S64_S1x64).result V (no_index (Proc.devRef .tc main_v328))
      = shapeCast S1x64 (V (Proc.devRef .tc main_v323)) shapeCasts_S64_S1x64 := by
  simp only [reshape_result']; rfl

theorem krs_v330 (he : main_v329.ty.elt = main_v330.ty.elt) (V : Valuation τ sig (Elt F)) :
    (StableHlo.reshape (τ := τ) (Val := Elt F) main_v329 main_v330 he shapeCasts_S2x64_S128).result V (no_index (Proc.devRef .tc main_v330))
      = shapeCast S128 (V (Proc.devRef .tc main_v329)) shapeCasts_S2x64_S128 := by
  simp only [reshape_result']; rfl

theorem krs_v331 (he : main_v325.ty.elt = main_v331.ty.elt) (V : Valuation τ sig (Elt F)) :
    (StableHlo.reshape (τ := τ) (Val := Elt F) main_v325 main_v331 he shapeCasts_S64_S1x64).result V (no_index (Proc.devRef .tc main_v331))
      = shapeCast S1x64 (V (Proc.devRef .tc main_v325)) shapeCasts_S64_S1x64 := by
  simp only [reshape_result']; rfl

theorem krs_v333 (he : main_v332.ty.elt = main_v333.ty.elt) (V : Valuation τ sig (Elt F)) :
    (StableHlo.reshape (τ := τ) (Val := Elt F) main_v332 main_v333 he shapeCasts_S2x64_S128).result V (no_index (Proc.devRef .tc main_v333))
      = shapeCast S128 (V (Proc.devRef .tc main_v332)) shapeCasts_S2x64_S128 := by
  simp only [reshape_result']; rfl

theorem krs_v335 (he : main_v334.ty.elt = main_v335.ty.elt) (V : Valuation τ sig (Elt F)) :
    (StableHlo.reshape (τ := τ) (Val := Elt F) main_v334 main_v335 he shapeCasts_S100000x128_S200000x64).result V (no_index (Proc.devRef .tc main_v335))
      = shapeCast S200000x64 (V (Proc.devRef .tc main_v334)) shapeCasts_S100000x128_S200000x64 := by
  simp only [reshape_result']; rfl

theorem krs_v337 (he : main_v336.ty.elt = main_v337.ty.elt) (V : Valuation τ sig (Elt F)) :
    (StableHlo.reshape (τ := τ) (Val := Elt F) main_v336 main_v337 he shapeCasts_S1x1x64x64_S64x64).result V (no_index (Proc.devRef .tc main_v337))
      = shapeCast S64x64 (V (Proc.devRef .tc main_v336)) shapeCasts_S1x1x64x64_S64x64 := by
  simp only [reshape_result']; rfl

theorem krs_v339 (he : main_v338.ty.elt = main_v339.ty.elt) (V : Valuation τ sig (Elt F)) :
    (StableHlo.reshape (τ := τ) (Val := Elt F) main_v338 main_v339 he shapeCasts_S1x1x64x64_S64x64).result V (no_index (Proc.devRef .tc main_v339))
      = shapeCast S64x64 (V (Proc.devRef .tc main_v338)) shapeCasts_S1x1x64x64_S64x64 := by
  simp only [reshape_result']; rfl

theorem krs_v342 (he : main_v341.ty.elt = main_v342.ty.elt) (V : Valuation τ sig (Elt F)) :
    (StableHlo.reshape (τ := τ) (Val := Elt F) main_v341 main_v342 he shapeCasts_S1x1x64x64_S64x64).result V (no_index (Proc.devRef .tc main_v342))
      = shapeCast S64x64 (V (Proc.devRef .tc main_v341)) shapeCasts_S1x1x64x64_S64x64 := by
  simp only [reshape_result']; rfl

theorem krs_v344 (he : main_v343.ty.elt = main_v344.ty.elt) (V : Valuation τ sig (Elt F)) :
    (StableHlo.reshape (τ := τ) (Val := Elt F) main_v343 main_v344 he shapeCasts_S1x1x64x64_S64x64).result V (no_index (Proc.devRef .tc main_v344))
      = shapeCast S64x64 (V (Proc.devRef .tc main_v343)) shapeCasts_S1x1x64x64_S64x64 := by
  simp only [reshape_result']; rfl

theorem krs_v405 (he : main_v404.ty.elt = main_v405.ty.elt) (V : Valuation τ sig (Elt F)) :
    (StableHlo.reshape (τ := τ) (Val := Elt F) main_v404 main_v405 he shapeCasts_S1x1x64_S64).result V (no_index (Proc.devRef .tc main_v405))
      = shapeCast S64 (V (Proc.devRef .tc main_v404)) shapeCasts_S1x1x64_S64 := by
  simp only [reshape_result']; rfl

theorem krs_v407 (he : main_v406.ty.elt = main_v407.ty.elt) (V : Valuation τ sig (Elt F)) :
    (StableHlo.reshape (τ := τ) (Val := Elt F) main_v406 main_v407 he shapeCasts_S1x1x64_S64).result V (no_index (Proc.devRef .tc main_v407))
      = shapeCast S64 (V (Proc.devRef .tc main_v406)) shapeCasts_S1x1x64_S64 := by
  simp only [reshape_result']; rfl

theorem krs_v408 (he : main_v364.ty.elt = main_v408.ty.elt) (V : Valuation τ sig (Elt F)) :
    (StableHlo.reshape (τ := τ) (Val := Elt F) main_v364 main_v408 he shapeCasts_S100000x64_S50000x128).result V (no_index (Proc.devRef .tc main_v408))
      = shapeCast S50000x128 (V (Proc.devRef .tc main_v364)) shapeCasts_S100000x64_S50000x128 := by
  simp only [reshape_result']; rfl

theorem krs_v409 (he : main_v403.ty.elt = main_v409.ty.elt) (V : Valuation τ sig (Elt F)) :
    (StableHlo.reshape (τ := τ) (Val := Elt F) main_v403 main_v409 he shapeCasts_S100000x64_S50000x128).result V (no_index (Proc.devRef .tc main_v409))
      = shapeCast S50000x128 (V (Proc.devRef .tc main_v403)) shapeCasts_S100000x64_S50000x128 := by
  simp only [reshape_result']; rfl

theorem krs_v410 (he : main_v405.ty.elt = main_v410.ty.elt) (V : Valuation τ sig (Elt F)) :
    (StableHlo.reshape (τ := τ) (Val := Elt F) main_v405 main_v410 he shapeCasts_S64_S1x64).result V (no_index (Proc.devRef .tc main_v410))
      = shapeCast S1x64 (V (Proc.devRef .tc main_v405)) shapeCasts_S64_S1x64 := by
  simp only [reshape_result']; rfl

theorem krs_v412 (he : main_v411.ty.elt = main_v412.ty.elt) (V : Valuation τ sig (Elt F)) :
    (StableHlo.reshape (τ := τ) (Val := Elt F) main_v411 main_v412 he shapeCasts_S2x64_S128).result V (no_index (Proc.devRef .tc main_v412))
      = shapeCast S128 (V (Proc.devRef .tc main_v411)) shapeCasts_S2x64_S128 := by
  simp only [reshape_result']; rfl

theorem krs_v413 (he : main_v407.ty.elt = main_v413.ty.elt) (V : Valuation τ sig (Elt F)) :
    (StableHlo.reshape (τ := τ) (Val := Elt F) main_v407 main_v413 he shapeCasts_S64_S1x64).result V (no_index (Proc.devRef .tc main_v413))
      = shapeCast S1x64 (V (Proc.devRef .tc main_v407)) shapeCasts_S64_S1x64 := by
  simp only [reshape_result']; rfl

theorem krs_v415 (he : main_v414.ty.elt = main_v415.ty.elt) (V : Valuation τ sig (Elt F)) :
    (StableHlo.reshape (τ := τ) (Val := Elt F) main_v414 main_v415 he shapeCasts_S2x64_S128).result V (no_index (Proc.devRef .tc main_v415))
      = shapeCast S128 (V (Proc.devRef .tc main_v414)) shapeCasts_S2x64_S128 := by
  simp only [reshape_result']; rfl

theorem krs_v417 (he : main_v416.ty.elt = main_v417.ty.elt) (V : Valuation τ sig (Elt F)) :
    (StableHlo.reshape (τ := τ) (Val := Elt F) main_v416 main_v417 he shapeCasts_S50000x128_S100000x64).result V (no_index (Proc.devRef .tc main_v417))
      = shapeCast S100000x64 (V (Proc.devRef .tc main_v416)) shapeCasts_S50000x128_S100000x64 := by
  simp only [reshape_result']; rfl

theorem krs_v419 (he : main_v418.ty.elt = main_v419.ty.elt) (V : Valuation τ sig (Elt F)) :
    (StableHlo.reshape (τ := τ) (Val := Elt F) main_v418 main_v419 he shapeCasts_S1x1x64_S64).result V (no_index (Proc.devRef .tc main_v419))
      = shapeCast S64 (V (Proc.devRef .tc main_v418)) shapeCasts_S1x1x64_S64 := by
  simp only [reshape_result']; rfl

theorem krs_v421 (he : main_v420.ty.elt = main_v421.ty.elt) (V : Valuation τ sig (Elt F)) :
    (StableHlo.reshape (τ := τ) (Val := Elt F) main_v420 main_v421 he shapeCasts_S1x1x64_S64).result V (no_index (Proc.devRef .tc main_v421))
      = shapeCast S64 (V (Proc.devRef .tc main_v420)) shapeCasts_S1x1x64_S64 := by
  simp only [reshape_result']; rfl

theorem krs_v422 (he : main_v377.ty.elt = main_v422.ty.elt) (V : Valuation τ sig (Elt F)) :
    (StableHlo.reshape (τ := τ) (Val := Elt F) main_v377 main_v422 he shapeCasts_S200000x64_S100000x128).result V (no_index (Proc.devRef .tc main_v422))
      = shapeCast S100000x128 (V (Proc.devRef .tc main_v377)) shapeCasts_S200000x64_S100000x128 := by
  simp only [reshape_result']; rfl

theorem krs_v423 (he : main_v390.ty.elt = main_v423.ty.elt) (V : Valuation τ sig (Elt F)) :
    (StableHlo.reshape (τ := τ) (Val := Elt F) main_v390 main_v423 he shapeCasts_S200000x64_S100000x128).result V (no_index (Proc.devRef .tc main_v423))
      = shapeCast S100000x128 (V (Proc.devRef .tc main_v390)) shapeCasts_S200000x64_S100000x128 := by
  simp only [reshape_result']; rfl

theorem krs_v424 (he : main_v419.ty.elt = main_v424.ty.elt) (V : Valuation τ sig (Elt F)) :
    (StableHlo.reshape (τ := τ) (Val := Elt F) main_v419 main_v424 he shapeCasts_S64_S1x64).result V (no_index (Proc.devRef .tc main_v424))
      = shapeCast S1x64 (V (Proc.devRef .tc main_v419)) shapeCasts_S64_S1x64 := by
  simp only [reshape_result']; rfl

theorem krs_v426 (he : main_v425.ty.elt = main_v426.ty.elt) (V : Valuation τ sig (Elt F)) :
    (StableHlo.reshape (τ := τ) (Val := Elt F) main_v425 main_v426 he shapeCasts_S2x64_S128).result V (no_index (Proc.devRef .tc main_v426))
      = shapeCast S128 (V (Proc.devRef .tc main_v425)) shapeCasts_S2x64_S128 := by
  simp only [reshape_result']; rfl

theorem krs_v427 (he : main_v421.ty.elt = main_v427.ty.elt) (V : Valuation τ sig (Elt F)) :
    (StableHlo.reshape (τ := τ) (Val := Elt F) main_v421 main_v427 he shapeCasts_S64_S1x64).result V (no_index (Proc.devRef .tc main_v427))
      = shapeCast S1x64 (V (Proc.devRef .tc main_v421)) shapeCasts_S64_S1x64 := by
  simp only [reshape_result']; rfl

theorem krs_v429 (he : main_v428.ty.elt = main_v429.ty.elt) (V : Valuation τ sig (Elt F)) :
    (StableHlo.reshape (τ := τ) (Val := Elt F) main_v428 main_v429 he shapeCasts_S2x64_S128).result V (no_index (Proc.devRef .tc main_v429))
      = shapeCast S128 (V (Proc.devRef .tc main_v428)) shapeCasts_S2x64_S128 := by
  simp only [reshape_result']; rfl

theorem krs_v431 (he : main_v430.ty.elt = main_v431.ty.elt) (V : Valuation τ sig (Elt F)) :
    (StableHlo.reshape (τ := τ) (Val := Elt F) main_v430 main_v431 he shapeCasts_S100000x128_S200000x64).result V (no_index (Proc.devRef .tc main_v431))
      = shapeCast S200000x64 (V (Proc.devRef .tc main_v430)) shapeCasts_S100000x128_S200000x64 := by
  simp only [reshape_result']; rfl

theorem ktr_call6_v0 (V : Valuation τ sig (Elt F)) :
    (StableHlo.TRef.unary (τ := τ) (Val := Elt F) (.of main_call6_cst : StableHlo.TRef sig ⟨S_, .f32⟩) (.of main_call6_v0 : StableHlo.TRef sig ⟨S1x64, .f32⟩) (broadcastInDim S1x64 ![] bcast_S_S1x64)).result V (no_index (Proc.devRef .tc main_call6_v0))
      = ((broadcastInDim S1x64 ![] bcast_S_S1x64) : (⟨S_, .f32⟩ : BufTy).Contents (Elt F) → (⟨S1x64, .f32⟩ : BufTy).Contents (Elt F)) (V (Proc.devRef .tc main_call6_cst)) := by
  simp only [unary_result', binary_result', ternary_result']; rfl

theorem ktr_v448 (V : Valuation τ sig (Elt F)) :
    (StableHlo.TRef.binary (τ := τ) (Val := Elt F) (.of main_v447 : StableHlo.TRef sig ⟨S1x64, .f32⟩) (.of main_call6_v0 : StableHlo.TRef sig ⟨S1x64, .f32⟩) (.of main_v448 : StableHlo.TRef sig ⟨S1x64, .f32⟩) maximumf).result V (no_index (Proc.devRef .tc main_v448))
      = (maximumf : (⟨S1x64, .f32⟩ : BufTy).Contents (Elt F) → (⟨S1x64, .f32⟩ : BufTy).Contents (Elt F) → (⟨S1x64, .f32⟩ : BufTy).Contents (Elt F)) (V (Proc.devRef .tc main_v447)) (V (Proc.devRef .tc main_call6_v0)) := by
  simp only [unary_result', binary_result', ternary_result']; rfl

end Cert.KernelIdeal.Eval

end
-- ==== Proof.Spec.lean ====
/-
  The network as a composition of named pieces, in two spellings.

  The sixteen argument arrays are gathered in one record.  A layer takes the two node tables (users, transactions) to
  two new ones: each of the four relations multiplies its source table by its weight table, gathers the rows at the
  edges' sources, scales them by the degree normalisation, and sums them into the edges' targets (`agg…`, one function
  of the product and the edge list per relation); the two relations arriving at a node type are each given their bias,
  averaged, and cut at zero (`comb…`).  Three layers, then the mean over the nodes of each type, the mean of the two,
  and a two-layer head (`tailFn`).

  The aggregation and the tail are spelt once: both programs compute them by the same host operations.  The
  embeddings, the products and the combination are spelt twice: as the host operations of the reference (`linU`,
  `mmU`, `combU` …), and as the kernel computes them (`linUK`: the affine map itself; `mmUKl` / `mmUKr`: the two column
  halves of one product against two weight tables laid side by side; `combUK`: rows packed two to a line, combined with
  the bias written twice, unpacked).  The pieces' bodies are the programs' own operations between the named cuts.
-/
import proofs.«167272_j20323785244837_2_alg».proof.Proof.Gen.KernelIdeal
import proofs.«167272_j20323785244837_2_alg».proof.Proof.Gen.ReferenceIdeal
import proofs.«167272_j20323785244837_2_alg».proof.Proof.DenseMath

set_option maxRecDepth 8192

noncomputable section

namespace Cert.Spec

open Idealize.ShloMosaic Idealize.ShloMosaic.TcCoe

section Reference

open Cert.ReferenceIdeal Cert.ReferenceIdeal.Gen

variable {F : FTy → Type} [FloatOps F]

/-- The argument arrays: `a0` user features, `a1` transaction features, `a2` user→user edges, `a3` transaction→transaction edges, `a4` user→transaction edges, `a5` transaction→user edges, `a6` user embedding weights, `a7` user embedding bias, `a8` transaction embedding weights, `a9` transaction embedding bias, `a10` the layers' weight tables, `a11` the layers' biases, `a12` first head weights, `a13` first head bias, `a14` second head weights, `a15` second head bias. -/
structure Args (F : FTy → Type) where
  a0 : (⟨S100000x32, .f32⟩ : BufTy).Contents (Elt F)
  a1 : (⟨S200000x64, .f32⟩ : BufTy).Contents (Elt F)
  a2 : (⟨S2x1000000, .i32⟩ : BufTy).Contents (Elt F)
  a3 : (⟨S2x1000000, .i32⟩ : BufTy).Contents (Elt F)
  a4 : (⟨S2x1000000, .i32⟩ : BufTy).Contents (Elt F)
  a5 : (⟨S2x1000000, .i32⟩ : BufTy).Contents (Elt F)
  a6 : (⟨S32x64, .f32⟩ : BufTy).Contents (Elt F)
  a7 : (⟨S64, .f32⟩ : BufTy).Contents (Elt F)
  a8 : (⟨S64x64, .f32⟩ : BufTy).Contents (Elt F)
  a9 : (⟨S64, .f32⟩ : BufTy).Contents (Elt F)
  a10 : (⟨S3x4x64x64, .f32⟩ : BufTy).Contents (Elt F)
  a11 : (⟨S3x4x64, .f32⟩ : BufTy).Contents (Elt F)
  a12 : (⟨S64x64, .f32⟩ : BufTy).Contents (Elt F)
  a13 : (⟨S64, .f32⟩ : BufTy).Contents (Elt F)
  a14 : (⟨S64x1, .f32⟩ : BufTy).Contents (Elt F)
  a15 : (⟨S1, .f32⟩ : BufTy).Contents (Elt F)

def aggUU (mm : (⟨S100000x64, .f32⟩ : BufTy).Contents (Elt F)) (ei : (⟨S2x1000000, .i32⟩ : BufTy).Contents (Elt F)) :
    (⟨S100000x64, .f32⟩ : BufTy).Contents (Elt F) :=
  (((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x00000000#32)) ((broadcastInDim S1100000x1 ![0] bcast_S1100000_S1100000x1_0 : (⟨S1100000, .i32⟩ : BufTy).Contents (Elt F) → (⟨S1100000x1, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0))) ((mulf : (⟨S1100000x64, .f32⟩ : BufTy).Contents (Elt F) → (⟨S1100000x64, .f32⟩ : BufTy).Contents (Elt F) → (⟨S1100000x64, .f32⟩ : BufTy).Contents (Elt F)) (((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)) mm ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S100000 32 0)) ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S100000 32 0)) ((broadcastInDim S1100000 ![] bcast_S_S1100000 : (⟨S_, .i32⟩ : BufTy).Contents (Elt F) → (⟨S1100000, .i32⟩ : BufTy).Contents (Elt F)) (constantI S_ 32 100000#32))) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S100000 32 0))))) ((broadcastInDim S1100000x64 ![0, 1] bcast_S1100000x1_S1100000x64_0_1 : (⟨S1100000x1, .f32⟩ : BufTy).Contents (Elt F) → (⟨S1100000x64, .f32⟩ : BufTy).Contents (Elt F)) ((broadcastInDim S1100000x1 ![0] bcast_S1100000_S1100000x1_0 : (⟨S1100000, .f32⟩ : BufTy).Contents (Elt F) → (⟨S1100000x1, .f32⟩ : BufTy).Contents (Elt F)) ((mulf : (⟨S1100000, .f32⟩ : BufTy).Contents (Elt F) → (⟨S1100000, .f32⟩ : BufTy).Contents (Elt F) → (⟨S1100000, .f32⟩ : BufTy).Contents (Elt F)) (((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1100000x1 ![0] bcast_S1100000_S1100000x1_0 : (⟨S1100000, .i32⟩ : BufTy).Contents (Elt F) → (⟨S1100000x1, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0))) ((broadcastInDim S1100000 ![] bcast_S_S1100000 : (⟨S_, .f32⟩ : BufTy).Contents (Elt F) → (⟨S1100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x00000000#32))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1100000x1 ![0] bcast_S1100000_S1100000x1_0 : (⟨S1100000, .i32⟩ : BufTy).Contents (Elt F) → (⟨S1100000x1, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0))) ((broadcastInDim S1100000 ![] bcast_S_S1100000 : (⟨S_, .f32⟩ : BufTy).Contents (Elt F) → (⟨S1100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) (((broadcastInDim S100000 ![] bcast_S_S100000) : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32)))) ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S100000 32 0)) ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S100000 32 0)) ((broadcastInDim S1100000 ![] bcast_S_S1100000 : (⟨S_, .i32⟩ : BufTy).Contents (Elt F) → (⟨S1100000, .i32⟩ : BufTy).Contents (Elt F)) (constantI S_ 32 100000#32))) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S100000 32 0))))) (((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1100000x1 ![0] bcast_S1100000_S1100000x1_0 : (⟨S1100000, .i32⟩ : BufTy).Contents (Elt F) → (⟨S1100000x1, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0))) ((broadcastInDim S1100000 ![] bcast_S_S1100000 : (⟨S_, .f32⟩ : BufTy).Contents (Elt F) → (⟨S1100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x00000000#32))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1100000x1 ![0] bcast_S1100000_S1100000x1_0 : (⟨S1100000, .i32⟩ : BufTy).Contents (Elt F) → (⟨S1100000x1, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0))) ((broadcastInDim S1100000 ![] bcast_S_S1100000 : (⟨S_, .f32⟩ : BufTy).Contents (Elt F) → (⟨S1100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) (((broadcastInDim S100000 ![] bcast_S_S100000) : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32)))) ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0)) ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0)) ((broadcastInDim S1100000 ![] bcast_S_S1100000 : (⟨S_, .i32⟩ : BufTy).Contents (Elt F) → (⟨S1100000, .i32⟩ : BufTy).Contents (Elt F)) (constantI S_ 32 100000#32))) (((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S100000 32 0))))))))))

def aggTT (mm : (⟨S200000x64, .f32⟩ : BufTy).Contents (Elt F)) (ei : (⟨S2x1000000, .i32⟩ : BufTy).Contents (Elt F)) :
    (⟨S200000x64, .f32⟩ : BufTy).Contents (Elt F) :=
  (((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F)) ((broadcastInDim S200000x64 ![] bcast_S_S200000x64 : (⟨S_, .f32⟩ : BufTy).Contents (Elt F) → (⟨S200000x64, .f32⟩ : BufTy).Contents (Elt F)) (constant S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0))) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F)) mm ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S200000 32 0)) ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S200000 32 0)) ((broadcastInDim S1200000 ![] bcast_S_S1200000 : (⟨S_, .i32⟩ : BufTy).Contents (Elt F) → (⟨S1200000, .i32⟩ : BufTy).Contents (Elt F)) (constantI S_ 32 200000#32))) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S200000 32 0))))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) ((mulf : (⟨S1200000, .f32⟩ : BufTy).Contents (Elt F) → (⟨S1200000, .f32⟩ : BufTy).Contents (Elt F) → (⟨S1200000, .f32⟩ : BufTy).Contents (Elt F)) (((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)) ((select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) ((cmpf .ogt : (⟨S200000, .f32⟩ : BufTy).Contents (Elt F) → (⟨S200000, .f32⟩ : BufTy).Contents (Elt F) → (⟨S200000, .i1⟩ : BufTy).Contents (Elt F)) (((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0))) ((broadcastInDim S1200000 ![] bcast_S_S1200000 : (⟨S_, .f32⟩ : BufTy).Contents (Elt F) → (⟨S1200000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x00000000#32))) ((Host.rsqrt : (⟨S200000, .f32⟩ : BufTy).Contents (Elt F) → (⟨S200000, .f32⟩ : BufTy).Contents (Elt F)) ((maximumf : (⟨S200000, .f32⟩ : BufTy).Contents (Elt F) → (⟨S200000, .f32⟩ : BufTy).Contents (Elt F) → (⟨S200000, .f32⟩ : BufTy).Contents (Elt F)) (((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0))) ((broadcastInDim S1200000 ![] bcast_S_S1200000 : (⟨S_, .f32⟩ : BufTy).Contents (Elt F) → (⟨S1200000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x3F800000#32)))) (((broadcastInDim S200000 ![] bcast_S_S200000) : (⟨S_, .f32⟩ : BufTy).Contents (Elt F) → (⟨S200000, .f32⟩ : BufTy).Contents (Elt F)) ((id : (⟨S_, .f32⟩ : BufTy).Contents (Elt F) → (⟨S_, .f32⟩ : BufTy).Contents (Elt F)) (constant S_ .f32 0x00000000#32)))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S200000 32 0)) ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S200000 32 0)) ((broadcastInDim S1200000 ![] bcast_S_S1200000 : (⟨S_, .i32⟩ : BufTy).Contents (Elt F) → (⟨S1200000, .i32⟩ : BufTy).Contents (Elt F)) (constantI S_ 32 200000#32))) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) (iotaInDim S200000 32 0))))) (((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)) ((select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) ((cmpf .ogt : (⟨S200000, .f32⟩ : BufTy).Contents (Elt F) → (⟨S200000, .f32⟩ : BufTy).Contents (Elt F) → (⟨S200000, .i1⟩ : BufTy).Contents (Elt F)) (((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0))) ((broadcastInDim S1200000 ![] bcast_S_S1200000 : (⟨S_, .f32⟩ : BufTy).Contents (Elt F) → (⟨S1200000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x00000000#32))) ((Host.rsqrt : (⟨S200000, .f32⟩ : BufTy).Contents (Elt F) → (⟨S200000, .f32⟩ : BufTy).Contents (Elt F)) ((maximumf : (⟨S200000, .f32⟩ : BufTy).Contents (Elt F) → (⟨S200000, .f32⟩ : BufTy).Contents (Elt F) → (⟨S200000, .f32⟩ : BufTy).Contents (Elt F)) (((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0))) ((broadcastInDim S1200000 ![] bcast_S_S1200000 : (⟨S_, .f32⟩ : BufTy).Contents (Elt F) → (⟨S1200000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x3F800000#32)))) (((broadcastInDim S200000 ![] bcast_S_S200000) : (⟨S_, .f32⟩ : BufTy).Contents (Elt F) → (⟨S200000, .f32⟩ : BufTy).Contents (Elt F)) ((id : (⟨S_, .f32⟩ : BufTy).Contents (Elt F) → (⟨S_, .f32⟩ : BufTy).Contents (Elt F)) (constant S_ .f32 0x00000000#32)))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0)) ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0)) ((broadcastInDim S1200000 ![] bcast_S_S1200000 : (⟨S_, .i32⟩ : BufTy).Contents (Elt F) → (⟨S1200000, .i32⟩ : BufTy).Contents (Elt F)) (constantI S_ 32 200000#32))) (((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) (iotaInDim S200000 32 0))))))))))

def aggUT (mm : (⟨S100000x64, .f32⟩ : BufTy).Contents (Elt F)) (ei : (⟨S2x1000000, .i32⟩ : BufTy).Contents (Elt F)) :
    (⟨S200000x64, .f32⟩ : BufTy).Contents (Elt F) :=
  (((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)) ((broadcastInDim S200000x64 ![] bcast_S_S200000x64 : (⟨S_, .f32⟩ : BufTy).Contents (Elt F) → (⟨S200000x64, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)) ((mulf : (⟨S1000000x64, .f32⟩ : BufTy).Contents (Elt F) → (⟨S1000000x64, .f32⟩ : BufTy).Contents (Elt F) → (⟨S1000000x64, .f32⟩ : BufTy).Contents (Elt F)) (((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) mm ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 0#32))) ((addi : (⟨S1000000, .i32⟩ : BufTy).Contents (Elt F) → (⟨S1000000, .i32⟩ : BufTy).Contents (Elt F) → (⟨S1000000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 100000#32))) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)))) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) ((mulf : (⟨S1000000, .f32⟩ : BufTy).Contents (Elt F) → (⟨S1000000, .f32⟩ : BufTy).Contents (Elt F) → (⟨S1000000, .f32⟩ : BufTy).Contents (Elt F)) (((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x00000000#32))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) (((broadcastInDim S100000 ![] bcast_S_S100000) : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32)))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 0#32))) ((addi : (⟨S1000000, .i32⟩ : BufTy).Contents (Elt F) → (⟨S1000000, .i32⟩ : BufTy).Contents (Elt F) → (⟨S1000000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 100000#32))) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)))) (((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F)) ((select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) ((cmpf .ogt : (⟨S200000, .f32⟩ : BufTy).Contents (Elt F) → (⟨S200000, .f32⟩ : BufTy).Contents (Elt F) → (⟨S200000, .i1⟩ : BufTy).Contents (Elt F)) (((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x00000000#32))) ((Host.rsqrt : (⟨S200000, .f32⟩ : BufTy).Contents (Elt F) → (⟨S200000, .f32⟩ : BufTy).Contents (Elt F)) ((maximumf : (⟨S200000, .f32⟩ : BufTy).Contents (Elt F) → (⟨S200000, .f32⟩ : BufTy).Contents (Elt F) → (⟨S200000, .f32⟩ : BufTy).Contents (Elt F)) (((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x3F800000#32)))) (((broadcastInDim S200000 ![] bcast_S_S200000) : (⟨S_, .f32⟩ : BufTy).Contents (Elt F) → (⟨S200000, .f32⟩ : BufTy).Contents (Elt F)) ((id : (⟨S_, .f32⟩ : BufTy).Contents (Elt F) → (⟨S_, .f32⟩ : BufTy).Contents (Elt F)) (constant S_ .f32 0x00000000#32)))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 0#32))) ((addi : (⟨S1000000, .i32⟩ : BufTy).Contents (Elt F) → (⟨S1000000, .i32⟩ : BufTy).Contents (Elt F) → (⟨S1000000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 200000#32))) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)))))))))

def aggTU (mm : (⟨S200000x64, .f32⟩ : BufTy).Contents (Elt F)) (ei : (⟨S2x1000000, .i32⟩ : BufTy).Contents (Elt F)) :
    (⟨S100000x64, .f32⟩ : BufTy).Contents (Elt F) :=
  (((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)) ((mulf : (⟨S1000000x64, .f32⟩ : BufTy).Contents (Elt F) → (⟨S1000000x64, .f32⟩ : BufTy).Contents (Elt F) → (⟨S1000000x64, .f32⟩ : BufTy).Contents (Elt F)) (((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)) mm ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 0#32))) ((addi : (⟨S1000000, .i32⟩ : BufTy).Contents (Elt F) → (⟨S1000000, .i32⟩ : BufTy).Contents (Elt F) → (⟨S1000000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 200000#32))) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)))) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) ((mulf : (⟨S1000000, .f32⟩ : BufTy).Contents (Elt F) → (⟨S1000000, .f32⟩ : BufTy).Contents (Elt F) → (⟨S1000000, .f32⟩ : BufTy).Contents (Elt F)) (((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F)) ((select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) ((cmpf .ogt : (⟨S200000, .f32⟩ : BufTy).Contents (Elt F) → (⟨S200000, .f32⟩ : BufTy).Contents (Elt F) → (⟨S200000, .i1⟩ : BufTy).Contents (Elt F)) (((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x00000000#32))) ((Host.rsqrt : (⟨S200000, .f32⟩ : BufTy).Contents (Elt F) → (⟨S200000, .f32⟩ : BufTy).Contents (Elt F)) ((maximumf : (⟨S200000, .f32⟩ : BufTy).Contents (Elt F) → (⟨S200000, .f32⟩ : BufTy).Contents (Elt F) → (⟨S200000, .f32⟩ : BufTy).Contents (Elt F)) (((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)) ((broadcastInDim S200000 ![] bcast_S_S200000 : (⟨S_, .f32⟩ : BufTy).Contents (Elt F) → (⟨S200000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S200000 ![] bcast_S_S200000 : (⟨S_, .f32⟩ : BufTy).Contents (Elt F) → (⟨S200000, .f32⟩ : BufTy).Contents (Elt F)) (constant S_ .f32 0x3F800000#32)))) (((broadcastInDim S200000 ![] bcast_S_S200000) : (⟨S_, .f32⟩ : BufTy).Contents (Elt F) → (⟨S200000, .f32⟩ : BufTy).Contents (Elt F)) ((id : (⟨S_, .f32⟩ : BufTy).Contents (Elt F) → (⟨S_, .f32⟩ : BufTy).Contents (Elt F)) (constant S_ .f32 0x00000000#32)))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 0#32))) ((addi : (⟨S1000000, .i32⟩ : BufTy).Contents (Elt F) → (⟨S1000000, .i32⟩ : BufTy).Contents (Elt F) → (⟨S1000000, .i32⟩ : BufTy).Contents (Elt F)) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 200000#32))) (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) ei) shapeCasts_S1x1000000_S1000000)))) (((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x00000000#32))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1000000x1 ![0] bcast_S1000000_S1000000x1_0 : (⟨S1000000, .i32⟩ : BufTy).Contents (Elt F) → (⟨S1000000x1, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)) ((broadcastInDim S1000000 ![] bcast_S_S1000000 : (⟨S_, .f32⟩ : BufTy).Contents (Elt F) → (⟨S1000000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) (((broadcastInDim S100000 ![] bcast_S_S100000) : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32)))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 0#32))) ((addi : (⟨S1000000, .i32⟩ : BufTy).Contents (Elt F) → (⟨S1000000, .i32⟩ : BufTy).Contents (Elt F) → (⟨S1000000, .i32⟩ : BufTy).Contents (Elt F)) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000) ((broadcastInDim S1000000 ![] bcast_S_S1000000 : (⟨S_, .i32⟩ : BufTy).Contents (Elt F) → (⟨S1000000, .i32⟩ : BufTy).Contents (Elt F)) (constantI S_ 32 100000#32))) (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) ei) shapeCasts_S1x1000000_S1000000)))))))))

def tailFn (hu : (⟨S100000x64, .f32⟩ : BufTy).Contents (Elt F)) (ht : (⟨S200000x64, .f32⟩ : BufTy).Contents (Elt F)) (w1 : (⟨S64x64, .f32⟩ : BufTy).Contents (Elt F)) (b1 : (⟨S64, .f32⟩ : BufTy).Contents (Elt F)) (w2 : (⟨S64x1, .f32⟩ : BufTy).Contents (Elt F)) (b2 : (⟨S1, .f32⟩ : BufTy).Contents (Elt F)) :
    (⟨S1x1, .f32⟩ : BufTy).Contents (Elt F) :=
  ((Host.divf : (⟨S1x1, .f32⟩ : BufTy).Contents (Elt F) → (⟨S1x1, .f32⟩ : BufTy).Contents (Elt F) → (⟨S1x1, .f32⟩ : BufTy).Contents (Elt F)) ((broadcastInDim S1x1 ![] bcast_S_S1x1 : (⟨S_, .f32⟩ : BufTy).Contents (Elt F) → (⟨S1x1, .f32⟩ : BufTy).Contents (Elt F)) (constant S_ .f32 0x3F800000#32)) ((addf : (⟨S1x1, .f32⟩ : BufTy).Contents (Elt F) → (⟨S1x1, .f32⟩ : BufTy).Contents (Elt F) → (⟨S1x1, .f32⟩ : BufTy).Contents (Elt F)) ((broadcastInDim S1x1 ![] bcast_S_S1x1 : (⟨S_, .f32⟩ : BufTy).Contents (Elt F) → (⟨S1x1, .f32⟩ : BufTy).Contents (Elt F)) (constant S_ .f32 0x3F800000#32)) ((Host.exp : (⟨S1x1, .f32⟩ : BufTy).Contents (Elt F) → (⟨S1x1, .f32⟩ : BufTy).Contents (Elt F)) ((Host.negf : (⟨S1x1, .f32⟩ : BufTy).Contents (Elt F) → (⟨S1x1, .f32⟩ : BufTy).Contents (Elt F)) ((addf : (⟨S1x1, .f32⟩ : BufTy).Contents (Elt F) → (⟨S1x1, .f32⟩ : BufTy).Contents (Elt F) → (⟨S1x1, .f32⟩ : BufTy).Contents (Elt F)) (((fun l r => Host.dotGeneral dot_S1x64_S64x1_S1x1_1_0_0_1_n_n none l r) : (⟨S1x64, .f32⟩ : BufTy).Contents (Elt F) → (⟨S64x1, .f32⟩ : BufTy).Contents (Elt F) → (⟨S1x1, .f32⟩ : BufTy).Contents (Elt F)) ((maximumf : (⟨S1x64, .f32⟩ : BufTy).Contents (Elt F) → (⟨S1x64, .f32⟩ : BufTy).Contents (Elt F) → (⟨S1x64, .f32⟩ : BufTy).Contents (Elt F)) ((addf : (⟨S1x64, .f32⟩ : BufTy).Contents (Elt F) → (⟨S1x64, .f32⟩ : BufTy).Contents (Elt F) → (⟨S1x64, .f32⟩ : BufTy).Contents (Elt F)) (((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((broadcastInDim S1x64 ![1] bcast_S64_S1x64_1 : (⟨S64, .f32⟩ : BufTy).Contents (Elt F) → (⟨S1x64, .f32⟩ : BufTy).Contents (Elt F)) (((fun x v => Host.reduceAdd x v reducesTo_S2x64_S64_d0 h_S_) : (⟨S2x64, .f32⟩ : BufTy).Contents (Elt F) → (⟨S_, .f32⟩ : BufTy).Contents (Elt F) → (⟨S64, .f32⟩ : BufTy).Contents (Elt F)) (((fun a b => concatenate S2x64 0 [⟨S1x64, a⟩, ⟨S1x64, b⟩] concatenates_S1x64_S1x64_S2x64_d0) : (⟨S1x64, .f32⟩ : BufTy).Contents (Elt F) → (⟨S1x64, .f32⟩ : BufTy).Contents (Elt F) → (⟨S2x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf : (⟨S64, .f32⟩ : BufTy).Contents (Elt F) → (⟨S64, .f32⟩ : BufTy).Contents (Elt F) → (⟨S64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) hu (constant S_ .f32 0x00000000#32)) ((broadcastInDim S64 ![] bcast_S_S64 : (⟨S_, .f32⟩ : BufTy).Contents (Elt F) → (⟨S64, .f32⟩ : BufTy).Contents (Elt F)) (constant S_ .f32 0x47C35000#32)))) ((broadcastInDim S1x64 ![1] bcast_S64_S1x64_1 : (⟨S64, .f32⟩ : BufTy).Contents (Elt F) → (⟨S1x64, .f32⟩ : BufTy).Contents (Elt F)) ((Host.divf : (⟨S64, .f32⟩ : BufTy).Contents (Elt F) → (⟨S64, .f32⟩ : BufTy).Contents (Elt F) → (⟨S64, .f32⟩ : BufTy).Contents (Elt F)) (((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)) ht (constant S_ .f32 0x00000000#32)) ((broadcastInDim S64 ![] bcast_S_S64 : (⟨S_, .f32⟩ : BufTy).Contents (Elt F) → (⟨S64, .f32⟩ : BufTy).Contents (Elt F)) (constant S_ .f32 0x48435000#32))))) (constant S_ .f32 0x00000000#32))) ((broadcastInDim S1x64 ![] bcast_S_S1x64 : (⟨S_, .f32⟩ : BufTy).Contents (Elt F) → (⟨S1x64, .f32⟩ : BufTy).Contents (Elt F)) (constant S_ .f32 0x40000000#32))) w1) ((broadcastInDim S1x64 ![1] bcast_S64_S1x64_1 : (⟨S64, .f32⟩ : BufTy).Contents (Elt F) → (⟨S1x64, .f32⟩ : BufTy).Contents (Elt F)) b1)) (((broadcastInDim S1x64 ![] bcast_S_S1x64) : (⟨S_, .f32⟩ : BufTy).Contents (Elt F) → (⟨S1x64, .f32⟩ : BufTy).Contents (Elt F)) (constant S_ .f32 0x00000000#32))) w2) ((broadcastInDim S1x1 ![1] bcast_S1_S1x1_1 : (⟨S1, .f32⟩ : BufTy).Contents (Elt F) → (⟨S1x1, .f32⟩ : BufTy).Contents (Elt F)) b2))))))

def linU (x : (⟨S100000x32, .f32⟩ : BufTy).Contents (Elt F)) (w : (⟨S32x64, .f32⟩ : BufTy).Contents (Elt F)) (b : (⟨S64, .f32⟩ : BufTy).Contents (Elt F)) :
    (⟨S100000x64, .f32⟩ : BufTy).Contents (Elt F) :=
  ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) x w) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b)))

def linT (x : (⟨S200000x64, .f32⟩ : BufTy).Contents (Elt F)) (w : (⟨S64x64, .f32⟩ : BufTy).Contents (Elt F)) (b : (⟨S64, .f32⟩ : BufTy).Contents (Elt F)) :
    (⟨S200000x64, .f32⟩ : BufTy).Contents (Elt F) :=
  ((addf : (⟨S200000x64, .f32⟩ : BufTy).Contents (Elt F) → (⟨S200000x64, .f32⟩ : BufTy).Contents (Elt F) → (⟨S200000x64, .f32⟩ : BufTy).Contents (Elt F)) (((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) x w) ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) b)))

def mmU (h : (⟨S100000x64, .f32⟩ : BufTy).Contents (Elt F)) (w : (⟨S64x64, .f32⟩ : BufTy).Contents (Elt F)) :
    (⟨S100000x64, .f32⟩ : BufTy).Contents (Elt F) :=
  (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) h w)

def mmT (h : (⟨S200000x64, .f32⟩ : BufTy).Contents (Elt F)) (w : (⟨S64x64, .f32⟩ : BufTy).Contents (Elt F)) :
    (⟨S200000x64, .f32⟩ : BufTy).Contents (Elt F) :=
  (((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) h w)

def combU (a : (⟨S100000x64, .f32⟩ : BufTy).Contents (Elt F)) (ba : (⟨S64, .f32⟩ : BufTy).Contents (Elt F)) (b : (⟨S100000x64, .f32⟩ : BufTy).Contents (Elt F)) (bb : (⟨S64, .f32⟩ : BufTy).Contents (Elt F)) :
    (⟨S100000x64, .f32⟩ : BufTy).Contents (Elt F) :=
  ((maximumf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) a ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) ba))) ((addf : (⟨S100000x64, .f32⟩ : BufTy).Contents (Elt F) → (⟨S100000x64, .f32⟩ : BufTy).Contents (Elt F) → (⟨S100000x64, .f32⟩ : BufTy).Contents (Elt F)) b ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) bb)))) ((broadcastInDim S100000x64 ![] bcast_S_S100000x64 : (⟨S_, .f32⟩ : BufTy).Contents (Elt F) → (⟨S100000x64, .f32⟩ : BufTy).Contents (Elt F)) (constant S_ .f32 0x3F000000#32))) (((broadcastInDim S100000x64 ![] bcast_S_S100000x64) : (⟨S_, .f32⟩ : BufTy).Contents (Elt F) → (⟨S100000x64, .f32⟩ : BufTy).Contents (Elt F)) (constant S_ .f32 0x00000000#32)))

def combT (a : (⟨S200000x64, .f32⟩ : BufTy).Contents (Elt F)) (ba : (⟨S64, .f32⟩ : BufTy).Contents (Elt F)) (b : (⟨S200000x64, .f32⟩ : BufTy).Contents (Elt F)) (bb : (⟨S64, .f32⟩ : BufTy).Contents (Elt F)) :
    (⟨S200000x64, .f32⟩ : BufTy).Contents (Elt F) :=
  ((maximumf : (⟨S200000x64, .f32⟩ : BufTy).Contents (Elt F) → (⟨S200000x64, .f32⟩ : BufTy).Contents (Elt F) → (⟨S200000x64, .f32⟩ : BufTy).Contents (Elt F)) ((mulf : (⟨S200000x64, .f32⟩ : BufTy).Contents (Elt F) → (⟨S200000x64, .f32⟩ : BufTy).Contents (Elt F) → (⟨S200000x64, .f32⟩ : BufTy).Contents (Elt F)) ((addf : (⟨S200000x64, .f32⟩ : BufTy).Contents (Elt F) → (⟨S200000x64, .f32⟩ : BufTy).Contents (Elt F) → (⟨S200000x64, .f32⟩ : BufTy).Contents (Elt F)) ((addf : (⟨S200000x64, .f32⟩ : BufTy).Contents (Elt F) → (⟨S200000x64, .f32⟩ : BufTy).Contents (Elt F) → (⟨S200000x64, .f32⟩ : BufTy).Contents (Elt F)) a ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) ba))) ((addf : (⟨S200000x64, .f32⟩ : BufTy).Contents (Elt F) → (⟨S200000x64, .f32⟩ : BufTy).Contents (Elt F) → (⟨S200000x64, .f32⟩ : BufTy).Contents (Elt F)) b ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) bb)))) ((broadcastInDim S200000x64 ![] bcast_S_S200000x64 : (⟨S_, .f32⟩ : BufTy).Contents (Elt F) → (⟨S200000x64, .f32⟩ : BufTy).Contents (Elt F)) (constant S_ .f32 0x3F000000#32))) (((broadcastInDim S200000x64 ![] bcast_S_S200000x64) : (⟨S_, .f32⟩ : BufTy).Contents (Elt F) → (⟨S200000x64, .f32⟩ : BufTy).Contents (Elt F)) (constant S_ .f32 0x00000000#32)))

def wSl00 (t : (⟨S3x4x64x64, .f32⟩ : BufTy).Contents (Elt F)) :
    (⟨S64x64, .f32⟩ : BufTy).Contents (Elt F) :=
  (shapeCast S64x64 (((extractStridedSlice S1x1x64x64 ![0, 0, 0, 0] · slices_S3x4x64x64_S1x1x64x64_0_0_0_0) : (⟨S3x4x64x64, .f32⟩ : BufTy).Contents (Elt F) → (⟨S1x1x64x64, .f32⟩ : BufTy).Contents (Elt F)) t) shapeCasts_S1x1x64x64_S64x64)

def bSl00 (t : (⟨S3x4x64, .f32⟩ : BufTy).Contents (Elt F)) :
    (⟨S64, .f32⟩ : BufTy).Contents (Elt F) :=
  (shapeCast S64 (((extractStridedSlice S1x1x64 ![0, 0, 0] · slices_S3x4x64_S1x1x64_0_0_0) : (⟨S3x4x64, .f32⟩ : BufTy).Contents (Elt F) → (⟨S1x1x64, .f32⟩ : BufTy).Contents (Elt F)) t) shapeCasts_S1x1x64_S64)

def wSl01 (t : (⟨S3x4x64x64, .f32⟩ : BufTy).Contents (Elt F)) :
    (⟨S64x64, .f32⟩ : BufTy).Contents (Elt F) :=
  (shapeCast S64x64 (((extractStridedSlice S1x1x64x64 ![0, 1, 0, 0] · slices_S3x4x64x64_S1x1x64x64_0_1_0_0) : (⟨S3x4x64x64, .f32⟩ : BufTy).Contents (Elt F) → (⟨S1x1x64x64, .f32⟩ : BufTy).Contents (Elt F)) t) shapeCasts_S1x1x64x64_S64x64)

def bSl01 (t : (⟨S3x4x64, .f32⟩ : BufTy).Contents (Elt F)) :
    (⟨S64, .f32⟩ : BufTy).Contents (Elt F) :=
  (shapeCast S64 (((extractStridedSlice S1x1x64 ![0, 1, 0] · slices_S3x4x64_S1x1x64_0_1_0) : (⟨S3x4x64, .f32⟩ : BufTy).Contents (Elt F) → (⟨S1x1x64, .f32⟩ : BufTy).Contents (Elt F)) t) shapeCasts_S1x1x64_S64)

def wSl02 (t : (⟨S3x4x64x64, .f32⟩ : BufTy).Contents (Elt F)) :
    (⟨S64x64, .f32⟩ : BufTy).Contents (Elt F) :=
  (shapeCast S64x64 (((extractStridedSlice S1x1x64x64 ![0, 2, 0, 0] · slices_S3x4x64x64_S1x1x64x64_0_2_0_0) : (⟨S3x4x64x64, .f32⟩ : BufTy).Contents (Elt F) → (⟨S1x1x64x64, .f32⟩ : BufTy).Contents (Elt F)) t) shapeCasts_S1x1x64x64_S64x64)

def bSl02 (t : (⟨S3x4x64, .f32⟩ : BufTy).Contents (Elt F)) :
    (⟨S64, .f32⟩ : BufTy).Contents (Elt F) :=
  (shapeCast S64 (((extractStridedSlice S1x1x64 ![0, 2, 0] · slices_S3x4x64_S1x1x64_0_2_0) : (⟨S3x4x64, .f32⟩ : BufTy).Contents (Elt F) → (⟨S1x1x64, .f32⟩ : BufTy).Contents (Elt F)) t) shapeCasts_S1x1x64_S64)

def wSl03 (t : (⟨S3x4x64x64, .f32⟩ : BufTy).Contents (Elt F)) :
    (⟨S64x64, .f32⟩ : BufTy).Contents (Elt F) :=
  (shapeCast S64x64 (((extractStridedSlice S1x1x64x64 ![0, 3, 0, 0] · slices_S3x4x64x64_S1x1x64x64_0_3_0_0) : (⟨S3x4x64x64, .f32⟩ : BufTy).Contents (Elt F) → (⟨S1x1x64x64, .f32⟩ : BufTy).Contents (Elt F)) t) shapeCasts_S1x1x64x64_S64x64)

def bSl03 (t : (⟨S3x4x64, .f32⟩ : BufTy).Contents (Elt F)) :
    (⟨S64, .f32⟩ : BufTy).Contents (Elt F) :=
  (shapeCast S64 (((extractStridedSlice S1x1x64 ![0, 3, 0] · slices_S3x4x64_S1x1x64_0_3_0) : (⟨S3x4x64, .f32⟩ : BufTy).Contents (Elt F) → (⟨S1x1x64, .f32⟩ : BufTy).Contents (Elt F)) t) shapeCasts_S1x1x64_S64)

def wSl10 (t : (⟨S3x4x64x64, .f32⟩ : BufTy).Contents (Elt F)) :
    (⟨S64x64, .f32⟩ : BufTy).Contents (Elt F) :=
  (shapeCast S64x64 (((extractStridedSlice S1x1x64x64 ![1, 0, 0, 0] · slices_S3x4x64x64_S1x1x64x64_1_0_0_0) : (⟨S3x4x64x64, .f32⟩ : BufTy).Contents (Elt F) → (⟨S1x1x64x64, .f32⟩ : BufTy).Contents (Elt F)) t) shapeCasts_S1x1x64x64_S64x64)

def bSl10 (t : (⟨S3x4x64, .f32⟩ : BufTy).Contents (Elt F)) :
    (⟨S64, .f32⟩ : BufTy).Contents (Elt F) :=
  (shapeCast S64 (((extractStridedSlice S1x1x64 ![1, 0, 0] · slices_S3x4x64_S1x1x64_1_0_0) : (⟨S3x4x64, .f32⟩ : BufTy).Contents (Elt F) → (⟨S1x1x64, .f32⟩ : BufTy).Contents (Elt F)) t) shapeCasts_S1x1x64_S64)

def wSl11 (t : (⟨S3x4x64x64, .f32⟩ : BufTy).Contents (Elt F)) :
    (⟨S64x64, .f32⟩ : BufTy).Contents (Elt F) :=
  (shapeCast S64x64 (((extractStridedSlice S1x1x64x64 ![1, 1, 0, 0] · slices_S3x4x64x64_S1x1x64x64_1_1_0_0) : (⟨S3x4x64x64, .f32⟩ : BufTy).Contents (Elt F) → (⟨S1x1x64x64, .f32⟩ : BufTy).Contents (Elt F)) t) shapeCasts_S1x1x64x64_S64x64)

def bSl11 (t : (⟨S3x4x64, .f32⟩ : BufTy).Contents (Elt F)) :
    (⟨S64, .f32⟩ : BufTy).Contents (Elt F) :=
  (shapeCast S64 (((extractStridedSlice S1x1x64 ![1, 1, 0] · slices_S3x4x64_S1x1x64_1_1_0) : (⟨S3x4x64, .f32⟩ : BufTy).Contents (Elt F) → (⟨S1x1x64, .f32⟩ : BufTy).Contents (Elt F)) t) shapeCasts_S1x1x64_S64)

def wSl12 (t : (⟨S3x4x64x64, .f32⟩ : BufTy).Contents (Elt F)) :
    (⟨S64x64, .f32⟩ : BufTy).Contents (Elt F) :=
  (shapeCast S64x64 (((extractStridedSlice S1x1x64x64 ![1, 2, 0, 0] · slices_S3x4x64x64_S1x1x64x64_1_2_0_0) : (⟨S3x4x64x64, .f32⟩ : BufTy).Contents (Elt F) → (⟨S1x1x64x64, .f32⟩ : BufTy).Contents (Elt F)) t) shapeCasts_S1x1x64x64_S64x64)

def bSl12 (t : (⟨S3x4x64, .f32⟩ : BufTy).Contents (Elt F)) :
    (⟨S64, .f32⟩ : BufTy).Contents (Elt F) :=
  (shapeCast S64 (((extractStridedSlice S1x1x64 ![1, 2, 0] · slices_S3x4x64_S1x1x64_1_2_0) : (⟨S3x4x64, .f32⟩ : BufTy).Contents (Elt F) → (⟨S1x1x64, .f32⟩ : BufTy).Contents (Elt F)) t) shapeCasts_S1x1x64_S64)

def wSl13 (t : (⟨S3x4x64x64, .f32⟩ : BufTy).Contents (Elt F)) :
    (⟨S64x64, .f32⟩ : BufTy).Contents (Elt F) :=
  (shapeCast S64x64 (((extractStridedSlice S1x1x64x64 ![1, 3, 0, 0] · slices_S3x4x64x64_S1x1x64x64_1_3_0_0) : (⟨S3x4x64x64, .f32⟩ : BufTy).Contents (Elt F) → (⟨S1x1x64x64, .f32⟩ : BufTy).Contents (Elt F)) t) shapeCasts_S1x1x64x64_S64x64)

def bSl13 (t : (⟨S3x4x64, .f32⟩ : BufTy).Contents (Elt F)) :
    (⟨S64, .f32⟩ : BufTy).Contents (Elt F) :=
  (shapeCast S64 (((extractStridedSlice S1x1x64 ![1, 3, 0] · slices_S3x4x64_S1x1x64_1_3_0) : (⟨S3x4x64, .f32⟩ : BufTy).Contents (Elt F) → (⟨S1x1x64, .f32⟩ : BufTy).Contents (Elt F)) t) shapeCasts_S1x1x64_S64)

def wSl20 (t : (⟨S3x4x64x64, .f32⟩ : BufTy).Contents (Elt F)) :
    (⟨S64x64, .f32⟩ : BufTy).Contents (Elt F) :=
  (shapeCast S64x64 (((extractStridedSlice S1x1x64x64 ![2, 0, 0, 0] · slices_S3x4x64x64_S1x1x64x64_2_0_0_0) : (⟨S3x4x64x64, .f32⟩ : BufTy).Contents (Elt F) → (⟨S1x1x64x64, .f32⟩ : BufTy).Contents (Elt F)) t) shapeCasts_S1x1x64x64_S64x64)

def bSl20 (t : (⟨S3x4x64, .f32⟩ : BufTy).Contents (Elt F)) :
    (⟨S64, .f32⟩ : BufTy).Contents (Elt F) :=
  (shapeCast S64 (((extractStridedSlice S1x1x64 ![2, 0, 0] · slices_S3x4x64_S1x1x64_2_0_0) : (⟨S3x4x64, .f32⟩ : BufTy).Contents (Elt F) → (⟨S1x1x64, .f32⟩ : BufTy).Contents (Elt F)) t) shapeCasts_S1x1x64_S64)

def wSl21 (t : (⟨S3x4x64x64, .f32⟩ : BufTy).Contents (Elt F)) :
    (⟨S64x64, .f32⟩ : BufTy).Contents (Elt F) :=
  (shapeCast S64x64 (((extractStridedSlice S1x1x64x64 ![2, 1, 0, 0] · slices_S3x4x64x64_S1x1x64x64_2_1_0_0) : (⟨S3x4x64x64, .f32⟩ : BufTy).Contents (Elt F) → (⟨S1x1x64x64, .f32⟩ : BufTy).Contents (Elt F)) t) shapeCasts_S1x1x64x64_S64x64)

def bSl21 (t : (⟨S3x4x64, .f32⟩ : BufTy).Contents (Elt F)) :
    (⟨S64, .f32⟩ : BufTy).Contents (Elt F) :=
  (shapeCast S64 (((extractStridedSlice S1x1x64 ![2, 1, 0] · slices_S3x4x64_S1x1x64_2_1_0) : (⟨S3x4x64, .f32⟩ : BufTy).Contents (Elt F) → (⟨S1x1x64, .f32⟩ : BufTy).Contents (Elt F)) t) shapeCasts_S1x1x64_S64)

def wSl22 (t : (⟨S3x4x64x64, .f32⟩ : BufTy).Contents (Elt F)) :
    (⟨S64x64, .f32⟩ : BufTy).Contents (Elt F) :=
  (shapeCast S64x64 (((extractStridedSlice S1x1x64x64 ![2, 2, 0, 0] · slices_S3x4x64x64_S1x1x64x64_2_2_0_0) : (⟨S3x4x64x64, .f32⟩ : BufTy).Contents (Elt F) → (⟨S1x1x64x64, .f32⟩ : BufTy).Contents (Elt F)) t) shapeCasts_S1x1x64x64_S64x64)

def bSl22 (t : (⟨S3x4x64, .f32⟩ : BufTy).Contents (Elt F)) :
    (⟨S64, .f32⟩ : BufTy).Contents (Elt F) :=
  (shapeCast S64 (((extractStridedSlice S1x1x64 ![2, 2, 0] · slices_S3x4x64_S1x1x64_2_2_0) : (⟨S3x4x64, .f32⟩ : BufTy).Contents (Elt F) → (⟨S1x1x64, .f32⟩ : BufTy).Contents (Elt F)) t) shapeCasts_S1x1x64_S64)

def wSl23 (t : (⟨S3x4x64x64, .f32⟩ : BufTy).Contents (Elt F)) :
    (⟨S64x64, .f32⟩ : BufTy).Contents (Elt F) :=
  (shapeCast S64x64 (((extractStridedSlice S1x1x64x64 ![2, 3, 0, 0] · slices_S3x4x64x64_S1x1x64x64_2_3_0_0) : (⟨S3x4x64x64, .f32⟩ : BufTy).Contents (Elt F) → (⟨S1x1x64x64, .f32⟩ : BufTy).Contents (Elt F)) t) shapeCasts_S1x1x64x64_S64x64)

def bSl23 (t : (⟨S3x4x64, .f32⟩ : BufTy).Contents (Elt F)) :
    (⟨S64, .f32⟩ : BufTy).Contents (Elt F) :=
  (shapeCast S64 (((extractStridedSlice S1x1x64 ![2, 3, 0] · slices_S3x4x64_S1x1x64_2_3_0) : (⟨S3x4x64, .f32⟩ : BufTy).Contents (Elt F) → (⟨S1x1x64, .f32⟩ : BufTy).Contents (Elt F)) t) shapeCasts_S1x1x64_S64)

def hu0R (A : Args F) := linU A.a0 A.a6 A.a7
def ht0R (A : Args F) := linT A.a1 A.a8 A.a9
def hu1R (A : Args F) :=
  combU (aggUU (mmU (hu0R A) (wSl00 A.a10)) A.a2) (bSl00 A.a11) (aggTU (mmT (ht0R A) (wSl03 A.a10)) A.a5) (bSl03 A.a11)
def ht1R (A : Args F) :=
  combT (aggTT (mmT (ht0R A) (wSl01 A.a10)) A.a3) (bSl01 A.a11) (aggUT (mmU (hu0R A) (wSl02 A.a10)) A.a4) (bSl02 A.a11)
def hu2R (A : Args F) :=
  combU (aggUU (mmU (hu1R A) (wSl10 A.a10)) A.a2) (bSl10 A.a11) (aggTU (mmT (ht1R A) (wSl13 A.a10)) A.a5) (bSl13 A.a11)
def ht2R (A : Args F) :=
  combT (aggTT (mmT (ht1R A) (wSl11 A.a10)) A.a3) (bSl11 A.a11) (aggUT (mmU (hu1R A) (wSl12 A.a10)) A.a4) (bSl12 A.a11)
def hu3R (A : Args F) :=
  combU (aggUU (mmU (hu2R A) (wSl20 A.a10)) A.a2) (bSl20 A.a11) (aggTU (mmT (ht2R A) (wSl23 A.a10)) A.a5) (bSl23 A.a11)
def ht3R (A : Args F) :=
  combT (aggTT (mmT (ht2R A) (wSl21 A.a10)) A.a3) (bSl21 A.a11) (aggUT (mmU (hu2R A) (wSl22 A.a10)) A.a4) (bSl22 A.a11)
/-- The whole network in the reference's spelling. -/
def outR (A : Args F) := tailFn (hu3R A) (ht3R A) A.a12 A.a13 A.a14 A.a15

end Reference

section Kernel

open Cert.KernelIdeal Cert.KernelIdeal.Gen

def linUK (x : (⟨S100000x32, .f32⟩ : BufTy).Contents (Elt Ideal)) (w : (⟨S32x64, .f32⟩ : BufTy).Contents (Elt Ideal)) (b : (⟨S64, .f32⟩ : BufTy).Contents (Elt Ideal)) :
    (⟨S100000x64, .f32⟩ : BufTy).Contents (Elt Ideal) :=
  ((Cert.Dense.affine (n := 100000) (K := 32) (P := 64)) x w b)

def linTK (x : (⟨S200000x64, .f32⟩ : BufTy).Contents (Elt Ideal)) (w : (⟨S64x64, .f32⟩ : BufTy).Contents (Elt Ideal)) (b : (⟨S64, .f32⟩ : BufTy).Contents (Elt Ideal)) :
    (⟨S200000x64, .f32⟩ : BufTy).Contents (Elt Ideal) :=
  ((Cert.Dense.affine (n := 200000) (K := 64) (P := 64)) x w b)

def mmUKl (h : (⟨S100000x64, .f32⟩ : BufTy).Contents (Elt Ideal)) (wa : (⟨S64x64, .f32⟩ : BufTy).Contents (Elt Ideal)) (wb : (⟨S64x64, .f32⟩ : BufTy).Contents (Elt Ideal)) :
    (⟨S100000x64, .f32⟩ : BufTy).Contents (Elt Ideal) :=
  (((extractStridedSlice S100000x64 ![0, 0] · slices_S100000x128_S100000x64_0_0) : (⟨S100000x128, .f32⟩ : BufTy).Contents (Elt Ideal) → (⟨S100000x64, .f32⟩ : BufTy).Contents (Elt Ideal)) ((Cert.Dense.product (n := 100000) (K := 64) (P := 128)) h (((fun a b => concatenate S64x128 1 [⟨S64x64, a⟩, ⟨S64x64, b⟩] concatenates_S64x64_S64x64_S64x128_d1) : (⟨S64x64, .f32⟩ : BufTy).Contents (Elt Ideal) → (⟨S64x64, .f32⟩ : BufTy).Contents (Elt Ideal) → (⟨S64x128, .f32⟩ : BufTy).Contents (Elt Ideal)) wa wb)))

def mmUKr (h : (⟨S100000x64, .f32⟩ : BufTy).Contents (Elt Ideal)) (wa : (⟨S64x64, .f32⟩ : BufTy).Contents (Elt Ideal)) (wb : (⟨S64x64, .f32⟩ : BufTy).Contents (Elt Ideal)) :
    (⟨S100000x64, .f32⟩ : BufTy).Contents (Elt Ideal) :=
  (((extractStridedSlice S100000x64 ![0, 64] · slices_S100000x128_S100000x64_0_64) : (⟨S100000x128, .f32⟩ : BufTy).Contents (Elt Ideal) → (⟨S100000x64, .f32⟩ : BufTy).Contents (Elt Ideal)) ((Cert.Dense.product (n := 100000) (K := 64) (P := 128)) h (((fun a b => concatenate S64x128 1 [⟨S64x64, a⟩, ⟨S64x64, b⟩] concatenates_S64x64_S64x64_S64x128_d1) : (⟨S64x64, .f32⟩ : BufTy).Contents (Elt Ideal) → (⟨S64x64, .f32⟩ : BufTy).Contents (Elt Ideal) → (⟨S64x128, .f32⟩ : BufTy).Contents (Elt Ideal)) wa wb)))

def mmTKl (h : (⟨S200000x64, .f32⟩ : BufTy).Contents (Elt Ideal)) (wa : (⟨S64x64, .f32⟩ : BufTy).Contents (Elt Ideal)) (wb : (⟨S64x64, .f32⟩ : BufTy).Contents (Elt Ideal)) :
    (⟨S200000x64, .f32⟩ : BufTy).Contents (Elt Ideal) :=
  (((extractStridedSlice S200000x64 ![0, 0] · slices_S200000x128_S200000x64_0_0) : (⟨S200000x128, .f32⟩ : BufTy).Contents (Elt Ideal) → (⟨S200000x64, .f32⟩ : BufTy).Contents (Elt Ideal)) ((Cert.Dense.product (n := 200000) (K := 64) (P := 128)) h (((fun a b => concatenate S64x128 1 [⟨S64x64, a⟩, ⟨S64x64, b⟩] concatenates_S64x64_S64x64_S64x128_d1) : (⟨S64x64, .f32⟩ : BufTy).Contents (Elt Ideal) → (⟨S64x64, .f32⟩ : BufTy).Contents (Elt Ideal) → (⟨S64x128, .f32⟩ : BufTy).Contents (Elt Ideal)) wa wb)))

def mmTKr (h : (⟨S200000x64, .f32⟩ : BufTy).Contents (Elt Ideal)) (wa : (⟨S64x64, .f32⟩ : BufTy).Contents (Elt Ideal)) (wb : (⟨S64x64, .f32⟩ : BufTy).Contents (Elt Ideal)) :
    (⟨S200000x64, .f32⟩ : BufTy).Contents (Elt Ideal) :=
  (((extractStridedSlice S200000x64 ![0, 64] · slices_S200000x128_S200000x64_0_64) : (⟨S200000x128, .f32⟩ : BufTy).Contents (Elt Ideal) → (⟨S200000x64, .f32⟩ : BufTy).Contents (Elt Ideal)) ((Cert.Dense.product (n := 200000) (K := 64) (P := 128)) h (((fun a b => concatenate S64x128 1 [⟨S64x64, a⟩, ⟨S64x64, b⟩] concatenates_S64x64_S64x64_S64x128_d1) : (⟨S64x64, .f32⟩ : BufTy).Contents (Elt Ideal) → (⟨S64x64, .f32⟩ : BufTy).Contents (Elt Ideal) → (⟨S64x128, .f32⟩ : BufTy).Contents (Elt Ideal)) wa wb)))

def combUK (a : (⟨S100000x64, .f32⟩ : BufTy).Contents (Elt Ideal)) (ba : (⟨S64, .f32⟩ : BufTy).Contents (Elt Ideal)) (b : (⟨S100000x64, .f32⟩ : BufTy).Contents (Elt Ideal)) (bb : (⟨S64, .f32⟩ : BufTy).Contents (Elt Ideal)) :
    (⟨S100000x64, .f32⟩ : BufTy).Contents (Elt Ideal) :=
  (shapeCast S100000x64 ((Cert.Dense.meanRelu (n := 50000) (P := 128)) (shapeCast S50000x128 a shapeCasts_S100000x64_S50000x128) (shapeCast S50000x128 b shapeCasts_S100000x64_S50000x128) (shapeCast S128 ((broadcastInDim S2x64 ![0, 1] bcast_S1x64_S2x64_0_1 : (⟨S1x64, .f32⟩ : BufTy).Contents (Elt Ideal) → (⟨S2x64, .f32⟩ : BufTy).Contents (Elt Ideal)) (shapeCast S1x64 ba shapeCasts_S64_S1x64)) shapeCasts_S2x64_S128) (shapeCast S128 ((broadcastInDim S2x64 ![0, 1] bcast_S1x64_S2x64_0_1 : (⟨S1x64, .f32⟩ : BufTy).Contents (Elt Ideal) → (⟨S2x64, .f32⟩ : BufTy).Contents (Elt Ideal)) (shapeCast S1x64 bb shapeCasts_S64_S1x64)) shapeCasts_S2x64_S128)) shapeCasts_S50000x128_S100000x64)

def combTK (a : (⟨S200000x64, .f32⟩ : BufTy).Contents (Elt Ideal)) (ba : (⟨S64, .f32⟩ : BufTy).Contents (Elt Ideal)) (b : (⟨S200000x64, .f32⟩ : BufTy).Contents (Elt Ideal)) (bb : (⟨S64, .f32⟩ : BufTy).Contents (Elt Ideal)) :
    (⟨S200000x64, .f32⟩ : BufTy).Contents (Elt Ideal) :=
  (shapeCast S200000x64 ((Cert.Dense.meanRelu (n := 100000) (P := 128)) (shapeCast S100000x128 a shapeCasts_S200000x64_S100000x128) (shapeCast S100000x128 b shapeCasts_S200000x64_S100000x128) (shapeCast S128 ((broadcastInDim S2x64 ![0, 1] bcast_S1x64_S2x64_0_1 : (⟨S1x64, .f32⟩ : BufTy).Contents (Elt Ideal) → (⟨S2x64, .f32⟩ : BufTy).Contents (Elt Ideal)) (shapeCast S1x64 ba shapeCasts_S64_S1x64)) shapeCasts_S2x64_S128) (shapeCast S128 ((broadcastInDim S2x64 ![0, 1] bcast_S1x64_S2x64_0_1 : (⟨S1x64, .f32⟩ : BufTy).Contents (Elt Ideal) → (⟨S2x64, .f32⟩ : BufTy).Contents (Elt Ideal)) (shapeCast S1x64 bb shapeCasts_S64_S1x64)) shapeCasts_S2x64_S128)) shapeCasts_S100000x128_S200000x64)

def hu0K (A : Args Ideal) := linUK A.a0 A.a6 A.a7
def ht0K (A : Args Ideal) := linTK A.a1 A.a8 A.a9
def hu1K (A : Args Ideal) :=
  combUK (aggUU (mmUKl (hu0K A) (wSl00 A.a10) (wSl02 A.a10)) A.a2) (bSl00 A.a11) (aggTU (mmTKr (ht0K A) (wSl01 A.a10) (wSl03 A.a10)) A.a5) (bSl03 A.a11)
def ht1K (A : Args Ideal) :=
  combTK (aggTT (mmTKl (ht0K A) (wSl01 A.a10) (wSl03 A.a10)) A.a3) (bSl01 A.a11) (aggUT (mmUKr (hu0K A) (wSl00 A.a10) (wSl02 A.a10)) A.a4) (bSl02 A.a11)
def hu2K (A : Args Ideal) :=
  combUK (aggUU (mmUKl (hu1K A) (wSl10 A.a10) (wSl12 A.a10)) A.a2) (bSl10 A.a11) (aggTU (mmTKr (ht1K A) (wSl11 A.a10) (wSl13 A.a10)) A.a5) (bSl13 A.a11)
def ht2K (A : Args Ideal) :=
  combTK (aggTT (mmTKl (ht1K A) (wSl11 A.a10) (wSl13 A.a10)) A.a3) (bSl11 A.a11) (aggUT (mmUKr (hu1K A) (wSl10 A.a10) (wSl12 A.a10)) A.a4) (bSl12 A.a11)
def hu3K (A : Args Ideal) :=
  combUK (aggUU (mmUKl (hu2K A) (wSl20 A.a10) (wSl22 A.a10)) A.a2) (bSl20 A.a11) (aggTU (mmTKr (ht2K A) (wSl21 A.a10) (wSl23 A.a10)) A.a5) (bSl23 A.a11)
def ht3K (A : Args Ideal) :=
  combTK (aggTT (mmTKl (ht2K A) (wSl21 A.a10) (wSl23 A.a10)) A.a3) (bSl21 A.a11) (aggUT (mmUKr (hu2K A) (wSl20 A.a10) (wSl22 A.a10)) A.a4) (bSl22 A.a11)
/-- The whole network in the kernel's spelling. -/
def outK (A : Args Ideal) := tailFn (hu3K A) (ht3K A) A.a12 A.a13 A.a14 A.a15

end Kernel

end Cert.Spec

end
-- ==== Proof.KernelRun.lean ====
/-
  The idealized kernel's result as a function of its arguments.

  Each region leaves its output array at the whole-array function of its input arrays and everything else as it
  found it: that is the result of ONE pure operation on the buffer contents.  So the contents at the last boundary
  are the contents after one list of operations — the host operations with one operation standing for each region —
  from the launch memory, and the result buffer holds the operations' composed term of the arguments: the network in
  the kernel's spelling.
-/
import proofs.«167272_j20323785244837_2_alg».proof.Proof.KernelIdealFrameP1
import proofs.«167272_j20323785244837_2_alg».proof.Proof.Regions
import proofs.«167272_j20323785244837_2_alg».proof.Proof.LibRegionOp
import proofs.«167272_j20323785244837_2_alg».proof.Proof.LibConcat2
import proofs.«167272_j20323785244837_2_alg».proof.Proof.KernelEval
import proofs.«167272_j20323785244837_2_alg».proof.Proof.Spec
import Idealize.ShloMosaic.Lib.StableHlo.Run

set_option maxRecDepth 16384

noncomputable section

namespace Cert.KernelIdeal.Whole

open Idealize.ShloMosaic Idealize.ShloMosaic.TcCoe Idealize.ShloMosaic.StableHlo
open Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-! ## Each region as one operation -/

/-- Region 0: its output array takes the affine map of its input arrays. -/
abbrev op0 : HloOp τ sig (Elt Ideal) := StableHlo.ternary main_arg0 main_arg6 main_arg7 main_v0 (Cert.Dense.affine (n := 100000) (K := 32) (P := 64))

theorem exit0 (c : Dev nD) : W1 (F := Ideal) m ρ c = (op0).result (W0 m ρ c) := by
  unfold W1
  refine Cert.LibRegionOp.withArrays_eq_result spec0 launch0.win.arr_inj c _ _ op0 3 rfl ?_ ?_
  · exact (Cert.KernelIdeal.Regions.final0 (V0 m ρ) c).trans
      (StableHlo.ternary_result main_arg0 main_arg6 main_arg7 main_v0 (Cert.Dense.affine (n := 100000) (K := 32) (P := 64)) _ _ _ _ (W0 m ρ c)).symm
  · intro w hw
    match w, hw with
    | ⟨0, _⟩, _ => exact ((dat0 (V0 m ρ) c).arrAt_in 0 rfl _).trans (A_eq0 (V0 m ρ) c 0)
    | ⟨1, _⟩, _ => exact ((dat0 (V0 m ρ) c).arrAt_in 1 rfl _).trans (A_eq0 (V0 m ρ) c 1)
    | ⟨2, _⟩, _ => exact ((dat0 (V0 m ρ) c).arrAt_in 2 rfl _).trans (A_eq0 (V0 m ρ) c 2)
    | ⟨3, _⟩, h => exact absurd rfl h

/-- Region 1: its output array takes the affine map of its input arrays. -/
abbrev op1 : HloOp τ sig (Elt Ideal) := StableHlo.ternary main_arg1 main_arg8 main_arg9 main_v1 (Cert.Dense.affine (n := 200000) (K := 64) (P := 64))

theorem exit1 (c : Dev nD) : W2 (F := Ideal) m ρ c = (op1).result (W1 m ρ c) := by
  unfold W2
  refine Cert.LibRegionOp.withArrays_eq_result spec1 launch1.win.arr_inj c _ _ op1 3 rfl ?_ ?_
  · exact (Cert.KernelIdeal.Regions.final1 (V1 m ρ) c).trans
      (StableHlo.ternary_result main_arg1 main_arg8 main_arg9 main_v1 (Cert.Dense.affine (n := 200000) (K := 64) (P := 64)) _ _ _ _ (W1 m ρ c)).symm
  · intro w hw
    match w, hw with
    | ⟨0, _⟩, _ => exact ((dat1 (V1 m ρ) c).arrAt_in 0 rfl _).trans (A_eq1 (V1 m ρ) c 0)
    | ⟨1, _⟩, _ => exact ((dat1 (V1 m ρ) c).arrAt_in 1 rfl _).trans (A_eq1 (V1 m ρ) c 1)
    | ⟨2, _⟩, _ => exact ((dat1 (V1 m ρ) c).arrAt_in 2 rfl _).trans (A_eq1 (V1 m ρ) c 2)
    | ⟨3, _⟩, h => exact absurd rfl h

/-- Region 2: its output array takes the product of its input arrays. -/
abbrev op2 : HloOp τ sig (Elt Ideal) := StableHlo.binary main_v0 main_v148 main_v154 (Cert.Dense.product (n := 100000) (K := 64) (P := 128))

theorem exit2 (c : Dev nD) : W16 (F := Ideal) m ρ c = (op2).result (W15 m ρ c) := by
  unfold W16
  refine Cert.LibRegionOp.withArrays_eq_result spec2 launch2.win.arr_inj c _ _ op2 2 rfl ?_ ?_
  · exact (Cert.KernelIdeal.Regions.final2 (V15 m ρ) c).trans
      (StableHlo.binary_result main_v0 main_v148 main_v154 (Cert.Dense.product (n := 100000) (K := 64) (P := 128)) _ _ _ (W15 m ρ c)).symm
  · intro w hw
    match w, hw with
    | ⟨0, _⟩, _ => exact ((dat2 (V15 m ρ) c).arrAt_in 0 rfl _).trans (A_eq2 (V15 m ρ) c 0)
    | ⟨1, _⟩, _ => exact ((dat2 (V15 m ρ) c).arrAt_in 1 rfl _).trans (A_eq2 (V15 m ρ) c 1)
    | ⟨2, _⟩, h => exact absurd rfl h

/-- Region 3: its output array takes the product of its input arrays. -/
abbrev op3 : HloOp τ sig (Elt Ideal) := StableHlo.binary main_v1 main_v153 main_v155 (Cert.Dense.product (n := 200000) (K := 64) (P := 128))

theorem exit3 (c : Dev nD) : W17 (F := Ideal) m ρ c = (op3).result (W16 m ρ c) := by
  unfold W17
  refine Cert.LibRegionOp.withArrays_eq_result spec3 launch3.win.arr_inj c _ _ op3 2 rfl ?_ ?_
  · exact (Cert.KernelIdeal.Regions.final3 (V16 m ρ) c).trans
      (StableHlo.binary_result main_v1 main_v153 main_v155 (Cert.Dense.product (n := 200000) (K := 64) (P := 128)) _ _ _ (W16 m ρ c)).symm
  · intro w hw
    match w, hw with
    | ⟨0, _⟩, _ => exact ((dat3 (V16 m ρ) c).arrAt_in 0 rfl _).trans (A_eq3 (V16 m ρ) c 0)
    | ⟨1, _⟩, _ => exact ((dat3 (V16 m ρ) c).arrAt_in 1 rfl _).trans (A_eq3 (V16 m ρ) c 1)
    | ⟨2, _⟩, h => exact absurd rfl h

/-- Region 4: its output array takes the combination of its input arrays. -/
abbrev op4 : HloOp τ sig (Elt Ideal) := StableHlo.quaternary main_v216 main_v217 main_v220 main_v223 main_v224 (Cert.Dense.meanRelu (n := 50000) (P := 128))

theorem exit4 (c : Dev nD) : W19 (F := Ideal) m ρ c = (op4).result (W18 m ρ c) := by
  unfold W19
  refine Cert.LibRegionOp.withArrays_eq_result spec4 launch4.win.arr_inj c _ _ op4 4 rfl ?_ ?_
  · exact (Cert.KernelIdeal.Regions.final4 (V18 m ρ) c).trans
      (StableHlo.quaternary_result main_v216 main_v217 main_v220 main_v223 main_v224 (Cert.Dense.meanRelu (n := 50000) (P := 128)) _ _ _ _ _ (W18 m ρ c)).symm
  · intro w hw
    match w, hw with
    | ⟨0, _⟩, _ => exact ((dat4 (V18 m ρ) c).arrAt_in 0 rfl _).trans (A_eq4 (V18 m ρ) c 0)
    | ⟨1, _⟩, _ => exact ((dat4 (V18 m ρ) c).arrAt_in 1 rfl _).trans (A_eq4 (V18 m ρ) c 1)
    | ⟨2, _⟩, _ => exact ((dat4 (V18 m ρ) c).arrAt_in 2 rfl _).trans (A_eq4 (V18 m ρ) c 2)
    | ⟨3, _⟩, _ => exact ((dat4 (V18 m ρ) c).arrAt_in 3 rfl _).trans (A_eq4 (V18 m ρ) c 3)
    | ⟨4, _⟩, h => exact absurd rfl h

/-- Region 5: its output array takes the combination of its input arrays. -/
abbrev op5 : HloOp τ sig (Elt Ideal) := StableHlo.quaternary main_v230 main_v231 main_v234 main_v237 main_v238 (Cert.Dense.meanRelu (n := 100000) (P := 128))

theorem exit5 (c : Dev nD) : W21 (F := Ideal) m ρ c = (op5).result (W20 m ρ c) := by
  unfold W21
  refine Cert.LibRegionOp.withArrays_eq_result spec5 launch5.win.arr_inj c _ _ op5 4 rfl ?_ ?_
  · exact (Cert.KernelIdeal.Regions.final5 (V20 m ρ) c).trans
      (StableHlo.quaternary_result main_v230 main_v231 main_v234 main_v237 main_v238 (Cert.Dense.meanRelu (n := 100000) (P := 128)) _ _ _ _ _ (W20 m ρ c)).symm
  · intro w hw
    match w, hw with
    | ⟨0, _⟩, _ => exact ((dat5 (V20 m ρ) c).arrAt_in 0 rfl _).trans (A_eq5 (V20 m ρ) c 0)
    | ⟨1, _⟩, _ => exact ((dat5 (V20 m ρ) c).arrAt_in 1 rfl _).trans (A_eq5 (V20 m ρ) c 1)
    | ⟨2, _⟩, _ => exact ((dat5 (V20 m ρ) c).arrAt_in 2 rfl _).trans (A_eq5 (V20 m ρ) c 2)
    | ⟨3, _⟩, _ => exact ((dat5 (V20 m ρ) c).arrAt_in 3 rfl _).trans (A_eq5 (V20 m ρ) c 3)
    | ⟨4, _⟩, h => exact absurd rfl h

/-- Region 6: its output array takes the product of its input arrays. -/
abbrev op6 : HloOp τ sig (Elt Ideal) := StableHlo.binary main_v225 main_v244 main_v250 (Cert.Dense.product (n := 100000) (K := 64) (P := 128))

theorem exit6 (c : Dev nD) : W23 (F := Ideal) m ρ c = (op6).result (W22 m ρ c) := by
  unfold W23
  refine Cert.LibRegionOp.withArrays_eq_result spec6 launch6.win.arr_inj c _ _ op6 2 rfl ?_ ?_
  · exact (Cert.KernelIdeal.Regions.final6 (V22 m ρ) c).trans
      (StableHlo.binary_result main_v225 main_v244 main_v250 (Cert.Dense.product (n := 100000) (K := 64) (P := 128)) _ _ _ (W22 m ρ c)).symm
  · intro w hw
    match w, hw with
    | ⟨0, _⟩, _ => exact ((dat6 (V22 m ρ) c).arrAt_in 0 rfl _).trans (A_eq6 (V22 m ρ) c 0)
    | ⟨1, _⟩, _ => exact ((dat6 (V22 m ρ) c).arrAt_in 1 rfl _).trans (A_eq6 (V22 m ρ) c 1)
    | ⟨2, _⟩, h => exact absurd rfl h

/-- Region 7: its output array takes the product of its input arrays. -/
abbrev op7 : HloOp τ sig (Elt Ideal) := StableHlo.binary main_v239 main_v249 main_v251 (Cert.Dense.product (n := 200000) (K := 64) (P := 128))

theorem exit7 (c : Dev nD) : W24 (F := Ideal) m ρ c = (op7).result (W23 m ρ c) := by
  unfold W24
  refine Cert.LibRegionOp.withArrays_eq_result spec7 launch7.win.arr_inj c _ _ op7 2 rfl ?_ ?_
  · exact (Cert.KernelIdeal.Regions.final7 (V23 m ρ) c).trans
      (StableHlo.binary_result main_v239 main_v249 main_v251 (Cert.Dense.product (n := 200000) (K := 64) (P := 128)) _ _ _ (W23 m ρ c)).symm
  · intro w hw
    match w, hw with
    | ⟨0, _⟩, _ => exact ((dat7 (V23 m ρ) c).arrAt_in 0 rfl _).trans (A_eq7 (V23 m ρ) c 0)
    | ⟨1, _⟩, _ => exact ((dat7 (V23 m ρ) c).arrAt_in 1 rfl _).trans (A_eq7 (V23 m ρ) c 1)
    | ⟨2, _⟩, h => exact absurd rfl h

/-- Region 8: its output array takes the combination of its input arrays. -/
abbrev op8 : HloOp τ sig (Elt Ideal) := StableHlo.quaternary main_v312 main_v313 main_v316 main_v319 main_v320 (Cert.Dense.meanRelu (n := 50000) (P := 128))

theorem exit8 (c : Dev nD) : W26 (F := Ideal) m ρ c = (op8).result (W25 m ρ c) := by
  unfold W26
  refine Cert.LibRegionOp.withArrays_eq_result spec8 launch8.win.arr_inj c _ _ op8 4 rfl ?_ ?_
  · exact (Cert.KernelIdeal.Regions.final8 (V25 m ρ) c).trans
      (StableHlo.quaternary_result main_v312 main_v313 main_v316 main_v319 main_v320 (Cert.Dense.meanRelu (n := 50000) (P := 128)) _ _ _ _ _ (W25 m ρ c)).symm
  · intro w hw
    match w, hw with
    | ⟨0, _⟩, _ => exact ((dat8 (V25 m ρ) c).arrAt_in 0 rfl _).trans (A_eq8 (V25 m ρ) c 0)
    | ⟨1, _⟩, _ => exact ((dat8 (V25 m ρ) c).arrAt_in 1 rfl _).trans (A_eq8 (V25 m ρ) c 1)
    | ⟨2, _⟩, _ => exact ((dat8 (V25 m ρ) c).arrAt_in 2 rfl _).trans (A_eq8 (V25 m ρ) c 2)
    | ⟨3, _⟩, _ => exact ((dat8 (V25 m ρ) c).arrAt_in 3 rfl _).trans (A_eq8 (V25 m ρ) c 3)
    | ⟨4, _⟩, h => exact absurd rfl h

/-- Region 9: its output array takes the combination of its input arrays. -/
abbrev op9 : HloOp τ sig (Elt Ideal) := StableHlo.quaternary main_v326 main_v327 main_v330 main_v333 main_v334 (Cert.Dense.meanRelu (n := 100000) (P := 128))

theorem exit9 (c : Dev nD) : W28 (F := Ideal) m ρ c = (op9).result (W27 m ρ c) := by
  unfold W28
  refine Cert.LibRegionOp.withArrays_eq_result spec9 launch9.win.arr_inj c _ _ op9 4 rfl ?_ ?_
  · exact (Cert.KernelIdeal.Regions.final9 (V27 m ρ) c).trans
      (StableHlo.quaternary_result main_v326 main_v327 main_v330 main_v333 main_v334 (Cert.Dense.meanRelu (n := 100000) (P := 128)) _ _ _ _ _ (W27 m ρ c)).symm
  · intro w hw
    match w, hw with
    | ⟨0, _⟩, _ => exact ((dat9 (V27 m ρ) c).arrAt_in 0 rfl _).trans (A_eq9 (V27 m ρ) c 0)
    | ⟨1, _⟩, _ => exact ((dat9 (V27 m ρ) c).arrAt_in 1 rfl _).trans (A_eq9 (V27 m ρ) c 1)
    | ⟨2, _⟩, _ => exact ((dat9 (V27 m ρ) c).arrAt_in 2 rfl _).trans (A_eq9 (V27 m ρ) c 2)
    | ⟨3, _⟩, _ => exact ((dat9 (V27 m ρ) c).arrAt_in 3 rfl _).trans (A_eq9 (V27 m ρ) c 3)
    | ⟨4, _⟩, h => exact absurd rfl h

/-- Region 10: its output array takes the product of its input arrays. -/
abbrev op10 : HloOp τ sig (Elt Ideal) := StableHlo.binary main_v321 main_v340 main_v346 (Cert.Dense.product (n := 100000) (K := 64) (P := 128))

theorem exit10 (c : Dev nD) : W30 (F := Ideal) m ρ c = (op10).result (W29 m ρ c) := by
  unfold W30
  refine Cert.LibRegionOp.withArrays_eq_result spec10 launch10.win.arr_inj c _ _ op10 2 rfl ?_ ?_
  · exact (Cert.KernelIdeal.Regions.final10 (V29 m ρ) c).trans
      (StableHlo.binary_result main_v321 main_v340 main_v346 (Cert.Dense.product (n := 100000) (K := 64) (P := 128)) _ _ _ (W29 m ρ c)).symm
  · intro w hw
    match w, hw with
    | ⟨0, _⟩, _ => exact ((dat10 (V29 m ρ) c).arrAt_in 0 rfl _).trans (A_eq10 (V29 m ρ) c 0)
    | ⟨1, _⟩, _ => exact ((dat10 (V29 m ρ) c).arrAt_in 1 rfl _).trans (A_eq10 (V29 m ρ) c 1)
    | ⟨2, _⟩, h => exact absurd rfl h

/-- Region 11: its output array takes the product of its input arrays. -/
abbrev op11 : HloOp τ sig (Elt Ideal) := StableHlo.binary main_v335 main_v345 main_v347 (Cert.Dense.product (n := 200000) (K := 64) (P := 128))

theorem exit11 (c : Dev nD) : W31 (F := Ideal) m ρ c = (op11).result (W30 m ρ c) := by
  unfold W31
  refine Cert.LibRegionOp.withArrays_eq_result spec11 launch11.win.arr_inj c _ _ op11 2 rfl ?_ ?_
  · exact (Cert.KernelIdeal.Regions.final11 (V30 m ρ) c).trans
      (StableHlo.binary_result main_v335 main_v345 main_v347 (Cert.Dense.product (n := 200000) (K := 64) (P := 128)) _ _ _ (W30 m ρ c)).symm
  · intro w hw
    match w, hw with
    | ⟨0, _⟩, _ => exact ((dat11 (V30 m ρ) c).arrAt_in 0 rfl _).trans (A_eq11 (V30 m ρ) c 0)
    | ⟨1, _⟩, _ => exact ((dat11 (V30 m ρ) c).arrAt_in 1 rfl _).trans (A_eq11 (V30 m ρ) c 1)
    | ⟨2, _⟩, h => exact absurd rfl h

/-- Region 12: its output array takes the combination of its input arrays. -/
abbrev op12 : HloOp τ sig (Elt Ideal) := StableHlo.quaternary main_v408 main_v409 main_v412 main_v415 main_v416 (Cert.Dense.meanRelu (n := 50000) (P := 128))

theorem exit12 (c : Dev nD) : W33 (F := Ideal) m ρ c = (op12).result (W32 m ρ c) := by
  unfold W33
  refine Cert.LibRegionOp.withArrays_eq_result spec12 launch12.win.arr_inj c _ _ op12 4 rfl ?_ ?_
  · exact (Cert.KernelIdeal.Regions.final12 (V32 m ρ) c).trans
      (StableHlo.quaternary_result main_v408 main_v409 main_v412 main_v415 main_v416 (Cert.Dense.meanRelu (n := 50000) (P := 128)) _ _ _ _ _ (W32 m ρ c)).symm
  · intro w hw
    match w, hw with
    | ⟨0, _⟩, _ => exact ((dat12 (V32 m ρ) c).arrAt_in 0 rfl _).trans (A_eq12 (V32 m ρ) c 0)
    | ⟨1, _⟩, _ => exact ((dat12 (V32 m ρ) c).arrAt_in 1 rfl _).trans (A_eq12 (V32 m ρ) c 1)
    | ⟨2, _⟩, _ => exact ((dat12 (V32 m ρ) c).arrAt_in 2 rfl _).trans (A_eq12 (V32 m ρ) c 2)
    | ⟨3, _⟩, _ => exact ((dat12 (V32 m ρ) c).arrAt_in 3 rfl _).trans (A_eq12 (V32 m ρ) c 3)
    | ⟨4, _⟩, h => exact absurd rfl h

/-- Region 13: its output array takes the combination of its input arrays. -/
abbrev op13 : HloOp τ sig (Elt Ideal) := StableHlo.quaternary main_v422 main_v423 main_v426 main_v429 main_v430 (Cert.Dense.meanRelu (n := 100000) (P := 128))

theorem exit13 (c : Dev nD) : W35 (F := Ideal) m ρ c = (op13).result (W34 m ρ c) := by
  unfold W35
  refine Cert.LibRegionOp.withArrays_eq_result spec13 launch13.win.arr_inj c _ _ op13 4 rfl ?_ ?_
  · exact (Cert.KernelIdeal.Regions.final13 (V34 m ρ) c).trans
      (StableHlo.quaternary_result main_v422 main_v423 main_v426 main_v429 main_v430 (Cert.Dense.meanRelu (n := 100000) (P := 128)) _ _ _ _ _ (W34 m ρ c)).symm
  · intro w hw
    match w, hw with
    | ⟨0, _⟩, _ => exact ((dat13 (V34 m ρ) c).arrAt_in 0 rfl _).trans (A_eq13 (V34 m ρ) c 0)
    | ⟨1, _⟩, _ => exact ((dat13 (V34 m ρ) c).arrAt_in 1 rfl _).trans (A_eq13 (V34 m ρ) c 1)
    | ⟨2, _⟩, _ => exact ((dat13 (V34 m ρ) c).arrAt_in 2 rfl _).trans (A_eq13 (V34 m ρ) c 2)
    | ⟨3, _⟩, _ => exact ((dat13 (V34 m ρ) c).arrAt_in 3 rfl _).trans (A_eq13 (V34 m ρ) c 3)
    | ⟨4, _⟩, h => exact absurd rfl h

/-! ## The last boundary, and the result -/

/-- The contents at the last boundary: the host stretches and the regions' operations, one after the other, from the
    launch memory. -/
theorem last_boundary (c : Dev nD) : W38 (F := Ideal) m ρ c = (after hostOps14_2 (after hostOps14_1 (after hostOps14 ((op13).result (after hostOps13 ((op12).result (after hostOps12 ((op11).result ((op10).result (after hostOps10 ((op9).result (after hostOps9 ((op8).result (after hostOps8 ((op7).result ((op6).result (after hostOps6 ((op5).result (after hostOps5 ((op4).result (after hostOps4 ((op3).result ((op2).result (after hostOps2_12 (after hostOps2_11 (after hostOps2_10 (after hostOps2_9 (after hostOps2_8 (after hostOps2_7 (after hostOps2_6 (after hostOps2_5 (after hostOps2_4 (after hostOps2_3 (after hostOps2_2 (after hostOps2_1 (after hostOps2 ((op1).result ((op0).result (W0 m ρ c))))))))))))))))))))))))))))))))))))))) := by
  simp only [W3, W4, W5, W6, W7, W8, W9, W10, W11, W12, W13, W14, W15, W18, W20, W22, W25, W27, W29, W32, W34, W36, W37, W38, exit0 m ρ, exit1 m ρ, exit2 m ρ, exit3 m ρ, exit4 m ρ, exit5 m ρ, exit6 m ρ, exit7 m ρ, exit8 m ρ, exit9 m ρ, exit10 m ρ, exit11 m ρ, exit12 m ρ, exit13 m ρ]

/-- The argument arrays of a memory, on one core. -/
def args (c : Dev nD) : Cert.Spec.Args Ideal :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15)⟩

set_option maxHeartbeats 400000000 in
/-- The result buffer at the last boundary holds the network, in the kernel's spelling, of the argument arrays. -/
theorem value (c : Dev nD) : W38 (F := Ideal) m ρ c (Proc.devRef .tc main_v457) = Cert.Spec.outK (args m c) := by
  rw [last_boundary]
  -- the results of the line's operations, one rewriting pass; a concatenation's two pieces are reached through `concat2`,
  -- and each reshape and each operation of an outlined call is read by its own transport-free statement
  simp (disch := decide) only [↓Cert.LibConcat2.concat2_intro,
    ↓Cert.KernelIdeal.Eval.krs_v3, ↓Cert.KernelIdeal.Eval.krs_v5, ↓Cert.KernelIdeal.Eval.ktr_call0_v0, ↓Cert.KernelIdeal.Eval.ktr_call0_v1, ↓Cert.KernelIdeal.Eval.ktr_v18, ↓Cert.KernelIdeal.Eval.krs_v35, ↓Cert.KernelIdeal.Eval.krs_v37, ↓Cert.KernelIdeal.Eval.ktr_call1_v0, ↓Cert.KernelIdeal.Eval.ktr_call1_v1, ↓Cert.KernelIdeal.Eval.ktr_v50, ↓Cert.KernelIdeal.Eval.krs_v67, ↓Cert.KernelIdeal.Eval.krs_v69, ↓Cert.KernelIdeal.Eval.ktr_call2_v0, ↓Cert.KernelIdeal.Eval.ktr_call2_v1, ↓Cert.KernelIdeal.Eval.ktr_v83, ↓Cert.KernelIdeal.Eval.ktr_call3_v0, ↓Cert.KernelIdeal.Eval.ktr_call3_v1, ↓Cert.KernelIdeal.Eval.ktr_v89, ↓Cert.KernelIdeal.Eval.krs_v106, ↓Cert.KernelIdeal.Eval.krs_v108, ↓Cert.KernelIdeal.Eval.ktr_call4_v0, ↓Cert.KernelIdeal.Eval.ktr_call4_v1, ↓Cert.KernelIdeal.Eval.ktr_v122, ↓Cert.KernelIdeal.Eval.ktr_call5_v0, ↓Cert.KernelIdeal.Eval.ktr_call5_v1, ↓Cert.KernelIdeal.Eval.ktr_v128, ↓Cert.KernelIdeal.Eval.krs_v145, ↓Cert.KernelIdeal.Eval.krs_v147, ↓Cert.KernelIdeal.Eval.krs_v150, ↓Cert.KernelIdeal.Eval.krs_v152, ↓Cert.KernelIdeal.Eval.krs_v213, ↓Cert.KernelIdeal.Eval.krs_v215, ↓Cert.KernelIdeal.Eval.krs_v216, ↓Cert.KernelIdeal.Eval.krs_v217, ↓Cert.KernelIdeal.Eval.krs_v218, ↓Cert.KernelIdeal.Eval.krs_v220, ↓Cert.KernelIdeal.Eval.krs_v221, ↓Cert.KernelIdeal.Eval.krs_v223, ↓Cert.KernelIdeal.Eval.krs_v225, ↓Cert.KernelIdeal.Eval.krs_v227, ↓Cert.KernelIdeal.Eval.krs_v229, ↓Cert.KernelIdeal.Eval.krs_v230, ↓Cert.KernelIdeal.Eval.krs_v231, ↓Cert.KernelIdeal.Eval.krs_v232, ↓Cert.KernelIdeal.Eval.krs_v234, ↓Cert.KernelIdeal.Eval.krs_v235, ↓Cert.KernelIdeal.Eval.krs_v237, ↓Cert.KernelIdeal.Eval.krs_v239, ↓Cert.KernelIdeal.Eval.krs_v241, ↓Cert.KernelIdeal.Eval.krs_v243, ↓Cert.KernelIdeal.Eval.krs_v246, ↓Cert.KernelIdeal.Eval.krs_v248, ↓Cert.KernelIdeal.Eval.krs_v309, ↓Cert.KernelIdeal.Eval.krs_v311, ↓Cert.KernelIdeal.Eval.krs_v312, ↓Cert.KernelIdeal.Eval.krs_v313, ↓Cert.KernelIdeal.Eval.krs_v314, ↓Cert.KernelIdeal.Eval.krs_v316, ↓Cert.KernelIdeal.Eval.krs_v317, ↓Cert.KernelIdeal.Eval.krs_v319, ↓Cert.KernelIdeal.Eval.krs_v321, ↓Cert.KernelIdeal.Eval.krs_v323, ↓Cert.KernelIdeal.Eval.krs_v325, ↓Cert.KernelIdeal.Eval.krs_v326, ↓Cert.KernelIdeal.Eval.krs_v327, ↓Cert.KernelIdeal.Eval.krs_v328, ↓Cert.KernelIdeal.Eval.krs_v330, ↓Cert.KernelIdeal.Eval.krs_v331, ↓Cert.KernelIdeal.Eval.krs_v333, ↓Cert.KernelIdeal.Eval.krs_v335, ↓Cert.KernelIdeal.Eval.krs_v337, ↓Cert.KernelIdeal.Eval.krs_v339, ↓Cert.KernelIdeal.Eval.krs_v342, ↓Cert.KernelIdeal.Eval.krs_v344, ↓Cert.KernelIdeal.Eval.krs_v405, ↓Cert.KernelIdeal.Eval.krs_v407, ↓Cert.KernelIdeal.Eval.krs_v408, ↓Cert.KernelIdeal.Eval.krs_v409, ↓Cert.KernelIdeal.Eval.krs_v410, ↓Cert.KernelIdeal.Eval.krs_v412, ↓Cert.KernelIdeal.Eval.krs_v413, ↓Cert.KernelIdeal.Eval.krs_v415, ↓Cert.KernelIdeal.Eval.krs_v417, ↓Cert.KernelIdeal.Eval.krs_v419, ↓Cert.KernelIdeal.Eval.krs_v421, ↓Cert.KernelIdeal.Eval.krs_v422, ↓Cert.KernelIdeal.Eval.krs_v423, ↓Cert.KernelIdeal.Eval.krs_v424, ↓Cert.KernelIdeal.Eval.krs_v426, ↓Cert.KernelIdeal.Eval.krs_v427, ↓Cert.KernelIdeal.Eval.krs_v429, ↓Cert.KernelIdeal.Eval.krs_v431, ↓Cert.KernelIdeal.Eval.ktr_call6_v0, ↓Cert.KernelIdeal.Eval.ktr_v448,
    after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

end Cert.KernelIdeal.Whole

end
-- ==== Proof.LibAfter.lean ====
/-
  Running a list of host operations in two parts.

  The contents of the buffers after a list of operations is a fold over the list, so after the concatenation of two
  lists it is the contents after the second list, started from the contents after the first.
-/
import Idealize.ShloMosaic.Lib.StableHlo.Run

noncomputable section

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons, ih]

/-- A list cut at position k: the contents after the whole list from the contents after its first k operations. -/
theorem after_take_drop (k : ℕ) (l : List (HloOp τ sig Val)) (V : Valuation τ sig Val) :
    after l V = after (l.drop k) (after (l.take k) V) := by
  rw [← after_append, List.take_append_drop]

end Cert.LibAfter

end
-- ==== Proof.RefLine.lean ====
/-
  The reference as a straight line of host operations, part by part.

  @main is printed in sixteen parts of sixty statements; each part is the sequence of its operations (an outlined
  call's operations standing in the call's place), so @main is the sequence of the sixteen lists one after the other,
  and every weakly fair execution ends with each buffer at the contents after that line from the launch memory
  (`StableHlo.run_seq`).
-/
import proofs.«167272_j20323785244837_2_alg».proof.Proof.Gen.ReferenceIdeal
import proofs.«167272_j20323785244837_2_alg».proof.Proof.LibAfter
import Idealize.ShloMosaic.Lib.StableHlo.Run

set_option maxRecDepth 8192

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The parts' operations -/

set_option maxHeartbeats 4000000 in
/-- The operations of @main's part 0, in order. -/
abbrev ops0 : List (HloOp τ sig (Elt F)) :=
  ( binary main_arg0 main_arg6 main_v0 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F))
  :: unary main_arg7 main_v1 (broadcastInDim S1x64 ![1] bcast_S64_S1x64_1 : (⟨S64, .f32⟩ : BufTy).Contents (Elt F) → (⟨S1x64, .f32⟩ : BufTy).Contents (Elt F))
  :: unary main_v1 main_v2 (broadcastInDim S100000x64 ![0, 1] bcast_S1x64_S100000x64_0_1 : (⟨S1x64, .f32⟩ : BufTy).Contents (Elt F) → (⟨S100000x64, .f32⟩ : BufTy).Contents (Elt F))
  :: binary main_v0 main_v2 main_v3 (addf : (⟨S100000x64, .f32⟩ : BufTy).Contents (Elt F) → (⟨S100000x64, .f32⟩ : BufTy).Contents (Elt F) → (⟨S100000x64, .f32⟩ : BufTy).Contents (Elt F))
  :: binary main_arg1 main_arg8 main_v4 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F))
  :: unary main_arg9 main_v5 (broadcastInDim S1x64 ![1] bcast_S64_S1x64_1 : (⟨S64, .f32⟩ : BufTy).Contents (Elt F) → (⟨S1x64, .f32⟩ : BufTy).Contents (Elt F))
  :: unary main_v5 main_v6 (broadcastInDim S200000x64 ![0, 1] bcast_S1x64_S200000x64_0_1 : (⟨S1x64, .f32⟩ : BufTy).Contents (Elt F) → (⟨S200000x64, .f32⟩ : BufTy).Contents (Elt F))
  :: binary main_v4 main_v6 main_v7 (addf : (⟨S200000x64, .f32⟩ : BufTy).Contents (Elt F) → (⟨S200000x64, .f32⟩ : BufTy).Contents (Elt F) → (⟨S200000x64, .f32⟩ : BufTy).Contents (Elt F))
  :: unary main_arg10 main_v8 ((extractStridedSlice S1x1x64x64 ![0, 0, 0, 0] · slices_S3x4x64x64_S1x1x64x64_0_0_0_0) : (⟨S3x4x64x64, .f32⟩ : BufTy).Contents (Elt F) → (⟨S1x1x64x64, .f32⟩ : BufTy).Contents (Elt F))
  :: reshape main_v8 main_v9 rfl shapeCasts_S1x1x64x64_S64x64
  :: unary main_arg11 main_v10 ((extractStridedSlice S1x1x64 ![0, 0, 0] · slices_S3x4x64_S1x1x64_0_0_0) : (⟨S3x4x64, .f32⟩ : BufTy).Contents (Elt F) → (⟨S1x1x64, .f32⟩ : BufTy).Contents (Elt F))
  :: reshape main_v10 main_v11 rfl shapeCasts_S1x1x64_S64
  :: unary main_arg2 main_v12 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v12 main_v13 rfl shapeCasts_S1x1000000_S1000000
  :: unary main_arg2 main_v14 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v14 main_v15 rfl shapeCasts_S1x1000000_S1000000
  :: nullary main_v16 (iotaInDim S100000 32 0)
  :: binary main_v13 main_v16 main_v17 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F))
  :: binary main_v15 main_v16 main_v18 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F))
  :: nullary main_cst (constant S_ .f32 0x3F800000#32)
  :: unary main_cst main_v19 (broadcastInDim S1100000 ![] bcast_S_S1100000 : (⟨S_, .f32⟩ : BufTy).Contents (Elt F) → (⟨S1100000, .f32⟩ : BufTy).Contents (Elt F))
  :: nullary main_cst_0 (constant S_ .f32 0x00000000#32)
  :: unary main_cst_0 main_v20 (broadcastInDim S100000 ![] bcast_S_S100000 : (⟨S_, .f32⟩ : BufTy).Contents (Elt F) → (⟨S100000, .f32⟩ : BufTy).Contents (Elt F))
  :: unary main_v18 main_v21 (broadcastInDim S1100000x1 ![0] bcast_S1100000_S1100000x1_0 : (⟨S1100000, .i32⟩ : BufTy).Contents (Elt F) → (⟨S1100000x1, .i32⟩ : BufTy).Contents (Elt F))
  :: ternary main_v20 main_v21 main_v19 main_v22 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F))
  :: nullary main_cst_1 (constant S_ .f32 0x00000000#32)
  :: unary main_cst_1 main_v23 (broadcastInDim S100000 ![] bcast_S_S100000 : (⟨S_, .f32⟩ : BufTy).Contents (Elt F) → (⟨S100000, .f32⟩ : BufTy).Contents (Elt F))
  :: binary main_v22 main_v23 main_v24 (cmpf .ogt : (⟨S100000, .f32⟩ : BufTy).Contents (Elt F) → (⟨S100000, .f32⟩ : BufTy).Contents (Elt F) → (⟨S100000, .i1⟩ : BufTy).Contents (Elt F))
  :: nullary main_cst_2 (constant S_ .f32 0x3F800000#32)
  :: unary main_cst_2 main_v25 (broadcastInDim S100000 ![] bcast_S_S100000 : (⟨S_, .f32⟩ : BufTy).Contents (Elt F) → (⟨S100000, .f32⟩ : BufTy).Contents (Elt F))
  :: binary main_v22 main_v25 main_v26 (maximumf : (⟨S100000, .f32⟩ : BufTy).Contents (Elt F) → (⟨S100000, .f32⟩ : BufTy).Contents (Elt F) → (⟨S100000, .f32⟩ : BufTy).Contents (Elt F))
  :: unary main_v26 main_v27 (Host.rsqrt : (⟨S100000, .f32⟩ : BufTy).Contents (Elt F) → (⟨S100000, .f32⟩ : BufTy).Contents (Elt F))
  :: nullary main_cst_3 (constant S_ .f32 0x00000000#32)
  :: TRef.unary (TRef.of (T := ⟨S_, .f32⟩) main_cst_3) (TRef.of (T := ⟨S_, .f32⟩) main_call0_v0) id
  :: TRef.unary (TRef.of (T := ⟨S_, .f32⟩) main_call0_v0) (TRef.of (T := ⟨S100000, .f32⟩) main_call0_v1) (broadcastInDim S100000 ![] bcast_S_S100000)
  :: TRef.ternary (TRef.of (T := ⟨S100000, .i1⟩) main_v24) (TRef.of (T := ⟨S100000, .f32⟩) main_v27) (TRef.of (T := ⟨S100000, .f32⟩) main_call0_v1) (TRef.of (T := ⟨S100000, .f32⟩) main_v28) select
  :: nullary main_c (constantI S_ 32 0#32)
  :: unary main_c main_v29 (broadcastInDim S1100000 ![] bcast_S_S1100000 : (⟨S_, .i32⟩ : BufTy).Contents (Elt F) → (⟨S1100000, .i32⟩ : BufTy).Contents (Elt F))
  :: binary main_v17 main_v29 main_v30 (cmpi .slt : (⟨S1100000, .i32⟩ : BufTy).Contents (Elt F) → (⟨S1100000, .i32⟩ : BufTy).Contents (Elt F) → (⟨S1100000, .i1⟩ : BufTy).Contents (Elt F))
  :: nullary main_c_4 (constantI S_ 32 100000#32)
  :: unary main_c_4 main_v31 (broadcastInDim S1100000 ![] bcast_S_S1100000 : (⟨S_, .i32⟩ : BufTy).Contents (Elt F) → (⟨S1100000, .i32⟩ : BufTy).Contents (Elt F))
  :: binary main_v17 main_v31 main_v32 (addi : (⟨S1100000, .i32⟩ : BufTy).Contents (Elt F) → (⟨S1100000, .i32⟩ : BufTy).Contents (Elt F) → (⟨S1100000, .i32⟩ : BufTy).Contents (Elt F))
  :: ternary main_v30 main_v32 main_v17 main_v33 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v33 main_v34 (broadcastInDim S1100000x1 ![0] bcast_S1100000_S1100000x1_0 : (⟨S1100000, .i32⟩ : BufTy).Contents (Elt F) → (⟨S1100000x1, .i32⟩ : BufTy).Contents (Elt F))
  :: binary main_v28 main_v34 main_v35 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F))
  :: nullary main_c_5 (constantI S_ 32 0#32)
  :: unary main_c_5 main_v36 (broadcastInDim S1100000 ![] bcast_S_S1100000 : (⟨S_, .i32⟩ : BufTy).Contents (Elt F) → (⟨S1100000, .i32⟩ : BufTy).Contents (Elt F))
  :: binary main_v18 main_v36 main_v37 (cmpi .slt : (⟨S1100000, .i32⟩ : BufTy).Contents (Elt F) → (⟨S1100000, .i32⟩ : BufTy).Contents (Elt F) → (⟨S1100000, .i1⟩ : BufTy).Contents (Elt F))
  :: nullary main_c_6 (constantI S_ 32 100000#32)
  :: unary main_c_6 main_v38 (broadcastInDim S1100000 ![] bcast_S_S1100000 : (⟨S_, .i32⟩ : BufTy).Contents (Elt F) → (⟨S1100000, .i32⟩ : BufTy).Contents (Elt F))
  :: binary main_v18 main_v38 main_v39 (addi : (⟨S1100000, .i32⟩ : BufTy).Contents (Elt F) → (⟨S1100000, .i32⟩ : BufTy).Contents (Elt F) → (⟨S1100000, .i32⟩ : BufTy).Contents (Elt F))
  :: ternary main_v37 main_v39 main_v18 main_v40 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v40 main_v41 (broadcastInDim S1100000x1 ![0] bcast_S1100000_S1100000x1_0 : (⟨S1100000, .i32⟩ : BufTy).Contents (Elt F) → (⟨S1100000x1, .i32⟩ : BufTy).Contents (Elt F))
  :: binary main_v28 main_v41 main_v42 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F))
  :: binary main_v35 main_v42 main_v43 (mulf : (⟨S1100000, .f32⟩ : BufTy).Contents (Elt F) → (⟨S1100000, .f32⟩ : BufTy).Contents (Elt F) → (⟨S1100000, .f32⟩ : BufTy).Contents (Elt F))
  :: binary main_v3 main_v9 main_v44 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: nullary main_c_7 (constantI S_ 32 0#32)
  :: unary main_c_7 main_v45 (broadcastInDim S1100000 ![] bcast_S_S1100000 : (⟨S_, .i32⟩ : BufTy).Contents (Elt F) → (⟨S1100000, .i32⟩ : BufTy).Contents (Elt F))
  :: binary main_v17 main_v45 main_v46 (cmpi .slt : (⟨S1100000, .i32⟩ : BufTy).Contents (Elt F) → (⟨S1100000, .i32⟩ : BufTy).Contents (Elt F) → (⟨S1100000, .i1⟩ : BufTy).Contents (Elt F))
  :: nullary main_c_8 (constantI S_ 32 100000#32)
  :: unary main_c_8 main_v47 (broadcastInDim S1100000 ![] bcast_S_S1100000 : (⟨S_, .i32⟩ : BufTy).Contents (Elt F) → (⟨S1100000, .i32⟩ : BufTy).Contents (Elt F))
  :: binary main_v17 main_v47 main_v48 (addi : (⟨S1100000, .i32⟩ : BufTy).Contents (Elt F) → (⟨S1100000, .i32⟩ : BufTy).Contents (Elt F) → (⟨S1100000, .i32⟩ : BufTy).Contents (Elt F))
  :: [] )

set_option maxHeartbeats 40000000 in
theorem part0_eq (c : Dev nD) : main_part0 (F := F) c = seq ops0 := rfl

set_option maxHeartbeats 4000000 in
theorem ops0_fresh : (ops0 : List (HloOp τ sig (Elt F))).Forall fun op => op.fresh = ∅ := by
  simp only [List.Forall]; repeat' constructor

/-- The references part 0's operations write. -/
abbrev ops0_W : List (Ref sig .tc) := [main_v0, main_v1, main_v2, main_v3, main_v4, main_v5, main_v6, main_v7, main_v8, main_v9, main_v10, main_v11, main_v12, main_v13, main_v14, main_v15, main_v16, main_v17, main_v18, main_cst, main_v19, main_cst_0, main_v20, main_v21, main_v22, main_cst_1, main_v23, main_v24, main_cst_2, main_v25, main_v26, main_v27, main_cst_3, main_call0_v0, main_call0_v1, main_v28, main_c, main_v29, main_v30, main_c_4, main_v31, main_v32, main_v33, main_v34, main_v35, main_c_5, main_v36, main_v37, main_c_6, main_v38, main_v39, main_v40, main_v41, main_v42, main_v43, main_v44, main_c_7, main_v45, main_v46, main_c_8, main_v47, main_v48]

set_option maxHeartbeats 4000000 in
theorem ops0_writes : (ops0 : List (HloOp τ sig (Elt F))).Forall fun op => op.writes ⊆ (ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops0_sub : (ops0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub ..⟩

set_option maxHeartbeats 4000000 in
/-- The operations of @main's part 1, in order. -/
abbrev ops1 : List (HloOp τ sig (Elt F)) :=
  ( ternary main_v46 main_v48 main_v17 main_v49 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v49 main_v50 (broadcastInDim S1100000x1 ![0] bcast_S1100000_S1100000x1_0 : (⟨S1100000, .i32⟩ : BufTy).Contents (Elt F) → (⟨S1100000x1, .i32⟩ : BufTy).Contents (Elt F))
  :: binary main_v44 main_v50 main_v51 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F))
  :: unary main_v43 main_v52 (broadcastInDim S1100000x1 ![0] bcast_S1100000_S1100000x1_0 : (⟨S1100000, .f32⟩ : BufTy).Contents (Elt F) → (⟨S1100000x1, .f32⟩ : BufTy).Contents (Elt F))
  :: unary main_v52 main_v53 (broadcastInDim S1100000x64 ![0, 1] bcast_S1100000x1_S1100000x64_0_1 : (⟨S1100000x1, .f32⟩ : BufTy).Contents (Elt F) → (⟨S1100000x64, .f32⟩ : BufTy).Contents (Elt F))
  :: binary main_v51 main_v53 main_v54 (mulf : (⟨S1100000x64, .f32⟩ : BufTy).Contents (Elt F) → (⟨S1100000x64, .f32⟩ : BufTy).Contents (Elt F) → (⟨S1100000x64, .f32⟩ : BufTy).Contents (Elt F))
  :: nullary main_cst_9 (constant S_ .f32 0x00000000#32)
  :: unary main_cst_9 main_v55 (broadcastInDim S100000x64 ![] bcast_S_S100000x64 : (⟨S_, .f32⟩ : BufTy).Contents (Elt F) → (⟨S100000x64, .f32⟩ : BufTy).Contents (Elt F))
  :: unary main_v18 main_v56 (broadcastInDim S1100000x1 ![0] bcast_S1100000_S1100000x1_0 : (⟨S1100000, .i32⟩ : BufTy).Contents (Elt F) → (⟨S1100000x1, .i32⟩ : BufTy).Contents (Elt F))
  :: ternary main_v55 main_v56 main_v54 main_v57 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F))
  :: unary main_v11 main_v58 (broadcastInDim S1x64 ![1] bcast_S64_S1x64_1 : (⟨S64, .f32⟩ : BufTy).Contents (Elt F) → (⟨S1x64, .f32⟩ : BufTy).Contents (Elt F))
  :: unary main_v58 main_v59 (broadcastInDim S100000x64 ![0, 1] bcast_S1x64_S100000x64_0_1 : (⟨S1x64, .f32⟩ : BufTy).Contents (Elt F) → (⟨S100000x64, .f32⟩ : BufTy).Contents (Elt F))
  :: binary main_v57 main_v59 main_v60 (addf : (⟨S100000x64, .f32⟩ : BufTy).Contents (Elt F) → (⟨S100000x64, .f32⟩ : BufTy).Contents (Elt F) → (⟨S100000x64, .f32⟩ : BufTy).Contents (Elt F))
  :: unary main_arg10 main_v61 ((extractStridedSlice S1x1x64x64 ![0, 1, 0, 0] · slices_S3x4x64x64_S1x1x64x64_0_1_0_0) : (⟨S3x4x64x64, .f32⟩ : BufTy).Contents (Elt F) → (⟨S1x1x64x64, .f32⟩ : BufTy).Contents (Elt F))
  :: reshape main_v61 main_v62 rfl shapeCasts_S1x1x64x64_S64x64
  :: unary main_arg11 main_v63 ((extractStridedSlice S1x1x64 ![0, 1, 0] · slices_S3x4x64_S1x1x64_0_1_0) : (⟨S3x4x64, .f32⟩ : BufTy).Contents (Elt F) → (⟨S1x1x64, .f32⟩ : BufTy).Contents (Elt F))
  :: reshape main_v63 main_v64 rfl shapeCasts_S1x1x64_S64
  :: unary main_arg3 main_v65 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v65 main_v66 rfl shapeCasts_S1x1000000_S1000000
  :: unary main_arg3 main_v67 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v67 main_v68 rfl shapeCasts_S1x1000000_S1000000
  :: nullary main_v69 (iotaInDim S200000 32 0)
  :: binary main_v66 main_v69 main_v70 ((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F))
  :: binary main_v68 main_v69 main_v71 ((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F))
  :: nullary main_cst_10 (constant S_ .f32 0x3F800000#32)
  :: unary main_cst_10 main_v72 (broadcastInDim S1200000 ![] bcast_S_S1200000 : (⟨S_, .f32⟩ : BufTy).Contents (Elt F) → (⟨S1200000, .f32⟩ : BufTy).Contents (Elt F))
  :: nullary main_cst_11 (constant S_ .f32 0x00000000#32)
  :: unary main_cst_11 main_v73 (broadcastInDim S200000 ![] bcast_S_S200000 : (⟨S_, .f32⟩ : BufTy).Contents (Elt F) → (⟨S200000, .f32⟩ : BufTy).Contents (Elt F))
  :: unary main_v71 main_v74 (broadcastInDim S1200000x1 ![0] bcast_S1200000_S1200000x1_0 : (⟨S1200000, .i32⟩ : BufTy).Contents (Elt F) → (⟨S1200000x1, .i32⟩ : BufTy).Contents (Elt F))
  :: ternary main_v73 main_v74 main_v72 main_v75 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F))
  :: nullary main_cst_12 (constant S_ .f32 0x00000000#32)
  :: unary main_cst_12 main_v76 (broadcastInDim S200000 ![] bcast_S_S200000 : (⟨S_, .f32⟩ : BufTy).Contents (Elt F) → (⟨S200000, .f32⟩ : BufTy).Contents (Elt F))
  :: binary main_v75 main_v76 main_v77 (cmpf .ogt : (⟨S200000, .f32⟩ : BufTy).Contents (Elt F) → (⟨S200000, .f32⟩ : BufTy).Contents (Elt F) → (⟨S200000, .i1⟩ : BufTy).Contents (Elt F))
  :: nullary main_cst_13 (constant S_ .f32 0x3F800000#32)
  :: unary main_cst_13 main_v78 (broadcastInDim S200000 ![] bcast_S_S200000 : (⟨S_, .f32⟩ : BufTy).Contents (Elt F) → (⟨S200000, .f32⟩ : BufTy).Contents (Elt F))
  :: binary main_v75 main_v78 main_v79 (maximumf : (⟨S200000, .f32⟩ : BufTy).Contents (Elt F) → (⟨S200000, .f32⟩ : BufTy).Contents (Elt F) → (⟨S200000, .f32⟩ : BufTy).Contents (Elt F))
  :: unary main_v79 main_v80 (Host.rsqrt : (⟨S200000, .f32⟩ : BufTy).Contents (Elt F) → (⟨S200000, .f32⟩ : BufTy).Contents (Elt F))
  :: nullary main_cst_14 (constant S_ .f32 0x00000000#32)
  :: TRef.unary (TRef.of (T := ⟨S_, .f32⟩) main_cst_14) (TRef.of (T := ⟨S_, .f32⟩) main_call1_v0) id
  :: TRef.unary (TRef.of (T := ⟨S_, .f32⟩) main_call1_v0) (TRef.of (T := ⟨S200000, .f32⟩) main_call1_v1) (broadcastInDim S200000 ![] bcast_S_S200000)
  :: TRef.ternary (TRef.of (T := ⟨S200000, .i1⟩) main_v77) (TRef.of (T := ⟨S200000, .f32⟩) main_v80) (TRef.of (T := ⟨S200000, .f32⟩) main_call1_v1) (TRef.of (T := ⟨S200000, .f32⟩) main_v81) select
  :: nullary main_c_15 (constantI S_ 32 0#32)
  :: unary main_c_15 main_v82 (broadcastInDim S1200000 ![] bcast_S_S1200000 : (⟨S_, .i32⟩ : BufTy).Contents (Elt F) → (⟨S1200000, .i32⟩ : BufTy).Contents (Elt F))
  :: binary main_v70 main_v82 main_v83 (cmpi .slt : (⟨S1200000, .i32⟩ : BufTy).Contents (Elt F) → (⟨S1200000, .i32⟩ : BufTy).Contents (Elt F) → (⟨S1200000, .i1⟩ : BufTy).Contents (Elt F))
  :: nullary main_c_16 (constantI S_ 32 200000#32)
  :: unary main_c_16 main_v84 (broadcastInDim S1200000 ![] bcast_S_S1200000 : (⟨S_, .i32⟩ : BufTy).Contents (Elt F) → (⟨S1200000, .i32⟩ : BufTy).Contents (Elt F))
  :: binary main_v70 main_v84 main_v85 (addi : (⟨S1200000, .i32⟩ : BufTy).Contents (Elt F) → (⟨S1200000, .i32⟩ : BufTy).Contents (Elt F) → (⟨S1200000, .i32⟩ : BufTy).Contents (Elt F))
  :: ternary main_v83 main_v85 main_v70 main_v86 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v86 main_v87 (broadcastInDim S1200000x1 ![0] bcast_S1200000_S1200000x1_0 : (⟨S1200000, .i32⟩ : BufTy).Contents (Elt F) → (⟨S1200000x1, .i32⟩ : BufTy).Contents (Elt F))
  :: binary main_v81 main_v87 main_v88 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F))
  :: nullary main_c_17 (constantI S_ 32 0#32)
  :: unary main_c_17 main_v89 (broadcastInDim S1200000 ![] bcast_S_S1200000 : (⟨S_, .i32⟩ : BufTy).Contents (Elt F) → (⟨S1200000, .i32⟩ : BufTy).Contents (Elt F))
  :: binary main_v71 main_v89 main_v90 (cmpi .slt : (⟨S1200000, .i32⟩ : BufTy).Contents (Elt F) → (⟨S1200000, .i32⟩ : BufTy).Contents (Elt F) → (⟨S1200000, .i1⟩ : BufTy).Contents (Elt F))
  :: nullary main_c_18 (constantI S_ 32 200000#32)
  :: unary main_c_18 main_v91 (broadcastInDim S1200000 ![] bcast_S_S1200000 : (⟨S_, .i32⟩ : BufTy).Contents (Elt F) → (⟨S1200000, .i32⟩ : BufTy).Contents (Elt F))
  :: binary main_v71 main_v91 main_v92 (addi : (⟨S1200000, .i32⟩ : BufTy).Contents (Elt F) → (⟨S1200000, .i32⟩ : BufTy).Contents (Elt F) → (⟨S1200000, .i32⟩ : BufTy).Contents (Elt F))
  :: ternary main_v90 main_v92 main_v71 main_v93 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v93 main_v94 (broadcastInDim S1200000x1 ![0] bcast_S1200000_S1200000x1_0 : (⟨S1200000, .i32⟩ : BufTy).Contents (Elt F) → (⟨S1200000x1, .i32⟩ : BufTy).Contents (Elt F))
  :: binary main_v81 main_v94 main_v95 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F))
  :: binary main_v88 main_v95 main_v96 (mulf : (⟨S1200000, .f32⟩ : BufTy).Contents (Elt F) → (⟨S1200000, .f32⟩ : BufTy).Contents (Elt F) → (⟨S1200000, .f32⟩ : BufTy).Contents (Elt F))
  :: binary main_v7 main_v62 main_v97 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F))
  :: nullary main_c_19 (constantI S_ 32 0#32)
  :: [] )

set_option maxHeartbeats 40000000 in
theorem part1_eq (c : Dev nD) : main_part1 (F := F) c = seq ops1 := rfl

set_option maxHeartbeats 4000000 in
theorem ops1_fresh : (ops1 : List (HloOp τ sig (Elt F))).Forall fun op => op.fresh = ∅ := by
  simp only [List.Forall]; repeat' constructor

/-- The references part 1's operations write. -/
abbrev ops1_W : List (Ref sig .tc) := [main_v49, main_v50, main_v51, main_v52, main_v53, main_v54, main_cst_9, main_v55, main_v56, main_v57, main_v58, main_v59, main_v60, main_v61, main_v62, main_v63, main_v64, main_v65, main_v66, main_v67, main_v68, main_v69, main_v70, main_v71, main_cst_10, main_v72, main_cst_11, main_v73, main_v74, main_v75, main_cst_12, main_v76, main_v77, main_cst_13, main_v78, main_v79, main_v80, main_cst_14, main_call1_v0, main_call1_v1, main_v81, main_c_15, main_v82, main_v83, main_c_16, main_v84, main_v85, main_v86, main_v87, main_v88, main_c_17, main_v89, main_v90, main_c_18, main_v91, main_v92, main_v93, main_v94, main_v95, main_v96, main_v97, main_c_19]

set_option maxHeartbeats 4000000 in
theorem ops1_writes : (ops1 : List (HloOp τ sig (Elt F))).Forall fun op => op.writes ⊆ (ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops1_sub : (ops1 : List (HloOp τ sig (Elt F))).Forall fun op => op.bufs ⊆ tcRefs τ sig :=
  ⟨ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub ..⟩

set_option maxHeartbeats 4000000 in
/-- The operations of @main's part 2, in order. -/
abbrev ops2 : List (HloOp τ sig (Elt F)) :=
  ( unary main_c_19 main_v98 (broadcastInDim S1200000 ![] bcast_S_S1200000 : (⟨S_, .i32⟩ : BufTy).Contents (Elt F) → (⟨S1200000, .i32⟩ : BufTy).Contents (Elt F))
  :: binary main_v70 main_v98 main_v99 (cmpi .slt : (⟨S1200000, .i32⟩ : BufTy).Contents (Elt F) → (⟨S1200000, .i32⟩ : BufTy).Contents (Elt F) → (⟨S1200000, .i1⟩ : BufTy).Contents (Elt F))
  :: nullary main_c_20 (constantI S_ 32 200000#32)
  :: unary main_c_20 main_v100 (broadcastInDim S1200000 ![] bcast_S_S1200000 : (⟨S_, .i32⟩ : BufTy).Contents (Elt F) → (⟨S1200000, .i32⟩ : BufTy).Contents (Elt F))
  :: binary main_v70 main_v100 main_v101 (addi : (⟨S1200000, .i32⟩ : BufTy).Contents (Elt F) → (⟨S1200000, .i32⟩ : BufTy).Contents (Elt F) → (⟨S1200000, .i32⟩ : BufTy).Contents (Elt F))
  :: ternary main_v99 main_v101 main_v70 main_v102 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v102 main_v103 (broadcastInDim S1200000x1 ![0] bcast_S1200000_S1200000x1_0 : (⟨S1200000, .i32⟩ : BufTy).Contents (Elt F) → (⟨S1200000x1, .i32⟩ : BufTy).Contents (Elt F))
  :: binary main_v97 main_v103 main_v104 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F))
  :: unary main_v96 main_v105 (broadcastInDim S1200000x1 ![0] bcast_S1200000_S1200000x1_0 : (⟨S1200000, .f32⟩ : BufTy).Contents (Elt F) → (⟨S1200000x1, .f32⟩ : BufTy).Contents (Elt F))
  :: unary main_v105 main_v106 (broadcastInDim S1200000x64 ![0, 1] bcast_S1200000x1_S1200000x64_0_1 : (⟨S1200000x1, .f32⟩ : BufTy).Contents (Elt F) → (⟨S1200000x64, .f32⟩ : BufTy).Contents (Elt F))
  :: binary main_v104 main_v106 main_v107 (mulf : (⟨S1200000x64, .f32⟩ : BufTy).Contents (Elt F) → (⟨S1200000x64, .f32⟩ : BufTy).Contents (Elt F) → (⟨S1200000x64, .f32⟩ : BufTy).Contents (Elt F))
  :: nullary main_cst_21 (constant S_ .f32 0x00000000#32)
  :: unary main_cst_21 main_v108 (broadcastInDim S200000x64 ![] bcast_S_S200000x64 : (⟨S_, .f32⟩ : BufTy).Contents (Elt F) → (⟨S200000x64, .f32⟩ : BufTy).Contents (Elt F))
  :: unary main_v71 main_v109 (broadcastInDim S1200000x1 ![0] bcast_S1200000_S1200000x1_0 : (⟨S1200000, .i32⟩ : BufTy).Contents (Elt F) → (⟨S1200000x1, .i32⟩ : BufTy).Contents (Elt F))
  :: ternary main_v108 main_v109 main_v107 main_v110 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F))
  :: unary main_v64 main_v111 (broadcastInDim S1x64 ![1] bcast_S64_S1x64_1 : (⟨S64, .f32⟩ : BufTy).Contents (Elt F) → (⟨S1x64, .f32⟩ : BufTy).Contents (Elt F))
  :: unary main_v111 main_v112 (broadcastInDim S200000x64 ![0, 1] bcast_S1x64_S200000x64_0_1 : (⟨S1x64, .f32⟩ : BufTy).Contents (Elt F) → (⟨S200000x64, .f32⟩ : BufTy).Contents (Elt F))
  :: binary main_v110 main_v112 main_v113 (addf : (⟨S200000x64, .f32⟩ : BufTy).Contents (Elt F) → (⟨S200000x64, .f32⟩ : BufTy).Contents (Elt F) → (⟨S200000x64, .f32⟩ : BufTy).Contents (Elt F))
  :: unary main_arg10 main_v114 ((extractStridedSlice S1x1x64x64 ![0, 2, 0, 0] · slices_S3x4x64x64_S1x1x64x64_0_2_0_0) : (⟨S3x4x64x64, .f32⟩ : BufTy).Contents (Elt F) → (⟨S1x1x64x64, .f32⟩ : BufTy).Contents (Elt F))
  :: reshape main_v114 main_v115 rfl shapeCasts_S1x1x64x64_S64x64
  :: unary main_arg11 main_v116 ((extractStridedSlice S1x1x64 ![0, 2, 0] · slices_S3x4x64_S1x1x64_0_2_0) : (⟨S3x4x64, .f32⟩ : BufTy).Contents (Elt F) → (⟨S1x1x64, .f32⟩ : BufTy).Contents (Elt F))
  :: reshape main_v116 main_v117 rfl shapeCasts_S1x1x64_S64
  :: unary main_arg4 main_v118 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v118 main_v119 rfl shapeCasts_S1x1000000_S1000000
  :: unary main_arg4 main_v120 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v120 main_v121 rfl shapeCasts_S1x1000000_S1000000
  :: nullary main_cst_22 (constant S_ .f32 0x3F800000#32)
  :: unary main_cst_22 main_v122 (broadcastInDim S1000000 ![] bcast_S_S1000000 : (⟨S_, .f32⟩ : BufTy).Contents (Elt F) → (⟨S1000000, .f32⟩ : BufTy).Contents (Elt F))
  :: nullary main_cst_23 (constant S_ .f32 0x00000000#32)
  :: unary main_cst_23 main_v123 (broadcastInDim S100000 ![] bcast_S_S100000 : (⟨S_, .f32⟩ : BufTy).Contents (Elt F) → (⟨S100000, .f32⟩ : BufTy).Contents (Elt F))
  :: unary main_v119 main_v124 (broadcastInDim S1000000x1 ![0] bcast_S1000000_S1000000x1_0 : (⟨S1000000, .i32⟩ : BufTy).Contents (Elt F) → (⟨S1000000x1, .i32⟩ : BufTy).Contents (Elt F))
  :: ternary main_v123 main_v124 main_v122 main_v125 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F))
  :: nullary main_cst_24 (constant S_ .f32 0x3F800000#32)
  :: unary main_cst_24 main_v126 (broadcastInDim S1000000 ![] bcast_S_S1000000 : (⟨S_, .f32⟩ : BufTy).Contents (Elt F) → (⟨S1000000, .f32⟩ : BufTy).Contents (Elt F))
  :: nullary main_cst_25 (constant S_ .f32 0x00000000#32)
  :: unary main_cst_25 main_v127 (broadcastInDim S200000 ![] bcast_S_S200000 : (⟨S_, .f32⟩ : BufTy).Contents (Elt F) → (⟨S200000, .f32⟩ : BufTy).Contents (Elt F))
  :: unary main_v121 main_v128 (broadcastInDim S1000000x1 ![0] bcast_S1000000_S1000000x1_0 : (⟨S1000000, .i32⟩ : BufTy).Contents (Elt F) → (⟨S1000000x1, .i32⟩ : BufTy).Contents (Elt F))
  :: ternary main_v127 main_v128 main_v126 main_v129 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: nullary main_cst_26 (constant S_ .f32 0x00000000#32)
  :: unary main_cst_26 main_v130 (broadcastInDim S100000 ![] bcast_S_S100000 : (⟨S_, .f32⟩ : BufTy).Contents (Elt F) → (⟨S100000, .f32⟩ : BufTy).Contents (Elt F))
  :: binary main_v125 main_v130 main_v131 (cmpf .ogt : (⟨S100000, .f32⟩ : BufTy).Contents (Elt F) → (⟨S100000, .f32⟩ : BufTy).Contents (Elt F) → (⟨S100000, .i1⟩ : BufTy).Contents (Elt F))
  :: nullary main_cst_27 (constant S_ .f32 0x3F800000#32)
  :: unary main_cst_27 main_v132 (broadcastInDim S100000 ![] bcast_S_S100000 : (⟨S_, .f32⟩ : BufTy).Contents (Elt F) → (⟨S100000, .f32⟩ : BufTy).Contents (Elt F))
  :: binary main_v125 main_v132 main_v133 (maximumf : (⟨S100000, .f32⟩ : BufTy).Contents (Elt F) → (⟨S100000, .f32⟩ : BufTy).Contents (Elt F) → (⟨S100000, .f32⟩ : BufTy).Contents (Elt F))
  :: unary main_v133 main_v134 (Host.rsqrt : (⟨S100000, .f32⟩ : BufTy).Contents (Elt F) → (⟨S100000, .f32⟩ : BufTy).Contents (Elt F))
  :: nullary main_cst_28 (constant S_ .f32 0x00000000#32)
  :: TRef.unary (TRef.of (T := ⟨S_, .f32⟩) main_cst_28) (TRef.of (T := ⟨S_, .f32⟩) main_call2_v0) id
  :: TRef.unary (TRef.of (T := ⟨S_, .f32⟩) main_call2_v0) (TRef.of (T := ⟨S100000, .f32⟩) main_call2_v1) (broadcastInDim S100000 ![] bcast_S_S100000)
  :: TRef.ternary (TRef.of (T := ⟨S100000, .i1⟩) main_v131) (TRef.of (T := ⟨S100000, .f32⟩) main_v134) (TRef.of (T := ⟨S100000, .f32⟩) main_call2_v1) (TRef.of (T := ⟨S100000, .f32⟩) main_v135) select
  :: nullary main_cst_29 (constant S_ .f32 0x00000000#32)
  :: unary main_cst_29 main_v136 (broadcastInDim S200000 ![] bcast_S_S200000 : (⟨S_, .f32⟩ : BufTy).Contents (Elt F) → (⟨S200000, .f32⟩ : BufTy).Contents (Elt F))
  :: binary main_v129 main_v136 main_v137 (cmpf .ogt : (⟨S200000, .f32⟩ : BufTy).Contents (Elt F) → (⟨S200000, .f32⟩ : BufTy).Contents (Elt F) → (⟨S200000, .i1⟩ : BufTy).Contents (Elt F))
  :: nullary main_cst_30 (constant S_ .f32 0x3F800000#32)
  :: unary main_cst_30 main_v138 (broadcastInDim S200000 ![] bcast_S_S200000 : (⟨S_, .f32⟩ : BufTy).Contents (Elt F) → (⟨S200000, .f32⟩ : BufTy).Contents (Elt F))
  :: binary main_v129 main_v138 main_v139 (maximumf : (⟨S200000, .f32⟩ : BufTy).Contents (Elt F) → (⟨S200000, .f32⟩ : BufTy).Contents (Elt F) → (⟨S200000, .f32⟩ : BufTy).Contents (Elt F))
  :: unary main_v139 main_v140 (Host.rsqrt : (⟨S200000, .f32⟩ : BufTy).Contents (Elt F) → (⟨S200000, .f32⟩ : BufTy).Contents (Elt F))
  :: nullary main_cst_31 (constant S_ .f32 0x00000000#32)
  :: TRef.unary (TRef.of (T := ⟨S_, .f32⟩) main_cst_31) (TRef.of (T := ⟨S_, .f32⟩) main_call3_v0) id
  :: TRef.unary (TRef.of (T := ⟨S_, .f32⟩) main_call3_v0) (TRef.of (T := ⟨S200000, .f32⟩) main_call3_v1) (broadcastInDim S200000 ![] bcast_S_S200000)
  :: TRef.ternary (TRef.of (T := ⟨S200000, .i1⟩) main_v137) (TRef.of (T := ⟨S200000, .f32⟩) main_v140) (TRef.of (T := ⟨S200000, .f32⟩) main_call3_v1) (TRef.of (T := ⟨S200000, .f32⟩) main_v141) select
  :: nullary main_c_32 (constantI S_ 32 0#32)
  :: unary main_c_32 main_v142 (broadcastInDim S1000000 ![] bcast_S_S1000000 : (⟨S_, .i32⟩ : BufTy).Contents (Elt F) → (⟨S1000000, .i32⟩ : BufTy).Contents (Elt F))
  :: binary main_v119 main_v142 main_v143 (cmpi .slt : (⟨S1000000, .i32⟩ : BufTy).Contents (Elt F) → (⟨S1000000, .i32⟩ : BufTy).Contents (Elt F) → (⟨S1000000, .i1⟩ : BufTy).Contents (Elt F))
  :: nullary main_c_33 (constantI S_ 32 100000#32)
  :: [] )

set_option maxHeartbeats 40000000 in
theorem part2_eq (c : Dev nD) : main_part2 (F := F) c = seq ops2 := rfl

set_option maxHeartbeats 4000000 in
theorem ops2_fresh : (ops2 : List (HloOp τ sig (Elt F))).Forall fun op => op.fresh = ∅ := by
  simp only [List.Forall]; repeat' constructor

/-- The references part 2's operations write. -/
abbrev ops2_W : List (Ref sig .tc) := [main_v98, main_v99, main_c_20, main_v100, main_v101, main_v102, main_v103, main_v104, main_v105, main_v106, main_v107, main_cst_21, main_v108, main_v109, main_v110, main_v111, main_v112, main_v113, main_v114, main_v115, main_v116, main_v117, main_v118, main_v119, main_v120, main_v121, main_cst_22, main_v122, main_cst_23, main_v123, main_v124, main_v125, main_cst_24, main_v126, main_cst_25, main_v127, main_v128, main_v129, main_cst_26, main_v130, main_v131, main_cst_27, main_v132, main_v133, main_v134, main_cst_28, main_call2_v0, main_call2_v1, main_v135, main_cst_29, main_v136, main_v137, main_cst_30, main_v138, main_v139, main_v140, main_cst_31, main_call3_v0, main_call3_v1, main_v141, main_c_32, main_v142, main_v143, main_c_33]

set_option maxHeartbeats 4000000 in
theorem ops2_writes : (ops2 : List (HloOp τ sig (Elt F))).Forall fun op => op.writes ⊆ (ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops2_sub : (ops2 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub ..⟩

set_option maxHeartbeats 4000000 in
/-- The operations of @main's part 3, in order. -/
abbrev ops3 : List (HloOp τ sig (Elt F)) :=
  ( unary main_c_33 main_v144 (broadcastInDim S1000000 ![] bcast_S_S1000000 : (⟨S_, .i32⟩ : BufTy).Contents (Elt F) → (⟨S1000000, .i32⟩ : BufTy).Contents (Elt F))
  :: binary main_v119 main_v144 main_v145 (addi : (⟨S1000000, .i32⟩ : BufTy).Contents (Elt F) → (⟨S1000000, .i32⟩ : BufTy).Contents (Elt F) → (⟨S1000000, .i32⟩ : BufTy).Contents (Elt F))
  :: ternary main_v143 main_v145 main_v119 main_v146 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v146 main_v147 (broadcastInDim S1000000x1 ![0] bcast_S1000000_S1000000x1_0 : (⟨S1000000, .i32⟩ : BufTy).Contents (Elt F) → (⟨S1000000x1, .i32⟩ : BufTy).Contents (Elt F))
  :: binary main_v135 main_v147 main_v148 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F))
  :: nullary main_c_34 (constantI S_ 32 0#32)
  :: unary main_c_34 main_v149 (broadcastInDim S1000000 ![] bcast_S_S1000000 : (⟨S_, .i32⟩ : BufTy).Contents (Elt F) → (⟨S1000000, .i32⟩ : BufTy).Contents (Elt F))
  :: binary main_v121 main_v149 main_v150 (cmpi .slt : (⟨S1000000, .i32⟩ : BufTy).Contents (Elt F) → (⟨S1000000, .i32⟩ : BufTy).Contents (Elt F) → (⟨S1000000, .i1⟩ : BufTy).Contents (Elt F))
  :: nullary main_c_35 (constantI S_ 32 200000#32)
  :: unary main_c_35 main_v151 (broadcastInDim S1000000 ![] bcast_S_S1000000 : (⟨S_, .i32⟩ : BufTy).Contents (Elt F) → (⟨S1000000, .i32⟩ : BufTy).Contents (Elt F))
  :: binary main_v121 main_v151 main_v152 (addi : (⟨S1000000, .i32⟩ : BufTy).Contents (Elt F) → (⟨S1000000, .i32⟩ : BufTy).Contents (Elt F) → (⟨S1000000, .i32⟩ : BufTy).Contents (Elt F))
  :: ternary main_v150 main_v152 main_v121 main_v153 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v153 main_v154 (broadcastInDim S1000000x1 ![0] bcast_S1000000_S1000000x1_0 : (⟨S1000000, .i32⟩ : BufTy).Contents (Elt F) → (⟨S1000000x1, .i32⟩ : BufTy).Contents (Elt F))
  :: binary main_v141 main_v154 main_v155 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: binary main_v148 main_v155 main_v156 (mulf : (⟨S1000000, .f32⟩ : BufTy).Contents (Elt F) → (⟨S1000000, .f32⟩ : BufTy).Contents (Elt F) → (⟨S1000000, .f32⟩ : BufTy).Contents (Elt F))
  :: binary main_v3 main_v115 main_v157 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: nullary main_c_36 (constantI S_ 32 0#32)
  :: unary main_c_36 main_v158 (broadcastInDim S1000000 ![] bcast_S_S1000000 : (⟨S_, .i32⟩ : BufTy).Contents (Elt F) → (⟨S1000000, .i32⟩ : BufTy).Contents (Elt F))
  :: binary main_v119 main_v158 main_v159 (cmpi .slt : (⟨S1000000, .i32⟩ : BufTy).Contents (Elt F) → (⟨S1000000, .i32⟩ : BufTy).Contents (Elt F) → (⟨S1000000, .i1⟩ : BufTy).Contents (Elt F))
  :: nullary main_c_37 (constantI S_ 32 100000#32)
  :: unary main_c_37 main_v160 (broadcastInDim S1000000 ![] bcast_S_S1000000 : (⟨S_, .i32⟩ : BufTy).Contents (Elt F) → (⟨S1000000, .i32⟩ : BufTy).Contents (Elt F))
  :: binary main_v119 main_v160 main_v161 (addi : (⟨S1000000, .i32⟩ : BufTy).Contents (Elt F) → (⟨S1000000, .i32⟩ : BufTy).Contents (Elt F) → (⟨S1000000, .i32⟩ : BufTy).Contents (Elt F))
  :: ternary main_v159 main_v161 main_v119 main_v162 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v162 main_v163 (broadcastInDim S1000000x1 ![0] bcast_S1000000_S1000000x1_0 : (⟨S1000000, .i32⟩ : BufTy).Contents (Elt F) → (⟨S1000000x1, .i32⟩ : BufTy).Contents (Elt F))
  :: binary main_v157 main_v163 main_v164 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F))
  :: unary main_v156 main_v165 (broadcastInDim S1000000x1 ![0] bcast_S1000000_S1000000x1_0 : (⟨S1000000, .f32⟩ : BufTy).Contents (Elt F) → (⟨S1000000x1, .f32⟩ : BufTy).Contents (Elt F))
  :: unary main_v165 main_v166 (broadcastInDim S1000000x64 ![0, 1] bcast_S1000000x1_S1000000x64_0_1 : (⟨S1000000x1, .f32⟩ : BufTy).Contents (Elt F) → (⟨S1000000x64, .f32⟩ : BufTy).Contents (Elt F))
  :: binary main_v164 main_v166 main_v167 (mulf : (⟨S1000000x64, .f32⟩ : BufTy).Contents (Elt F) → (⟨S1000000x64, .f32⟩ : BufTy).Contents (Elt F) → (⟨S1000000x64, .f32⟩ : BufTy).Contents (Elt F))
  :: nullary main_cst_38 (constant S_ .f32 0x00000000#32)
  :: unary main_cst_38 main_v168 (broadcastInDim S200000x64 ![] bcast_S_S200000x64 : (⟨S_, .f32⟩ : BufTy).Contents (Elt F) → (⟨S200000x64, .f32⟩ : BufTy).Contents (Elt F))
  :: unary main_v121 main_v169 (broadcastInDim S1000000x1 ![0] bcast_S1000000_S1000000x1_0 : (⟨S1000000, .i32⟩ : BufTy).Contents (Elt F) → (⟨S1000000x1, .i32⟩ : BufTy).Contents (Elt F))
  :: ternary main_v168 main_v169 main_v167 main_v170 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F))
  :: unary main_v117 main_v171 (broadcastInDim S1x64 ![1] bcast_S64_S1x64_1 : (⟨S64, .f32⟩ : BufTy).Contents (Elt F) → (⟨S1x64, .f32⟩ : BufTy).Contents (Elt F))
  :: unary main_v171 main_v172 (broadcastInDim S200000x64 ![0, 1] bcast_S1x64_S200000x64_0_1 : (⟨S1x64, .f32⟩ : BufTy).Contents (Elt F) → (⟨S200000x64, .f32⟩ : BufTy).Contents (Elt F))
  :: binary main_v170 main_v172 main_v173 (addf : (⟨S200000x64, .f32⟩ : BufTy).Contents (Elt F) → (⟨S200000x64, .f32⟩ : BufTy).Contents (Elt F) → (⟨S200000x64, .f32⟩ : BufTy).Contents (Elt F))
  :: unary main_arg10 main_v174 ((extractStridedSlice S1x1x64x64 ![0, 3, 0, 0] · slices_S3x4x64x64_S1x1x64x64_0_3_0_0) : (⟨S3x4x64x64, .f32⟩ : BufTy).Contents (Elt F) → (⟨S1x1x64x64, .f32⟩ : BufTy).Contents (Elt F))
  :: reshape main_v174 main_v175 rfl shapeCasts_S1x1x64x64_S64x64
  :: unary main_arg11 main_v176 ((extractStridedSlice S1x1x64 ![0, 3, 0] · slices_S3x4x64_S1x1x64_0_3_0) : (⟨S3x4x64, .f32⟩ : BufTy).Contents (Elt F) → (⟨S1x1x64, .f32⟩ : BufTy).Contents (Elt F))
  :: reshape main_v176 main_v177 rfl shapeCasts_S1x1x64_S64
  :: unary main_arg5 main_v178 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v178 main_v179 rfl shapeCasts_S1x1000000_S1000000
  :: unary main_arg5 main_v180 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v180 main_v181 rfl shapeCasts_S1x1000000_S1000000
  :: nullary main_cst_39 (constant S_ .f32 0x3F800000#32)
  :: unary main_cst_39 main_v182 (broadcastInDim S1000000 ![] bcast_S_S1000000 : (⟨S_, .f32⟩ : BufTy).Contents (Elt F) → (⟨S1000000, .f32⟩ : BufTy).Contents (Elt F))
  :: nullary main_cst_40 (constant S_ .f32 0x00000000#32)
  :: unary main_cst_40 main_v183 (broadcastInDim S200000 ![] bcast_S_S200000 : (⟨S_, .f32⟩ : BufTy).Contents (Elt F) → (⟨S200000, .f32⟩ : BufTy).Contents (Elt F))
  :: unary main_v179 main_v184 (broadcastInDim S1000000x1 ![0] bcast_S1000000_S1000000x1_0 : (⟨S1000000, .i32⟩ : BufTy).Contents (Elt F) → (⟨S1000000x1, .i32⟩ : BufTy).Contents (Elt F))
  :: ternary main_v183 main_v184 main_v182 main_v185 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: nullary main_cst_41 (constant S_ .f32 0x3F800000#32)
  :: unary main_cst_41 main_v186 (broadcastInDim S1000000 ![] bcast_S_S1000000 : (⟨S_, .f32⟩ : BufTy).Contents (Elt F) → (⟨S1000000, .f32⟩ : BufTy).Contents (Elt F))
  :: nullary main_cst_42 (constant S_ .f32 0x00000000#32)
  :: unary main_cst_42 main_v187 (broadcastInDim S100000 ![] bcast_S_S100000 : (⟨S_, .f32⟩ : BufTy).Contents (Elt F) → (⟨S100000, .f32⟩ : BufTy).Contents (Elt F))
  :: unary main_v181 main_v188 (broadcastInDim S1000000x1 ![0] bcast_S1000000_S1000000x1_0 : (⟨S1000000, .i32⟩ : BufTy).Contents (Elt F) → (⟨S1000000x1, .i32⟩ : BufTy).Contents (Elt F))
  :: ternary main_v187 main_v188 main_v186 main_v189 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F))
  :: nullary main_cst_43 (constant S_ .f32 0x00000000#32)
  :: unary main_cst_43 main_v190 (broadcastInDim S200000 ![] bcast_S_S200000 : (⟨S_, .f32⟩ : BufTy).Contents (Elt F) → (⟨S200000, .f32⟩ : BufTy).Contents (Elt F))
  :: binary main_v185 main_v190 main_v191 (cmpf .ogt : (⟨S200000, .f32⟩ : BufTy).Contents (Elt F) → (⟨S200000, .f32⟩ : BufTy).Contents (Elt F) → (⟨S200000, .i1⟩ : BufTy).Contents (Elt F))
  :: nullary main_cst_44 (constant S_ .f32 0x3F800000#32)
  :: unary main_cst_44 main_v192 (broadcastInDim S200000 ![] bcast_S_S200000 : (⟨S_, .f32⟩ : BufTy).Contents (Elt F) → (⟨S200000, .f32⟩ : BufTy).Contents (Elt F))
  :: [] )

set_option maxHeartbeats 40000000 in
theorem part3_eq (c : Dev nD) : main_part3 (F := F) c = seq ops3 := rfl

set_option maxHeartbeats 4000000 in
theorem ops3_fresh : (ops3 : List (HloOp τ sig (Elt F))).Forall fun op => op.fresh = ∅ := by
  simp only [List.Forall]; repeat' constructor

/-- The references part 3's operations write. -/
abbrev ops3_W : List (Ref sig .tc) := [main_v144, main_v145, main_v146, main_v147, main_v148, main_c_34, main_v149, main_v150, main_c_35, main_v151, main_v152, main_v153, main_v154, main_v155, main_v156, main_v157, main_c_36, main_v158, main_v159, main_c_37, main_v160, main_v161, main_v162, main_v163, main_v164, main_v165, main_v166, main_v167, main_cst_38, main_v168, main_v169, main_v170, main_v171, main_v172, main_v173, main_v174, main_v175, main_v176, main_v177, main_v178, main_v179, main_v180, main_v181, main_cst_39, main_v182, main_cst_40, main_v183, main_v184, main_v185, main_cst_41, main_v186, main_cst_42, main_v187, main_v188, main_v189, main_cst_43, main_v190, main_v191, main_cst_44, main_v192]

set_option maxHeartbeats 4000000 in
theorem ops3_writes : (ops3 : List (HloOp τ sig (Elt F))).Forall fun op => op.writes ⊆ (ops3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops3_sub : (ops3 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub ..⟩

set_option maxHeartbeats 4000000 in
/-- The operations of @main's part 4, in order. -/
abbrev ops4 : List (HloOp τ sig (Elt F)) :=
  ( binary main_v185 main_v192 main_v193 (maximumf : (⟨S200000, .f32⟩ : BufTy).Contents (Elt F) → (⟨S200000, .f32⟩ : BufTy).Contents (Elt F) → (⟨S200000, .f32⟩ : BufTy).Contents (Elt F))
  :: unary main_v193 main_v194 (Host.rsqrt : (⟨S200000, .f32⟩ : BufTy).Contents (Elt F) → (⟨S200000, .f32⟩ : BufTy).Contents (Elt F))
  :: nullary main_cst_45 (constant S_ .f32 0x00000000#32)
  :: TRef.unary (TRef.of (T := ⟨S_, .f32⟩) main_cst_45) (TRef.of (T := ⟨S_, .f32⟩) main_call4_v0) id
  :: TRef.unary (TRef.of (T := ⟨S_, .f32⟩) main_call4_v0) (TRef.of (T := ⟨S200000, .f32⟩) main_call4_v1) (broadcastInDim S200000 ![] bcast_S_S200000)
  :: TRef.ternary (TRef.of (T := ⟨S200000, .i1⟩) main_v191) (TRef.of (T := ⟨S200000, .f32⟩) main_v194) (TRef.of (T := ⟨S200000, .f32⟩) main_call4_v1) (TRef.of (T := ⟨S200000, .f32⟩) main_v195) select
  :: nullary main_cst_46 (constant S_ .f32 0x00000000#32)
  :: unary main_cst_46 main_v196 (broadcastInDim S100000 ![] bcast_S_S100000 : (⟨S_, .f32⟩ : BufTy).Contents (Elt F) → (⟨S100000, .f32⟩ : BufTy).Contents (Elt F))
  :: binary main_v189 main_v196 main_v197 (cmpf .ogt : (⟨S100000, .f32⟩ : BufTy).Contents (Elt F) → (⟨S100000, .f32⟩ : BufTy).Contents (Elt F) → (⟨S100000, .i1⟩ : BufTy).Contents (Elt F))
  :: nullary main_cst_47 (constant S_ .f32 0x3F800000#32)
  :: unary main_cst_47 main_v198 (broadcastInDim S100000 ![] bcast_S_S100000 : (⟨S_, .f32⟩ : BufTy).Contents (Elt F) → (⟨S100000, .f32⟩ : BufTy).Contents (Elt F))
  :: binary main_v189 main_v198 main_v199 (maximumf : (⟨S100000, .f32⟩ : BufTy).Contents (Elt F) → (⟨S100000, .f32⟩ : BufTy).Contents (Elt F) → (⟨S100000, .f32⟩ : BufTy).Contents (Elt F))
  :: unary main_v199 main_v200 (Host.rsqrt : (⟨S100000, .f32⟩ : BufTy).Contents (Elt F) → (⟨S100000, .f32⟩ : BufTy).Contents (Elt F))
  :: nullary main_cst_48 (constant S_ .f32 0x00000000#32)
  :: TRef.unary (TRef.of (T := ⟨S_, .f32⟩) main_cst_48) (TRef.of (T := ⟨S_, .f32⟩) main_call5_v0) id
  :: TRef.unary (TRef.of (T := ⟨S_, .f32⟩) main_call5_v0) (TRef.of (T := ⟨S100000, .f32⟩) main_call5_v1) (broadcastInDim S100000 ![] bcast_S_S100000)
  :: TRef.ternary (TRef.of (T := ⟨S100000, .i1⟩) main_v197) (TRef.of (T := ⟨S100000, .f32⟩) main_v200) (TRef.of (T := ⟨S100000, .f32⟩) main_call5_v1) (TRef.of (T := ⟨S100000, .f32⟩) main_v201) select
  :: nullary main_c_49 (constantI S_ 32 0#32)
  :: unary main_c_49 main_v202 (broadcastInDim S1000000 ![] bcast_S_S1000000 : (⟨S_, .i32⟩ : BufTy).Contents (Elt F) → (⟨S1000000, .i32⟩ : BufTy).Contents (Elt F))
  :: binary main_v179 main_v202 main_v203 (cmpi .slt : (⟨S1000000, .i32⟩ : BufTy).Contents (Elt F) → (⟨S1000000, .i32⟩ : BufTy).Contents (Elt F) → (⟨S1000000, .i1⟩ : BufTy).Contents (Elt F))
  :: nullary main_c_50 (constantI S_ 32 200000#32)
  :: unary main_c_50 main_v204 (broadcastInDim S1000000 ![] bcast_S_S1000000 : (⟨S_, .i32⟩ : BufTy).Contents (Elt F) → (⟨S1000000, .i32⟩ : BufTy).Contents (Elt F))
  :: binary main_v179 main_v204 main_v205 (addi : (⟨S1000000, .i32⟩ : BufTy).Contents (Elt F) → (⟨S1000000, .i32⟩ : BufTy).Contents (Elt F) → (⟨S1000000, .i32⟩ : BufTy).Contents (Elt F))
  :: ternary main_v203 main_v205 main_v179 main_v206 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v206 main_v207 (broadcastInDim S1000000x1 ![0] bcast_S1000000_S1000000x1_0 : (⟨S1000000, .i32⟩ : BufTy).Contents (Elt F) → (⟨S1000000x1, .i32⟩ : BufTy).Contents (Elt F))
  :: binary main_v195 main_v207 main_v208 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: nullary main_c_51 (constantI S_ 32 0#32)
  :: unary main_c_51 main_v209 (broadcastInDim S1000000 ![] bcast_S_S1000000 : (⟨S_, .i32⟩ : BufTy).Contents (Elt F) → (⟨S1000000, .i32⟩ : BufTy).Contents (Elt F))
  :: binary main_v181 main_v209 main_v210 (cmpi .slt : (⟨S1000000, .i32⟩ : BufTy).Contents (Elt F) → (⟨S1000000, .i32⟩ : BufTy).Contents (Elt F) → (⟨S1000000, .i1⟩ : BufTy).Contents (Elt F))
  :: nullary main_c_52 (constantI S_ 32 100000#32)
  :: unary main_c_52 main_v211 (broadcastInDim S1000000 ![] bcast_S_S1000000 : (⟨S_, .i32⟩ : BufTy).Contents (Elt F) → (⟨S1000000, .i32⟩ : BufTy).Contents (Elt F))
  :: binary main_v181 main_v211 main_v212 (addi : (⟨S1000000, .i32⟩ : BufTy).Contents (Elt F) → (⟨S1000000, .i32⟩ : BufTy).Contents (Elt F) → (⟨S1000000, .i32⟩ : BufTy).Contents (Elt F))
  :: ternary main_v210 main_v212 main_v181 main_v213 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v213 main_v214 (broadcastInDim S1000000x1 ![0] bcast_S1000000_S1000000x1_0 : (⟨S1000000, .i32⟩ : BufTy).Contents (Elt F) → (⟨S1000000x1, .i32⟩ : BufTy).Contents (Elt F))
  :: binary main_v201 main_v214 main_v215 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F))
  :: binary main_v208 main_v215 main_v216 (mulf : (⟨S1000000, .f32⟩ : BufTy).Contents (Elt F) → (⟨S1000000, .f32⟩ : BufTy).Contents (Elt F) → (⟨S1000000, .f32⟩ : BufTy).Contents (Elt F))
  :: binary main_v7 main_v175 main_v217 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F))
  :: nullary main_c_53 (constantI S_ 32 0#32)
  :: unary main_c_53 main_v218 (broadcastInDim S1000000 ![] bcast_S_S1000000 : (⟨S_, .i32⟩ : BufTy).Contents (Elt F) → (⟨S1000000, .i32⟩ : BufTy).Contents (Elt F))
  :: binary main_v179 main_v218 main_v219 (cmpi .slt : (⟨S1000000, .i32⟩ : BufTy).Contents (Elt F) → (⟨S1000000, .i32⟩ : BufTy).Contents (Elt F) → (⟨S1000000, .i1⟩ : BufTy).Contents (Elt F))
  :: nullary main_c_54 (constantI S_ 32 200000#32)
  :: unary main_c_54 main_v220 (broadcastInDim S1000000 ![] bcast_S_S1000000 : (⟨S_, .i32⟩ : BufTy).Contents (Elt F) → (⟨S1000000, .i32⟩ : BufTy).Contents (Elt F))
  :: binary main_v179 main_v220 main_v221 (addi : (⟨S1000000, .i32⟩ : BufTy).Contents (Elt F) → (⟨S1000000, .i32⟩ : BufTy).Contents (Elt F) → (⟨S1000000, .i32⟩ : BufTy).Contents (Elt F))
  :: ternary main_v219 main_v221 main_v179 main_v222 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v222 main_v223 (broadcastInDim S1000000x1 ![0] bcast_S1000000_S1000000x1_0 : (⟨S1000000, .i32⟩ : BufTy).Contents (Elt F) → (⟨S1000000x1, .i32⟩ : BufTy).Contents (Elt F))
  :: binary main_v217 main_v223 main_v224 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F))
  :: unary main_v216 main_v225 (broadcastInDim S1000000x1 ![0] bcast_S1000000_S1000000x1_0 : (⟨S1000000, .f32⟩ : BufTy).Contents (Elt F) → (⟨S1000000x1, .f32⟩ : BufTy).Contents (Elt F))
  :: unary main_v225 main_v226 (broadcastInDim S1000000x64 ![0, 1] bcast_S1000000x1_S1000000x64_0_1 : (⟨S1000000x1, .f32⟩ : BufTy).Contents (Elt F) → (⟨S1000000x64, .f32⟩ : BufTy).Contents (Elt F))
  :: binary main_v224 main_v226 main_v227 (mulf : (⟨S1000000x64, .f32⟩ : BufTy).Contents (Elt F) → (⟨S1000000x64, .f32⟩ : BufTy).Contents (Elt F) → (⟨S1000000x64, .f32⟩ : BufTy).Contents (Elt F))
  :: nullary main_cst_55 (constant S_ .f32 0x00000000#32)
  :: unary main_cst_55 main_v228 (broadcastInDim S100000x64 ![] bcast_S_S100000x64 : (⟨S_, .f32⟩ : BufTy).Contents (Elt F) → (⟨S100000x64, .f32⟩ : BufTy).Contents (Elt F))
  :: unary main_v181 main_v229 (broadcastInDim S1000000x1 ![0] bcast_S1000000_S1000000x1_0 : (⟨S1000000, .i32⟩ : BufTy).Contents (Elt F) → (⟨S1000000x1, .i32⟩ : BufTy).Contents (Elt F))
  :: ternary main_v228 main_v229 main_v227 main_v230 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F))
  :: unary main_v177 main_v231 (broadcastInDim S1x64 ![1] bcast_S64_S1x64_1 : (⟨S64, .f32⟩ : BufTy).Contents (Elt F) → (⟨S1x64, .f32⟩ : BufTy).Contents (Elt F))
  :: unary main_v231 main_v232 (broadcastInDim S100000x64 ![0, 1] bcast_S1x64_S100000x64_0_1 : (⟨S1x64, .f32⟩ : BufTy).Contents (Elt F) → (⟨S100000x64, .f32⟩ : BufTy).Contents (Elt F))
  :: binary main_v230 main_v232 main_v233 (addf : (⟨S100000x64, .f32⟩ : BufTy).Contents (Elt F) → (⟨S100000x64, .f32⟩ : BufTy).Contents (Elt F) → (⟨S100000x64, .f32⟩ : BufTy).Contents (Elt F))
  :: binary main_v60 main_v233 main_v234 (addf : (⟨S100000x64, .f32⟩ : BufTy).Contents (Elt F) → (⟨S100000x64, .f32⟩ : BufTy).Contents (Elt F) → (⟨S100000x64, .f32⟩ : BufTy).Contents (Elt F))
  :: nullary main_cst_56 (constant S_ .f32 0x3F000000#32)
  :: unary main_cst_56 main_v235 (broadcastInDim S100000x64 ![] bcast_S_S100000x64 : (⟨S_, .f32⟩ : BufTy).Contents (Elt F) → (⟨S100000x64, .f32⟩ : BufTy).Contents (Elt F))
  :: binary main_v234 main_v235 main_v236 (mulf : (⟨S100000x64, .f32⟩ : BufTy).Contents (Elt F) → (⟨S100000x64, .f32⟩ : BufTy).Contents (Elt F) → (⟨S100000x64, .f32⟩ : BufTy).Contents (Elt F))
  :: TRef.nullary (TRef.of (T := ⟨S_, .f32⟩) main_call6_cst) (constant S_ .f32 0x00000000#32)
  :: TRef.unary (TRef.of (T := ⟨S_, .f32⟩) main_call6_cst) (TRef.of (T := ⟨S100000x64, .f32⟩) main_call6_v0) (broadcastInDim S100000x64 ![] bcast_S_S100000x64)
  :: TRef.binary (TRef.of (T := ⟨S100000x64, .f32⟩) main_v236) (TRef.of (T := ⟨S100000x64, .f32⟩) main_call6_v0) (TRef.of (T := ⟨S100000x64, .f32⟩) main_v237) maximumf
  :: binary main_v113 main_v173 main_v238 (addf : (⟨S200000x64, .f32⟩ : BufTy).Contents (Elt F) → (⟨S200000x64, .f32⟩ : BufTy).Contents (Elt F) → (⟨S200000x64, .f32⟩ : BufTy).Contents (Elt F))
  :: nullary main_cst_57 (constant S_ .f32 0x3F000000#32)
  :: unary main_cst_57 main_v239 (broadcastInDim S200000x64 ![] bcast_S_S200000x64 : (⟨S_, .f32⟩ : BufTy).Contents (Elt F) → (⟨S200000x64, .f32⟩ : BufTy).Contents (Elt F))
  :: [] )

set_option maxHeartbeats 40000000 in
theorem part4_eq (c : Dev nD) : main_part4 (F := F) c = seq ops4 := rfl

set_option maxHeartbeats 4000000 in
theorem ops4_fresh : (ops4 : List (HloOp τ sig (Elt F))).Forall fun op => op.fresh = ∅ := by
  simp only [List.Forall]; repeat' constructor

/-- The references part 4's operations write. -/
abbrev ops4_W : List (Ref sig .tc) := [main_v193, main_v194, main_cst_45, main_call4_v0, main_call4_v1, main_v195, main_cst_46, main_v196, main_v197, main_cst_47, main_v198, main_v199, main_v200, main_cst_48, main_call5_v0, main_call5_v1, main_v201, main_c_49, main_v202, main_v203, main_c_50, main_v204, main_v205, main_v206, main_v207, main_v208, main_c_51, main_v209, main_v210, main_c_52, main_v211, main_v212, main_v213, main_v214, main_v215, main_v216, main_v217, main_c_53, main_v218, main_v219, main_c_54, main_v220, main_v221, main_v222, main_v223, main_v224, main_v225, main_v226, main_v227, main_cst_55, main_v228, main_v229, main_v230, main_v231, main_v232, main_v233, main_v234, main_cst_56, main_v235, main_v236, main_call6_cst, main_call6_v0, main_v237, main_v238, main_cst_57, main_v239]

set_option maxHeartbeats 4000000 in
theorem ops4_writes : (ops4 : List (HloOp τ sig (Elt F))).Forall fun op => op.writes ⊆ (ops4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops4_sub : (ops4 : List (HloOp τ sig (Elt F))).Forall fun op => op.bufs ⊆ tcRefs τ sig :=
  ⟨binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub ..⟩

set_option maxHeartbeats 4000000 in
/-- The operations of @main's part 5, in order. -/
abbrev ops5 : List (HloOp τ sig (Elt F)) :=
  ( binary main_v238 main_v239 main_v240 (mulf : (⟨S200000x64, .f32⟩ : BufTy).Contents (Elt F) → (⟨S200000x64, .f32⟩ : BufTy).Contents (Elt F) → (⟨S200000x64, .f32⟩ : BufTy).Contents (Elt F))
  :: TRef.nullary (TRef.of (T := ⟨S_, .f32⟩) main_call7_cst) (constant S_ .f32 0x00000000#32)
  :: TRef.unary (TRef.of (T := ⟨S_, .f32⟩) main_call7_cst) (TRef.of (T := ⟨S200000x64, .f32⟩) main_call7_v0) (broadcastInDim S200000x64 ![] bcast_S_S200000x64)
  :: TRef.binary (TRef.of (T := ⟨S200000x64, .f32⟩) main_v240) (TRef.of (T := ⟨S200000x64, .f32⟩) main_call7_v0) (TRef.of (T := ⟨S200000x64, .f32⟩) main_v241) maximumf
  :: unary main_arg10 main_v242 ((extractStridedSlice S1x1x64x64 ![1, 0, 0, 0] · slices_S3x4x64x64_S1x1x64x64_1_0_0_0) : (⟨S3x4x64x64, .f32⟩ : BufTy).Contents (Elt F) → (⟨S1x1x64x64, .f32⟩ : BufTy).Contents (Elt F))
  :: reshape main_v242 main_v243 rfl shapeCasts_S1x1x64x64_S64x64
  :: unary main_arg11 main_v244 ((extractStridedSlice S1x1x64 ![1, 0, 0] · slices_S3x4x64_S1x1x64_1_0_0) : (⟨S3x4x64, .f32⟩ : BufTy).Contents (Elt F) → (⟨S1x1x64, .f32⟩ : BufTy).Contents (Elt F))
  :: reshape main_v244 main_v245 rfl shapeCasts_S1x1x64_S64
  :: unary main_arg2 main_v246 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v246 main_v247 rfl shapeCasts_S1x1000000_S1000000
  :: unary main_arg2 main_v248 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v248 main_v249 rfl shapeCasts_S1x1000000_S1000000
  :: nullary main_v250 (iotaInDim S100000 32 0)
  :: binary main_v247 main_v250 main_v251 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F))
  :: binary main_v249 main_v250 main_v252 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F))
  :: nullary main_cst_58 (constant S_ .f32 0x3F800000#32)
  :: unary main_cst_58 main_v253 (broadcastInDim S1100000 ![] bcast_S_S1100000 : (⟨S_, .f32⟩ : BufTy).Contents (Elt F) → (⟨S1100000, .f32⟩ : BufTy).Contents (Elt F))
  :: nullary main_cst_59 (constant S_ .f32 0x00000000#32)
  :: unary main_cst_59 main_v254 (broadcastInDim S100000 ![] bcast_S_S100000 : (⟨S_, .f32⟩ : BufTy).Contents (Elt F) → (⟨S100000, .f32⟩ : BufTy).Contents (Elt F))
  :: unary main_v252 main_v255 (broadcastInDim S1100000x1 ![0] bcast_S1100000_S1100000x1_0 : (⟨S1100000, .i32⟩ : BufTy).Contents (Elt F) → (⟨S1100000x1, .i32⟩ : BufTy).Contents (Elt F))
  :: ternary main_v254 main_v255 main_v253 main_v256 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F))
  :: nullary main_cst_60 (constant S_ .f32 0x00000000#32)
  :: unary main_cst_60 main_v257 (broadcastInDim S100000 ![] bcast_S_S100000 : (⟨S_, .f32⟩ : BufTy).Contents (Elt F) → (⟨S100000, .f32⟩ : BufTy).Contents (Elt F))
  :: binary main_v256 main_v257 main_v258 (cmpf .ogt : (⟨S100000, .f32⟩ : BufTy).Contents (Elt F) → (⟨S100000, .f32⟩ : BufTy).Contents (Elt F) → (⟨S100000, .i1⟩ : BufTy).Contents (Elt F))
  :: nullary main_cst_61 (constant S_ .f32 0x3F800000#32)
  :: unary main_cst_61 main_v259 (broadcastInDim S100000 ![] bcast_S_S100000 : (⟨S_, .f32⟩ : BufTy).Contents (Elt F) → (⟨S100000, .f32⟩ : BufTy).Contents (Elt F))
  :: binary main_v256 main_v259 main_v260 (maximumf : (⟨S100000, .f32⟩ : BufTy).Contents (Elt F) → (⟨S100000, .f32⟩ : BufTy).Contents (Elt F) → (⟨S100000, .f32⟩ : BufTy).Contents (Elt F))
  :: unary main_v260 main_v261 (Host.rsqrt : (⟨S100000, .f32⟩ : BufTy).Contents (Elt F) → (⟨S100000, .f32⟩ : BufTy).Contents (Elt F))
  :: nullary main_cst_62 (constant S_ .f32 0x00000000#32)
  :: TRef.unary (TRef.of (T := ⟨S_, .f32⟩) main_cst_62) (TRef.of (T := ⟨S_, .f32⟩) main_call8_v0) id
  :: TRef.unary (TRef.of (T := ⟨S_, .f32⟩) main_call8_v0) (TRef.of (T := ⟨S100000, .f32⟩) main_call8_v1) (broadcastInDim S100000 ![] bcast_S_S100000)
  :: TRef.ternary (TRef.of (T := ⟨S100000, .i1⟩) main_v258) (TRef.of (T := ⟨S100000, .f32⟩) main_v261) (TRef.of (T := ⟨S100000, .f32⟩) main_call8_v1) (TRef.of (T := ⟨S100000, .f32⟩) main_v262) select
  :: nullary main_c_63 (constantI S_ 32 0#32)
  :: unary main_c_63 main_v263 (broadcastInDim S1100000 ![] bcast_S_S1100000 : (⟨S_, .i32⟩ : BufTy).Contents (Elt F) → (⟨S1100000, .i32⟩ : BufTy).Contents (Elt F))
  :: binary main_v251 main_v263 main_v264 (cmpi .slt : (⟨S1100000, .i32⟩ : BufTy).Contents (Elt F) → (⟨S1100000, .i32⟩ : BufTy).Contents (Elt F) → (⟨S1100000, .i1⟩ : BufTy).Contents (Elt F))
  :: nullary main_c_64 (constantI S_ 32 100000#32)
  :: unary main_c_64 main_v265 (broadcastInDim S1100000 ![] bcast_S_S1100000 : (⟨S_, .i32⟩ : BufTy).Contents (Elt F) → (⟨S1100000, .i32⟩ : BufTy).Contents (Elt F))
  :: binary main_v251 main_v265 main_v266 (addi : (⟨S1100000, .i32⟩ : BufTy).Contents (Elt F) → (⟨S1100000, .i32⟩ : BufTy).Contents (Elt F) → (⟨S1100000, .i32⟩ : BufTy).Contents (Elt F))
  :: ternary main_v264 main_v266 main_v251 main_v267 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v267 main_v268 (broadcastInDim S1100000x1 ![0] bcast_S1100000_S1100000x1_0 : (⟨S1100000, .i32⟩ : BufTy).Contents (Elt F) → (⟨S1100000x1, .i32⟩ : BufTy).Contents (Elt F))
  :: binary main_v262 main_v268 main_v269 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F))
  :: nullary main_c_65 (constantI S_ 32 0#32)
  :: unary main_c_65 main_v270 (broadcastInDim S1100000 ![] bcast_S_S1100000 : (⟨S_, .i32⟩ : BufTy).Contents (Elt F) → (⟨S1100000, .i32⟩ : BufTy).Contents (Elt F))
  :: binary main_v252 main_v270 main_v271 (cmpi .slt : (⟨S1100000, .i32⟩ : BufTy).Contents (Elt F) → (⟨S1100000, .i32⟩ : BufTy).Contents (Elt F) → (⟨S1100000, .i1⟩ : BufTy).Contents (Elt F))
  :: nullary main_c_66 (constantI S_ 32 100000#32)
  :: unary main_c_66 main_v272 (broadcastInDim S1100000 ![] bcast_S_S1100000 : (⟨S_, .i32⟩ : BufTy).Contents (Elt F) → (⟨S1100000, .i32⟩ : BufTy).Contents (Elt F))
  :: binary main_v252 main_v272 main_v273 (addi : (⟨S1100000, .i32⟩ : BufTy).Contents (Elt F) → (⟨S1100000, .i32⟩ : BufTy).Contents (Elt F) → (⟨S1100000, .i32⟩ : BufTy).Contents (Elt F))
  :: ternary main_v271 main_v273 main_v252 main_v274 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v274 main_v275 (broadcastInDim S1100000x1 ![0] bcast_S1100000_S1100000x1_0 : (⟨S1100000, .i32⟩ : BufTy).Contents (Elt F) → (⟨S1100000x1, .i32⟩ : BufTy).Contents (Elt F))
  :: binary main_v262 main_v275 main_v276 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F))
  :: binary main_v269 main_v276 main_v277 (mulf : (⟨S1100000, .f32⟩ : BufTy).Contents (Elt F) → (⟨S1100000, .f32⟩ : BufTy).Contents (Elt F) → (⟨S1100000, .f32⟩ : BufTy).Contents (Elt F))
  :: binary main_v237 main_v243 main_v278 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: nullary main_c_67 (constantI S_ 32 0#32)
  :: unary main_c_67 main_v279 (broadcastInDim S1100000 ![] bcast_S_S1100000 : (⟨S_, .i32⟩ : BufTy).Contents (Elt F) → (⟨S1100000, .i32⟩ : BufTy).Contents (Elt F))
  :: binary main_v251 main_v279 main_v280 (cmpi .slt : (⟨S1100000, .i32⟩ : BufTy).Contents (Elt F) → (⟨S1100000, .i32⟩ : BufTy).Contents (Elt F) → (⟨S1100000, .i1⟩ : BufTy).Contents (Elt F))
  :: nullary main_c_68 (constantI S_ 32 100000#32)
  :: unary main_c_68 main_v281 (broadcastInDim S1100000 ![] bcast_S_S1100000 : (⟨S_, .i32⟩ : BufTy).Contents (Elt F) → (⟨S1100000, .i32⟩ : BufTy).Contents (Elt F))
  :: binary main_v251 main_v281 main_v282 (addi : (⟨S1100000, .i32⟩ : BufTy).Contents (Elt F) → (⟨S1100000, .i32⟩ : BufTy).Contents (Elt F) → (⟨S1100000, .i32⟩ : BufTy).Contents (Elt F))
  :: ternary main_v280 main_v282 main_v251 main_v283 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v283 main_v284 (broadcastInDim S1100000x1 ![0] bcast_S1100000_S1100000x1_0 : (⟨S1100000, .i32⟩ : BufTy).Contents (Elt F) → (⟨S1100000x1, .i32⟩ : BufTy).Contents (Elt F))
  :: binary main_v278 main_v284 main_v285 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F))
  :: unary main_v277 main_v286 (broadcastInDim S1100000x1 ![0] bcast_S1100000_S1100000x1_0 : (⟨S1100000, .f32⟩ : BufTy).Contents (Elt F) → (⟨S1100000x1, .f32⟩ : BufTy).Contents (Elt F))
  :: unary main_v286 main_v287 (broadcastInDim S1100000x64 ![0, 1] bcast_S1100000x1_S1100000x64_0_1 : (⟨S1100000x1, .f32⟩ : BufTy).Contents (Elt F) → (⟨S1100000x64, .f32⟩ : BufTy).Contents (Elt F))
  :: binary main_v285 main_v287 main_v288 (mulf : (⟨S1100000x64, .f32⟩ : BufTy).Contents (Elt F) → (⟨S1100000x64, .f32⟩ : BufTy).Contents (Elt F) → (⟨S1100000x64, .f32⟩ : BufTy).Contents (Elt F))
  :: [] )

set_option maxHeartbeats 40000000 in
theorem part5_eq (c : Dev nD) : main_part5 (F := F) c = seq ops5 := rfl

set_option maxHeartbeats 4000000 in
theorem ops5_fresh : (ops5 : List (HloOp τ sig (Elt F))).Forall fun op => op.fresh = ∅ := by
  simp only [List.Forall]; repeat' constructor

/-- The references part 5's operations write. -/
abbrev ops5_W : List (Ref sig .tc) := [main_v240, main_call7_cst, main_call7_v0, main_v241, main_v242, main_v243, main_v244, main_v245, main_v246, main_v247, main_v248, main_v249, main_v250, main_v251, main_v252, main_cst_58, main_v253, main_cst_59, main_v254, main_v255, main_v256, main_cst_60, main_v257, main_v258, main_cst_61, main_v259, main_v260, main_v261, main_cst_62, main_call8_v0, main_call8_v1, main_v262, main_c_63, main_v263, main_v264, main_c_64, main_v265, main_v266, main_v267, main_v268, main_v269, main_c_65, main_v270, main_v271, main_c_66, main_v272, main_v273, main_v274, main_v275, main_v276, main_v277, main_v278, main_c_67, main_v279, main_v280, main_c_68, main_v281, main_v282, main_v283, main_v284, main_v285, main_v286, main_v287, main_v288]

set_option maxHeartbeats 4000000 in
theorem ops5_writes : (ops5 : List (HloOp τ sig (Elt F))).Forall fun op => op.writes ⊆ (ops5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops5_sub : (ops5 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

set_option maxHeartbeats 4000000 in
/-- The operations of @main's part 6, in order. -/
abbrev ops6 : List (HloOp τ sig (Elt F)) :=
  ( nullary main_cst_69 (constant S_ .f32 0x00000000#32)
  :: unary main_cst_69 main_v289 (broadcastInDim S100000x64 ![] bcast_S_S100000x64 : (⟨S_, .f32⟩ : BufTy).Contents (Elt F) → (⟨S100000x64, .f32⟩ : BufTy).Contents (Elt F))
  :: unary main_v252 main_v290 (broadcastInDim S1100000x1 ![0] bcast_S1100000_S1100000x1_0 : (⟨S1100000, .i32⟩ : BufTy).Contents (Elt F) → (⟨S1100000x1, .i32⟩ : BufTy).Contents (Elt F))
  :: ternary main_v289 main_v290 main_v288 main_v291 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F))
  :: unary main_v245 main_v292 (broadcastInDim S1x64 ![1] bcast_S64_S1x64_1 : (⟨S64, .f32⟩ : BufTy).Contents (Elt F) → (⟨S1x64, .f32⟩ : BufTy).Contents (Elt F))
  :: unary main_v292 main_v293 (broadcastInDim S100000x64 ![0, 1] bcast_S1x64_S100000x64_0_1 : (⟨S1x64, .f32⟩ : BufTy).Contents (Elt F) → (⟨S100000x64, .f32⟩ : BufTy).Contents (Elt F))
  :: binary main_v291 main_v293 main_v294 (addf : (⟨S100000x64, .f32⟩ : BufTy).Contents (Elt F) → (⟨S100000x64, .f32⟩ : BufTy).Contents (Elt F) → (⟨S100000x64, .f32⟩ : BufTy).Contents (Elt F))
  :: unary main_arg10 main_v295 ((extractStridedSlice S1x1x64x64 ![1, 1, 0, 0] · slices_S3x4x64x64_S1x1x64x64_1_1_0_0) : (⟨S3x4x64x64, .f32⟩ : BufTy).Contents (Elt F) → (⟨S1x1x64x64, .f32⟩ : BufTy).Contents (Elt F))
  :: reshape main_v295 main_v296 rfl shapeCasts_S1x1x64x64_S64x64
  :: unary main_arg11 main_v297 ((extractStridedSlice S1x1x64 ![1, 1, 0] · slices_S3x4x64_S1x1x64_1_1_0) : (⟨S3x4x64, .f32⟩ : BufTy).Contents (Elt F) → (⟨S1x1x64, .f32⟩ : BufTy).Contents (Elt F))
  :: reshape main_v297 main_v298 rfl shapeCasts_S1x1x64_S64
  :: unary main_arg3 main_v299 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v299 main_v300 rfl shapeCasts_S1x1000000_S1000000
  :: unary main_arg3 main_v301 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v301 main_v302 rfl shapeCasts_S1x1000000_S1000000
  :: nullary main_v303 (iotaInDim S200000 32 0)
  :: binary main_v300 main_v303 main_v304 ((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F))
  :: binary main_v302 main_v303 main_v305 ((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F))
  :: nullary main_cst_70 (constant S_ .f32 0x3F800000#32)
  :: unary main_cst_70 main_v306 (broadcastInDim S1200000 ![] bcast_S_S1200000 : (⟨S_, .f32⟩ : BufTy).Contents (Elt F) → (⟨S1200000, .f32⟩ : BufTy).Contents (Elt F))
  :: nullary main_cst_71 (constant S_ .f32 0x00000000#32)
  :: unary main_cst_71 main_v307 (broadcastInDim S200000 ![] bcast_S_S200000 : (⟨S_, .f32⟩ : BufTy).Contents (Elt F) → (⟨S200000, .f32⟩ : BufTy).Contents (Elt F))
  :: unary main_v305 main_v308 (broadcastInDim S1200000x1 ![0] bcast_S1200000_S1200000x1_0 : (⟨S1200000, .i32⟩ : BufTy).Contents (Elt F) → (⟨S1200000x1, .i32⟩ : BufTy).Contents (Elt F))
  :: ternary main_v307 main_v308 main_v306 main_v309 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F))
  :: nullary main_cst_72 (constant S_ .f32 0x00000000#32)
  :: unary main_cst_72 main_v310 (broadcastInDim S200000 ![] bcast_S_S200000 : (⟨S_, .f32⟩ : BufTy).Contents (Elt F) → (⟨S200000, .f32⟩ : BufTy).Contents (Elt F))
  :: binary main_v309 main_v310 main_v311 (cmpf .ogt : (⟨S200000, .f32⟩ : BufTy).Contents (Elt F) → (⟨S200000, .f32⟩ : BufTy).Contents (Elt F) → (⟨S200000, .i1⟩ : BufTy).Contents (Elt F))
  :: nullary main_cst_73 (constant S_ .f32 0x3F800000#32)
  :: unary main_cst_73 main_v312 (broadcastInDim S200000 ![] bcast_S_S200000 : (⟨S_, .f32⟩ : BufTy).Contents (Elt F) → (⟨S200000, .f32⟩ : BufTy).Contents (Elt F))
  :: binary main_v309 main_v312 main_v313 (maximumf : (⟨S200000, .f32⟩ : BufTy).Contents (Elt F) → (⟨S200000, .f32⟩ : BufTy).Contents (Elt F) → (⟨S200000, .f32⟩ : BufTy).Contents (Elt F))
  :: unary main_v313 main_v314 (Host.rsqrt : (⟨S200000, .f32⟩ : BufTy).Contents (Elt F) → (⟨S200000, .f32⟩ : BufTy).Contents (Elt F))
  :: nullary main_cst_74 (constant S_ .f32 0x00000000#32)
  :: TRef.unary (TRef.of (T := ⟨S_, .f32⟩) main_cst_74) (TRef.of (T := ⟨S_, .f32⟩) main_call9_v0) id
  :: TRef.unary (TRef.of (T := ⟨S_, .f32⟩) main_call9_v0) (TRef.of (T := ⟨S200000, .f32⟩) main_call9_v1) (broadcastInDim S200000 ![] bcast_S_S200000)
  :: TRef.ternary (TRef.of (T := ⟨S200000, .i1⟩) main_v311) (TRef.of (T := ⟨S200000, .f32⟩) main_v314) (TRef.of (T := ⟨S200000, .f32⟩) main_call9_v1) (TRef.of (T := ⟨S200000, .f32⟩) main_v315) select
  :: nullary main_c_75 (constantI S_ 32 0#32)
  :: unary main_c_75 main_v316 (broadcastInDim S1200000 ![] bcast_S_S1200000 : (⟨S_, .i32⟩ : BufTy).Contents (Elt F) → (⟨S1200000, .i32⟩ : BufTy).Contents (Elt F))
  :: binary main_v304 main_v316 main_v317 (cmpi .slt : (⟨S1200000, .i32⟩ : BufTy).Contents (Elt F) → (⟨S1200000, .i32⟩ : BufTy).Contents (Elt F) → (⟨S1200000, .i1⟩ : BufTy).Contents (Elt F))
  :: nullary main_c_76 (constantI S_ 32 200000#32)
  :: unary main_c_76 main_v318 (broadcastInDim S1200000 ![] bcast_S_S1200000 : (⟨S_, .i32⟩ : BufTy).Contents (Elt F) → (⟨S1200000, .i32⟩ : BufTy).Contents (Elt F))
  :: binary main_v304 main_v318 main_v319 (addi : (⟨S1200000, .i32⟩ : BufTy).Contents (Elt F) → (⟨S1200000, .i32⟩ : BufTy).Contents (Elt F) → (⟨S1200000, .i32⟩ : BufTy).Contents (Elt F))
  :: ternary main_v317 main_v319 main_v304 main_v320 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v320 main_v321 (broadcastInDim S1200000x1 ![0] bcast_S1200000_S1200000x1_0 : (⟨S1200000, .i32⟩ : BufTy).Contents (Elt F) → (⟨S1200000x1, .i32⟩ : BufTy).Contents (Elt F))
  :: binary main_v315 main_v321 main_v322 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F))
  :: nullary main_c_77 (constantI S_ 32 0#32)
  :: unary main_c_77 main_v323 (broadcastInDim S1200000 ![] bcast_S_S1200000 : (⟨S_, .i32⟩ : BufTy).Contents (Elt F) → (⟨S1200000, .i32⟩ : BufTy).Contents (Elt F))
  :: binary main_v305 main_v323 main_v324 (cmpi .slt : (⟨S1200000, .i32⟩ : BufTy).Contents (Elt F) → (⟨S1200000, .i32⟩ : BufTy).Contents (Elt F) → (⟨S1200000, .i1⟩ : BufTy).Contents (Elt F))
  :: nullary main_c_78 (constantI S_ 32 200000#32)
  :: unary main_c_78 main_v325 (broadcastInDim S1200000 ![] bcast_S_S1200000 : (⟨S_, .i32⟩ : BufTy).Contents (Elt F) → (⟨S1200000, .i32⟩ : BufTy).Contents (Elt F))
  :: binary main_v305 main_v325 main_v326 (addi : (⟨S1200000, .i32⟩ : BufTy).Contents (Elt F) → (⟨S1200000, .i32⟩ : BufTy).Contents (Elt F) → (⟨S1200000, .i32⟩ : BufTy).Contents (Elt F))
  :: ternary main_v324 main_v326 main_v305 main_v327 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v327 main_v328 (broadcastInDim S1200000x1 ![0] bcast_S1200000_S1200000x1_0 : (⟨S1200000, .i32⟩ : BufTy).Contents (Elt F) → (⟨S1200000x1, .i32⟩ : BufTy).Contents (Elt F))
  :: binary main_v315 main_v328 main_v329 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F))
  :: binary main_v322 main_v329 main_v330 (mulf : (⟨S1200000, .f32⟩ : BufTy).Contents (Elt F) → (⟨S1200000, .f32⟩ : BufTy).Contents (Elt F) → (⟨S1200000, .f32⟩ : BufTy).Contents (Elt F))
  :: binary main_v241 main_v296 main_v331 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F))
  :: nullary main_c_79 (constantI S_ 32 0#32)
  :: unary main_c_79 main_v332 (broadcastInDim S1200000 ![] bcast_S_S1200000 : (⟨S_, .i32⟩ : BufTy).Contents (Elt F) → (⟨S1200000, .i32⟩ : BufTy).Contents (Elt F))
  :: binary main_v304 main_v332 main_v333 (cmpi .slt : (⟨S1200000, .i32⟩ : BufTy).Contents (Elt F) → (⟨S1200000, .i32⟩ : BufTy).Contents (Elt F) → (⟨S1200000, .i1⟩ : BufTy).Contents (Elt F))
  :: nullary main_c_80 (constantI S_ 32 200000#32)
  :: unary main_c_80 main_v334 (broadcastInDim S1200000 ![] bcast_S_S1200000 : (⟨S_, .i32⟩ : BufTy).Contents (Elt F) → (⟨S1200000, .i32⟩ : BufTy).Contents (Elt F))
  :: binary main_v304 main_v334 main_v335 (addi : (⟨S1200000, .i32⟩ : BufTy).Contents (Elt F) → (⟨S1200000, .i32⟩ : BufTy).Contents (Elt F) → (⟨S1200000, .i32⟩ : BufTy).Contents (Elt F))
  :: ternary main_v333 main_v335 main_v304 main_v336 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: [] )

set_option maxHeartbeats 40000000 in
theorem part6_eq (c : Dev nD) : main_part6 (F := F) c = seq ops6 := rfl

set_option maxHeartbeats 4000000 in
theorem ops6_fresh : (ops6 : List (HloOp τ sig (Elt F))).Forall fun op => op.fresh = ∅ := by
  simp only [List.Forall]; repeat' constructor

/-- The references part 6's operations write. -/
abbrev ops6_W : List (Ref sig .tc) := [main_cst_69, main_v289, main_v290, main_v291, main_v292, main_v293, main_v294, main_v295, main_v296, main_v297, main_v298, main_v299, main_v300, main_v301, main_v302, main_v303, main_v304, main_v305, main_cst_70, main_v306, main_cst_71, main_v307, main_v308, main_v309, main_cst_72, main_v310, main_v311, main_cst_73, main_v312, main_v313, main_v314, main_cst_74, main_call9_v0, main_call9_v1, main_v315, main_c_75, main_v316, main_v317, main_c_76, main_v318, main_v319, main_v320, main_v321, main_v322, main_c_77, main_v323, main_v324, main_c_78, main_v325, main_v326, main_v327, main_v328, main_v329, main_v330, main_v331, main_c_79, main_v332, main_v333, main_c_80, main_v334, main_v335, main_v336]

set_option maxHeartbeats 4000000 in
theorem ops6_writes : (ops6 : List (HloOp τ sig (Elt F))).Forall fun op => op.writes ⊆ (ops6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops6_sub : (ops6 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub ..⟩

set_option maxHeartbeats 4000000 in
/-- The operations of @main's part 7, in order. -/
abbrev ops7 : List (HloOp τ sig (Elt F)) :=
  ( unary main_v336 main_v337 (broadcastInDim S1200000x1 ![0] bcast_S1200000_S1200000x1_0 : (⟨S1200000, .i32⟩ : BufTy).Contents (Elt F) → (⟨S1200000x1, .i32⟩ : BufTy).Contents (Elt F))
  :: binary main_v331 main_v337 main_v338 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F))
  :: unary main_v330 main_v339 (broadcastInDim S1200000x1 ![0] bcast_S1200000_S1200000x1_0 : (⟨S1200000, .f32⟩ : BufTy).Contents (Elt F) → (⟨S1200000x1, .f32⟩ : BufTy).Contents (Elt F))
  :: unary main_v339 main_v340 (broadcastInDim S1200000x64 ![0, 1] bcast_S1200000x1_S1200000x64_0_1 : (⟨S1200000x1, .f32⟩ : BufTy).Contents (Elt F) → (⟨S1200000x64, .f32⟩ : BufTy).Contents (Elt F))
  :: binary main_v338 main_v340 main_v341 (mulf : (⟨S1200000x64, .f32⟩ : BufTy).Contents (Elt F) → (⟨S1200000x64, .f32⟩ : BufTy).Contents (Elt F) → (⟨S1200000x64, .f32⟩ : BufTy).Contents (Elt F))
  :: nullary main_cst_81 (constant S_ .f32 0x00000000#32)
  :: unary main_cst_81 main_v342 (broadcastInDim S200000x64 ![] bcast_S_S200000x64 : (⟨S_, .f32⟩ : BufTy).Contents (Elt F) → (⟨S200000x64, .f32⟩ : BufTy).Contents (Elt F))
  :: unary main_v305 main_v343 (broadcastInDim S1200000x1 ![0] bcast_S1200000_S1200000x1_0 : (⟨S1200000, .i32⟩ : BufTy).Contents (Elt F) → (⟨S1200000x1, .i32⟩ : BufTy).Contents (Elt F))
  :: ternary main_v342 main_v343 main_v341 main_v344 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F))
  :: unary main_v298 main_v345 (broadcastInDim S1x64 ![1] bcast_S64_S1x64_1 : (⟨S64, .f32⟩ : BufTy).Contents (Elt F) → (⟨S1x64, .f32⟩ : BufTy).Contents (Elt F))
  :: unary main_v345 main_v346 (broadcastInDim S200000x64 ![0, 1] bcast_S1x64_S200000x64_0_1 : (⟨S1x64, .f32⟩ : BufTy).Contents (Elt F) → (⟨S200000x64, .f32⟩ : BufTy).Contents (Elt F))
  :: binary main_v344 main_v346 main_v347 (addf : (⟨S200000x64, .f32⟩ : BufTy).Contents (Elt F) → (⟨S200000x64, .f32⟩ : BufTy).Contents (Elt F) → (⟨S200000x64, .f32⟩ : BufTy).Contents (Elt F))
  :: unary main_arg10 main_v348 ((extractStridedSlice S1x1x64x64 ![1, 2, 0, 0] · slices_S3x4x64x64_S1x1x64x64_1_2_0_0) : (⟨S3x4x64x64, .f32⟩ : BufTy).Contents (Elt F) → (⟨S1x1x64x64, .f32⟩ : BufTy).Contents (Elt F))
  :: reshape main_v348 main_v349 rfl shapeCasts_S1x1x64x64_S64x64
  :: unary main_arg11 main_v350 ((extractStridedSlice S1x1x64 ![1, 2, 0] · slices_S3x4x64_S1x1x64_1_2_0) : (⟨S3x4x64, .f32⟩ : BufTy).Contents (Elt F) → (⟨S1x1x64, .f32⟩ : BufTy).Contents (Elt F))
  :: reshape main_v350 main_v351 rfl shapeCasts_S1x1x64_S64
  :: unary main_arg4 main_v352 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v352 main_v353 rfl shapeCasts_S1x1000000_S1000000
  :: unary main_arg4 main_v354 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v354 main_v355 rfl shapeCasts_S1x1000000_S1000000
  :: nullary main_cst_82 (constant S_ .f32 0x3F800000#32)
  :: unary main_cst_82 main_v356 (broadcastInDim S1000000 ![] bcast_S_S1000000 : (⟨S_, .f32⟩ : BufTy).Contents (Elt F) → (⟨S1000000, .f32⟩ : BufTy).Contents (Elt F))
  :: nullary main_cst_83 (constant S_ .f32 0x00000000#32)
  :: unary main_cst_83 main_v357 (broadcastInDim S100000 ![] bcast_S_S100000 : (⟨S_, .f32⟩ : BufTy).Contents (Elt F) → (⟨S100000, .f32⟩ : BufTy).Contents (Elt F))
  :: unary main_v353 main_v358 (broadcastInDim S1000000x1 ![0] bcast_S1000000_S1000000x1_0 : (⟨S1000000, .i32⟩ : BufTy).Contents (Elt F) → (⟨S1000000x1, .i32⟩ : BufTy).Contents (Elt F))
  :: ternary main_v357 main_v358 main_v356 main_v359 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F))
  :: nullary main_cst_84 (constant S_ .f32 0x3F800000#32)
  :: unary main_cst_84 main_v360 (broadcastInDim S1000000 ![] bcast_S_S1000000 : (⟨S_, .f32⟩ : BufTy).Contents (Elt F) → (⟨S1000000, .f32⟩ : BufTy).Contents (Elt F))
  :: nullary main_cst_85 (constant S_ .f32 0x00000000#32)
  :: unary main_cst_85 main_v361 (broadcastInDim S200000 ![] bcast_S_S200000 : (⟨S_, .f32⟩ : BufTy).Contents (Elt F) → (⟨S200000, .f32⟩ : BufTy).Contents (Elt F))
  :: unary main_v355 main_v362 (broadcastInDim S1000000x1 ![0] bcast_S1000000_S1000000x1_0 : (⟨S1000000, .i32⟩ : BufTy).Contents (Elt F) → (⟨S1000000x1, .i32⟩ : BufTy).Contents (Elt F))
  :: ternary main_v361 main_v362 main_v360 main_v363 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: nullary main_cst_86 (constant S_ .f32 0x00000000#32)
  :: unary main_cst_86 main_v364 (broadcastInDim S100000 ![] bcast_S_S100000 : (⟨S_, .f32⟩ : BufTy).Contents (Elt F) → (⟨S100000, .f32⟩ : BufTy).Contents (Elt F))
  :: binary main_v359 main_v364 main_v365 (cmpf .ogt : (⟨S100000, .f32⟩ : BufTy).Contents (Elt F) → (⟨S100000, .f32⟩ : BufTy).Contents (Elt F) → (⟨S100000, .i1⟩ : BufTy).Contents (Elt F))
  :: nullary main_cst_87 (constant S_ .f32 0x3F800000#32)
  :: unary main_cst_87 main_v366 (broadcastInDim S100000 ![] bcast_S_S100000 : (⟨S_, .f32⟩ : BufTy).Contents (Elt F) → (⟨S100000, .f32⟩ : BufTy).Contents (Elt F))
  :: binary main_v359 main_v366 main_v367 (maximumf : (⟨S100000, .f32⟩ : BufTy).Contents (Elt F) → (⟨S100000, .f32⟩ : BufTy).Contents (Elt F) → (⟨S100000, .f32⟩ : BufTy).Contents (Elt F))
  :: unary main_v367 main_v368 (Host.rsqrt : (⟨S100000, .f32⟩ : BufTy).Contents (Elt F) → (⟨S100000, .f32⟩ : BufTy).Contents (Elt F))
  :: nullary main_cst_88 (constant S_ .f32 0x00000000#32)
  :: TRef.unary (TRef.of (T := ⟨S_, .f32⟩) main_cst_88) (TRef.of (T := ⟨S_, .f32⟩) main_call10_v0) id
  :: TRef.unary (TRef.of (T := ⟨S_, .f32⟩) main_call10_v0) (TRef.of (T := ⟨S100000, .f32⟩) main_call10_v1) (broadcastInDim S100000 ![] bcast_S_S100000)
  :: TRef.ternary (TRef.of (T := ⟨S100000, .i1⟩) main_v365) (TRef.of (T := ⟨S100000, .f32⟩) main_v368) (TRef.of (T := ⟨S100000, .f32⟩) main_call10_v1) (TRef.of (T := ⟨S100000, .f32⟩) main_v369) select
  :: nullary main_cst_89 (constant S_ .f32 0x00000000#32)
  :: unary main_cst_89 main_v370 (broadcastInDim S200000 ![] bcast_S_S200000 : (⟨S_, .f32⟩ : BufTy).Contents (Elt F) → (⟨S200000, .f32⟩ : BufTy).Contents (Elt F))
  :: binary main_v363 main_v370 main_v371 (cmpf .ogt : (⟨S200000, .f32⟩ : BufTy).Contents (Elt F) → (⟨S200000, .f32⟩ : BufTy).Contents (Elt F) → (⟨S200000, .i1⟩ : BufTy).Contents (Elt F))
  :: nullary main_cst_90 (constant S_ .f32 0x3F800000#32)
  :: unary main_cst_90 main_v372 (broadcastInDim S200000 ![] bcast_S_S200000 : (⟨S_, .f32⟩ : BufTy).Contents (Elt F) → (⟨S200000, .f32⟩ : BufTy).Contents (Elt F))
  :: binary main_v363 main_v372 main_v373 (maximumf : (⟨S200000, .f32⟩ : BufTy).Contents (Elt F) → (⟨S200000, .f32⟩ : BufTy).Contents (Elt F) → (⟨S200000, .f32⟩ : BufTy).Contents (Elt F))
  :: unary main_v373 main_v374 (Host.rsqrt : (⟨S200000, .f32⟩ : BufTy).Contents (Elt F) → (⟨S200000, .f32⟩ : BufTy).Contents (Elt F))
  :: nullary main_cst_91 (constant S_ .f32 0x00000000#32)
  :: TRef.unary (TRef.of (T := ⟨S_, .f32⟩) main_cst_91) (TRef.of (T := ⟨S_, .f32⟩) main_call11_v0) id
  :: TRef.unary (TRef.of (T := ⟨S_, .f32⟩) main_call11_v0) (TRef.of (T := ⟨S200000, .f32⟩) main_call11_v1) (broadcastInDim S200000 ![] bcast_S_S200000)
  :: TRef.ternary (TRef.of (T := ⟨S200000, .i1⟩) main_v371) (TRef.of (T := ⟨S200000, .f32⟩) main_v374) (TRef.of (T := ⟨S200000, .f32⟩) main_call11_v1) (TRef.of (T := ⟨S200000, .f32⟩) main_v375) select
  :: nullary main_c_92 (constantI S_ 32 0#32)
  :: unary main_c_92 main_v376 (broadcastInDim S1000000 ![] bcast_S_S1000000 : (⟨S_, .i32⟩ : BufTy).Contents (Elt F) → (⟨S1000000, .i32⟩ : BufTy).Contents (Elt F))
  :: binary main_v353 main_v376 main_v377 (cmpi .slt : (⟨S1000000, .i32⟩ : BufTy).Contents (Elt F) → (⟨S1000000, .i32⟩ : BufTy).Contents (Elt F) → (⟨S1000000, .i1⟩ : BufTy).Contents (Elt F))
  :: nullary main_c_93 (constantI S_ 32 100000#32)
  :: unary main_c_93 main_v378 (broadcastInDim S1000000 ![] bcast_S_S1000000 : (⟨S_, .i32⟩ : BufTy).Contents (Elt F) → (⟨S1000000, .i32⟩ : BufTy).Contents (Elt F))
  :: binary main_v353 main_v378 main_v379 (addi : (⟨S1000000, .i32⟩ : BufTy).Contents (Elt F) → (⟨S1000000, .i32⟩ : BufTy).Contents (Elt F) → (⟨S1000000, .i32⟩ : BufTy).Contents (Elt F))
  :: ternary main_v377 main_v379 main_v353 main_v380 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v380 main_v381 (broadcastInDim S1000000x1 ![0] bcast_S1000000_S1000000x1_0 : (⟨S1000000, .i32⟩ : BufTy).Contents (Elt F) → (⟨S1000000x1, .i32⟩ : BufTy).Contents (Elt F))
  :: binary main_v369 main_v381 main_v382 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F))
  :: nullary main_c_94 (constantI S_ 32 0#32)
  :: [] )

set_option maxHeartbeats 40000000 in
theorem part7_eq (c : Dev nD) : main_part7 (F := F) c = seq ops7 := rfl

set_option maxHeartbeats 4000000 in
theorem ops7_fresh : (ops7 : List (HloOp τ sig (Elt F))).Forall fun op => op.fresh = ∅ := by
  simp only [List.Forall]; repeat' constructor

/-- The references part 7's operations write. -/
abbrev ops7_W : List (Ref sig .tc) := [main_v337, main_v338, main_v339, main_v340, main_v341, main_cst_81, main_v342, main_v343, main_v344, main_v345, main_v346, main_v347, main_v348, main_v349, main_v350, main_v351, main_v352, main_v353, main_v354, main_v355, main_cst_82, main_v356, main_cst_83, main_v357, main_v358, main_v359, main_cst_84, main_v360, main_cst_85, main_v361, main_v362, main_v363, main_cst_86, main_v364, main_v365, main_cst_87, main_v366, main_v367, main_v368, main_cst_88, main_call10_v0, main_call10_v1, main_v369, main_cst_89, main_v370, main_v371, main_cst_90, main_v372, main_v373, main_v374, main_cst_91, main_call11_v0, main_call11_v1, main_v375, main_c_92, main_v376, main_v377, main_c_93, main_v378, main_v379, main_v380, main_v381, main_v382, main_c_94]

set_option maxHeartbeats 4000000 in
theorem ops7_writes : (ops7 : List (HloOp τ sig (Elt F))).Forall fun op => op.writes ⊆ (ops7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops7_sub : (ops7 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

set_option maxHeartbeats 4000000 in
/-- The operations of @main's part 8, in order. -/
abbrev ops8 : List (HloOp τ sig (Elt F)) :=
  ( unary main_c_94 main_v383 (broadcastInDim S1000000 ![] bcast_S_S1000000 : (⟨S_, .i32⟩ : BufTy).Contents (Elt F) → (⟨S1000000, .i32⟩ : BufTy).Contents (Elt F))
  :: binary main_v355 main_v383 main_v384 (cmpi .slt : (⟨S1000000, .i32⟩ : BufTy).Contents (Elt F) → (⟨S1000000, .i32⟩ : BufTy).Contents (Elt F) → (⟨S1000000, .i1⟩ : BufTy).Contents (Elt F))
  :: nullary main_c_95 (constantI S_ 32 200000#32)
  :: unary main_c_95 main_v385 (broadcastInDim S1000000 ![] bcast_S_S1000000 : (⟨S_, .i32⟩ : BufTy).Contents (Elt F) → (⟨S1000000, .i32⟩ : BufTy).Contents (Elt F))
  :: binary main_v355 main_v385 main_v386 (addi : (⟨S1000000, .i32⟩ : BufTy).Contents (Elt F) → (⟨S1000000, .i32⟩ : BufTy).Contents (Elt F) → (⟨S1000000, .i32⟩ : BufTy).Contents (Elt F))
  :: ternary main_v384 main_v386 main_v355 main_v387 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v387 main_v388 (broadcastInDim S1000000x1 ![0] bcast_S1000000_S1000000x1_0 : (⟨S1000000, .i32⟩ : BufTy).Contents (Elt F) → (⟨S1000000x1, .i32⟩ : BufTy).Contents (Elt F))
  :: binary main_v375 main_v388 main_v389 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: binary main_v382 main_v389 main_v390 (mulf : (⟨S1000000, .f32⟩ : BufTy).Contents (Elt F) → (⟨S1000000, .f32⟩ : BufTy).Contents (Elt F) → (⟨S1000000, .f32⟩ : BufTy).Contents (Elt F))
  :: binary main_v237 main_v349 main_v391 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: nullary main_c_96 (constantI S_ 32 0#32)
  :: unary main_c_96 main_v392 (broadcastInDim S1000000 ![] bcast_S_S1000000 : (⟨S_, .i32⟩ : BufTy).Contents (Elt F) → (⟨S1000000, .i32⟩ : BufTy).Contents (Elt F))
  :: binary main_v353 main_v392 main_v393 (cmpi .slt : (⟨S1000000, .i32⟩ : BufTy).Contents (Elt F) → (⟨S1000000, .i32⟩ : BufTy).Contents (Elt F) → (⟨S1000000, .i1⟩ : BufTy).Contents (Elt F))
  :: nullary main_c_97 (constantI S_ 32 100000#32)
  :: unary main_c_97 main_v394 (broadcastInDim S1000000 ![] bcast_S_S1000000 : (⟨S_, .i32⟩ : BufTy).Contents (Elt F) → (⟨S1000000, .i32⟩ : BufTy).Contents (Elt F))
  :: binary main_v353 main_v394 main_v395 (addi : (⟨S1000000, .i32⟩ : BufTy).Contents (Elt F) → (⟨S1000000, .i32⟩ : BufTy).Contents (Elt F) → (⟨S1000000, .i32⟩ : BufTy).Contents (Elt F))
  :: ternary main_v393 main_v395 main_v353 main_v396 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v396 main_v397 (broadcastInDim S1000000x1 ![0] bcast_S1000000_S1000000x1_0 : (⟨S1000000, .i32⟩ : BufTy).Contents (Elt F) → (⟨S1000000x1, .i32⟩ : BufTy).Contents (Elt F))
  :: binary main_v391 main_v397 main_v398 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F))
  :: unary main_v390 main_v399 (broadcastInDim S1000000x1 ![0] bcast_S1000000_S1000000x1_0 : (⟨S1000000, .f32⟩ : BufTy).Contents (Elt F) → (⟨S1000000x1, .f32⟩ : BufTy).Contents (Elt F))
  :: unary main_v399 main_v400 (broadcastInDim S1000000x64 ![0, 1] bcast_S1000000x1_S1000000x64_0_1 : (⟨S1000000x1, .f32⟩ : BufTy).Contents (Elt F) → (⟨S1000000x64, .f32⟩ : BufTy).Contents (Elt F))
  :: binary main_v398 main_v400 main_v401 (mulf : (⟨S1000000x64, .f32⟩ : BufTy).Contents (Elt F) → (⟨S1000000x64, .f32⟩ : BufTy).Contents (Elt F) → (⟨S1000000x64, .f32⟩ : BufTy).Contents (Elt F))
  :: nullary main_cst_98 (constant S_ .f32 0x00000000#32)
  :: unary main_cst_98 main_v402 (broadcastInDim S200000x64 ![] bcast_S_S200000x64 : (⟨S_, .f32⟩ : BufTy).Contents (Elt F) → (⟨S200000x64, .f32⟩ : BufTy).Contents (Elt F))
  :: unary main_v355 main_v403 (broadcastInDim S1000000x1 ![0] bcast_S1000000_S1000000x1_0 : (⟨S1000000, .i32⟩ : BufTy).Contents (Elt F) → (⟨S1000000x1, .i32⟩ : BufTy).Contents (Elt F))
  :: ternary main_v402 main_v403 main_v401 main_v404 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F))
  :: unary main_v351 main_v405 (broadcastInDim S1x64 ![1] bcast_S64_S1x64_1 : (⟨S64, .f32⟩ : BufTy).Contents (Elt F) → (⟨S1x64, .f32⟩ : BufTy).Contents (Elt F))
  :: unary main_v405 main_v406 (broadcastInDim S200000x64 ![0, 1] bcast_S1x64_S200000x64_0_1 : (⟨S1x64, .f32⟩ : BufTy).Contents (Elt F) → (⟨S200000x64, .f32⟩ : BufTy).Contents (Elt F))
  :: binary main_v404 main_v406 main_v407 (addf : (⟨S200000x64, .f32⟩ : BufTy).Contents (Elt F) → (⟨S200000x64, .f32⟩ : BufTy).Contents (Elt F) → (⟨S200000x64, .f32⟩ : BufTy).Contents (Elt F))
  :: unary main_arg10 main_v408 ((extractStridedSlice S1x1x64x64 ![1, 3, 0, 0] · slices_S3x4x64x64_S1x1x64x64_1_3_0_0) : (⟨S3x4x64x64, .f32⟩ : BufTy).Contents (Elt F) → (⟨S1x1x64x64, .f32⟩ : BufTy).Contents (Elt F))
  :: reshape main_v408 main_v409 rfl shapeCasts_S1x1x64x64_S64x64
  :: unary main_arg11 main_v410 ((extractStridedSlice S1x1x64 ![1, 3, 0] · slices_S3x4x64_S1x1x64_1_3_0) : (⟨S3x4x64, .f32⟩ : BufTy).Contents (Elt F) → (⟨S1x1x64, .f32⟩ : BufTy).Contents (Elt F))
  :: reshape main_v410 main_v411 rfl shapeCasts_S1x1x64_S64
  :: unary main_arg5 main_v412 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v412 main_v413 rfl shapeCasts_S1x1000000_S1000000
  :: unary main_arg5 main_v414 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v414 main_v415 rfl shapeCasts_S1x1000000_S1000000
  :: nullary main_cst_99 (constant S_ .f32 0x3F800000#32)
  :: unary main_cst_99 main_v416 (broadcastInDim S1000000 ![] bcast_S_S1000000 : (⟨S_, .f32⟩ : BufTy).Contents (Elt F) → (⟨S1000000, .f32⟩ : BufTy).Contents (Elt F))
  :: nullary main_cst_100 (constant S_ .f32 0x00000000#32)
  :: unary main_cst_100 main_v417 (broadcastInDim S200000 ![] bcast_S_S200000 : (⟨S_, .f32⟩ : BufTy).Contents (Elt F) → (⟨S200000, .f32⟩ : BufTy).Contents (Elt F))
  :: unary main_v413 main_v418 (broadcastInDim S1000000x1 ![0] bcast_S1000000_S1000000x1_0 : (⟨S1000000, .i32⟩ : BufTy).Contents (Elt F) → (⟨S1000000x1, .i32⟩ : BufTy).Contents (Elt F))
  :: ternary main_v417 main_v418 main_v416 main_v419 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: nullary main_cst_101 (constant S_ .f32 0x3F800000#32)
  :: unary main_cst_101 main_v420 (broadcastInDim S1000000 ![] bcast_S_S1000000 : (⟨S_, .f32⟩ : BufTy).Contents (Elt F) → (⟨S1000000, .f32⟩ : BufTy).Contents (Elt F))
  :: nullary main_cst_102 (constant S_ .f32 0x00000000#32)
  :: unary main_cst_102 main_v421 (broadcastInDim S100000 ![] bcast_S_S100000 : (⟨S_, .f32⟩ : BufTy).Contents (Elt F) → (⟨S100000, .f32⟩ : BufTy).Contents (Elt F))
  :: unary main_v415 main_v422 (broadcastInDim S1000000x1 ![0] bcast_S1000000_S1000000x1_0 : (⟨S1000000, .i32⟩ : BufTy).Contents (Elt F) → (⟨S1000000x1, .i32⟩ : BufTy).Contents (Elt F))
  :: ternary main_v421 main_v422 main_v420 main_v423 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F))
  :: nullary main_cst_103 (constant S_ .f32 0x00000000#32)
  :: unary main_cst_103 main_v424 (broadcastInDim S200000 ![] bcast_S_S200000 : (⟨S_, .f32⟩ : BufTy).Contents (Elt F) → (⟨S200000, .f32⟩ : BufTy).Contents (Elt F))
  :: binary main_v419 main_v424 main_v425 (cmpf .ogt : (⟨S200000, .f32⟩ : BufTy).Contents (Elt F) → (⟨S200000, .f32⟩ : BufTy).Contents (Elt F) → (⟨S200000, .i1⟩ : BufTy).Contents (Elt F))
  :: nullary main_cst_104 (constant S_ .f32 0x3F800000#32)
  :: unary main_cst_104 main_v426 (broadcastInDim S200000 ![] bcast_S_S200000 : (⟨S_, .f32⟩ : BufTy).Contents (Elt F) → (⟨S200000, .f32⟩ : BufTy).Contents (Elt F))
  :: binary main_v419 main_v426 main_v427 (maximumf : (⟨S200000, .f32⟩ : BufTy).Contents (Elt F) → (⟨S200000, .f32⟩ : BufTy).Contents (Elt F) → (⟨S200000, .f32⟩ : BufTy).Contents (Elt F))
  :: unary main_v427 main_v428 (Host.rsqrt : (⟨S200000, .f32⟩ : BufTy).Contents (Elt F) → (⟨S200000, .f32⟩ : BufTy).Contents (Elt F))
  :: nullary main_cst_105 (constant S_ .f32 0x00000000#32)
  :: TRef.unary (TRef.of (T := ⟨S_, .f32⟩) main_cst_105) (TRef.of (T := ⟨S_, .f32⟩) main_call12_v0) id
  :: TRef.unary (TRef.of (T := ⟨S_, .f32⟩) main_call12_v0) (TRef.of (T := ⟨S200000, .f32⟩) main_call12_v1) (broadcastInDim S200000 ![] bcast_S_S200000)
  :: TRef.ternary (TRef.of (T := ⟨S200000, .i1⟩) main_v425) (TRef.of (T := ⟨S200000, .f32⟩) main_v428) (TRef.of (T := ⟨S200000, .f32⟩) main_call12_v1) (TRef.of (T := ⟨S200000, .f32⟩) main_v429) select
  :: nullary main_cst_106 (constant S_ .f32 0x00000000#32)
  :: unary main_cst_106 main_v430 (broadcastInDim S100000 ![] bcast_S_S100000 : (⟨S_, .f32⟩ : BufTy).Contents (Elt F) → (⟨S100000, .f32⟩ : BufTy).Contents (Elt F))
  :: [] )

set_option maxHeartbeats 40000000 in
theorem part8_eq (c : Dev nD) : main_part8 (F := F) c = seq ops8 := rfl

set_option maxHeartbeats 4000000 in
theorem ops8_fresh : (ops8 : List (HloOp τ sig (Elt F))).Forall fun op => op.fresh = ∅ := by
  simp only [List.Forall]; repeat' constructor

/-- The references part 8's operations write. -/
abbrev ops8_W : List (Ref sig .tc) := [main_v383, main_v384, main_c_95, main_v385, main_v386, main_v387, main_v388, main_v389, main_v390, main_v391, main_c_96, main_v392, main_v393, main_c_97, main_v394, main_v395, main_v396, main_v397, main_v398, main_v399, main_v400, main_v401, main_cst_98, main_v402, main_v403, main_v404, main_v405, main_v406, main_v407, main_v408, main_v409, main_v410, main_v411, main_v412, main_v413, main_v414, main_v415, main_cst_99, main_v416, main_cst_100, main_v417, main_v418, main_v419, main_cst_101, main_v420, main_cst_102, main_v421, main_v422, main_v423, main_cst_103, main_v424, main_v425, main_cst_104, main_v426, main_v427, main_v428, main_cst_105, main_call12_v0, main_call12_v1, main_v429, main_cst_106, main_v430]

set_option maxHeartbeats 4000000 in
theorem ops8_writes : (ops8 : List (HloOp τ sig (Elt F))).Forall fun op => op.writes ⊆ (ops8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops8_sub : (ops8 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub ..⟩

set_option maxHeartbeats 4000000 in
/-- The operations of @main's part 9, in order. -/
abbrev ops9 : List (HloOp τ sig (Elt F)) :=
  ( binary main_v423 main_v430 main_v431 (cmpf .ogt : (⟨S100000, .f32⟩ : BufTy).Contents (Elt F) → (⟨S100000, .f32⟩ : BufTy).Contents (Elt F) → (⟨S100000, .i1⟩ : BufTy).Contents (Elt F))
  :: nullary main_cst_107 (constant S_ .f32 0x3F800000#32)
  :: unary main_cst_107 main_v432 (broadcastInDim S100000 ![] bcast_S_S100000 : (⟨S_, .f32⟩ : BufTy).Contents (Elt F) → (⟨S100000, .f32⟩ : BufTy).Contents (Elt F))
  :: binary main_v423 main_v432 main_v433 (maximumf : (⟨S100000, .f32⟩ : BufTy).Contents (Elt F) → (⟨S100000, .f32⟩ : BufTy).Contents (Elt F) → (⟨S100000, .f32⟩ : BufTy).Contents (Elt F))
  :: unary main_v433 main_v434 (Host.rsqrt : (⟨S100000, .f32⟩ : BufTy).Contents (Elt F) → (⟨S100000, .f32⟩ : BufTy).Contents (Elt F))
  :: nullary main_cst_108 (constant S_ .f32 0x00000000#32)
  :: TRef.unary (TRef.of (T := ⟨S_, .f32⟩) main_cst_108) (TRef.of (T := ⟨S_, .f32⟩) main_call13_v0) id
  :: TRef.unary (TRef.of (T := ⟨S_, .f32⟩) main_call13_v0) (TRef.of (T := ⟨S100000, .f32⟩) main_call13_v1) (broadcastInDim S100000 ![] bcast_S_S100000)
  :: TRef.ternary (TRef.of (T := ⟨S100000, .i1⟩) main_v431) (TRef.of (T := ⟨S100000, .f32⟩) main_v434) (TRef.of (T := ⟨S100000, .f32⟩) main_call13_v1) (TRef.of (T := ⟨S100000, .f32⟩) main_v435) select
  :: nullary main_c_109 (constantI S_ 32 0#32)
  :: unary main_c_109 main_v436 (broadcastInDim S1000000 ![] bcast_S_S1000000 : (⟨S_, .i32⟩ : BufTy).Contents (Elt F) → (⟨S1000000, .i32⟩ : BufTy).Contents (Elt F))
  :: binary main_v413 main_v436 main_v437 (cmpi .slt : (⟨S1000000, .i32⟩ : BufTy).Contents (Elt F) → (⟨S1000000, .i32⟩ : BufTy).Contents (Elt F) → (⟨S1000000, .i1⟩ : BufTy).Contents (Elt F))
  :: nullary main_c_110 (constantI S_ 32 200000#32)
  :: unary main_c_110 main_v438 (broadcastInDim S1000000 ![] bcast_S_S1000000 : (⟨S_, .i32⟩ : BufTy).Contents (Elt F) → (⟨S1000000, .i32⟩ : BufTy).Contents (Elt F))
  :: binary main_v413 main_v438 main_v439 (addi : (⟨S1000000, .i32⟩ : BufTy).Contents (Elt F) → (⟨S1000000, .i32⟩ : BufTy).Contents (Elt F) → (⟨S1000000, .i32⟩ : BufTy).Contents (Elt F))
  :: ternary main_v437 main_v439 main_v413 main_v440 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v440 main_v441 (broadcastInDim S1000000x1 ![0] bcast_S1000000_S1000000x1_0 : (⟨S1000000, .i32⟩ : BufTy).Contents (Elt F) → (⟨S1000000x1, .i32⟩ : BufTy).Contents (Elt F))
  :: binary main_v429 main_v441 main_v442 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: nullary main_c_111 (constantI S_ 32 0#32)
  :: unary main_c_111 main_v443 (broadcastInDim S1000000 ![] bcast_S_S1000000 : (⟨S_, .i32⟩ : BufTy).Contents (Elt F) → (⟨S1000000, .i32⟩ : BufTy).Contents (Elt F))
  :: binary main_v415 main_v443 main_v444 (cmpi .slt : (⟨S1000000, .i32⟩ : BufTy).Contents (Elt F) → (⟨S1000000, .i32⟩ : BufTy).Contents (Elt F) → (⟨S1000000, .i1⟩ : BufTy).Contents (Elt F))
  :: nullary main_c_112 (constantI S_ 32 100000#32)
  :: unary main_c_112 main_v445 (broadcastInDim S1000000 ![] bcast_S_S1000000 : (⟨S_, .i32⟩ : BufTy).Contents (Elt F) → (⟨S1000000, .i32⟩ : BufTy).Contents (Elt F))
  :: binary main_v415 main_v445 main_v446 (addi : (⟨S1000000, .i32⟩ : BufTy).Contents (Elt F) → (⟨S1000000, .i32⟩ : BufTy).Contents (Elt F) → (⟨S1000000, .i32⟩ : BufTy).Contents (Elt F))
  :: ternary main_v444 main_v446 main_v415 main_v447 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v447 main_v448 (broadcastInDim S1000000x1 ![0] bcast_S1000000_S1000000x1_0 : (⟨S1000000, .i32⟩ : BufTy).Contents (Elt F) → (⟨S1000000x1, .i32⟩ : BufTy).Contents (Elt F))
  :: binary main_v435 main_v448 main_v449 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F))
  :: binary main_v442 main_v449 main_v450 (mulf : (⟨S1000000, .f32⟩ : BufTy).Contents (Elt F) → (⟨S1000000, .f32⟩ : BufTy).Contents (Elt F) → (⟨S1000000, .f32⟩ : BufTy).Contents (Elt F))
  :: binary main_v241 main_v409 main_v451 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F))
  :: nullary main_c_113 (constantI S_ 32 0#32)
  :: unary main_c_113 main_v452 (broadcastInDim S1000000 ![] bcast_S_S1000000 : (⟨S_, .i32⟩ : BufTy).Contents (Elt F) → (⟨S1000000, .i32⟩ : BufTy).Contents (Elt F))
  :: binary main_v413 main_v452 main_v453 (cmpi .slt : (⟨S1000000, .i32⟩ : BufTy).Contents (Elt F) → (⟨S1000000, .i32⟩ : BufTy).Contents (Elt F) → (⟨S1000000, .i1⟩ : BufTy).Contents (Elt F))
  :: nullary main_c_114 (constantI S_ 32 200000#32)
  :: unary main_c_114 main_v454 (broadcastInDim S1000000 ![] bcast_S_S1000000 : (⟨S_, .i32⟩ : BufTy).Contents (Elt F) → (⟨S1000000, .i32⟩ : BufTy).Contents (Elt F))
  :: binary main_v413 main_v454 main_v455 (addi : (⟨S1000000, .i32⟩ : BufTy).Contents (Elt F) → (⟨S1000000, .i32⟩ : BufTy).Contents (Elt F) → (⟨S1000000, .i32⟩ : BufTy).Contents (Elt F))
  :: ternary main_v453 main_v455 main_v413 main_v456 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v456 main_v457 (broadcastInDim S1000000x1 ![0] bcast_S1000000_S1000000x1_0 : (⟨S1000000, .i32⟩ : BufTy).Contents (Elt F) → (⟨S1000000x1, .i32⟩ : BufTy).Contents (Elt F))
  :: binary main_v451 main_v457 main_v458 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F))
  :: unary main_v450 main_v459 (broadcastInDim S1000000x1 ![0] bcast_S1000000_S1000000x1_0 : (⟨S1000000, .f32⟩ : BufTy).Contents (Elt F) → (⟨S1000000x1, .f32⟩ : BufTy).Contents (Elt F))
  :: unary main_v459 main_v460 (broadcastInDim S1000000x64 ![0, 1] bcast_S1000000x1_S1000000x64_0_1 : (⟨S1000000x1, .f32⟩ : BufTy).Contents (Elt F) → (⟨S1000000x64, .f32⟩ : BufTy).Contents (Elt F))
  :: binary main_v458 main_v460 main_v461 (mulf : (⟨S1000000x64, .f32⟩ : BufTy).Contents (Elt F) → (⟨S1000000x64, .f32⟩ : BufTy).Contents (Elt F) → (⟨S1000000x64, .f32⟩ : BufTy).Contents (Elt F))
  :: nullary main_cst_115 (constant S_ .f32 0x00000000#32)
  :: unary main_cst_115 main_v462 (broadcastInDim S100000x64 ![] bcast_S_S100000x64 : (⟨S_, .f32⟩ : BufTy).Contents (Elt F) → (⟨S100000x64, .f32⟩ : BufTy).Contents (Elt F))
  :: unary main_v415 main_v463 (broadcastInDim S1000000x1 ![0] bcast_S1000000_S1000000x1_0 : (⟨S1000000, .i32⟩ : BufTy).Contents (Elt F) → (⟨S1000000x1, .i32⟩ : BufTy).Contents (Elt F))
  :: ternary main_v462 main_v463 main_v461 main_v464 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F))
  :: unary main_v411 main_v465 (broadcastInDim S1x64 ![1] bcast_S64_S1x64_1 : (⟨S64, .f32⟩ : BufTy).Contents (Elt F) → (⟨S1x64, .f32⟩ : BufTy).Contents (Elt F))
  :: unary main_v465 main_v466 (broadcastInDim S100000x64 ![0, 1] bcast_S1x64_S100000x64_0_1 : (⟨S1x64, .f32⟩ : BufTy).Contents (Elt F) → (⟨S100000x64, .f32⟩ : BufTy).Contents (Elt F))
  :: binary main_v464 main_v466 main_v467 (addf : (⟨S100000x64, .f32⟩ : BufTy).Contents (Elt F) → (⟨S100000x64, .f32⟩ : BufTy).Contents (Elt F) → (⟨S100000x64, .f32⟩ : BufTy).Contents (Elt F))
  :: binary main_v294 main_v467 main_v468 (addf : (⟨S100000x64, .f32⟩ : BufTy).Contents (Elt F) → (⟨S100000x64, .f32⟩ : BufTy).Contents (Elt F) → (⟨S100000x64, .f32⟩ : BufTy).Contents (Elt F))
  :: nullary main_cst_116 (constant S_ .f32 0x3F000000#32)
  :: unary main_cst_116 main_v469 (broadcastInDim S100000x64 ![] bcast_S_S100000x64 : (⟨S_, .f32⟩ : BufTy).Contents (Elt F) → (⟨S100000x64, .f32⟩ : BufTy).Contents (Elt F))
  :: binary main_v468 main_v469 main_v470 (mulf : (⟨S100000x64, .f32⟩ : BufTy).Contents (Elt F) → (⟨S100000x64, .f32⟩ : BufTy).Contents (Elt F) → (⟨S100000x64, .f32⟩ : BufTy).Contents (Elt F))
  :: TRef.nullary (TRef.of (T := ⟨S_, .f32⟩) main_call14_cst) (constant S_ .f32 0x00000000#32)
  :: TRef.unary (TRef.of (T := ⟨S_, .f32⟩) main_call14_cst) (TRef.of (T := ⟨S100000x64, .f32⟩) main_call14_v0) (broadcastInDim S100000x64 ![] bcast_S_S100000x64)
  :: TRef.binary (TRef.of (T := ⟨S100000x64, .f32⟩) main_v470) (TRef.of (T := ⟨S100000x64, .f32⟩) main_call14_v0) (TRef.of (T := ⟨S100000x64, .f32⟩) main_v471) maximumf
  :: binary main_v347 main_v407 main_v472 (addf : (⟨S200000x64, .f32⟩ : BufTy).Contents (Elt F) → (⟨S200000x64, .f32⟩ : BufTy).Contents (Elt F) → (⟨S200000x64, .f32⟩ : BufTy).Contents (Elt F))
  :: nullary main_cst_117 (constant S_ .f32 0x3F000000#32)
  :: unary main_cst_117 main_v473 (broadcastInDim S200000x64 ![] bcast_S_S200000x64 : (⟨S_, .f32⟩ : BufTy).Contents (Elt F) → (⟨S200000x64, .f32⟩ : BufTy).Contents (Elt F))
  :: binary main_v472 main_v473 main_v474 (mulf : (⟨S200000x64, .f32⟩ : BufTy).Contents (Elt F) → (⟨S200000x64, .f32⟩ : BufTy).Contents (Elt F) → (⟨S200000x64, .f32⟩ : BufTy).Contents (Elt F))
  :: TRef.nullary (TRef.of (T := ⟨S_, .f32⟩) main_call15_cst) (constant S_ .f32 0x00000000#32)
  :: TRef.unary (TRef.of (T := ⟨S_, .f32⟩) main_call15_cst) (TRef.of (T := ⟨S200000x64, .f32⟩) main_call15_v0) (broadcastInDim S200000x64 ![] bcast_S_S200000x64)
  :: TRef.binary (TRef.of (T := ⟨S200000x64, .f32⟩) main_v474) (TRef.of (T := ⟨S200000x64, .f32⟩) main_call15_v0) (TRef.of (T := ⟨S200000x64, .f32⟩) main_v475) maximumf
  :: unary main_arg10 main_v476 ((extractStridedSlice S1x1x64x64 ![2, 0, 0, 0] · slices_S3x4x64x64_S1x1x64x64_2_0_0_0) : (⟨S3x4x64x64, .f32⟩ : BufTy).Contents (Elt F) → (⟨S1x1x64x64, .f32⟩ : BufTy).Contents (Elt F))
  :: reshape main_v476 main_v477 rfl shapeCasts_S1x1x64x64_S64x64
  :: unary main_arg11 main_v478 ((extractStridedSlice S1x1x64 ![2, 0, 0] · slices_S3x4x64_S1x1x64_2_0_0) : (⟨S3x4x64, .f32⟩ : BufTy).Contents (Elt F) → (⟨S1x1x64, .f32⟩ : BufTy).Contents (Elt F))
  :: reshape main_v478 main_v479 rfl shapeCasts_S1x1x64_S64
  :: [] )

set_option maxHeartbeats 40000000 in
theorem part9_eq (c : Dev nD) : main_part9 (F := F) c = seq ops9 := rfl

set_option maxHeartbeats 4000000 in
theorem ops9_fresh : (ops9 : List (HloOp τ sig (Elt F))).Forall fun op => op.fresh = ∅ := by
  simp only [List.Forall]; repeat' constructor

/-- The references part 9's operations write. -/
abbrev ops9_W : List (Ref sig .tc) := [main_v431, main_cst_107, main_v432, main_v433, main_v434, main_cst_108, main_call13_v0, main_call13_v1, main_v435, main_c_109, main_v436, main_v437, main_c_110, main_v438, main_v439, main_v440, main_v441, main_v442, main_c_111, main_v443, main_v444, main_c_112, main_v445, main_v446, main_v447, main_v448, main_v449, main_v450, main_v451, main_c_113, main_v452, main_v453, main_c_114, main_v454, main_v455, main_v456, main_v457, main_v458, main_v459, main_v460, main_v461, main_cst_115, main_v462, main_v463, main_v464, main_v465, main_v466, main_v467, main_v468, main_cst_116, main_v469, main_v470, main_call14_cst, main_call14_v0, main_v471, main_v472, main_cst_117, main_v473, main_v474, main_call15_cst, main_call15_v0, main_v475, main_v476, main_v477, main_v478, main_v479]

set_option maxHeartbeats 4000000 in
theorem ops9_writes : (ops9 : List (HloOp τ sig (Elt F))).Forall fun op => op.writes ⊆ (ops9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops9_sub : (ops9 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub ..⟩

set_option maxHeartbeats 4000000 in
/-- The operations of @main's part 10, in order. -/
abbrev ops10 : List (HloOp τ sig (Elt F)) :=
  ( unary main_arg2 main_v480 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v480 main_v481 rfl shapeCasts_S1x1000000_S1000000
  :: unary main_arg2 main_v482 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v482 main_v483 rfl shapeCasts_S1x1000000_S1000000
  :: nullary main_v484 (iotaInDim S100000 32 0)
  :: binary main_v481 main_v484 main_v485 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F))
  :: binary main_v483 main_v484 main_v486 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F))
  :: nullary main_cst_118 (constant S_ .f32 0x3F800000#32)
  :: unary main_cst_118 main_v487 (broadcastInDim S1100000 ![] bcast_S_S1100000 : (⟨S_, .f32⟩ : BufTy).Contents (Elt F) → (⟨S1100000, .f32⟩ : BufTy).Contents (Elt F))
  :: nullary main_cst_119 (constant S_ .f32 0x00000000#32)
  :: unary main_cst_119 main_v488 (broadcastInDim S100000 ![] bcast_S_S100000 : (⟨S_, .f32⟩ : BufTy).Contents (Elt F) → (⟨S100000, .f32⟩ : BufTy).Contents (Elt F))
  :: unary main_v486 main_v489 (broadcastInDim S1100000x1 ![0] bcast_S1100000_S1100000x1_0 : (⟨S1100000, .i32⟩ : BufTy).Contents (Elt F) → (⟨S1100000x1, .i32⟩ : BufTy).Contents (Elt F))
  :: ternary main_v488 main_v489 main_v487 main_v490 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F))
  :: nullary main_cst_120 (constant S_ .f32 0x00000000#32)
  :: unary main_cst_120 main_v491 (broadcastInDim S100000 ![] bcast_S_S100000 : (⟨S_, .f32⟩ : BufTy).Contents (Elt F) → (⟨S100000, .f32⟩ : BufTy).Contents (Elt F))
  :: binary main_v490 main_v491 main_v492 (cmpf .ogt : (⟨S100000, .f32⟩ : BufTy).Contents (Elt F) → (⟨S100000, .f32⟩ : BufTy).Contents (Elt F) → (⟨S100000, .i1⟩ : BufTy).Contents (Elt F))
  :: nullary main_cst_121 (constant S_ .f32 0x3F800000#32)
  :: unary main_cst_121 main_v493 (broadcastInDim S100000 ![] bcast_S_S100000 : (⟨S_, .f32⟩ : BufTy).Contents (Elt F) → (⟨S100000, .f32⟩ : BufTy).Contents (Elt F))
  :: binary main_v490 main_v493 main_v494 (maximumf : (⟨S100000, .f32⟩ : BufTy).Contents (Elt F) → (⟨S100000, .f32⟩ : BufTy).Contents (Elt F) → (⟨S100000, .f32⟩ : BufTy).Contents (Elt F))
  :: unary main_v494 main_v495 (Host.rsqrt : (⟨S100000, .f32⟩ : BufTy).Contents (Elt F) → (⟨S100000, .f32⟩ : BufTy).Contents (Elt F))
  :: nullary main_cst_122 (constant S_ .f32 0x00000000#32)
  :: TRef.unary (TRef.of (T := ⟨S_, .f32⟩) main_cst_122) (TRef.of (T := ⟨S_, .f32⟩) main_call16_v0) id
  :: TRef.unary (TRef.of (T := ⟨S_, .f32⟩) main_call16_v0) (TRef.of (T := ⟨S100000, .f32⟩) main_call16_v1) (broadcastInDim S100000 ![] bcast_S_S100000)
  :: TRef.ternary (TRef.of (T := ⟨S100000, .i1⟩) main_v492) (TRef.of (T := ⟨S100000, .f32⟩) main_v495) (TRef.of (T := ⟨S100000, .f32⟩) main_call16_v1) (TRef.of (T := ⟨S100000, .f32⟩) main_v496) select
  :: nullary main_c_123 (constantI S_ 32 0#32)
  :: unary main_c_123 main_v497 (broadcastInDim S1100000 ![] bcast_S_S1100000 : (⟨S_, .i32⟩ : BufTy).Contents (Elt F) → (⟨S1100000, .i32⟩ : BufTy).Contents (Elt F))
  :: binary main_v485 main_v497 main_v498 (cmpi .slt : (⟨S1100000, .i32⟩ : BufTy).Contents (Elt F) → (⟨S1100000, .i32⟩ : BufTy).Contents (Elt F) → (⟨S1100000, .i1⟩ : BufTy).Contents (Elt F))
  :: nullary main_c_124 (constantI S_ 32 100000#32)
  :: unary main_c_124 main_v499 (broadcastInDim S1100000 ![] bcast_S_S1100000 : (⟨S_, .i32⟩ : BufTy).Contents (Elt F) → (⟨S1100000, .i32⟩ : BufTy).Contents (Elt F))
  :: binary main_v485 main_v499 main_v500 (addi : (⟨S1100000, .i32⟩ : BufTy).Contents (Elt F) → (⟨S1100000, .i32⟩ : BufTy).Contents (Elt F) → (⟨S1100000, .i32⟩ : BufTy).Contents (Elt F))
  :: ternary main_v498 main_v500 main_v485 main_v501 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v501 main_v502 (broadcastInDim S1100000x1 ![0] bcast_S1100000_S1100000x1_0 : (⟨S1100000, .i32⟩ : BufTy).Contents (Elt F) → (⟨S1100000x1, .i32⟩ : BufTy).Contents (Elt F))
  :: binary main_v496 main_v502 main_v503 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F))
  :: nullary main_c_125 (constantI S_ 32 0#32)
  :: unary main_c_125 main_v504 (broadcastInDim S1100000 ![] bcast_S_S1100000 : (⟨S_, .i32⟩ : BufTy).Contents (Elt F) → (⟨S1100000, .i32⟩ : BufTy).Contents (Elt F))
  :: binary main_v486 main_v504 main_v505 (cmpi .slt : (⟨S1100000, .i32⟩ : BufTy).Contents (Elt F) → (⟨S1100000, .i32⟩ : BufTy).Contents (Elt F) → (⟨S1100000, .i1⟩ : BufTy).Contents (Elt F))
  :: nullary main_c_126 (constantI S_ 32 100000#32)
  :: unary main_c_126 main_v506 (broadcastInDim S1100000 ![] bcast_S_S1100000 : (⟨S_, .i32⟩ : BufTy).Contents (Elt F) → (⟨S1100000, .i32⟩ : BufTy).Contents (Elt F))
  :: binary main_v486 main_v506 main_v507 (addi : (⟨S1100000, .i32⟩ : BufTy).Contents (Elt F) → (⟨S1100000, .i32⟩ : BufTy).Contents (Elt F) → (⟨S1100000, .i32⟩ : BufTy).Contents (Elt F))
  :: ternary main_v505 main_v507 main_v486 main_v508 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v508 main_v509 (broadcastInDim S1100000x1 ![0] bcast_S1100000_S1100000x1_0 : (⟨S1100000, .i32⟩ : BufTy).Contents (Elt F) → (⟨S1100000x1, .i32⟩ : BufTy).Contents (Elt F))
  :: binary main_v496 main_v509 main_v510 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F))
  :: binary main_v503 main_v510 main_v511 (mulf : (⟨S1100000, .f32⟩ : BufTy).Contents (Elt F) → (⟨S1100000, .f32⟩ : BufTy).Contents (Elt F) → (⟨S1100000, .f32⟩ : BufTy).Contents (Elt F))
  :: binary main_v471 main_v477 main_v512 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: nullary main_c_127 (constantI S_ 32 0#32)
  :: unary main_c_127 main_v513 (broadcastInDim S1100000 ![] bcast_S_S1100000 : (⟨S_, .i32⟩ : BufTy).Contents (Elt F) → (⟨S1100000, .i32⟩ : BufTy).Contents (Elt F))
  :: binary main_v485 main_v513 main_v514 (cmpi .slt : (⟨S1100000, .i32⟩ : BufTy).Contents (Elt F) → (⟨S1100000, .i32⟩ : BufTy).Contents (Elt F) → (⟨S1100000, .i1⟩ : BufTy).Contents (Elt F))
  :: nullary main_c_128 (constantI S_ 32 100000#32)
  :: unary main_c_128 main_v515 (broadcastInDim S1100000 ![] bcast_S_S1100000 : (⟨S_, .i32⟩ : BufTy).Contents (Elt F) → (⟨S1100000, .i32⟩ : BufTy).Contents (Elt F))
  :: binary main_v485 main_v515 main_v516 (addi : (⟨S1100000, .i32⟩ : BufTy).Contents (Elt F) → (⟨S1100000, .i32⟩ : BufTy).Contents (Elt F) → (⟨S1100000, .i32⟩ : BufTy).Contents (Elt F))
  :: ternary main_v514 main_v516 main_v485 main_v517 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F))
  :: unary main_v517 main_v518 (broadcastInDim S1100000x1 ![0] bcast_S1100000_S1100000x1_0 : (⟨S1100000, .i32⟩ : BufTy).Contents (Elt F) → (⟨S1100000x1, .i32⟩ : BufTy).Contents (Elt F))
  :: binary main_v512 main_v518 main_v519 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F))
  :: unary main_v511 main_v520 (broadcastInDim S1100000x1 ![0] bcast_S1100000_S1100000x1_0 : (⟨S1100000, .f32⟩ : BufTy).Contents (Elt F) → (⟨S1100000x1, .f32⟩ : BufTy).Contents (Elt F))
  :: unary main_v520 main_v521 (broadcastInDim S1100000x64 ![0, 1] bcast_S1100000x1_S1100000x64_0_1 : (⟨S1100000x1, .f32⟩ : BufTy).Contents (Elt F) → (⟨S1100000x64, .f32⟩ : BufTy).Contents (Elt F))
  :: binary main_v519 main_v521 main_v522 (mulf : (⟨S1100000x64, .f32⟩ : BufTy).Contents (Elt F) → (⟨S1100000x64, .f32⟩ : BufTy).Contents (Elt F) → (⟨S1100000x64, .f32⟩ : BufTy).Contents (Elt F))
  :: nullary main_cst_129 (constant S_ .f32 0x00000000#32)
  :: unary main_cst_129 main_v523 (broadcastInDim S100000x64 ![] bcast_S_S100000x64 : (⟨S_, .f32⟩ : BufTy).Contents (Elt F) → (⟨S100000x64, .f32⟩ : BufTy).Contents (Elt F))
  :: unary main_v486 main_v524 (broadcastInDim S1100000x1 ![0] bcast_S1100000_S1100000x1_0 : (⟨S1100000, .i32⟩ : BufTy).Contents (Elt F) → (⟨S1100000x1, .i32⟩ : BufTy).Contents (Elt F))
  :: ternary main_v523 main_v524 main_v522 main_v525 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F))
  :: unary main_v479 main_v526 (broadcastInDim S1x64 ![1] bcast_S64_S1x64_1 : (⟨S64, .f32⟩ : BufTy).Contents (Elt F) → (⟨S1x64, .f32⟩ : BufTy).Contents (Elt F))
  :: unary main_v526 main_v527 (broadcastInDim S100000x64 ![0, 1] bcast_S1x64_S100000x64_0_1 : (⟨S1x64, .f32⟩ : BufTy).Contents (Elt F) → (⟨S100000x64, .f32⟩ : BufTy).Contents (Elt F))
  :: [] )

set_option maxHeartbeats 40000000 in
theorem part10_eq (c : Dev nD) : main_part10 (F := F) c = seq ops10 := rfl

set_option maxHeartbeats 4000000 in
theorem ops10_fresh : (ops10 : List (HloOp τ sig (Elt F))).Forall fun op => op.fresh = ∅ := by
  simp only [List.Forall]; repeat' constructor

/-- The references part 10's operations write. -/
abbrev ops10_W : List (Ref sig .tc) := [main_v480, main_v481, main_v482, main_v483, main_v484, main_v485, main_v486, main_cst_118, main_v487, main_cst_119, main_v488, main_v489, main_v490, main_cst_120, main_v491, main_v492, main_cst_121, main_v493, main_v494, main_v495, main_cst_122, main_call16_v0, main_call16_v1, main_v496, main_c_123, main_v497, main_v498, main_c_124, main_v499, main_v500, main_v501, main_v502, main_v503, main_c_125, main_v504, main_v505, main_c_126, main_v506, main_v507, main_v508, main_v509, main_v510, main_v511, main_v512, main_c_127, main_v513, main_v514, main_c_128, main_v515, main_v516, main_v517, main_v518, main_v519, main_v520, main_v521, main_v522, main_cst_129, main_v523, main_v524, main_v525, main_v526, main_v527]

set_option maxHeartbeats 4000000 in
theorem ops10_writes : (ops10 : List (HloOp τ sig (Elt F))).Forall fun op => op.writes ⊆ (ops10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops10_sub : (ops10 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩

set_option maxHeartbeats 4000000 in
/-- The operations of @main's part 11, in order. -/
abbrev ops11 : List (HloOp τ sig (Elt F)) :=
  ( binary main_v525 main_v527 main_v528 (addf : (⟨S100000x64, .f32⟩ : BufTy).Contents (Elt F) → (⟨S100000x64, .f32⟩ : BufTy).Contents (Elt F) → (⟨S100000x64, .f32⟩ : BufTy).Contents (Elt F))
  :: unary main_arg10 main_v529 ((extractStridedSlice S1x1x64x64 ![2, 1, 0, 0] · slices_S3x4x64x64_S1x1x64x64_2_1_0_0) : (⟨S3x4x64x64, .f32⟩ : BufTy).Contents (Elt F) → (⟨S1x1x64x64, .f32⟩ : BufTy).Contents (Elt F))
  :: reshape main_v529 main_v530 rfl shapeCasts_S1x1x64x64_S64x64
  :: unary main_arg11 main_v531 ((extractStridedSlice S1x1x64 ![2, 1, 0] · slices_S3x4x64_S1x1x64_2_1_0) : (⟨S3x4x64, .f32⟩ : BufTy).Contents (Elt F) → (⟨S1x1x64, .f32⟩ : BufTy).Contents (Elt F))
  :: reshape main_v531 main_v532 rfl shapeCasts_S1x1x64_S64
  :: unary main_arg3 main_v533 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v533 main_v534 rfl shapeCasts_S1x1000000_S1000000
  :: unary main_arg3 main_v535 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v535 main_v536 rfl shapeCasts_S1x1000000_S1000000
  :: nullary main_v537 (iotaInDim S200000 32 0)
  :: binary main_v534 main_v537 main_v538 ((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F))
  :: binary main_v536 main_v537 main_v539 ((fun a b => concatenate S1200000 0 [⟨S1000000, a⟩, ⟨S200000, b⟩] concatenates_S1000000_S200000_S1200000_d0) : (⟨S1000000, .i32⟩ : BufTy).Contents (Elt F) → (⟨S200000, .i32⟩ : BufTy).Contents (Elt F) → (⟨S1200000, .i32⟩ : BufTy).Contents (Elt F))
  :: nullary main_cst_130 (constant S_ .f32 0x3F800000#32)
  :: unary main_cst_130 main_v540 (broadcastInDim S1200000 ![] bcast_S_S1200000 : (⟨S_, .f32⟩ : BufTy).Contents (Elt F) → (⟨S1200000, .f32⟩ : BufTy).Contents (Elt F))
  :: nullary main_cst_131 (constant S_ .f32 0x00000000#32)
  :: unary main_cst_131 main_v541 (broadcastInDim S200000 ![] bcast_S_S200000 : (⟨S_, .f32⟩ : BufTy).Contents (Elt F) → (⟨S200000, .f32⟩ : BufTy).Contents (Elt F))
  :: unary main_v539 main_v542 (broadcastInDim S1200000x1 ![0] bcast_S1200000_S1200000x1_0 : (⟨S1200000, .i32⟩ : BufTy).Contents (Elt F) → (⟨S1200000x1, .i32⟩ : BufTy).Contents (Elt F))
  :: ternary main_v541 main_v542 main_v540 main_v543 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F))
  :: nullary main_cst_132 (constant S_ .f32 0x00000000#32)
  :: unary main_cst_132 main_v544 (broadcastInDim S200000 ![] bcast_S_S200000 : (⟨S_, .f32⟩ : BufTy).Contents (Elt F) → (⟨S200000, .f32⟩ : BufTy).Contents (Elt F))
  :: binary main_v543 main_v544 main_v545 (cmpf .ogt : (⟨S200000, .f32⟩ : BufTy).Contents (Elt F) → (⟨S200000, .f32⟩ : BufTy).Contents (Elt F) → (⟨S200000, .i1⟩ : BufTy).Contents (Elt F))
  :: nullary main_cst_133 (constant S_ .f32 0x3F800000#32)
  :: unary main_cst_133 main_v546 (broadcastInDim S200000 ![] bcast_S_S200000 : (⟨S_, .f32⟩ : BufTy).Contents (Elt F) → (⟨S200000, .f32⟩ : BufTy).Contents (Elt F))
  :: binary main_v543 main_v546 main_v547 (maximumf : (⟨S200000, .f32⟩ : BufTy).Contents (Elt F) → (⟨S200000, .f32⟩ : BufTy).Contents (Elt F) → (⟨S200000, .f32⟩ : BufTy).Contents (Elt F))
  :: unary main_v547 main_v548 (Host.rsqrt : (⟨S200000, .f32⟩ : BufTy).Contents (Elt F) → (⟨S200000, .f32⟩ : BufTy).Contents (Elt F))
  :: nullary main_cst_134 (constant S_ .f32 0x00000000#32)
  :: TRef.unary (TRef.of (T := ⟨S_, .f32⟩) main_cst_134) (TRef.of (T := ⟨S_, .f32⟩) main_call17_v0) id
  :: TRef.unary (TRef.of (T := ⟨S_, .f32⟩) main_call17_v0) (TRef.of (T := ⟨S200000, .f32⟩) main_call17_v1) (broadcastInDim S200000 ![] bcast_S_S200000)
  :: TRef.ternary (TRef.of (T := ⟨S200000, .i1⟩) main_v545) (TRef.of (T := ⟨S200000, .f32⟩) main_v548) (TRef.of (T := ⟨S200000, .f32⟩) main_call17_v1) (TRef.of (T := ⟨S200000, .f32⟩) main_v549) select
  :: nullary main_c_135 (constantI S_ 32 0#32)
  :: unary main_c_135 main_v550 (broadcastInDim S1200000 ![] bcast_S_S1200000 : (⟨S_, .i32⟩ : BufTy).Contents (Elt F) → (⟨S1200000, .i32⟩ : BufTy).Contents (Elt F))
  :: binary main_v538 main_v550 main_v551 (cmpi .slt : (⟨S1200000, .i32⟩ : BufTy).Contents (Elt F) → (⟨S1200000, .i32⟩ : BufTy).Contents (Elt F) → (⟨S1200000, .i1⟩ : BufTy).Contents (Elt F))
  :: nullary main_c_136 (constantI S_ 32 200000#32)
  :: unary main_c_136 main_v552 (broadcastInDim S1200000 ![] bcast_S_S1200000 : (⟨S_, .i32⟩ : BufTy).Contents (Elt F) → (⟨S1200000, .i32⟩ : BufTy).Contents (Elt F))
  :: binary main_v538 main_v552 main_v553 (addi : (⟨S1200000, .i32⟩ : BufTy).Contents (Elt F) → (⟨S1200000, .i32⟩ : BufTy).Contents (Elt F) → (⟨S1200000, .i32⟩ : BufTy).Contents (Elt F))
  :: ternary main_v551 main_v553 main_v538 main_v554 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v554 main_v555 (broadcastInDim S1200000x1 ![0] bcast_S1200000_S1200000x1_0 : (⟨S1200000, .i32⟩ : BufTy).Contents (Elt F) → (⟨S1200000x1, .i32⟩ : BufTy).Contents (Elt F))
  :: binary main_v549 main_v555 main_v556 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F))
  :: nullary main_c_137 (constantI S_ 32 0#32)
  :: unary main_c_137 main_v557 (broadcastInDim S1200000 ![] bcast_S_S1200000 : (⟨S_, .i32⟩ : BufTy).Contents (Elt F) → (⟨S1200000, .i32⟩ : BufTy).Contents (Elt F))
  :: binary main_v539 main_v557 main_v558 (cmpi .slt : (⟨S1200000, .i32⟩ : BufTy).Contents (Elt F) → (⟨S1200000, .i32⟩ : BufTy).Contents (Elt F) → (⟨S1200000, .i1⟩ : BufTy).Contents (Elt F))
  :: nullary main_c_138 (constantI S_ 32 200000#32)
  :: unary main_c_138 main_v559 (broadcastInDim S1200000 ![] bcast_S_S1200000 : (⟨S_, .i32⟩ : BufTy).Contents (Elt F) → (⟨S1200000, .i32⟩ : BufTy).Contents (Elt F))
  :: binary main_v539 main_v559 main_v560 (addi : (⟨S1200000, .i32⟩ : BufTy).Contents (Elt F) → (⟨S1200000, .i32⟩ : BufTy).Contents (Elt F) → (⟨S1200000, .i32⟩ : BufTy).Contents (Elt F))
  :: ternary main_v558 main_v560 main_v539 main_v561 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v561 main_v562 (broadcastInDim S1200000x1 ![0] bcast_S1200000_S1200000x1_0 : (⟨S1200000, .i32⟩ : BufTy).Contents (Elt F) → (⟨S1200000x1, .i32⟩ : BufTy).Contents (Elt F))
  :: binary main_v549 main_v562 main_v563 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F))
  :: binary main_v556 main_v563 main_v564 (mulf : (⟨S1200000, .f32⟩ : BufTy).Contents (Elt F) → (⟨S1200000, .f32⟩ : BufTy).Contents (Elt F) → (⟨S1200000, .f32⟩ : BufTy).Contents (Elt F))
  :: binary main_v475 main_v530 main_v565 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F))
  :: nullary main_c_139 (constantI S_ 32 0#32)
  :: unary main_c_139 main_v566 (broadcastInDim S1200000 ![] bcast_S_S1200000 : (⟨S_, .i32⟩ : BufTy).Contents (Elt F) → (⟨S1200000, .i32⟩ : BufTy).Contents (Elt F))
  :: binary main_v538 main_v566 main_v567 (cmpi .slt : (⟨S1200000, .i32⟩ : BufTy).Contents (Elt F) → (⟨S1200000, .i32⟩ : BufTy).Contents (Elt F) → (⟨S1200000, .i1⟩ : BufTy).Contents (Elt F))
  :: nullary main_c_140 (constantI S_ 32 200000#32)
  :: unary main_c_140 main_v568 (broadcastInDim S1200000 ![] bcast_S_S1200000 : (⟨S_, .i32⟩ : BufTy).Contents (Elt F) → (⟨S1200000, .i32⟩ : BufTy).Contents (Elt F))
  :: binary main_v538 main_v568 main_v569 (addi : (⟨S1200000, .i32⟩ : BufTy).Contents (Elt F) → (⟨S1200000, .i32⟩ : BufTy).Contents (Elt F) → (⟨S1200000, .i32⟩ : BufTy).Contents (Elt F))
  :: ternary main_v567 main_v569 main_v538 main_v570 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: unary main_v570 main_v571 (broadcastInDim S1200000x1 ![0] bcast_S1200000_S1200000x1_0 : (⟨S1200000, .i32⟩ : BufTy).Contents (Elt F) → (⟨S1200000x1, .i32⟩ : BufTy).Contents (Elt F))
  :: binary main_v565 main_v571 main_v572 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F))
  :: unary main_v564 main_v573 (broadcastInDim S1200000x1 ![0] bcast_S1200000_S1200000x1_0 : (⟨S1200000, .f32⟩ : BufTy).Contents (Elt F) → (⟨S1200000x1, .f32⟩ : BufTy).Contents (Elt F))
  :: unary main_v573 main_v574 (broadcastInDim S1200000x64 ![0, 1] bcast_S1200000x1_S1200000x64_0_1 : (⟨S1200000x1, .f32⟩ : BufTy).Contents (Elt F) → (⟨S1200000x64, .f32⟩ : BufTy).Contents (Elt F))
  :: binary main_v572 main_v574 main_v575 (mulf : (⟨S1200000x64, .f32⟩ : BufTy).Contents (Elt F) → (⟨S1200000x64, .f32⟩ : BufTy).Contents (Elt F) → (⟨S1200000x64, .f32⟩ : BufTy).Contents (Elt F))
  :: nullary main_cst_141 (constant S_ .f32 0x00000000#32)
  :: [] )

set_option maxHeartbeats 40000000 in
theorem part11_eq (c : Dev nD) : main_part11 (F := F) c = seq ops11 := rfl

set_option maxHeartbeats 4000000 in
theorem ops11_fresh : (ops11 : List (HloOp τ sig (Elt F))).Forall fun op => op.fresh = ∅ := by
  simp only [List.Forall]; repeat' constructor

/-- The references part 11's operations write. -/
abbrev ops11_W : List (Ref sig .tc) := [main_v528, main_v529, main_v530, main_v531, main_v532, main_v533, main_v534, main_v535, main_v536, main_v537, main_v538, main_v539, main_cst_130, main_v540, main_cst_131, main_v541, main_v542, main_v543, main_cst_132, main_v544, main_v545, main_cst_133, main_v546, main_v547, main_v548, main_cst_134, main_call17_v0, main_call17_v1, main_v549, main_c_135, main_v550, main_v551, main_c_136, main_v552, main_v553, main_v554, main_v555, main_v556, main_c_137, main_v557, main_v558, main_c_138, main_v559, main_v560, main_v561, main_v562, main_v563, main_v564, main_v565, main_c_139, main_v566, main_v567, main_c_140, main_v568, main_v569, main_v570, main_v571, main_v572, main_v573, main_v574, main_v575, main_cst_141]

set_option maxHeartbeats 4000000 in
theorem ops11_writes : (ops11 : List (HloOp τ sig (Elt F))).Forall fun op => op.writes ⊆ (ops11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops11_sub : (ops11 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

set_option maxHeartbeats 4000000 in
/-- The operations of @main's part 12, in order. -/
abbrev ops12 : List (HloOp τ sig (Elt F)) :=
  ( unary main_cst_141 main_v576 (broadcastInDim S200000x64 ![] bcast_S_S200000x64 : (⟨S_, .f32⟩ : BufTy).Contents (Elt F) → (⟨S200000x64, .f32⟩ : BufTy).Contents (Elt F))
  :: unary main_v539 main_v577 (broadcastInDim S1200000x1 ![0] bcast_S1200000_S1200000x1_0 : (⟨S1200000, .i32⟩ : BufTy).Contents (Elt F) → (⟨S1200000x1, .i32⟩ : BufTy).Contents (Elt F))
  :: ternary main_v576 main_v577 main_v575 main_v578 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F))
  :: unary main_v532 main_v579 (broadcastInDim S1x64 ![1] bcast_S64_S1x64_1 : (⟨S64, .f32⟩ : BufTy).Contents (Elt F) → (⟨S1x64, .f32⟩ : BufTy).Contents (Elt F))
  :: unary main_v579 main_v580 (broadcastInDim S200000x64 ![0, 1] bcast_S1x64_S200000x64_0_1 : (⟨S1x64, .f32⟩ : BufTy).Contents (Elt F) → (⟨S200000x64, .f32⟩ : BufTy).Contents (Elt F))
  :: binary main_v578 main_v580 main_v581 (addf : (⟨S200000x64, .f32⟩ : BufTy).Contents (Elt F) → (⟨S200000x64, .f32⟩ : BufTy).Contents (Elt F) → (⟨S200000x64, .f32⟩ : BufTy).Contents (Elt F))
  :: unary main_arg10 main_v582 ((extractStridedSlice S1x1x64x64 ![2, 2, 0, 0] · slices_S3x4x64x64_S1x1x64x64_2_2_0_0) : (⟨S3x4x64x64, .f32⟩ : BufTy).Contents (Elt F) → (⟨S1x1x64x64, .f32⟩ : BufTy).Contents (Elt F))
  :: reshape main_v582 main_v583 rfl shapeCasts_S1x1x64x64_S64x64
  :: unary main_arg11 main_v584 ((extractStridedSlice S1x1x64 ![2, 2, 0] · slices_S3x4x64_S1x1x64_2_2_0) : (⟨S3x4x64, .f32⟩ : BufTy).Contents (Elt F) → (⟨S1x1x64, .f32⟩ : BufTy).Contents (Elt F))
  :: reshape main_v584 main_v585 rfl shapeCasts_S1x1x64_S64
  :: unary main_arg4 main_v586 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v586 main_v587 rfl shapeCasts_S1x1000000_S1000000
  :: unary main_arg4 main_v588 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v588 main_v589 rfl shapeCasts_S1x1000000_S1000000
  :: nullary main_cst_142 (constant S_ .f32 0x3F800000#32)
  :: unary main_cst_142 main_v590 (broadcastInDim S1000000 ![] bcast_S_S1000000 : (⟨S_, .f32⟩ : BufTy).Contents (Elt F) → (⟨S1000000, .f32⟩ : BufTy).Contents (Elt F))
  :: nullary main_cst_143 (constant S_ .f32 0x00000000#32)
  :: unary main_cst_143 main_v591 (broadcastInDim S100000 ![] bcast_S_S100000 : (⟨S_, .f32⟩ : BufTy).Contents (Elt F) → (⟨S100000, .f32⟩ : BufTy).Contents (Elt F))
  :: unary main_v587 main_v592 (broadcastInDim S1000000x1 ![0] bcast_S1000000_S1000000x1_0 : (⟨S1000000, .i32⟩ : BufTy).Contents (Elt F) → (⟨S1000000x1, .i32⟩ : BufTy).Contents (Elt F))
  :: ternary main_v591 main_v592 main_v590 main_v593 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F))
  :: nullary main_cst_144 (constant S_ .f32 0x3F800000#32)
  :: unary main_cst_144 main_v594 (broadcastInDim S1000000 ![] bcast_S_S1000000 : (⟨S_, .f32⟩ : BufTy).Contents (Elt F) → (⟨S1000000, .f32⟩ : BufTy).Contents (Elt F))
  :: nullary main_cst_145 (constant S_ .f32 0x00000000#32)
  :: unary main_cst_145 main_v595 (broadcastInDim S200000 ![] bcast_S_S200000 : (⟨S_, .f32⟩ : BufTy).Contents (Elt F) → (⟨S200000, .f32⟩ : BufTy).Contents (Elt F))
  :: unary main_v589 main_v596 (broadcastInDim S1000000x1 ![0] bcast_S1000000_S1000000x1_0 : (⟨S1000000, .i32⟩ : BufTy).Contents (Elt F) → (⟨S1000000x1, .i32⟩ : BufTy).Contents (Elt F))
  :: ternary main_v595 main_v596 main_v594 main_v597 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: nullary main_cst_146 (constant S_ .f32 0x00000000#32)
  :: unary main_cst_146 main_v598 (broadcastInDim S100000 ![] bcast_S_S100000 : (⟨S_, .f32⟩ : BufTy).Contents (Elt F) → (⟨S100000, .f32⟩ : BufTy).Contents (Elt F))
  :: binary main_v593 main_v598 main_v599 (cmpf .ogt : (⟨S100000, .f32⟩ : BufTy).Contents (Elt F) → (⟨S100000, .f32⟩ : BufTy).Contents (Elt F) → (⟨S100000, .i1⟩ : BufTy).Contents (Elt F))
  :: nullary main_cst_147 (constant S_ .f32 0x3F800000#32)
  :: unary main_cst_147 main_v600 (broadcastInDim S100000 ![] bcast_S_S100000 : (⟨S_, .f32⟩ : BufTy).Contents (Elt F) → (⟨S100000, .f32⟩ : BufTy).Contents (Elt F))
  :: binary main_v593 main_v600 main_v601 (maximumf : (⟨S100000, .f32⟩ : BufTy).Contents (Elt F) → (⟨S100000, .f32⟩ : BufTy).Contents (Elt F) → (⟨S100000, .f32⟩ : BufTy).Contents (Elt F))
  :: unary main_v601 main_v602 (Host.rsqrt : (⟨S100000, .f32⟩ : BufTy).Contents (Elt F) → (⟨S100000, .f32⟩ : BufTy).Contents (Elt F))
  :: nullary main_cst_148 (constant S_ .f32 0x00000000#32)
  :: TRef.unary (TRef.of (T := ⟨S_, .f32⟩) main_cst_148) (TRef.of (T := ⟨S_, .f32⟩) main_call18_v0) id
  :: TRef.unary (TRef.of (T := ⟨S_, .f32⟩) main_call18_v0) (TRef.of (T := ⟨S100000, .f32⟩) main_call18_v1) (broadcastInDim S100000 ![] bcast_S_S100000)
  :: TRef.ternary (TRef.of (T := ⟨S100000, .i1⟩) main_v599) (TRef.of (T := ⟨S100000, .f32⟩) main_v602) (TRef.of (T := ⟨S100000, .f32⟩) main_call18_v1) (TRef.of (T := ⟨S100000, .f32⟩) main_v603) select
  :: nullary main_cst_149 (constant S_ .f32 0x00000000#32)
  :: unary main_cst_149 main_v604 (broadcastInDim S200000 ![] bcast_S_S200000 : (⟨S_, .f32⟩ : BufTy).Contents (Elt F) → (⟨S200000, .f32⟩ : BufTy).Contents (Elt F))
  :: binary main_v597 main_v604 main_v605 (cmpf .ogt : (⟨S200000, .f32⟩ : BufTy).Contents (Elt F) → (⟨S200000, .f32⟩ : BufTy).Contents (Elt F) → (⟨S200000, .i1⟩ : BufTy).Contents (Elt F))
  :: nullary main_cst_150 (constant S_ .f32 0x3F800000#32)
  :: unary main_cst_150 main_v606 (broadcastInDim S200000 ![] bcast_S_S200000 : (⟨S_, .f32⟩ : BufTy).Contents (Elt F) → (⟨S200000, .f32⟩ : BufTy).Contents (Elt F))
  :: binary main_v597 main_v606 main_v607 (maximumf : (⟨S200000, .f32⟩ : BufTy).Contents (Elt F) → (⟨S200000, .f32⟩ : BufTy).Contents (Elt F) → (⟨S200000, .f32⟩ : BufTy).Contents (Elt F))
  :: unary main_v607 main_v608 (Host.rsqrt : (⟨S200000, .f32⟩ : BufTy).Contents (Elt F) → (⟨S200000, .f32⟩ : BufTy).Contents (Elt F))
  :: nullary main_cst_151 (constant S_ .f32 0x00000000#32)
  :: TRef.unary (TRef.of (T := ⟨S_, .f32⟩) main_cst_151) (TRef.of (T := ⟨S_, .f32⟩) main_call19_v0) id
  :: TRef.unary (TRef.of (T := ⟨S_, .f32⟩) main_call19_v0) (TRef.of (T := ⟨S200000, .f32⟩) main_call19_v1) (broadcastInDim S200000 ![] bcast_S_S200000)
  :: TRef.ternary (TRef.of (T := ⟨S200000, .i1⟩) main_v605) (TRef.of (T := ⟨S200000, .f32⟩) main_v608) (TRef.of (T := ⟨S200000, .f32⟩) main_call19_v1) (TRef.of (T := ⟨S200000, .f32⟩) main_v609) select
  :: nullary main_c_152 (constantI S_ 32 0#32)
  :: unary main_c_152 main_v610 (broadcastInDim S1000000 ![] bcast_S_S1000000 : (⟨S_, .i32⟩ : BufTy).Contents (Elt F) → (⟨S1000000, .i32⟩ : BufTy).Contents (Elt F))
  :: binary main_v587 main_v610 main_v611 (cmpi .slt : (⟨S1000000, .i32⟩ : BufTy).Contents (Elt F) → (⟨S1000000, .i32⟩ : BufTy).Contents (Elt F) → (⟨S1000000, .i1⟩ : BufTy).Contents (Elt F))
  :: nullary main_c_153 (constantI S_ 32 100000#32)
  :: unary main_c_153 main_v612 (broadcastInDim S1000000 ![] bcast_S_S1000000 : (⟨S_, .i32⟩ : BufTy).Contents (Elt F) → (⟨S1000000, .i32⟩ : BufTy).Contents (Elt F))
  :: binary main_v587 main_v612 main_v613 (addi : (⟨S1000000, .i32⟩ : BufTy).Contents (Elt F) → (⟨S1000000, .i32⟩ : BufTy).Contents (Elt F) → (⟨S1000000, .i32⟩ : BufTy).Contents (Elt F))
  :: ternary main_v611 main_v613 main_v587 main_v614 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v614 main_v615 (broadcastInDim S1000000x1 ![0] bcast_S1000000_S1000000x1_0 : (⟨S1000000, .i32⟩ : BufTy).Contents (Elt F) → (⟨S1000000x1, .i32⟩ : BufTy).Contents (Elt F))
  :: binary main_v603 main_v615 main_v616 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F))
  :: nullary main_c_154 (constantI S_ 32 0#32)
  :: unary main_c_154 main_v617 (broadcastInDim S1000000 ![] bcast_S_S1000000 : (⟨S_, .i32⟩ : BufTy).Contents (Elt F) → (⟨S1000000, .i32⟩ : BufTy).Contents (Elt F))
  :: binary main_v589 main_v617 main_v618 (cmpi .slt : (⟨S1000000, .i32⟩ : BufTy).Contents (Elt F) → (⟨S1000000, .i32⟩ : BufTy).Contents (Elt F) → (⟨S1000000, .i1⟩ : BufTy).Contents (Elt F))
  :: nullary main_c_155 (constantI S_ 32 200000#32)
  :: unary main_c_155 main_v619 (broadcastInDim S1000000 ![] bcast_S_S1000000 : (⟨S_, .i32⟩ : BufTy).Contents (Elt F) → (⟨S1000000, .i32⟩ : BufTy).Contents (Elt F))
  :: binary main_v589 main_v619 main_v620 (addi : (⟨S1000000, .i32⟩ : BufTy).Contents (Elt F) → (⟨S1000000, .i32⟩ : BufTy).Contents (Elt F) → (⟨S1000000, .i32⟩ : BufTy).Contents (Elt F))
  :: ternary main_v618 main_v620 main_v589 main_v621 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: [] )

set_option maxHeartbeats 40000000 in
theorem part12_eq (c : Dev nD) : main_part12 (F := F) c = seq ops12 := rfl

set_option maxHeartbeats 4000000 in
theorem ops12_fresh : (ops12 : List (HloOp τ sig (Elt F))).Forall fun op => op.fresh = ∅ := by
  simp only [List.Forall]; repeat' constructor

/-- The references part 12's operations write. -/
abbrev ops12_W : List (Ref sig .tc) := [main_v576, main_v577, main_v578, main_v579, main_v580, main_v581, main_v582, main_v583, main_v584, main_v585, main_v586, main_v587, main_v588, main_v589, main_cst_142, main_v590, main_cst_143, main_v591, main_v592, main_v593, main_cst_144, main_v594, main_cst_145, main_v595, main_v596, main_v597, main_cst_146, main_v598, main_v599, main_cst_147, main_v600, main_v601, main_v602, main_cst_148, main_call18_v0, main_call18_v1, main_v603, main_cst_149, main_v604, main_v605, main_cst_150, main_v606, main_v607, main_v608, main_cst_151, main_call19_v0, main_call19_v1, main_v609, main_c_152, main_v610, main_v611, main_c_153, main_v612, main_v613, main_v614, main_v615, main_v616, main_c_154, main_v617, main_v618, main_c_155, main_v619, main_v620, main_v621]

set_option maxHeartbeats 4000000 in
theorem ops12_writes : (ops12 : List (HloOp τ sig (Elt F))).Forall fun op => op.writes ⊆ (ops12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops12_sub : (ops12 : List (HloOp τ sig (Elt F))).Forall fun op => op.bufs ⊆ tcRefs τ sig :=
  ⟨unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩

set_option maxHeartbeats 4000000 in
/-- The operations of @main's part 13, in order. -/
abbrev ops13 : List (HloOp τ sig (Elt F)) :=
  ( unary main_v621 main_v622 (broadcastInDim S1000000x1 ![0] bcast_S1000000_S1000000x1_0 : (⟨S1000000, .i32⟩ : BufTy).Contents (Elt F) → (⟨S1000000x1, .i32⟩ : BufTy).Contents (Elt F))
  :: binary main_v609 main_v622 main_v623 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: binary main_v616 main_v623 main_v624 (mulf : (⟨S1000000, .f32⟩ : BufTy).Contents (Elt F) → (⟨S1000000, .f32⟩ : BufTy).Contents (Elt F) → (⟨S1000000, .f32⟩ : BufTy).Contents (Elt F))
  :: binary main_v471 main_v583 main_v625 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: nullary main_c_156 (constantI S_ 32 0#32)
  :: unary main_c_156 main_v626 (broadcastInDim S1000000 ![] bcast_S_S1000000 : (⟨S_, .i32⟩ : BufTy).Contents (Elt F) → (⟨S1000000, .i32⟩ : BufTy).Contents (Elt F))
  :: binary main_v587 main_v626 main_v627 (cmpi .slt : (⟨S1000000, .i32⟩ : BufTy).Contents (Elt F) → (⟨S1000000, .i32⟩ : BufTy).Contents (Elt F) → (⟨S1000000, .i1⟩ : BufTy).Contents (Elt F))
  :: nullary main_c_157 (constantI S_ 32 100000#32)
  :: unary main_c_157 main_v628 (broadcastInDim S1000000 ![] bcast_S_S1000000 : (⟨S_, .i32⟩ : BufTy).Contents (Elt F) → (⟨S1000000, .i32⟩ : BufTy).Contents (Elt F))
  :: binary main_v587 main_v628 main_v629 (addi : (⟨S1000000, .i32⟩ : BufTy).Contents (Elt F) → (⟨S1000000, .i32⟩ : BufTy).Contents (Elt F) → (⟨S1000000, .i32⟩ : BufTy).Contents (Elt F))
  :: ternary main_v627 main_v629 main_v587 main_v630 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v630 main_v631 (broadcastInDim S1000000x1 ![0] bcast_S1000000_S1000000x1_0 : (⟨S1000000, .i32⟩ : BufTy).Contents (Elt F) → (⟨S1000000x1, .i32⟩ : BufTy).Contents (Elt F))
  :: binary main_v625 main_v631 main_v632 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F))
  :: unary main_v624 main_v633 (broadcastInDim S1000000x1 ![0] bcast_S1000000_S1000000x1_0 : (⟨S1000000, .f32⟩ : BufTy).Contents (Elt F) → (⟨S1000000x1, .f32⟩ : BufTy).Contents (Elt F))
  :: unary main_v633 main_v634 (broadcastInDim S1000000x64 ![0, 1] bcast_S1000000x1_S1000000x64_0_1 : (⟨S1000000x1, .f32⟩ : BufTy).Contents (Elt F) → (⟨S1000000x64, .f32⟩ : BufTy).Contents (Elt F))
  :: binary main_v632 main_v634 main_v635 (mulf : (⟨S1000000x64, .f32⟩ : BufTy).Contents (Elt F) → (⟨S1000000x64, .f32⟩ : BufTy).Contents (Elt F) → (⟨S1000000x64, .f32⟩ : BufTy).Contents (Elt F))
  :: nullary main_cst_158 (constant S_ .f32 0x00000000#32)
  :: unary main_cst_158 main_v636 (broadcastInDim S200000x64 ![] bcast_S_S200000x64 : (⟨S_, .f32⟩ : BufTy).Contents (Elt F) → (⟨S200000x64, .f32⟩ : BufTy).Contents (Elt F))
  :: unary main_v589 main_v637 (broadcastInDim S1000000x1 ![0] bcast_S1000000_S1000000x1_0 : (⟨S1000000, .i32⟩ : BufTy).Contents (Elt F) → (⟨S1000000x1, .i32⟩ : BufTy).Contents (Elt F))
  :: ternary main_v636 main_v637 main_v635 main_v638 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F))
  :: unary main_v585 main_v639 (broadcastInDim S1x64 ![1] bcast_S64_S1x64_1 : (⟨S64, .f32⟩ : BufTy).Contents (Elt F) → (⟨S1x64, .f32⟩ : BufTy).Contents (Elt F))
  :: unary main_v639 main_v640 (broadcastInDim S200000x64 ![0, 1] bcast_S1x64_S200000x64_0_1 : (⟨S1x64, .f32⟩ : BufTy).Contents (Elt F) → (⟨S200000x64, .f32⟩ : BufTy).Contents (Elt F))
  :: binary main_v638 main_v640 main_v641 (addf : (⟨S200000x64, .f32⟩ : BufTy).Contents (Elt F) → (⟨S200000x64, .f32⟩ : BufTy).Contents (Elt F) → (⟨S200000x64, .f32⟩ : BufTy).Contents (Elt F))
  :: unary main_arg10 main_v642 ((extractStridedSlice S1x1x64x64 ![2, 3, 0, 0] · slices_S3x4x64x64_S1x1x64x64_2_3_0_0) : (⟨S3x4x64x64, .f32⟩ : BufTy).Contents (Elt F) → (⟨S1x1x64x64, .f32⟩ : BufTy).Contents (Elt F))
  :: reshape main_v642 main_v643 rfl shapeCasts_S1x1x64x64_S64x64
  :: unary main_arg11 main_v644 ((extractStridedSlice S1x1x64 ![2, 3, 0] · slices_S3x4x64_S1x1x64_2_3_0) : (⟨S3x4x64, .f32⟩ : BufTy).Contents (Elt F) → (⟨S1x1x64, .f32⟩ : BufTy).Contents (Elt F))
  :: reshape main_v644 main_v645 rfl shapeCasts_S1x1x64_S64
  :: unary main_arg5 main_v646 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v646 main_v647 rfl shapeCasts_S1x1000000_S1000000
  :: unary main_arg5 main_v648 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v648 main_v649 rfl shapeCasts_S1x1000000_S1000000
  :: nullary main_cst_159 (constant S_ .f32 0x3F800000#32)
  :: unary main_cst_159 main_v650 (broadcastInDim S1000000 ![] bcast_S_S1000000 : (⟨S_, .f32⟩ : BufTy).Contents (Elt F) → (⟨S1000000, .f32⟩ : BufTy).Contents (Elt F))
  :: nullary main_cst_160 (constant S_ .f32 0x00000000#32)
  :: unary main_cst_160 main_v651 (broadcastInDim S200000 ![] bcast_S_S200000 : (⟨S_, .f32⟩ : BufTy).Contents (Elt F) → (⟨S200000, .f32⟩ : BufTy).Contents (Elt F))
  :: unary main_v647 main_v652 (broadcastInDim S1000000x1 ![0] bcast_S1000000_S1000000x1_0 : (⟨S1000000, .i32⟩ : BufTy).Contents (Elt F) → (⟨S1000000x1, .i32⟩ : BufTy).Contents (Elt F))
  :: ternary main_v651 main_v652 main_v650 main_v653 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: nullary main_cst_161 (constant S_ .f32 0x3F800000#32)
  :: unary main_cst_161 main_v654 (broadcastInDim S1000000 ![] bcast_S_S1000000 : (⟨S_, .f32⟩ : BufTy).Contents (Elt F) → (⟨S1000000, .f32⟩ : BufTy).Contents (Elt F))
  :: nullary main_cst_162 (constant S_ .f32 0x00000000#32)
  :: unary main_cst_162 main_v655 (broadcastInDim S100000 ![] bcast_S_S100000 : (⟨S_, .f32⟩ : BufTy).Contents (Elt F) → (⟨S100000, .f32⟩ : BufTy).Contents (Elt F))
  :: unary main_v649 main_v656 (broadcastInDim S1000000x1 ![0] bcast_S1000000_S1000000x1_0 : (⟨S1000000, .i32⟩ : BufTy).Contents (Elt F) → (⟨S1000000x1, .i32⟩ : BufTy).Contents (Elt F))
  :: ternary main_v655 main_v656 main_v654 main_v657 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F))
  :: nullary main_cst_163 (constant S_ .f32 0x00000000#32)
  :: unary main_cst_163 main_v658 (broadcastInDim S200000 ![] bcast_S_S200000 : (⟨S_, .f32⟩ : BufTy).Contents (Elt F) → (⟨S200000, .f32⟩ : BufTy).Contents (Elt F))
  :: binary main_v653 main_v658 main_v659 (cmpf .ogt : (⟨S200000, .f32⟩ : BufTy).Contents (Elt F) → (⟨S200000, .f32⟩ : BufTy).Contents (Elt F) → (⟨S200000, .i1⟩ : BufTy).Contents (Elt F))
  :: nullary main_cst_164 (constant S_ .f32 0x3F800000#32)
  :: unary main_cst_164 main_v660 (broadcastInDim S200000 ![] bcast_S_S200000 : (⟨S_, .f32⟩ : BufTy).Contents (Elt F) → (⟨S200000, .f32⟩ : BufTy).Contents (Elt F))
  :: binary main_v653 main_v660 main_v661 (maximumf : (⟨S200000, .f32⟩ : BufTy).Contents (Elt F) → (⟨S200000, .f32⟩ : BufTy).Contents (Elt F) → (⟨S200000, .f32⟩ : BufTy).Contents (Elt F))
  :: unary main_v661 main_v662 (Host.rsqrt : (⟨S200000, .f32⟩ : BufTy).Contents (Elt F) → (⟨S200000, .f32⟩ : BufTy).Contents (Elt F))
  :: nullary main_cst_165 (constant S_ .f32 0x00000000#32)
  :: TRef.unary (TRef.of (T := ⟨S_, .f32⟩) main_cst_165) (TRef.of (T := ⟨S_, .f32⟩) main_call20_v0) id
  :: TRef.unary (TRef.of (T := ⟨S_, .f32⟩) main_call20_v0) (TRef.of (T := ⟨S200000, .f32⟩) main_call20_v1) (broadcastInDim S200000 ![] bcast_S_S200000)
  :: TRef.ternary (TRef.of (T := ⟨S200000, .i1⟩) main_v659) (TRef.of (T := ⟨S200000, .f32⟩) main_v662) (TRef.of (T := ⟨S200000, .f32⟩) main_call20_v1) (TRef.of (T := ⟨S200000, .f32⟩) main_v663) select
  :: nullary main_cst_166 (constant S_ .f32 0x00000000#32)
  :: unary main_cst_166 main_v664 (broadcastInDim S100000 ![] bcast_S_S100000 : (⟨S_, .f32⟩ : BufTy).Contents (Elt F) → (⟨S100000, .f32⟩ : BufTy).Contents (Elt F))
  :: binary main_v657 main_v664 main_v665 (cmpf .ogt : (⟨S100000, .f32⟩ : BufTy).Contents (Elt F) → (⟨S100000, .f32⟩ : BufTy).Contents (Elt F) → (⟨S100000, .i1⟩ : BufTy).Contents (Elt F))
  :: nullary main_cst_167 (constant S_ .f32 0x3F800000#32)
  :: unary main_cst_167 main_v666 (broadcastInDim S100000 ![] bcast_S_S100000 : (⟨S_, .f32⟩ : BufTy).Contents (Elt F) → (⟨S100000, .f32⟩ : BufTy).Contents (Elt F))
  :: binary main_v657 main_v666 main_v667 (maximumf : (⟨S100000, .f32⟩ : BufTy).Contents (Elt F) → (⟨S100000, .f32⟩ : BufTy).Contents (Elt F) → (⟨S100000, .f32⟩ : BufTy).Contents (Elt F))
  :: unary main_v667 main_v668 (Host.rsqrt : (⟨S100000, .f32⟩ : BufTy).Contents (Elt F) → (⟨S100000, .f32⟩ : BufTy).Contents (Elt F))
  :: nullary main_cst_168 (constant S_ .f32 0x00000000#32)
  :: [] )

set_option maxHeartbeats 40000000 in
theorem part13_eq (c : Dev nD) : main_part13 (F := F) c = seq ops13 := rfl

set_option maxHeartbeats 4000000 in
theorem ops13_fresh : (ops13 : List (HloOp τ sig (Elt F))).Forall fun op => op.fresh = ∅ := by
  simp only [List.Forall]; repeat' constructor

/-- The references part 13's operations write. -/
abbrev ops13_W : List (Ref sig .tc) := [main_v622, main_v623, main_v624, main_v625, main_c_156, main_v626, main_v627, main_c_157, main_v628, main_v629, main_v630, main_v631, main_v632, main_v633, main_v634, main_v635, main_cst_158, main_v636, main_v637, main_v638, main_v639, main_v640, main_v641, main_v642, main_v643, main_v644, main_v645, main_v646, main_v647, main_v648, main_v649, main_cst_159, main_v650, main_cst_160, main_v651, main_v652, main_v653, main_cst_161, main_v654, main_cst_162, main_v655, main_v656, main_v657, main_cst_163, main_v658, main_v659, main_cst_164, main_v660, main_v661, main_v662, main_cst_165, main_call20_v0, main_call20_v1, main_v663, main_cst_166, main_v664, main_v665, main_cst_167, main_v666, main_v667, main_v668, main_cst_168]

set_option maxHeartbeats 4000000 in
theorem ops13_writes : (ops13 : List (HloOp τ sig (Elt F))).Forall fun op => op.writes ⊆ (ops13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops13_sub : (ops13 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩

set_option maxHeartbeats 4000000 in
/-- The operations of @main's part 14, in order. -/
abbrev ops14 : List (HloOp τ sig (Elt F)) :=
  ( TRef.unary (TRef.of (T := ⟨S_, .f32⟩) main_cst_168) (TRef.of (T := ⟨S_, .f32⟩) main_call21_v0) id
  :: TRef.unary (TRef.of (T := ⟨S_, .f32⟩) main_call21_v0) (TRef.of (T := ⟨S100000, .f32⟩) main_call21_v1) (broadcastInDim S100000 ![] bcast_S_S100000)
  :: TRef.ternary (TRef.of (T := ⟨S100000, .i1⟩) main_v665) (TRef.of (T := ⟨S100000, .f32⟩) main_v668) (TRef.of (T := ⟨S100000, .f32⟩) main_call21_v1) (TRef.of (T := ⟨S100000, .f32⟩) main_v669) select
  :: nullary main_c_169 (constantI S_ 32 0#32)
  :: unary main_c_169 main_v670 (broadcastInDim S1000000 ![] bcast_S_S1000000 : (⟨S_, .i32⟩ : BufTy).Contents (Elt F) → (⟨S1000000, .i32⟩ : BufTy).Contents (Elt F))
  :: binary main_v647 main_v670 main_v671 (cmpi .slt : (⟨S1000000, .i32⟩ : BufTy).Contents (Elt F) → (⟨S1000000, .i32⟩ : BufTy).Contents (Elt F) → (⟨S1000000, .i1⟩ : BufTy).Contents (Elt F))
  :: nullary main_c_170 (constantI S_ 32 200000#32)
  :: unary main_c_170 main_v672 (broadcastInDim S1000000 ![] bcast_S_S1000000 : (⟨S_, .i32⟩ : BufTy).Contents (Elt F) → (⟨S1000000, .i32⟩ : BufTy).Contents (Elt F))
  :: binary main_v647 main_v672 main_v673 (addi : (⟨S1000000, .i32⟩ : BufTy).Contents (Elt F) → (⟨S1000000, .i32⟩ : BufTy).Contents (Elt F) → (⟨S1000000, .i32⟩ : BufTy).Contents (Elt F))
  :: ternary main_v671 main_v673 main_v647 main_v674 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v674 main_v675 (broadcastInDim S1000000x1 ![0] bcast_S1000000_S1000000x1_0 : (⟨S1000000, .i32⟩ : BufTy).Contents (Elt F) → (⟨S1000000x1, .i32⟩ : BufTy).Contents (Elt F))
  :: binary main_v663 main_v675 main_v676 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: nullary main_c_171 (constantI S_ 32 0#32)
  :: unary main_c_171 main_v677 (broadcastInDim S1000000 ![] bcast_S_S1000000 : (⟨S_, .i32⟩ : BufTy).Contents (Elt F) → (⟨S1000000, .i32⟩ : BufTy).Contents (Elt F))
  :: binary main_v649 main_v677 main_v678 (cmpi .slt : (⟨S1000000, .i32⟩ : BufTy).Contents (Elt F) → (⟨S1000000, .i32⟩ : BufTy).Contents (Elt F) → (⟨S1000000, .i1⟩ : BufTy).Contents (Elt F))
  :: nullary main_c_172 (constantI S_ 32 100000#32)
  :: unary main_c_172 main_v679 (broadcastInDim S1000000 ![] bcast_S_S1000000 : (⟨S_, .i32⟩ : BufTy).Contents (Elt F) → (⟨S1000000, .i32⟩ : BufTy).Contents (Elt F))
  :: binary main_v649 main_v679 main_v680 (addi : (⟨S1000000, .i32⟩ : BufTy).Contents (Elt F) → (⟨S1000000, .i32⟩ : BufTy).Contents (Elt F) → (⟨S1000000, .i32⟩ : BufTy).Contents (Elt F))
  :: ternary main_v678 main_v680 main_v649 main_v681 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v681 main_v682 (broadcastInDim S1000000x1 ![0] bcast_S1000000_S1000000x1_0 : (⟨S1000000, .i32⟩ : BufTy).Contents (Elt F) → (⟨S1000000x1, .i32⟩ : BufTy).Contents (Elt F))
  :: binary main_v669 main_v682 main_v683 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F))
  :: binary main_v676 main_v683 main_v684 (mulf : (⟨S1000000, .f32⟩ : BufTy).Contents (Elt F) → (⟨S1000000, .f32⟩ : BufTy).Contents (Elt F) → (⟨S1000000, .f32⟩ : BufTy).Contents (Elt F))
  :: binary main_v475 main_v643 main_v685 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F))
  :: nullary main_c_173 (constantI S_ 32 0#32)
  :: unary main_c_173 main_v686 (broadcastInDim S1000000 ![] bcast_S_S1000000 : (⟨S_, .i32⟩ : BufTy).Contents (Elt F) → (⟨S1000000, .i32⟩ : BufTy).Contents (Elt F))
  :: binary main_v647 main_v686 main_v687 (cmpi .slt : (⟨S1000000, .i32⟩ : BufTy).Contents (Elt F) → (⟨S1000000, .i32⟩ : BufTy).Contents (Elt F) → (⟨S1000000, .i1⟩ : BufTy).Contents (Elt F))
  :: nullary main_c_174 (constantI S_ 32 200000#32)
  :: unary main_c_174 main_v688 (broadcastInDim S1000000 ![] bcast_S_S1000000 : (⟨S_, .i32⟩ : BufTy).Contents (Elt F) → (⟨S1000000, .i32⟩ : BufTy).Contents (Elt F))
  :: binary main_v647 main_v688 main_v689 (addi : (⟨S1000000, .i32⟩ : BufTy).Contents (Elt F) → (⟨S1000000, .i32⟩ : BufTy).Contents (Elt F) → (⟨S1000000, .i32⟩ : BufTy).Contents (Elt F))
  :: ternary main_v687 main_v689 main_v647 main_v690 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v690 main_v691 (broadcastInDim S1000000x1 ![0] bcast_S1000000_S1000000x1_0 : (⟨S1000000, .i32⟩ : BufTy).Contents (Elt F) → (⟨S1000000x1, .i32⟩ : BufTy).Contents (Elt F))
  :: binary main_v685 main_v691 main_v692 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F))
  :: unary main_v684 main_v693 (broadcastInDim S1000000x1 ![0] bcast_S1000000_S1000000x1_0 : (⟨S1000000, .f32⟩ : BufTy).Contents (Elt F) → (⟨S1000000x1, .f32⟩ : BufTy).Contents (Elt F))
  :: unary main_v693 main_v694 (broadcastInDim S1000000x64 ![0, 1] bcast_S1000000x1_S1000000x64_0_1 : (⟨S1000000x1, .f32⟩ : BufTy).Contents (Elt F) → (⟨S1000000x64, .f32⟩ : BufTy).Contents (Elt F))
  :: binary main_v692 main_v694 main_v695 (mulf : (⟨S1000000x64, .f32⟩ : BufTy).Contents (Elt F) → (⟨S1000000x64, .f32⟩ : BufTy).Contents (Elt F) → (⟨S1000000x64, .f32⟩ : BufTy).Contents (Elt F))
  :: nullary main_cst_175 (constant S_ .f32 0x00000000#32)
  :: unary main_cst_175 main_v696 (broadcastInDim S100000x64 ![] bcast_S_S100000x64 : (⟨S_, .f32⟩ : BufTy).Contents (Elt F) → (⟨S100000x64, .f32⟩ : BufTy).Contents (Elt F))
  :: unary main_v649 main_v697 (broadcastInDim S1000000x1 ![0] bcast_S1000000_S1000000x1_0 : (⟨S1000000, .i32⟩ : BufTy).Contents (Elt F) → (⟨S1000000x1, .i32⟩ : BufTy).Contents (Elt F))
  :: ternary main_v696 main_v697 main_v695 main_v698 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F))
  :: unary main_v645 main_v699 (broadcastInDim S1x64 ![1] bcast_S64_S1x64_1 : (⟨S64, .f32⟩ : BufTy).Contents (Elt F) → (⟨S1x64, .f32⟩ : BufTy).Contents (Elt F))
  :: unary main_v699 main_v700 (broadcastInDim S100000x64 ![0, 1] bcast_S1x64_S100000x64_0_1 : (⟨S1x64, .f32⟩ : BufTy).Contents (Elt F) → (⟨S100000x64, .f32⟩ : BufTy).Contents (Elt F))
  :: binary main_v698 main_v700 main_v701 (addf : (⟨S100000x64, .f32⟩ : BufTy).Contents (Elt F) → (⟨S100000x64, .f32⟩ : BufTy).Contents (Elt F) → (⟨S100000x64, .f32⟩ : BufTy).Contents (Elt F))
  :: binary main_v528 main_v701 main_v702 (addf : (⟨S100000x64, .f32⟩ : BufTy).Contents (Elt F) → (⟨S100000x64, .f32⟩ : BufTy).Contents (Elt F) → (⟨S100000x64, .f32⟩ : BufTy).Contents (Elt F))
  :: nullary main_cst_176 (constant S_ .f32 0x3F000000#32)
  :: unary main_cst_176 main_v703 (broadcastInDim S100000x64 ![] bcast_S_S100000x64 : (⟨S_, .f32⟩ : BufTy).Contents (Elt F) → (⟨S100000x64, .f32⟩ : BufTy).Contents (Elt F))
  :: binary main_v702 main_v703 main_v704 (mulf : (⟨S100000x64, .f32⟩ : BufTy).Contents (Elt F) → (⟨S100000x64, .f32⟩ : BufTy).Contents (Elt F) → (⟨S100000x64, .f32⟩ : BufTy).Contents (Elt F))
  :: TRef.nullary (TRef.of (T := ⟨S_, .f32⟩) main_call22_cst) (constant S_ .f32 0x00000000#32)
  :: TRef.unary (TRef.of (T := ⟨S_, .f32⟩) main_call22_cst) (TRef.of (T := ⟨S100000x64, .f32⟩) main_call22_v0) (broadcastInDim S100000x64 ![] bcast_S_S100000x64)
  :: TRef.binary (TRef.of (T := ⟨S100000x64, .f32⟩) main_v704) (TRef.of (T := ⟨S100000x64, .f32⟩) main_call22_v0) (TRef.of (T := ⟨S100000x64, .f32⟩) main_v705) maximumf
  :: binary main_v581 main_v641 main_v706 (addf : (⟨S200000x64, .f32⟩ : BufTy).Contents (Elt F) → (⟨S200000x64, .f32⟩ : BufTy).Contents (Elt F) → (⟨S200000x64, .f32⟩ : BufTy).Contents (Elt F))
  :: nullary main_cst_177 (constant S_ .f32 0x3F000000#32)
  :: unary main_cst_177 main_v707 (broadcastInDim S200000x64 ![] bcast_S_S200000x64 : (⟨S_, .f32⟩ : BufTy).Contents (Elt F) → (⟨S200000x64, .f32⟩ : BufTy).Contents (Elt F))
  :: binary main_v706 main_v707 main_v708 (mulf : (⟨S200000x64, .f32⟩ : BufTy).Contents (Elt F) → (⟨S200000x64, .f32⟩ : BufTy).Contents (Elt F) → (⟨S200000x64, .f32⟩ : BufTy).Contents (Elt F))
  :: TRef.nullary (TRef.of (T := ⟨S_, .f32⟩) main_call23_cst) (constant S_ .f32 0x00000000#32)
  :: TRef.unary (TRef.of (T := ⟨S_, .f32⟩) main_call23_cst) (TRef.of (T := ⟨S200000x64, .f32⟩) main_call23_v0) (broadcastInDim S200000x64 ![] bcast_S_S200000x64)
  :: TRef.binary (TRef.of (T := ⟨S200000x64, .f32⟩) main_v708) (TRef.of (T := ⟨S200000x64, .f32⟩) main_call23_v0) (TRef.of (T := ⟨S200000x64, .f32⟩) main_v709) maximumf
  :: nullary main_cst_178 (constant S_ .f32 0x00000000#32)
  :: binary main_v705 main_cst_178 main_v710 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
  :: nullary main_cst_179 (constant S_ .f32 0x47C35000#32)
  :: unary main_cst_179 main_v711 (broadcastInDim S64 ![] bcast_S_S64 : (⟨S_, .f32⟩ : BufTy).Contents (Elt F) → (⟨S64, .f32⟩ : BufTy).Contents (Elt F))
  :: binary main_v710 main_v711 main_v712 (Host.divf : (⟨S64, .f32⟩ : BufTy).Contents (Elt F) → (⟨S64, .f32⟩ : BufTy).Contents (Elt F) → (⟨S64, .f32⟩ : BufTy).Contents (Elt F))
  :: nullary main_cst_180 (constant S_ .f32 0x00000000#32)
  :: binary main_v709 main_cst_180 main_v713 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F))
  :: nullary main_cst_181 (constant S_ .f32 0x48435000#32)
  :: unary main_cst_181 main_v714 (broadcastInDim S64 ![] bcast_S_S64 : (⟨S_, .f32⟩ : BufTy).Contents (Elt F) → (⟨S64, .f32⟩ : BufTy).Contents (Elt F))
  :: binary main_v713 main_v714 main_v715 (Host.divf : (⟨S64, .f32⟩ : BufTy).Contents (Elt F) → (⟨S64, .f32⟩ : BufTy).Contents (Elt F) → (⟨S64, .f32⟩ : BufTy).Contents (Elt F))
  :: [] )

set_option maxHeartbeats 40000000 in
theorem part14_eq (c : Dev nD) : main_part14 (F := F) c = seq ops14 := rfl

set_option maxHeartbeats 4000000 in
theorem ops14_fresh : (ops14 : List (HloOp τ sig (Elt F))).Forall fun op => op.fresh = ∅ := by
  simp only [List.Forall]; repeat' constructor

/-- The references part 14's operations write. -/
abbrev ops14_W : List (Ref sig .tc) := [main_call21_v0, main_call21_v1, main_v669, main_c_169, main_v670, main_v671, main_c_170, main_v672, main_v673, main_v674, main_v675, main_v676, main_c_171, main_v677, main_v678, main_c_172, main_v679, main_v680, main_v681, main_v682, main_v683, main_v684, main_v685, main_c_173, main_v686, main_v687, main_c_174, main_v688, main_v689, main_v690, main_v691, main_v692, main_v693, main_v694, main_v695, main_cst_175, main_v696, main_v697, main_v698, main_v699, main_v700, main_v701, main_v702, main_cst_176, main_v703, main_v704, main_call22_cst, main_call22_v0, main_v705, main_v706, main_cst_177, main_v707, main_v708, main_call23_cst, main_call23_v0, main_v709, main_cst_178, main_v710, main_cst_179, main_v711, main_v712, main_cst_180, main_v713, main_cst_181, main_v714, main_v715]

set_option maxHeartbeats 4000000 in
theorem ops14_writes : (ops14 : List (HloOp τ sig (Elt F))).Forall fun op => op.writes ⊆ (ops14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops14_sub : (ops14 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub ..⟩

set_option maxHeartbeats 4000000 in
/-- The operations of @main's part 15, in order. -/
abbrev ops15 : List (HloOp τ sig (Elt F)) :=
  ( unary main_v712 main_v716 (broadcastInDim S1x64 ![1] bcast_S64_S1x64_1 : (⟨S64, .f32⟩ : BufTy).Contents (Elt F) → (⟨S1x64, .f32⟩ : BufTy).Contents (Elt F))
  :: unary main_v715 main_v717 (broadcastInDim S1x64 ![1] bcast_S64_S1x64_1 : (⟨S64, .f32⟩ : BufTy).Contents (Elt F) → (⟨S1x64, .f32⟩ : BufTy).Contents (Elt F))
  :: binary main_v716 main_v717 main_v718 ((fun a b => concatenate S2x64 0 [⟨S1x64, a⟩, ⟨S1x64, b⟩] concatenates_S1x64_S1x64_S2x64_d0) : (⟨S1x64, .f32⟩ : BufTy).Contents (Elt F) → (⟨S1x64, .f32⟩ : BufTy).Contents (Elt F) → (⟨S2x64, .f32⟩ : BufTy).Contents (Elt F))
  :: nullary main_cst_182 (constant S_ .f32 0x00000000#32)
  :: binary main_v718 main_cst_182 main_v719 ((fun x v => Host.reduceAdd x v reducesTo_S2x64_S64_d0 h_S_) : (⟨S2x64, .f32⟩ : BufTy).Contents (Elt F) → (⟨S_, .f32⟩ : BufTy).Contents (Elt F) → (⟨S64, .f32⟩ : BufTy).Contents (Elt F))
  :: unary main_v719 main_v720 (broadcastInDim S1x64 ![1] bcast_S64_S1x64_1 : (⟨S64, .f32⟩ : BufTy).Contents (Elt F) → (⟨S1x64, .f32⟩ : BufTy).Contents (Elt F))
  :: nullary main_cst_183 (constant S_ .f32 0x40000000#32)
  :: unary main_cst_183 main_v721 (broadcastInDim S1x64 ![] bcast_S_S1x64 : (⟨S_, .f32⟩ : BufTy).Contents (Elt F) → (⟨S1x64, .f32⟩ : BufTy).Contents (Elt F))
  :: binary main_v720 main_v721 main_v722 (Host.divf : (⟨S1x64, .f32⟩ : BufTy).Contents (Elt F) → (⟨S1x64, .f32⟩ : BufTy).Contents (Elt F) → (⟨S1x64, .f32⟩ : BufTy).Contents (Elt F))
  :: binary main_v722 main_arg12 main_v723 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F))
  :: unary main_arg13 main_v724 (broadcastInDim S1x64 ![1] bcast_S64_S1x64_1 : (⟨S64, .f32⟩ : BufTy).Contents (Elt F) → (⟨S1x64, .f32⟩ : BufTy).Contents (Elt F))
  :: binary main_v723 main_v724 main_v725 (addf : (⟨S1x64, .f32⟩ : BufTy).Contents (Elt F) → (⟨S1x64, .f32⟩ : BufTy).Contents (Elt F) → (⟨S1x64, .f32⟩ : BufTy).Contents (Elt F))
  :: TRef.nullary (TRef.of (T := ⟨S_, .f32⟩) main_call24_cst) (constant S_ .f32 0x00000000#32)
  :: TRef.unary (TRef.of (T := ⟨S_, .f32⟩) main_call24_cst) (TRef.of (T := ⟨S1x64, .f32⟩) main_call24_v0) (broadcastInDim S1x64 ![] bcast_S_S1x64)
  :: TRef.binary (TRef.of (T := ⟨S1x64, .f32⟩) main_v725) (TRef.of (T := ⟨S1x64, .f32⟩) main_call24_v0) (TRef.of (T := ⟨S1x64, .f32⟩) main_v726) maximumf
  :: binary main_v726 main_arg14 main_v727 ((fun l r => Host.dotGeneral dot_S1x64_S64x1_S1x1_1_0_0_1_n_n none l r) : (⟨S1x64, .f32⟩ : BufTy).Contents (Elt F) → (⟨S64x1, .f32⟩ : BufTy).Contents (Elt F) → (⟨S1x1, .f32⟩ : BufTy).Contents (Elt F))
  :: unary main_arg15 main_v728 (broadcastInDim S1x1 ![1] bcast_S1_S1x1_1 : (⟨S1, .f32⟩ : BufTy).Contents (Elt F) → (⟨S1x1, .f32⟩ : BufTy).Contents (Elt F))
  :: binary main_v727 main_v728 main_v729 (addf : (⟨S1x1, .f32⟩ : BufTy).Contents (Elt F) → (⟨S1x1, .f32⟩ : BufTy).Contents (Elt F) → (⟨S1x1, .f32⟩ : BufTy).Contents (Elt F))
  :: unary main_v729 main_v730 (Host.negf : (⟨S1x1, .f32⟩ : BufTy).Contents (Elt F) → (⟨S1x1, .f32⟩ : BufTy).Contents (Elt F))
  :: unary main_v730 main_v731 (Host.exp : (⟨S1x1, .f32⟩ : BufTy).Contents (Elt F) → (⟨S1x1, .f32⟩ : BufTy).Contents (Elt F))
  :: nullary main_cst_184 (constant S_ .f32 0x3F800000#32)
  :: unary main_cst_184 main_v732 (broadcastInDim S1x1 ![] bcast_S_S1x1 : (⟨S_, .f32⟩ : BufTy).Contents (Elt F) → (⟨S1x1, .f32⟩ : BufTy).Contents (Elt F))
  :: binary main_v732 main_v731 main_v733 (addf : (⟨S1x1, .f32⟩ : BufTy).Contents (Elt F) → (⟨S1x1, .f32⟩ : BufTy).Contents (Elt F) → (⟨S1x1, .f32⟩ : BufTy).Contents (Elt F))
  :: nullary main_cst_185 (constant S_ .f32 0x3F800000#32)
  :: unary main_cst_185 main_v734 (broadcastInDim S1x1 ![] bcast_S_S1x1 : (⟨S_, .f32⟩ : BufTy).Contents (Elt F) → (⟨S1x1, .f32⟩ : BufTy).Contents (Elt F))
  :: binary main_v734 main_v733 main_v735 (Host.divf : (⟨S1x1, .f32⟩ : BufTy).Contents (Elt F) → (⟨S1x1, .f32⟩ : BufTy).Contents (Elt F) → (⟨S1x1, .f32⟩ : BufTy).Contents (Elt F))
  :: [] )

set_option maxHeartbeats 40000000 in
theorem part15_eq (c : Dev nD) : main_part15 (F := F) c = seq ops15 := rfl

set_option maxHeartbeats 4000000 in
theorem ops15_fresh : (ops15 : List (HloOp τ sig (Elt F))).Forall fun op => op.fresh = ∅ := by
  simp only [List.Forall]; repeat' constructor

/-- The references part 15's operations write. -/
abbrev ops15_W : List (Ref sig .tc) := [main_v716, main_v717, main_v718, main_cst_182, main_v719, main_v720, main_cst_183, main_v721, main_v722, main_v723, main_v724, main_v725, main_call24_cst, main_call24_v0, main_v726, main_v727, main_v728, main_v729, main_v730, main_v731, main_cst_184, main_v732, main_v733, main_cst_185, main_v734, main_v735]

set_option maxHeartbeats 4000000 in
theorem ops15_writes : (ops15 : List (HloOp τ sig (Elt F))).Forall fun op => op.writes ⊆ (ops15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem ops15_sub : (ops15 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-! ## The whole line -/

/-- @main's operations: the sixteen parts' lists, one after the other. -/
abbrev ops : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13 ++ (ops14 ++ (ops15)))))))))))))))

theorem main_eq (c : Dev nD) : main (F := F) c = seq ops := by
  unfold main
  simp only [part0_eq, part1_eq, part2_eq, part3_eq, part4_eq, part5_eq, part6_eq, part7_eq, part8_eq, part9_eq, part10_eq, part11_eq, part12_eq, part13_eq, part14_eq, part15_eq, ops, seq_append]

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h
    · exact List.forall_iff_forall_mem.mp ops7_sub op h
    · exact List.forall_iff_forall_mem.mp ops8_sub op h
    · exact List.forall_iff_forall_mem.mp ops9_sub op h
    · exact List.forall_iff_forall_mem.mp ops10_sub op h
    · exact List.forall_iff_forall_mem.mp ops11_sub op h
    · exact List.forall_iff_forall_mem.mp ops12_sub op h
    · exact List.forall_iff_forall_mem.mp ops13_sub op h
    · exact List.forall_iff_forall_mem.mp ops14_sub op h
    · exact List.forall_iff_forall_mem.mp ops15_sub op h

theorem ops_fresh : ∀ op ∈ (ops : List (HloOp τ sig (Elt F))), op.fresh = ∅ := fun op h => by
    simp only [ops, List.mem_append] at h
    rcases h with h | h | h | h | h | h | h | h | h | h | h | h | h | h | h | h
    · exact List.forall_iff_forall_mem.mp ops0_fresh op h
    · exact List.forall_iff_forall_mem.mp ops1_fresh op h
    · exact List.forall_iff_forall_mem.mp ops2_fresh op h
    · exact List.forall_iff_forall_mem.mp ops3_fresh op h
    · exact List.forall_iff_forall_mem.mp ops4_fresh op h
    · exact List.forall_iff_forall_mem.mp ops5_fresh op h
    · exact List.forall_iff_forall_mem.mp ops6_fresh op h
    · exact List.forall_iff_forall_mem.mp ops7_fresh op h
    · exact List.forall_iff_forall_mem.mp ops8_fresh op h
    · exact List.forall_iff_forall_mem.mp ops9_fresh op h
    · exact List.forall_iff_forall_mem.mp ops10_fresh op h
    · exact List.forall_iff_forall_mem.mp ops11_fresh op h
    · exact List.forall_iff_forall_mem.mp ops12_fresh op h
    · exact List.forall_iff_forall_mem.mp ops13_fresh op h
    · exact List.forall_iff_forall_mem.mp ops14_fresh op h
    · exact List.forall_iff_forall_mem.mp ops15_fresh op h

theorem scopedRefs_eq : (Finset.univ.filter fun b : Ref sig .tc => b.isScoped) = ∅ := by decide
theorem scopedSems_eq : (Finset.univ.filter fun sm : SemLoc sig => sm.isScoped .tc) = ∅ := by decide

/-- The contents after the whole line are the contents after the parts, one after the other. -/
theorem after_ops (V : Valuation τ sig (Elt F)) :
    after ops V = (after ops15 (after ops14 (after ops13 (after ops12 (after ops11 (after ops10 (after ops9 (after ops8 (after ops7 (after ops6 (after ops5 (after ops4 (after ops3 (after ops2 (after ops1 (after ops0 V)))))))))))))))) := by
  simp only [ops, Cert.LibAfter.after_append]

/-- A reference that no part writes keeps its contents through the whole line. -/
theorem after_ops_of_not_written (r : Ref sig .tc) (V : Valuation τ sig (Elt F))
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) (h11 : r ∉ ops11_W) (h12 : r ∉ ops12_W) (h13 : r ∉ ops13_W) (h14 : r ∉ ops14_W) (h15 : r ∉ ops15_W) :
    after ops V (Proc.devRef .tc r) = V (Proc.devRef .tc r) := by
  rw [after_ops, after_of_writes_sub ops15 _ ops15_writes h15,
    after_of_writes_sub ops14 _ ops14_writes h14,
    after_of_writes_sub ops13 _ ops13_writes h13,
    after_of_writes_sub ops12 _ ops12_writes h12,
    after_of_writes_sub ops11 _ ops11_writes h11,
    after_of_writes_sub ops10 _ ops10_writes h10,
    after_of_writes_sub ops9 _ ops9_writes h9,
    after_of_writes_sub ops8 _ ops8_writes h8,
    after_of_writes_sub ops7 _ ops7_writes h7,
    after_of_writes_sub ops6 _ ops6_writes h6,
    after_of_writes_sub ops5 _ ops5_writes h5,
    after_of_writes_sub ops4 _ ops4_writes h4,
    after_of_writes_sub ops3 _ ops3_writes h3,
    after_of_writes_sub ops2 _ ops2_writes h2,
    after_of_writes_sub ops1 _ ops1_writes h1,
    after_of_writes_sub ops0 _ ops0_writes h0]

/-- Every weakly fair execution of @main terminates, nothing faulting, with every buffer at the contents after the line. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Line

end
-- ==== Proof.RefEval.lean ====
/-
  The results of the reference's host operations whose generic evaluation leaves a transport behind: each reshape and
  each operation of an outlined call of this program, stated directly (the reshaped operand; the operation's function
  of its operands), so that a composed term evaluated with these comes out free of transports.  Each is the generic
  result followed by a definitional check on that one operation.
-/
import proofs.«167272_j20323785244837_2_alg».proof.Proof.Gen.ReferenceIdeal
import Idealize.ShloMosaic.Lib.StableHlo.Run

noncomputable section

namespace Cert.ReferenceIdeal.Eval

open Idealize.ShloMosaic Idealize.ShloMosaic.TcCoe Idealize.ShloMosaic.StableHlo
open Cert.ReferenceIdeal Cert.ReferenceIdeal.Gen

variable {F : FTy → Type} [FloatOps F]

theorem rrs_v9 (he : main_v8.ty.elt = main_v9.ty.elt) (V : Valuation τ sig (Elt F)) :
    (StableHlo.reshape (τ := τ) (Val := Elt F) main_v8 main_v9 he shapeCasts_S1x1x64x64_S64x64).result V (no_index (Proc.devRef .tc main_v9))
      = shapeCast S64x64 (V (Proc.devRef .tc main_v8)) shapeCasts_S1x1x64x64_S64x64 := by
  simp only [reshape_result']; rfl

theorem rrs_v11 (he : main_v10.ty.elt = main_v11.ty.elt) (V : Valuation τ sig (Elt F)) :
    (StableHlo.reshape (τ := τ) (Val := Elt F) main_v10 main_v11 he shapeCasts_S1x1x64_S64).result V (no_index (Proc.devRef .tc main_v11))
      = shapeCast S64 (V (Proc.devRef .tc main_v10)) shapeCasts_S1x1x64_S64 := by
  simp only [reshape_result']; rfl

theorem rrs_v13 (he : main_v12.ty.elt = main_v13.ty.elt) (V : Valuation τ sig (Elt F)) :
    (StableHlo.reshape (τ := τ) (Val := Elt F) main_v12 main_v13 he shapeCasts_S1x1000000_S1000000).result V (no_index (Proc.devRef .tc main_v13))
      = shapeCast S1000000 (V (Proc.devRef .tc main_v12)) shapeCasts_S1x1000000_S1000000 := by
  simp only [reshape_result']; rfl

theorem rrs_v15 (he : main_v14.ty.elt = main_v15.ty.elt) (V : Valuation τ sig (Elt F)) :
    (StableHlo.reshape (τ := τ) (Val := Elt F) main_v14 main_v15 he shapeCasts_S1x1000000_S1000000).result V (no_index (Proc.devRef .tc main_v15))
      = shapeCast S1000000 (V (Proc.devRef .tc main_v14)) shapeCasts_S1x1000000_S1000000 := by
  simp only [reshape_result']; rfl

theorem rtr_call0_v0 (V : Valuation τ sig (Elt F)) :
    (StableHlo.TRef.unary (τ := τ) (Val := Elt F) (TRef.of (T := ⟨S_, .f32⟩) main_cst_3) (TRef.of (T := ⟨S_, .f32⟩) main_call0_v0) id).result V (no_index (Proc.devRef .tc main_call0_v0))
      = (id : (⟨S_, .f32⟩ : BufTy).Contents (Elt F) → (⟨S_, .f32⟩ : BufTy).Contents (Elt F)) (V (Proc.devRef .tc main_cst_3)) := by
  simp only [unary_result', binary_result', ternary_result']; rfl

theorem rtr_call0_v1 (V : Valuation τ sig (Elt F)) :
    (StableHlo.TRef.unary (τ := τ) (Val := Elt F) (TRef.of (T := ⟨S_, .f32⟩) main_call0_v0) (TRef.of (T := ⟨S100000, .f32⟩) main_call0_v1) (broadcastInDim S100000 ![] bcast_S_S100000)).result V (no_index (Proc.devRef .tc main_call0_v1))
      = ((broadcastInDim S100000 ![] bcast_S_S100000) : (⟨S_, .f32⟩ : BufTy).Contents (Elt F) → (⟨S100000, .f32⟩ : BufTy).Contents (Elt F)) (V (Proc.devRef .tc main_call0_v0)) := by
  simp only [unary_result', binary_result', ternary_result']; rfl

theorem rtr_v28 (V : Valuation τ sig (Elt F)) :
    (StableHlo.TRef.ternary (τ := τ) (Val := Elt F) (TRef.of (T := ⟨S100000, .i1⟩) main_v24) (TRef.of (T := ⟨S100000, .f32⟩) main_v27) (TRef.of (T := ⟨S100000, .f32⟩) main_call0_v1) (TRef.of (T := ⟨S100000, .f32⟩) main_v28) select).result V (no_index (Proc.devRef .tc main_v28))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v24)) (V (Proc.devRef .tc main_v27)) (V (Proc.devRef .tc main_call0_v1)) := by
  simp only [unary_result', binary_result', ternary_result']; rfl

theorem rrs_v62 (he : main_v61.ty.elt = main_v62.ty.elt) (V : Valuation τ sig (Elt F)) :
    (StableHlo.reshape (τ := τ) (Val := Elt F) main_v61 main_v62 he shapeCasts_S1x1x64x64_S64x64).result V (no_index (Proc.devRef .tc main_v62))
      = shapeCast S64x64 (V (Proc.devRef .tc main_v61)) shapeCasts_S1x1x64x64_S64x64 := by
  simp only [reshape_result']; rfl

theorem rrs_v64 (he : main_v63.ty.elt = main_v64.ty.elt) (V : Valuation τ sig (Elt F)) :
    (StableHlo.reshape (τ := τ) (Val := Elt F) main_v63 main_v64 he shapeCasts_S1x1x64_S64).result V (no_index (Proc.devRef .tc main_v64))
      = shapeCast S64 (V (Proc.devRef .tc main_v63)) shapeCasts_S1x1x64_S64 := by
  simp only [reshape_result']; rfl

theorem rrs_v66 (he : main_v65.ty.elt = main_v66.ty.elt) (V : Valuation τ sig (Elt F)) :
    (StableHlo.reshape (τ := τ) (Val := Elt F) main_v65 main_v66 he shapeCasts_S1x1000000_S1000000).result V (no_index (Proc.devRef .tc main_v66))
      = shapeCast S1000000 (V (Proc.devRef .tc main_v65)) shapeCasts_S1x1000000_S1000000 := by
  simp only [reshape_result']; rfl

theorem rrs_v68 (he : main_v67.ty.elt = main_v68.ty.elt) (V : Valuation τ sig (Elt F)) :
    (StableHlo.reshape (τ := τ) (Val := Elt F) main_v67 main_v68 he shapeCasts_S1x1000000_S1000000).result V (no_index (Proc.devRef .tc main_v68))
      = shapeCast S1000000 (V (Proc.devRef .tc main_v67)) shapeCasts_S1x1000000_S1000000 := by
  simp only [reshape_result']; rfl

theorem rtr_call1_v0 (V : Valuation τ sig (Elt F)) :
    (StableHlo.TRef.unary (τ := τ) (Val := Elt F) (TRef.of (T := ⟨S_, .f32⟩) main_cst_14) (TRef.of (T := ⟨S_, .f32⟩) main_call1_v0) id).result V (no_index (Proc.devRef .tc main_call1_v0))
      = (id : (⟨S_, .f32⟩ : BufTy).Contents (Elt F) → (⟨S_, .f32⟩ : BufTy).Contents (Elt F)) (V (Proc.devRef .tc main_cst_14)) := by
  simp only [unary_result', binary_result', ternary_result']; rfl

theorem rtr_call1_v1 (V : Valuation τ sig (Elt F)) :
    (StableHlo.TRef.unary (τ := τ) (Val := Elt F) (TRef.of (T := ⟨S_, .f32⟩) main_call1_v0) (TRef.of (T := ⟨S200000, .f32⟩) main_call1_v1) (broadcastInDim S200000 ![] bcast_S_S200000)).result V (no_index (Proc.devRef .tc main_call1_v1))
      = ((broadcastInDim S200000 ![] bcast_S_S200000) : (⟨S_, .f32⟩ : BufTy).Contents (Elt F) → (⟨S200000, .f32⟩ : BufTy).Contents (Elt F)) (V (Proc.devRef .tc main_call1_v0)) := by
  simp only [unary_result', binary_result', ternary_result']; rfl

theorem rtr_v81 (V : Valuation τ sig (Elt F)) :
    (StableHlo.TRef.ternary (τ := τ) (Val := Elt F) (TRef.of (T := ⟨S200000, .i1⟩) main_v77) (TRef.of (T := ⟨S200000, .f32⟩) main_v80) (TRef.of (T := ⟨S200000, .f32⟩) main_call1_v1) (TRef.of (T := ⟨S200000, .f32⟩) main_v81) select).result V (no_index (Proc.devRef .tc main_v81))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v77)) (V (Proc.devRef .tc main_v80)) (V (Proc.devRef .tc main_call1_v1)) := by
  simp only [unary_result', binary_result', ternary_result']; rfl

theorem rrs_v115 (he : main_v114.ty.elt = main_v115.ty.elt) (V : Valuation τ sig (Elt F)) :
    (StableHlo.reshape (τ := τ) (Val := Elt F) main_v114 main_v115 he shapeCasts_S1x1x64x64_S64x64).result V (no_index (Proc.devRef .tc main_v115))
      = shapeCast S64x64 (V (Proc.devRef .tc main_v114)) shapeCasts_S1x1x64x64_S64x64 := by
  simp only [reshape_result']; rfl

theorem rrs_v117 (he : main_v116.ty.elt = main_v117.ty.elt) (V : Valuation τ sig (Elt F)) :
    (StableHlo.reshape (τ := τ) (Val := Elt F) main_v116 main_v117 he shapeCasts_S1x1x64_S64).result V (no_index (Proc.devRef .tc main_v117))
      = shapeCast S64 (V (Proc.devRef .tc main_v116)) shapeCasts_S1x1x64_S64 := by
  simp only [reshape_result']; rfl

theorem rrs_v119 (he : main_v118.ty.elt = main_v119.ty.elt) (V : Valuation τ sig (Elt F)) :
    (StableHlo.reshape (τ := τ) (Val := Elt F) main_v118 main_v119 he shapeCasts_S1x1000000_S1000000).result V (no_index (Proc.devRef .tc main_v119))
      = shapeCast S1000000 (V (Proc.devRef .tc main_v118)) shapeCasts_S1x1000000_S1000000 := by
  simp only [reshape_result']; rfl

theorem rrs_v121 (he : main_v120.ty.elt = main_v121.ty.elt) (V : Valuation τ sig (Elt F)) :
    (StableHlo.reshape (τ := τ) (Val := Elt F) main_v120 main_v121 he shapeCasts_S1x1000000_S1000000).result V (no_index (Proc.devRef .tc main_v121))
      = shapeCast S1000000 (V (Proc.devRef .tc main_v120)) shapeCasts_S1x1000000_S1000000 := by
  simp only [reshape_result']; rfl

theorem rtr_call2_v0 (V : Valuation τ sig (Elt F)) :
    (StableHlo.TRef.unary (τ := τ) (Val := Elt F) (TRef.of (T := ⟨S_, .f32⟩) main_cst_28) (TRef.of (T := ⟨S_, .f32⟩) main_call2_v0) id).result V (no_index (Proc.devRef .tc main_call2_v0))
      = (id : (⟨S_, .f32⟩ : BufTy).Contents (Elt F) → (⟨S_, .f32⟩ : BufTy).Contents (Elt F)) (V (Proc.devRef .tc main_cst_28)) := by
  simp only [unary_result', binary_result', ternary_result']; rfl

theorem rtr_call2_v1 (V : Valuation τ sig (Elt F)) :
    (StableHlo.TRef.unary (τ := τ) (Val := Elt F) (TRef.of (T := ⟨S_, .f32⟩) main_call2_v0) (TRef.of (T := ⟨S100000, .f32⟩) main_call2_v1) (broadcastInDim S100000 ![] bcast_S_S100000)).result V (no_index (Proc.devRef .tc main_call2_v1))
      = ((broadcastInDim S100000 ![] bcast_S_S100000) : (⟨S_, .f32⟩ : BufTy).Contents (Elt F) → (⟨S100000, .f32⟩ : BufTy).Contents (Elt F)) (V (Proc.devRef .tc main_call2_v0)) := by
  simp only [unary_result', binary_result', ternary_result']; rfl

theorem rtr_v135 (V : Valuation τ sig (Elt F)) :
    (StableHlo.TRef.ternary (τ := τ) (Val := Elt F) (TRef.of (T := ⟨S100000, .i1⟩) main_v131) (TRef.of (T := ⟨S100000, .f32⟩) main_v134) (TRef.of (T := ⟨S100000, .f32⟩) main_call2_v1) (TRef.of (T := ⟨S100000, .f32⟩) main_v135) select).result V (no_index (Proc.devRef .tc main_v135))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v131)) (V (Proc.devRef .tc main_v134)) (V (Proc.devRef .tc main_call2_v1)) := by
  simp only [unary_result', binary_result', ternary_result']; rfl

theorem rtr_call3_v0 (V : Valuation τ sig (Elt F)) :
    (StableHlo.TRef.unary (τ := τ) (Val := Elt F) (TRef.of (T := ⟨S_, .f32⟩) main_cst_31) (TRef.of (T := ⟨S_, .f32⟩) main_call3_v0) id).result V (no_index (Proc.devRef .tc main_call3_v0))
      = (id : (⟨S_, .f32⟩ : BufTy).Contents (Elt F) → (⟨S_, .f32⟩ : BufTy).Contents (Elt F)) (V (Proc.devRef .tc main_cst_31)) := by
  simp only [unary_result', binary_result', ternary_result']; rfl

theorem rtr_call3_v1 (V : Valuation τ sig (Elt F)) :
    (StableHlo.TRef.unary (τ := τ) (Val := Elt F) (TRef.of (T := ⟨S_, .f32⟩) main_call3_v0) (TRef.of (T := ⟨S200000, .f32⟩) main_call3_v1) (broadcastInDim S200000 ![] bcast_S_S200000)).result V (no_index (Proc.devRef .tc main_call3_v1))
      = ((broadcastInDim S200000 ![] bcast_S_S200000) : (⟨S_, .f32⟩ : BufTy).Contents (Elt F) → (⟨S200000, .f32⟩ : BufTy).Contents (Elt F)) (V (Proc.devRef .tc main_call3_v0)) := by
  simp only [unary_result', binary_result', ternary_result']; rfl

theorem rtr_v141 (V : Valuation τ sig (Elt F)) :
    (StableHlo.TRef.ternary (τ := τ) (Val := Elt F) (TRef.of (T := ⟨S200000, .i1⟩) main_v137) (TRef.of (T := ⟨S200000, .f32⟩) main_v140) (TRef.of (T := ⟨S200000, .f32⟩) main_call3_v1) (TRef.of (T := ⟨S200000, .f32⟩) main_v141) select).result V (no_index (Proc.devRef .tc main_v141))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v137)) (V (Proc.devRef .tc main_v140)) (V (Proc.devRef .tc main_call3_v1)) := by
  simp only [unary_result', binary_result', ternary_result']; rfl

theorem rrs_v175 (he : main_v174.ty.elt = main_v175.ty.elt) (V : Valuation τ sig (Elt F)) :
    (StableHlo.reshape (τ := τ) (Val := Elt F) main_v174 main_v175 he shapeCasts_S1x1x64x64_S64x64).result V (no_index (Proc.devRef .tc main_v175))
      = shapeCast S64x64 (V (Proc.devRef .tc main_v174)) shapeCasts_S1x1x64x64_S64x64 := by
  simp only [reshape_result']; rfl

theorem rrs_v177 (he : main_v176.ty.elt = main_v177.ty.elt) (V : Valuation τ sig (Elt F)) :
    (StableHlo.reshape (τ := τ) (Val := Elt F) main_v176 main_v177 he shapeCasts_S1x1x64_S64).result V (no_index (Proc.devRef .tc main_v177))
      = shapeCast S64 (V (Proc.devRef .tc main_v176)) shapeCasts_S1x1x64_S64 := by
  simp only [reshape_result']; rfl

theorem rrs_v179 (he : main_v178.ty.elt = main_v179.ty.elt) (V : Valuation τ sig (Elt F)) :
    (StableHlo.reshape (τ := τ) (Val := Elt F) main_v178 main_v179 he shapeCasts_S1x1000000_S1000000).result V (no_index (Proc.devRef .tc main_v179))
      = shapeCast S1000000 (V (Proc.devRef .tc main_v178)) shapeCasts_S1x1000000_S1000000 := by
  simp only [reshape_result']; rfl

theorem rrs_v181 (he : main_v180.ty.elt = main_v181.ty.elt) (V : Valuation τ sig (Elt F)) :
    (StableHlo.reshape (τ := τ) (Val := Elt F) main_v180 main_v181 he shapeCasts_S1x1000000_S1000000).result V (no_index (Proc.devRef .tc main_v181))
      = shapeCast S1000000 (V (Proc.devRef .tc main_v180)) shapeCasts_S1x1000000_S1000000 := by
  simp only [reshape_result']; rfl

theorem rtr_call4_v0 (V : Valuation τ sig (Elt F)) :
    (StableHlo.TRef.unary (τ := τ) (Val := Elt F) (TRef.of (T := ⟨S_, .f32⟩) main_cst_45) (TRef.of (T := ⟨S_, .f32⟩) main_call4_v0) id).result V (no_index (Proc.devRef .tc main_call4_v0))
      = (id : (⟨S_, .f32⟩ : BufTy).Contents (Elt F) → (⟨S_, .f32⟩ : BufTy).Contents (Elt F)) (V (Proc.devRef .tc main_cst_45)) := by
  simp only [unary_result', binary_result', ternary_result']; rfl

theorem rtr_call4_v1 (V : Valuation τ sig (Elt F)) :
    (StableHlo.TRef.unary (τ := τ) (Val := Elt F) (TRef.of (T := ⟨S_, .f32⟩) main_call4_v0) (TRef.of (T := ⟨S200000, .f32⟩) main_call4_v1) (broadcastInDim S200000 ![] bcast_S_S200000)).result V (no_index (Proc.devRef .tc main_call4_v1))
      = ((broadcastInDim S200000 ![] bcast_S_S200000) : (⟨S_, .f32⟩ : BufTy).Contents (Elt F) → (⟨S200000, .f32⟩ : BufTy).Contents (Elt F)) (V (Proc.devRef .tc main_call4_v0)) := by
  simp only [unary_result', binary_result', ternary_result']; rfl

theorem rtr_v195 (V : Valuation τ sig (Elt F)) :
    (StableHlo.TRef.ternary (τ := τ) (Val := Elt F) (TRef.of (T := ⟨S200000, .i1⟩) main_v191) (TRef.of (T := ⟨S200000, .f32⟩) main_v194) (TRef.of (T := ⟨S200000, .f32⟩) main_call4_v1) (TRef.of (T := ⟨S200000, .f32⟩) main_v195) select).result V (no_index (Proc.devRef .tc main_v195))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v191)) (V (Proc.devRef .tc main_v194)) (V (Proc.devRef .tc main_call4_v1)) := by
  simp only [unary_result', binary_result', ternary_result']; rfl

theorem rtr_call5_v0 (V : Valuation τ sig (Elt F)) :
    (StableHlo.TRef.unary (τ := τ) (Val := Elt F) (TRef.of (T := ⟨S_, .f32⟩) main_cst_48) (TRef.of (T := ⟨S_, .f32⟩) main_call5_v0) id).result V (no_index (Proc.devRef .tc main_call5_v0))
      = (id : (⟨S_, .f32⟩ : BufTy).Contents (Elt F) → (⟨S_, .f32⟩ : BufTy).Contents (Elt F)) (V (Proc.devRef .tc main_cst_48)) := by
  simp only [unary_result', binary_result', ternary_result']; rfl

theorem rtr_call5_v1 (V : Valuation τ sig (Elt F)) :
    (StableHlo.TRef.unary (τ := τ) (Val := Elt F) (TRef.of (T := ⟨S_, .f32⟩) main_call5_v0) (TRef.of (T := ⟨S100000, .f32⟩) main_call5_v1) (broadcastInDim S100000 ![] bcast_S_S100000)).result V (no_index (Proc.devRef .tc main_call5_v1))
      = ((broadcastInDim S100000 ![] bcast_S_S100000) : (⟨S_, .f32⟩ : BufTy).Contents (Elt F) → (⟨S100000, .f32⟩ : BufTy).Contents (Elt F)) (V (Proc.devRef .tc main_call5_v0)) := by
  simp only [unary_result', binary_result', ternary_result']; rfl

theorem rtr_v201 (V : Valuation τ sig (Elt F)) :
    (StableHlo.TRef.ternary (τ := τ) (Val := Elt F) (TRef.of (T := ⟨S100000, .i1⟩) main_v197) (TRef.of (T := ⟨S100000, .f32⟩) main_v200) (TRef.of (T := ⟨S100000, .f32⟩) main_call5_v1) (TRef.of (T := ⟨S100000, .f32⟩) main_v201) select).result V (no_index (Proc.devRef .tc main_v201))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v197)) (V (Proc.devRef .tc main_v200)) (V (Proc.devRef .tc main_call5_v1)) := by
  simp only [unary_result', binary_result', ternary_result']; rfl

theorem rtr_call6_v0 (V : Valuation τ sig (Elt F)) :
    (StableHlo.TRef.unary (τ := τ) (Val := Elt F) (TRef.of (T := ⟨S_, .f32⟩) main_call6_cst) (TRef.of (T := ⟨S100000x64, .f32⟩) main_call6_v0) (broadcastInDim S100000x64 ![] bcast_S_S100000x64)).result V (no_index (Proc.devRef .tc main_call6_v0))
      = ((broadcastInDim S100000x64 ![] bcast_S_S100000x64) : (⟨S_, .f32⟩ : BufTy).Contents (Elt F) → (⟨S100000x64, .f32⟩ : BufTy).Contents (Elt F)) (V (Proc.devRef .tc main_call6_cst)) := by
  simp only [unary_result', binary_result', ternary_result']; rfl

theorem rtr_v237 (V : Valuation τ sig (Elt F)) :
    (StableHlo.TRef.binary (τ := τ) (Val := Elt F) (TRef.of (T := ⟨S100000x64, .f32⟩) main_v236) (TRef.of (T := ⟨S100000x64, .f32⟩) main_call6_v0) (TRef.of (T := ⟨S100000x64, .f32⟩) main_v237) maximumf).result V (no_index (Proc.devRef .tc main_v237))
      = (maximumf : (⟨S100000x64, .f32⟩ : BufTy).Contents (Elt F) → (⟨S100000x64, .f32⟩ : BufTy).Contents (Elt F) → (⟨S100000x64, .f32⟩ : BufTy).Contents (Elt F)) (V (Proc.devRef .tc main_v236)) (V (Proc.devRef .tc main_call6_v0)) := by
  simp only [unary_result', binary_result', ternary_result']; rfl

theorem rtr_call7_v0 (V : Valuation τ sig (Elt F)) :
    (StableHlo.TRef.unary (τ := τ) (Val := Elt F) (TRef.of (T := ⟨S_, .f32⟩) main_call7_cst) (TRef.of (T := ⟨S200000x64, .f32⟩) main_call7_v0) (broadcastInDim S200000x64 ![] bcast_S_S200000x64)).result V (no_index (Proc.devRef .tc main_call7_v0))
      = ((broadcastInDim S200000x64 ![] bcast_S_S200000x64) : (⟨S_, .f32⟩ : BufTy).Contents (Elt F) → (⟨S200000x64, .f32⟩ : BufTy).Contents (Elt F)) (V (Proc.devRef .tc main_call7_cst)) := by
  simp only [unary_result', binary_result', ternary_result']; rfl

theorem rtr_v241 (V : Valuation τ sig (Elt F)) :
    (StableHlo.TRef.binary (τ := τ) (Val := Elt F) (TRef.of (T := ⟨S200000x64, .f32⟩) main_v240) (TRef.of (T := ⟨S200000x64, .f32⟩) main_call7_v0) (TRef.of (T := ⟨S200000x64, .f32⟩) main_v241) maximumf).result V (no_index (Proc.devRef .tc main_v241))
      = (maximumf : (⟨S200000x64, .f32⟩ : BufTy).Contents (Elt F) → (⟨S200000x64, .f32⟩ : BufTy).Contents (Elt F) → (⟨S200000x64, .f32⟩ : BufTy).Contents (Elt F)) (V (Proc.devRef .tc main_v240)) (V (Proc.devRef .tc main_call7_v0)) := by
  simp only [unary_result', binary_result', ternary_result']; rfl

theorem rrs_v243 (he : main_v242.ty.elt = main_v243.ty.elt) (V : Valuation τ sig (Elt F)) :
    (StableHlo.reshape (τ := τ) (Val := Elt F) main_v242 main_v243 he shapeCasts_S1x1x64x64_S64x64).result V (no_index (Proc.devRef .tc main_v243))
      = shapeCast S64x64 (V (Proc.devRef .tc main_v242)) shapeCasts_S1x1x64x64_S64x64 := by
  simp only [reshape_result']; rfl

theorem rrs_v245 (he : main_v244.ty.elt = main_v245.ty.elt) (V : Valuation τ sig (Elt F)) :
    (StableHlo.reshape (τ := τ) (Val := Elt F) main_v244 main_v245 he shapeCasts_S1x1x64_S64).result V (no_index (Proc.devRef .tc main_v245))
      = shapeCast S64 (V (Proc.devRef .tc main_v244)) shapeCasts_S1x1x64_S64 := by
  simp only [reshape_result']; rfl

theorem rrs_v247 (he : main_v246.ty.elt = main_v247.ty.elt) (V : Valuation τ sig (Elt F)) :
    (StableHlo.reshape (τ := τ) (Val := Elt F) main_v246 main_v247 he shapeCasts_S1x1000000_S1000000).result V (no_index (Proc.devRef .tc main_v247))
      = shapeCast S1000000 (V (Proc.devRef .tc main_v246)) shapeCasts_S1x1000000_S1000000 := by
  simp only [reshape_result']; rfl

theorem rrs_v249 (he : main_v248.ty.elt = main_v249.ty.elt) (V : Valuation τ sig (Elt F)) :
    (StableHlo.reshape (τ := τ) (Val := Elt F) main_v248 main_v249 he shapeCasts_S1x1000000_S1000000).result V (no_index (Proc.devRef .tc main_v249))
      = shapeCast S1000000 (V (Proc.devRef .tc main_v248)) shapeCasts_S1x1000000_S1000000 := by
  simp only [reshape_result']; rfl

theorem rtr_call8_v0 (V : Valuation τ sig (Elt F)) :
    (StableHlo.TRef.unary (τ := τ) (Val := Elt F) (TRef.of (T := ⟨S_, .f32⟩) main_cst_62) (TRef.of (T := ⟨S_, .f32⟩) main_call8_v0) id).result V (no_index (Proc.devRef .tc main_call8_v0))
      = (id : (⟨S_, .f32⟩ : BufTy).Contents (Elt F) → (⟨S_, .f32⟩ : BufTy).Contents (Elt F)) (V (Proc.devRef .tc main_cst_62)) := by
  simp only [unary_result', binary_result', ternary_result']; rfl

theorem rtr_call8_v1 (V : Valuation τ sig (Elt F)) :
    (StableHlo.TRef.unary (τ := τ) (Val := Elt F) (TRef.of (T := ⟨S_, .f32⟩) main_call8_v0) (TRef.of (T := ⟨S100000, .f32⟩) main_call8_v1) (broadcastInDim S100000 ![] bcast_S_S100000)).result V (no_index (Proc.devRef .tc main_call8_v1))
      = ((broadcastInDim S100000 ![] bcast_S_S100000) : (⟨S_, .f32⟩ : BufTy).Contents (Elt F) → (⟨S100000, .f32⟩ : BufTy).Contents (Elt F)) (V (Proc.devRef .tc main_call8_v0)) := by
  simp only [unary_result', binary_result', ternary_result']; rfl

theorem rtr_v262 (V : Valuation τ sig (Elt F)) :
    (StableHlo.TRef.ternary (τ := τ) (Val := Elt F) (TRef.of (T := ⟨S100000, .i1⟩) main_v258) (TRef.of (T := ⟨S100000, .f32⟩) main_v261) (TRef.of (T := ⟨S100000, .f32⟩) main_call8_v1) (TRef.of (T := ⟨S100000, .f32⟩) main_v262) select).result V (no_index (Proc.devRef .tc main_v262))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v258)) (V (Proc.devRef .tc main_v261)) (V (Proc.devRef .tc main_call8_v1)) := by
  simp only [unary_result', binary_result', ternary_result']; rfl

theorem rrs_v296 (he : main_v295.ty.elt = main_v296.ty.elt) (V : Valuation τ sig (Elt F)) :
    (StableHlo.reshape (τ := τ) (Val := Elt F) main_v295 main_v296 he shapeCasts_S1x1x64x64_S64x64).result V (no_index (Proc.devRef .tc main_v296))
      = shapeCast S64x64 (V (Proc.devRef .tc main_v295)) shapeCasts_S1x1x64x64_S64x64 := by
  simp only [reshape_result']; rfl

theorem rrs_v298 (he : main_v297.ty.elt = main_v298.ty.elt) (V : Valuation τ sig (Elt F)) :
    (StableHlo.reshape (τ := τ) (Val := Elt F) main_v297 main_v298 he shapeCasts_S1x1x64_S64).result V (no_index (Proc.devRef .tc main_v298))
      = shapeCast S64 (V (Proc.devRef .tc main_v297)) shapeCasts_S1x1x64_S64 := by
  simp only [reshape_result']; rfl

theorem rrs_v300 (he : main_v299.ty.elt = main_v300.ty.elt) (V : Valuation τ sig (Elt F)) :
    (StableHlo.reshape (τ := τ) (Val := Elt F) main_v299 main_v300 he shapeCasts_S1x1000000_S1000000).result V (no_index (Proc.devRef .tc main_v300))
      = shapeCast S1000000 (V (Proc.devRef .tc main_v299)) shapeCasts_S1x1000000_S1000000 := by
  simp only [reshape_result']; rfl

theorem rrs_v302 (he : main_v301.ty.elt = main_v302.ty.elt) (V : Valuation τ sig (Elt F)) :
    (StableHlo.reshape (τ := τ) (Val := Elt F) main_v301 main_v302 he shapeCasts_S1x1000000_S1000000).result V (no_index (Proc.devRef .tc main_v302))
      = shapeCast S1000000 (V (Proc.devRef .tc main_v301)) shapeCasts_S1x1000000_S1000000 := by
  simp only [reshape_result']; rfl

theorem rtr_call9_v0 (V : Valuation τ sig (Elt F)) :
    (StableHlo.TRef.unary (τ := τ) (Val := Elt F) (TRef.of (T := ⟨S_, .f32⟩) main_cst_74) (TRef.of (T := ⟨S_, .f32⟩) main_call9_v0) id).result V (no_index (Proc.devRef .tc main_call9_v0))
      = (id : (⟨S_, .f32⟩ : BufTy).Contents (Elt F) → (⟨S_, .f32⟩ : BufTy).Contents (Elt F)) (V (Proc.devRef .tc main_cst_74)) := by
  simp only [unary_result', binary_result', ternary_result']; rfl

theorem rtr_call9_v1 (V : Valuation τ sig (Elt F)) :
    (StableHlo.TRef.unary (τ := τ) (Val := Elt F) (TRef.of (T := ⟨S_, .f32⟩) main_call9_v0) (TRef.of (T := ⟨S200000, .f32⟩) main_call9_v1) (broadcastInDim S200000 ![] bcast_S_S200000)).result V (no_index (Proc.devRef .tc main_call9_v1))
      = ((broadcastInDim S200000 ![] bcast_S_S200000) : (⟨S_, .f32⟩ : BufTy).Contents (Elt F) → (⟨S200000, .f32⟩ : BufTy).Contents (Elt F)) (V (Proc.devRef .tc main_call9_v0)) := by
  simp only [unary_result', binary_result', ternary_result']; rfl

theorem rtr_v315 (V : Valuation τ sig (Elt F)) :
    (StableHlo.TRef.ternary (τ := τ) (Val := Elt F) (TRef.of (T := ⟨S200000, .i1⟩) main_v311) (TRef.of (T := ⟨S200000, .f32⟩) main_v314) (TRef.of (T := ⟨S200000, .f32⟩) main_call9_v1) (TRef.of (T := ⟨S200000, .f32⟩) main_v315) select).result V (no_index (Proc.devRef .tc main_v315))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v311)) (V (Proc.devRef .tc main_v314)) (V (Proc.devRef .tc main_call9_v1)) := by
  simp only [unary_result', binary_result', ternary_result']; rfl

theorem rrs_v349 (he : main_v348.ty.elt = main_v349.ty.elt) (V : Valuation τ sig (Elt F)) :
    (StableHlo.reshape (τ := τ) (Val := Elt F) main_v348 main_v349 he shapeCasts_S1x1x64x64_S64x64).result V (no_index (Proc.devRef .tc main_v349))
      = shapeCast S64x64 (V (Proc.devRef .tc main_v348)) shapeCasts_S1x1x64x64_S64x64 := by
  simp only [reshape_result']; rfl

theorem rrs_v351 (he : main_v350.ty.elt = main_v351.ty.elt) (V : Valuation τ sig (Elt F)) :
    (StableHlo.reshape (τ := τ) (Val := Elt F) main_v350 main_v351 he shapeCasts_S1x1x64_S64).result V (no_index (Proc.devRef .tc main_v351))
      = shapeCast S64 (V (Proc.devRef .tc main_v350)) shapeCasts_S1x1x64_S64 := by
  simp only [reshape_result']; rfl

theorem rrs_v353 (he : main_v352.ty.elt = main_v353.ty.elt) (V : Valuation τ sig (Elt F)) :
    (StableHlo.reshape (τ := τ) (Val := Elt F) main_v352 main_v353 he shapeCasts_S1x1000000_S1000000).result V (no_index (Proc.devRef .tc main_v353))
      = shapeCast S1000000 (V (Proc.devRef .tc main_v352)) shapeCasts_S1x1000000_S1000000 := by
  simp only [reshape_result']; rfl

theorem rrs_v355 (he : main_v354.ty.elt = main_v355.ty.elt) (V : Valuation τ sig (Elt F)) :
    (StableHlo.reshape (τ := τ) (Val := Elt F) main_v354 main_v355 he shapeCasts_S1x1000000_S1000000).result V (no_index (Proc.devRef .tc main_v355))
      = shapeCast S1000000 (V (Proc.devRef .tc main_v354)) shapeCasts_S1x1000000_S1000000 := by
  simp only [reshape_result']; rfl

theorem rtr_call10_v0 (V : Valuation τ sig (Elt F)) :
    (StableHlo.TRef.unary (τ := τ) (Val := Elt F) (TRef.of (T := ⟨S_, .f32⟩) main_cst_88) (TRef.of (T := ⟨S_, .f32⟩) main_call10_v0) id).result V (no_index (Proc.devRef .tc main_call10_v0))
      = (id : (⟨S_, .f32⟩ : BufTy).Contents (Elt F) → (⟨S_, .f32⟩ : BufTy).Contents (Elt F)) (V (Proc.devRef .tc main_cst_88)) := by
  simp only [unary_result', binary_result', ternary_result']; rfl

theorem rtr_call10_v1 (V : Valuation τ sig (Elt F)) :
    (StableHlo.TRef.unary (τ := τ) (Val := Elt F) (TRef.of (T := ⟨S_, .f32⟩) main_call10_v0) (TRef.of (T := ⟨S100000, .f32⟩) main_call10_v1) (broadcastInDim S100000 ![] bcast_S_S100000)).result V (no_index (Proc.devRef .tc main_call10_v1))
      = ((broadcastInDim S100000 ![] bcast_S_S100000) : (⟨S_, .f32⟩ : BufTy).Contents (Elt F) → (⟨S100000, .f32⟩ : BufTy).Contents (Elt F)) (V (Proc.devRef .tc main_call10_v0)) := by
  simp only [unary_result', binary_result', ternary_result']; rfl

theorem rtr_v369 (V : Valuation τ sig (Elt F)) :
    (StableHlo.TRef.ternary (τ := τ) (Val := Elt F) (TRef.of (T := ⟨S100000, .i1⟩) main_v365) (TRef.of (T := ⟨S100000, .f32⟩) main_v368) (TRef.of (T := ⟨S100000, .f32⟩) main_call10_v1) (TRef.of (T := ⟨S100000, .f32⟩) main_v369) select).result V (no_index (Proc.devRef .tc main_v369))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v365)) (V (Proc.devRef .tc main_v368)) (V (Proc.devRef .tc main_call10_v1)) := by
  simp only [unary_result', binary_result', ternary_result']; rfl

theorem rtr_call11_v0 (V : Valuation τ sig (Elt F)) :
    (StableHlo.TRef.unary (τ := τ) (Val := Elt F) (TRef.of (T := ⟨S_, .f32⟩) main_cst_91) (TRef.of (T := ⟨S_, .f32⟩) main_call11_v0) id).result V (no_index (Proc.devRef .tc main_call11_v0))
      = (id : (⟨S_, .f32⟩ : BufTy).Contents (Elt F) → (⟨S_, .f32⟩ : BufTy).Contents (Elt F)) (V (Proc.devRef .tc main_cst_91)) := by
  simp only [unary_result', binary_result', ternary_result']; rfl

theorem rtr_call11_v1 (V : Valuation τ sig (Elt F)) :
    (StableHlo.TRef.unary (τ := τ) (Val := Elt F) (TRef.of (T := ⟨S_, .f32⟩) main_call11_v0) (TRef.of (T := ⟨S200000, .f32⟩) main_call11_v1) (broadcastInDim S200000 ![] bcast_S_S200000)).result V (no_index (Proc.devRef .tc main_call11_v1))
      = ((broadcastInDim S200000 ![] bcast_S_S200000) : (⟨S_, .f32⟩ : BufTy).Contents (Elt F) → (⟨S200000, .f32⟩ : BufTy).Contents (Elt F)) (V (Proc.devRef .tc main_call11_v0)) := by
  simp only [unary_result', binary_result', ternary_result']; rfl

theorem rtr_v375 (V : Valuation τ sig (Elt F)) :
    (StableHlo.TRef.ternary (τ := τ) (Val := Elt F) (TRef.of (T := ⟨S200000, .i1⟩) main_v371) (TRef.of (T := ⟨S200000, .f32⟩) main_v374) (TRef.of (T := ⟨S200000, .f32⟩) main_call11_v1) (TRef.of (T := ⟨S200000, .f32⟩) main_v375) select).result V (no_index (Proc.devRef .tc main_v375))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v371)) (V (Proc.devRef .tc main_v374)) (V (Proc.devRef .tc main_call11_v1)) := by
  simp only [unary_result', binary_result', ternary_result']; rfl

theorem rrs_v409 (he : main_v408.ty.elt = main_v409.ty.elt) (V : Valuation τ sig (Elt F)) :
    (StableHlo.reshape (τ := τ) (Val := Elt F) main_v408 main_v409 he shapeCasts_S1x1x64x64_S64x64).result V (no_index (Proc.devRef .tc main_v409))
      = shapeCast S64x64 (V (Proc.devRef .tc main_v408)) shapeCasts_S1x1x64x64_S64x64 := by
  simp only [reshape_result']; rfl

theorem rrs_v411 (he : main_v410.ty.elt = main_v411.ty.elt) (V : Valuation τ sig (Elt F)) :
    (StableHlo.reshape (τ := τ) (Val := Elt F) main_v410 main_v411 he shapeCasts_S1x1x64_S64).result V (no_index (Proc.devRef .tc main_v411))
      = shapeCast S64 (V (Proc.devRef .tc main_v410)) shapeCasts_S1x1x64_S64 := by
  simp only [reshape_result']; rfl

theorem rrs_v413 (he : main_v412.ty.elt = main_v413.ty.elt) (V : Valuation τ sig (Elt F)) :
    (StableHlo.reshape (τ := τ) (Val := Elt F) main_v412 main_v413 he shapeCasts_S1x1000000_S1000000).result V (no_index (Proc.devRef .tc main_v413))
      = shapeCast S1000000 (V (Proc.devRef .tc main_v412)) shapeCasts_S1x1000000_S1000000 := by
  simp only [reshape_result']; rfl

theorem rrs_v415 (he : main_v414.ty.elt = main_v415.ty.elt) (V : Valuation τ sig (Elt F)) :
    (StableHlo.reshape (τ := τ) (Val := Elt F) main_v414 main_v415 he shapeCasts_S1x1000000_S1000000).result V (no_index (Proc.devRef .tc main_v415))
      = shapeCast S1000000 (V (Proc.devRef .tc main_v414)) shapeCasts_S1x1000000_S1000000 := by
  simp only [reshape_result']; rfl

theorem rtr_call12_v0 (V : Valuation τ sig (Elt F)) :
    (StableHlo.TRef.unary (τ := τ) (Val := Elt F) (TRef.of (T := ⟨S_, .f32⟩) main_cst_105) (TRef.of (T := ⟨S_, .f32⟩) main_call12_v0) id).result V (no_index (Proc.devRef .tc main_call12_v0))
      = (id : (⟨S_, .f32⟩ : BufTy).Contents (Elt F) → (⟨S_, .f32⟩ : BufTy).Contents (Elt F)) (V (Proc.devRef .tc main_cst_105)) := by
  simp only [unary_result', binary_result', ternary_result']; rfl

theorem rtr_call12_v1 (V : Valuation τ sig (Elt F)) :
    (StableHlo.TRef.unary (τ := τ) (Val := Elt F) (TRef.of (T := ⟨S_, .f32⟩) main_call12_v0) (TRef.of (T := ⟨S200000, .f32⟩) main_call12_v1) (broadcastInDim S200000 ![] bcast_S_S200000)).result V (no_index (Proc.devRef .tc main_call12_v1))
      = ((broadcastInDim S200000 ![] bcast_S_S200000) : (⟨S_, .f32⟩ : BufTy).Contents (Elt F) → (⟨S200000, .f32⟩ : BufTy).Contents (Elt F)) (V (Proc.devRef .tc main_call12_v0)) := by
  simp only [unary_result', binary_result', ternary_result']; rfl

theorem rtr_v429 (V : Valuation τ sig (Elt F)) :
    (StableHlo.TRef.ternary (τ := τ) (Val := Elt F) (TRef.of (T := ⟨S200000, .i1⟩) main_v425) (TRef.of (T := ⟨S200000, .f32⟩) main_v428) (TRef.of (T := ⟨S200000, .f32⟩) main_call12_v1) (TRef.of (T := ⟨S200000, .f32⟩) main_v429) select).result V (no_index (Proc.devRef .tc main_v429))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v425)) (V (Proc.devRef .tc main_v428)) (V (Proc.devRef .tc main_call12_v1)) := by
  simp only [unary_result', binary_result', ternary_result']; rfl

theorem rtr_call13_v0 (V : Valuation τ sig (Elt F)) :
    (StableHlo.TRef.unary (τ := τ) (Val := Elt F) (TRef.of (T := ⟨S_, .f32⟩) main_cst_108) (TRef.of (T := ⟨S_, .f32⟩) main_call13_v0) id).result V (no_index (Proc.devRef .tc main_call13_v0))
      = (id : (⟨S_, .f32⟩ : BufTy).Contents (Elt F) → (⟨S_, .f32⟩ : BufTy).Contents (Elt F)) (V (Proc.devRef .tc main_cst_108)) := by
  simp only [unary_result', binary_result', ternary_result']; rfl

theorem rtr_call13_v1 (V : Valuation τ sig (Elt F)) :
    (StableHlo.TRef.unary (τ := τ) (Val := Elt F) (TRef.of (T := ⟨S_, .f32⟩) main_call13_v0) (TRef.of (T := ⟨S100000, .f32⟩) main_call13_v1) (broadcastInDim S100000 ![] bcast_S_S100000)).result V (no_index (Proc.devRef .tc main_call13_v1))
      = ((broadcastInDim S100000 ![] bcast_S_S100000) : (⟨S_, .f32⟩ : BufTy).Contents (Elt F) → (⟨S100000, .f32⟩ : BufTy).Contents (Elt F)) (V (Proc.devRef .tc main_call13_v0)) := by
  simp only [unary_result', binary_result', ternary_result']; rfl

theorem rtr_v435 (V : Valuation τ sig (Elt F)) :
    (StableHlo.TRef.ternary (τ := τ) (Val := Elt F) (TRef.of (T := ⟨S100000, .i1⟩) main_v431) (TRef.of (T := ⟨S100000, .f32⟩) main_v434) (TRef.of (T := ⟨S100000, .f32⟩) main_call13_v1) (TRef.of (T := ⟨S100000, .f32⟩) main_v435) select).result V (no_index (Proc.devRef .tc main_v435))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v431)) (V (Proc.devRef .tc main_v434)) (V (Proc.devRef .tc main_call13_v1)) := by
  simp only [unary_result', binary_result', ternary_result']; rfl

theorem rtr_call14_v0 (V : Valuation τ sig (Elt F)) :
    (StableHlo.TRef.unary (τ := τ) (Val := Elt F) (TRef.of (T := ⟨S_, .f32⟩) main_call14_cst) (TRef.of (T := ⟨S100000x64, .f32⟩) main_call14_v0) (broadcastInDim S100000x64 ![] bcast_S_S100000x64)).result V (no_index (Proc.devRef .tc main_call14_v0))
      = ((broadcastInDim S100000x64 ![] bcast_S_S100000x64) : (⟨S_, .f32⟩ : BufTy).Contents (Elt F) → (⟨S100000x64, .f32⟩ : BufTy).Contents (Elt F)) (V (Proc.devRef .tc main_call14_cst)) := by
  simp only [unary_result', binary_result', ternary_result']; rfl

theorem rtr_v471 (V : Valuation τ sig (Elt F)) :
    (StableHlo.TRef.binary (τ := τ) (Val := Elt F) (TRef.of (T := ⟨S100000x64, .f32⟩) main_v470) (TRef.of (T := ⟨S100000x64, .f32⟩) main_call14_v0) (TRef.of (T := ⟨S100000x64, .f32⟩) main_v471) maximumf).result V (no_index (Proc.devRef .tc main_v471))
      = (maximumf : (⟨S100000x64, .f32⟩ : BufTy).Contents (Elt F) → (⟨S100000x64, .f32⟩ : BufTy).Contents (Elt F) → (⟨S100000x64, .f32⟩ : BufTy).Contents (Elt F)) (V (Proc.devRef .tc main_v470)) (V (Proc.devRef .tc main_call14_v0)) := by
  simp only [unary_result', binary_result', ternary_result']; rfl

theorem rtr_call15_v0 (V : Valuation τ sig (Elt F)) :
    (StableHlo.TRef.unary (τ := τ) (Val := Elt F) (TRef.of (T := ⟨S_, .f32⟩) main_call15_cst) (TRef.of (T := ⟨S200000x64, .f32⟩) main_call15_v0) (broadcastInDim S200000x64 ![] bcast_S_S200000x64)).result V (no_index (Proc.devRef .tc main_call15_v0))
      = ((broadcastInDim S200000x64 ![] bcast_S_S200000x64) : (⟨S_, .f32⟩ : BufTy).Contents (Elt F) → (⟨S200000x64, .f32⟩ : BufTy).Contents (Elt F)) (V (Proc.devRef .tc main_call15_cst)) := by
  simp only [unary_result', binary_result', ternary_result']; rfl

theorem rtr_v475 (V : Valuation τ sig (Elt F)) :
    (StableHlo.TRef.binary (τ := τ) (Val := Elt F) (TRef.of (T := ⟨S200000x64, .f32⟩) main_v474) (TRef.of (T := ⟨S200000x64, .f32⟩) main_call15_v0) (TRef.of (T := ⟨S200000x64, .f32⟩) main_v475) maximumf).result V (no_index (Proc.devRef .tc main_v475))
      = (maximumf : (⟨S200000x64, .f32⟩ : BufTy).Contents (Elt F) → (⟨S200000x64, .f32⟩ : BufTy).Contents (Elt F) → (⟨S200000x64, .f32⟩ : BufTy).Contents (Elt F)) (V (Proc.devRef .tc main_v474)) (V (Proc.devRef .tc main_call15_v0)) := by
  simp only [unary_result', binary_result', ternary_result']; rfl

theorem rrs_v477 (he : main_v476.ty.elt = main_v477.ty.elt) (V : Valuation τ sig (Elt F)) :
    (StableHlo.reshape (τ := τ) (Val := Elt F) main_v476 main_v477 he shapeCasts_S1x1x64x64_S64x64).result V (no_index (Proc.devRef .tc main_v477))
      = shapeCast S64x64 (V (Proc.devRef .tc main_v476)) shapeCasts_S1x1x64x64_S64x64 := by
  simp only [reshape_result']; rfl

theorem rrs_v479 (he : main_v478.ty.elt = main_v479.ty.elt) (V : Valuation τ sig (Elt F)) :
    (StableHlo.reshape (τ := τ) (Val := Elt F) main_v478 main_v479 he shapeCasts_S1x1x64_S64).result V (no_index (Proc.devRef .tc main_v479))
      = shapeCast S64 (V (Proc.devRef .tc main_v478)) shapeCasts_S1x1x64_S64 := by
  simp only [reshape_result']; rfl

theorem rrs_v481 (he : main_v480.ty.elt = main_v481.ty.elt) (V : Valuation τ sig (Elt F)) :
    (StableHlo.reshape (τ := τ) (Val := Elt F) main_v480 main_v481 he shapeCasts_S1x1000000_S1000000).result V (no_index (Proc.devRef .tc main_v481))
      = shapeCast S1000000 (V (Proc.devRef .tc main_v480)) shapeCasts_S1x1000000_S1000000 := by
  simp only [reshape_result']; rfl

theorem rrs_v483 (he : main_v482.ty.elt = main_v483.ty.elt) (V : Valuation τ sig (Elt F)) :
    (StableHlo.reshape (τ := τ) (Val := Elt F) main_v482 main_v483 he shapeCasts_S1x1000000_S1000000).result V (no_index (Proc.devRef .tc main_v483))
      = shapeCast S1000000 (V (Proc.devRef .tc main_v482)) shapeCasts_S1x1000000_S1000000 := by
  simp only [reshape_result']; rfl

theorem rtr_call16_v0 (V : Valuation τ sig (Elt F)) :
    (StableHlo.TRef.unary (τ := τ) (Val := Elt F) (TRef.of (T := ⟨S_, .f32⟩) main_cst_122) (TRef.of (T := ⟨S_, .f32⟩) main_call16_v0) id).result V (no_index (Proc.devRef .tc main_call16_v0))
      = (id : (⟨S_, .f32⟩ : BufTy).Contents (Elt F) → (⟨S_, .f32⟩ : BufTy).Contents (Elt F)) (V (Proc.devRef .tc main_cst_122)) := by
  simp only [unary_result', binary_result', ternary_result']; rfl

theorem rtr_call16_v1 (V : Valuation τ sig (Elt F)) :
    (StableHlo.TRef.unary (τ := τ) (Val := Elt F) (TRef.of (T := ⟨S_, .f32⟩) main_call16_v0) (TRef.of (T := ⟨S100000, .f32⟩) main_call16_v1) (broadcastInDim S100000 ![] bcast_S_S100000)).result V (no_index (Proc.devRef .tc main_call16_v1))
      = ((broadcastInDim S100000 ![] bcast_S_S100000) : (⟨S_, .f32⟩ : BufTy).Contents (Elt F) → (⟨S100000, .f32⟩ : BufTy).Contents (Elt F)) (V (Proc.devRef .tc main_call16_v0)) := by
  simp only [unary_result', binary_result', ternary_result']; rfl

theorem rtr_v496 (V : Valuation τ sig (Elt F)) :
    (StableHlo.TRef.ternary (τ := τ) (Val := Elt F) (TRef.of (T := ⟨S100000, .i1⟩) main_v492) (TRef.of (T := ⟨S100000, .f32⟩) main_v495) (TRef.of (T := ⟨S100000, .f32⟩) main_call16_v1) (TRef.of (T := ⟨S100000, .f32⟩) main_v496) select).result V (no_index (Proc.devRef .tc main_v496))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v492)) (V (Proc.devRef .tc main_v495)) (V (Proc.devRef .tc main_call16_v1)) := by
  simp only [unary_result', binary_result', ternary_result']; rfl

theorem rrs_v530 (he : main_v529.ty.elt = main_v530.ty.elt) (V : Valuation τ sig (Elt F)) :
    (StableHlo.reshape (τ := τ) (Val := Elt F) main_v529 main_v530 he shapeCasts_S1x1x64x64_S64x64).result V (no_index (Proc.devRef .tc main_v530))
      = shapeCast S64x64 (V (Proc.devRef .tc main_v529)) shapeCasts_S1x1x64x64_S64x64 := by
  simp only [reshape_result']; rfl

theorem rrs_v532 (he : main_v531.ty.elt = main_v532.ty.elt) (V : Valuation τ sig (Elt F)) :
    (StableHlo.reshape (τ := τ) (Val := Elt F) main_v531 main_v532 he shapeCasts_S1x1x64_S64).result V (no_index (Proc.devRef .tc main_v532))
      = shapeCast S64 (V (Proc.devRef .tc main_v531)) shapeCasts_S1x1x64_S64 := by
  simp only [reshape_result']; rfl

theorem rrs_v534 (he : main_v533.ty.elt = main_v534.ty.elt) (V : Valuation τ sig (Elt F)) :
    (StableHlo.reshape (τ := τ) (Val := Elt F) main_v533 main_v534 he shapeCasts_S1x1000000_S1000000).result V (no_index (Proc.devRef .tc main_v534))
      = shapeCast S1000000 (V (Proc.devRef .tc main_v533)) shapeCasts_S1x1000000_S1000000 := by
  simp only [reshape_result']; rfl

theorem rrs_v536 (he : main_v535.ty.elt = main_v536.ty.elt) (V : Valuation τ sig (Elt F)) :
    (StableHlo.reshape (τ := τ) (Val := Elt F) main_v535 main_v536 he shapeCasts_S1x1000000_S1000000).result V (no_index (Proc.devRef .tc main_v536))
      = shapeCast S1000000 (V (Proc.devRef .tc main_v535)) shapeCasts_S1x1000000_S1000000 := by
  simp only [reshape_result']; rfl

theorem rtr_call17_v0 (V : Valuation τ sig (Elt F)) :
    (StableHlo.TRef.unary (τ := τ) (Val := Elt F) (TRef.of (T := ⟨S_, .f32⟩) main_cst_134) (TRef.of (T := ⟨S_, .f32⟩) main_call17_v0) id).result V (no_index (Proc.devRef .tc main_call17_v0))
      = (id : (⟨S_, .f32⟩ : BufTy).Contents (Elt F) → (⟨S_, .f32⟩ : BufTy).Contents (Elt F)) (V (Proc.devRef .tc main_cst_134)) := by
  simp only [unary_result', binary_result', ternary_result']; rfl

theorem rtr_call17_v1 (V : Valuation τ sig (Elt F)) :
    (StableHlo.TRef.unary (τ := τ) (Val := Elt F) (TRef.of (T := ⟨S_, .f32⟩) main_call17_v0) (TRef.of (T := ⟨S200000, .f32⟩) main_call17_v1) (broadcastInDim S200000 ![] bcast_S_S200000)).result V (no_index (Proc.devRef .tc main_call17_v1))
      = ((broadcastInDim S200000 ![] bcast_S_S200000) : (⟨S_, .f32⟩ : BufTy).Contents (Elt F) → (⟨S200000, .f32⟩ : BufTy).Contents (Elt F)) (V (Proc.devRef .tc main_call17_v0)) := by
  simp only [unary_result', binary_result', ternary_result']; rfl

theorem rtr_v549 (V : Valuation τ sig (Elt F)) :
    (StableHlo.TRef.ternary (τ := τ) (Val := Elt F) (TRef.of (T := ⟨S200000, .i1⟩) main_v545) (TRef.of (T := ⟨S200000, .f32⟩) main_v548) (TRef.of (T := ⟨S200000, .f32⟩) main_call17_v1) (TRef.of (T := ⟨S200000, .f32⟩) main_v549) select).result V (no_index (Proc.devRef .tc main_v549))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v545)) (V (Proc.devRef .tc main_v548)) (V (Proc.devRef .tc main_call17_v1)) := by
  simp only [unary_result', binary_result', ternary_result']; rfl

theorem rrs_v583 (he : main_v582.ty.elt = main_v583.ty.elt) (V : Valuation τ sig (Elt F)) :
    (StableHlo.reshape (τ := τ) (Val := Elt F) main_v582 main_v583 he shapeCasts_S1x1x64x64_S64x64).result V (no_index (Proc.devRef .tc main_v583))
      = shapeCast S64x64 (V (Proc.devRef .tc main_v582)) shapeCasts_S1x1x64x64_S64x64 := by
  simp only [reshape_result']; rfl

theorem rrs_v585 (he : main_v584.ty.elt = main_v585.ty.elt) (V : Valuation τ sig (Elt F)) :
    (StableHlo.reshape (τ := τ) (Val := Elt F) main_v584 main_v585 he shapeCasts_S1x1x64_S64).result V (no_index (Proc.devRef .tc main_v585))
      = shapeCast S64 (V (Proc.devRef .tc main_v584)) shapeCasts_S1x1x64_S64 := by
  simp only [reshape_result']; rfl

theorem rrs_v587 (he : main_v586.ty.elt = main_v587.ty.elt) (V : Valuation τ sig (Elt F)) :
    (StableHlo.reshape (τ := τ) (Val := Elt F) main_v586 main_v587 he shapeCasts_S1x1000000_S1000000).result V (no_index (Proc.devRef .tc main_v587))
      = shapeCast S1000000 (V (Proc.devRef .tc main_v586)) shapeCasts_S1x1000000_S1000000 := by
  simp only [reshape_result']; rfl

theorem rrs_v589 (he : main_v588.ty.elt = main_v589.ty.elt) (V : Valuation τ sig (Elt F)) :
    (StableHlo.reshape (τ := τ) (Val := Elt F) main_v588 main_v589 he shapeCasts_S1x1000000_S1000000).result V (no_index (Proc.devRef .tc main_v589))
      = shapeCast S1000000 (V (Proc.devRef .tc main_v588)) shapeCasts_S1x1000000_S1000000 := by
  simp only [reshape_result']; rfl

theorem rtr_call18_v0 (V : Valuation τ sig (Elt F)) :
    (StableHlo.TRef.unary (τ := τ) (Val := Elt F) (TRef.of (T := ⟨S_, .f32⟩) main_cst_148) (TRef.of (T := ⟨S_, .f32⟩) main_call18_v0) id).result V (no_index (Proc.devRef .tc main_call18_v0))
      = (id : (⟨S_, .f32⟩ : BufTy).Contents (Elt F) → (⟨S_, .f32⟩ : BufTy).Contents (Elt F)) (V (Proc.devRef .tc main_cst_148)) := by
  simp only [unary_result', binary_result', ternary_result']; rfl

theorem rtr_call18_v1 (V : Valuation τ sig (Elt F)) :
    (StableHlo.TRef.unary (τ := τ) (Val := Elt F) (TRef.of (T := ⟨S_, .f32⟩) main_call18_v0) (TRef.of (T := ⟨S100000, .f32⟩) main_call18_v1) (broadcastInDim S100000 ![] bcast_S_S100000)).result V (no_index (Proc.devRef .tc main_call18_v1))
      = ((broadcastInDim S100000 ![] bcast_S_S100000) : (⟨S_, .f32⟩ : BufTy).Contents (Elt F) → (⟨S100000, .f32⟩ : BufTy).Contents (Elt F)) (V (Proc.devRef .tc main_call18_v0)) := by
  simp only [unary_result', binary_result', ternary_result']; rfl

theorem rtr_v603 (V : Valuation τ sig (Elt F)) :
    (StableHlo.TRef.ternary (τ := τ) (Val := Elt F) (TRef.of (T := ⟨S100000, .i1⟩) main_v599) (TRef.of (T := ⟨S100000, .f32⟩) main_v602) (TRef.of (T := ⟨S100000, .f32⟩) main_call18_v1) (TRef.of (T := ⟨S100000, .f32⟩) main_v603) select).result V (no_index (Proc.devRef .tc main_v603))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v599)) (V (Proc.devRef .tc main_v602)) (V (Proc.devRef .tc main_call18_v1)) := by
  simp only [unary_result', binary_result', ternary_result']; rfl

theorem rtr_call19_v0 (V : Valuation τ sig (Elt F)) :
    (StableHlo.TRef.unary (τ := τ) (Val := Elt F) (TRef.of (T := ⟨S_, .f32⟩) main_cst_151) (TRef.of (T := ⟨S_, .f32⟩) main_call19_v0) id).result V (no_index (Proc.devRef .tc main_call19_v0))
      = (id : (⟨S_, .f32⟩ : BufTy).Contents (Elt F) → (⟨S_, .f32⟩ : BufTy).Contents (Elt F)) (V (Proc.devRef .tc main_cst_151)) := by
  simp only [unary_result', binary_result', ternary_result']; rfl

theorem rtr_call19_v1 (V : Valuation τ sig (Elt F)) :
    (StableHlo.TRef.unary (τ := τ) (Val := Elt F) (TRef.of (T := ⟨S_, .f32⟩) main_call19_v0) (TRef.of (T := ⟨S200000, .f32⟩) main_call19_v1) (broadcastInDim S200000 ![] bcast_S_S200000)).result V (no_index (Proc.devRef .tc main_call19_v1))
      = ((broadcastInDim S200000 ![] bcast_S_S200000) : (⟨S_, .f32⟩ : BufTy).Contents (Elt F) → (⟨S200000, .f32⟩ : BufTy).Contents (Elt F)) (V (Proc.devRef .tc main_call19_v0)) := by
  simp only [unary_result', binary_result', ternary_result']; rfl

theorem rtr_v609 (V : Valuation τ sig (Elt F)) :
    (StableHlo.TRef.ternary (τ := τ) (Val := Elt F) (TRef.of (T := ⟨S200000, .i1⟩) main_v605) (TRef.of (T := ⟨S200000, .f32⟩) main_v608) (TRef.of (T := ⟨S200000, .f32⟩) main_call19_v1) (TRef.of (T := ⟨S200000, .f32⟩) main_v609) select).result V (no_index (Proc.devRef .tc main_v609))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v605)) (V (Proc.devRef .tc main_v608)) (V (Proc.devRef .tc main_call19_v1)) := by
  simp only [unary_result', binary_result', ternary_result']; rfl

theorem rrs_v643 (he : main_v642.ty.elt = main_v643.ty.elt) (V : Valuation τ sig (Elt F)) :
    (StableHlo.reshape (τ := τ) (Val := Elt F) main_v642 main_v643 he shapeCasts_S1x1x64x64_S64x64).result V (no_index (Proc.devRef .tc main_v643))
      = shapeCast S64x64 (V (Proc.devRef .tc main_v642)) shapeCasts_S1x1x64x64_S64x64 := by
  simp only [reshape_result']; rfl

theorem rrs_v645 (he : main_v644.ty.elt = main_v645.ty.elt) (V : Valuation τ sig (Elt F)) :
    (StableHlo.reshape (τ := τ) (Val := Elt F) main_v644 main_v645 he shapeCasts_S1x1x64_S64).result V (no_index (Proc.devRef .tc main_v645))
      = shapeCast S64 (V (Proc.devRef .tc main_v644)) shapeCasts_S1x1x64_S64 := by
  simp only [reshape_result']; rfl

theorem rrs_v647 (he : main_v646.ty.elt = main_v647.ty.elt) (V : Valuation τ sig (Elt F)) :
    (StableHlo.reshape (τ := τ) (Val := Elt F) main_v646 main_v647 he shapeCasts_S1x1000000_S1000000).result V (no_index (Proc.devRef .tc main_v647))
      = shapeCast S1000000 (V (Proc.devRef .tc main_v646)) shapeCasts_S1x1000000_S1000000 := by
  simp only [reshape_result']; rfl

theorem rrs_v649 (he : main_v648.ty.elt = main_v649.ty.elt) (V : Valuation τ sig (Elt F)) :
    (StableHlo.reshape (τ := τ) (Val := Elt F) main_v648 main_v649 he shapeCasts_S1x1000000_S1000000).result V (no_index (Proc.devRef .tc main_v649))
      = shapeCast S1000000 (V (Proc.devRef .tc main_v648)) shapeCasts_S1x1000000_S1000000 := by
  simp only [reshape_result']; rfl

theorem rtr_call20_v0 (V : Valuation τ sig (Elt F)) :
    (StableHlo.TRef.unary (τ := τ) (Val := Elt F) (TRef.of (T := ⟨S_, .f32⟩) main_cst_165) (TRef.of (T := ⟨S_, .f32⟩) main_call20_v0) id).result V (no_index (Proc.devRef .tc main_call20_v0))
      = (id : (⟨S_, .f32⟩ : BufTy).Contents (Elt F) → (⟨S_, .f32⟩ : BufTy).Contents (Elt F)) (V (Proc.devRef .tc main_cst_165)) := by
  simp only [unary_result', binary_result', ternary_result']; rfl

theorem rtr_call20_v1 (V : Valuation τ sig (Elt F)) :
    (StableHlo.TRef.unary (τ := τ) (Val := Elt F) (TRef.of (T := ⟨S_, .f32⟩) main_call20_v0) (TRef.of (T := ⟨S200000, .f32⟩) main_call20_v1) (broadcastInDim S200000 ![] bcast_S_S200000)).result V (no_index (Proc.devRef .tc main_call20_v1))
      = ((broadcastInDim S200000 ![] bcast_S_S200000) : (⟨S_, .f32⟩ : BufTy).Contents (Elt F) → (⟨S200000, .f32⟩ : BufTy).Contents (Elt F)) (V (Proc.devRef .tc main_call20_v0)) := by
  simp only [unary_result', binary_result', ternary_result']; rfl

theorem rtr_v663 (V : Valuation τ sig (Elt F)) :
    (StableHlo.TRef.ternary (τ := τ) (Val := Elt F) (TRef.of (T := ⟨S200000, .i1⟩) main_v659) (TRef.of (T := ⟨S200000, .f32⟩) main_v662) (TRef.of (T := ⟨S200000, .f32⟩) main_call20_v1) (TRef.of (T := ⟨S200000, .f32⟩) main_v663) select).result V (no_index (Proc.devRef .tc main_v663))
      = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (V (Proc.devRef .tc main_v659)) (V (Proc.devRef .tc main_v662)) (V (Proc.devRef .tc main_call20_v1)) := by
  simp only [unary_result', binary_result', ternary_result']; rfl

theorem rtr_call21_v0 (V : Valuation τ sig (Elt F)) :
    (StableHlo.TRef.unary (τ := τ) (Val := Elt F) (TRef.of (T := ⟨S_, .f32⟩) main_cst_168) (TRef.of (T := ⟨S_, .f32⟩) main_call21_v0) id).result V (no_index (Proc.devRef .tc main_call21_v0))
      = (id : (⟨S_, .f32⟩ : BufTy).Contents (Elt F) → (⟨S_, .f32⟩ : BufTy).Contents (Elt F)) (V (Proc.devRef .tc main_cst_168)) := by
  simp only [unary_result', binary_result', ternary_result']; rfl

theorem rtr_call21_v1 (V : Valuation τ sig (Elt F)) :
    (StableHlo.TRef.unary (τ := τ) (Val := Elt F) (TRef.of (T := ⟨S_, .f32⟩) main_call21_v0) (TRef.of (T := ⟨S100000, .f32⟩) main_call21_v1) (broadcastInDim S100000 ![] bcast_S_S100000)).result V (no_index (Proc.devRef .tc main_call21_v1))
      = ((broadcastInDim S100000 ![] bcast_S_S100000) : (⟨S_, .f32⟩ : BufTy).Contents (Elt F) → (⟨S100000, .f32⟩ : BufTy).Contents (Elt F)) (V (Proc.devRef .tc main_call21_v0)) := by
  simp only [unary_result', binary_result', ternary_result']; rfl

theorem rtr_v669 (V : Valuation τ sig (Elt F)) :
    (StableHlo.TRef.ternary (τ := τ) (Val := Elt F) (TRef.of (T := ⟨S100000, .i1⟩) main_v665) (TRef.of (T := ⟨S100000, .f32⟩) main_v668) (TRef.of (T := ⟨S100000, .f32⟩) main_call21_v1) (TRef.of (T := ⟨S100000, .f32⟩) main_v669) select).result V (no_index (Proc.devRef .tc main_v669))
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (V (Proc.devRef .tc main_v665)) (V (Proc.devRef .tc main_v668)) (V (Proc.devRef .tc main_call21_v1)) := by
  simp only [unary_result', binary_result', ternary_result']; rfl

theorem rtr_call22_v0 (V : Valuation τ sig (Elt F)) :
    (StableHlo.TRef.unary (τ := τ) (Val := Elt F) (TRef.of (T := ⟨S_, .f32⟩) main_call22_cst) (TRef.of (T := ⟨S100000x64, .f32⟩) main_call22_v0) (broadcastInDim S100000x64 ![] bcast_S_S100000x64)).result V (no_index (Proc.devRef .tc main_call22_v0))
      = ((broadcastInDim S100000x64 ![] bcast_S_S100000x64) : (⟨S_, .f32⟩ : BufTy).Contents (Elt F) → (⟨S100000x64, .f32⟩ : BufTy).Contents (Elt F)) (V (Proc.devRef .tc main_call22_cst)) := by
  simp only [unary_result', binary_result', ternary_result']; rfl

theorem rtr_v705 (V : Valuation τ sig (Elt F)) :
    (StableHlo.TRef.binary (τ := τ) (Val := Elt F) (TRef.of (T := ⟨S100000x64, .f32⟩) main_v704) (TRef.of (T := ⟨S100000x64, .f32⟩) main_call22_v0) (TRef.of (T := ⟨S100000x64, .f32⟩) main_v705) maximumf).result V (no_index (Proc.devRef .tc main_v705))
      = (maximumf : (⟨S100000x64, .f32⟩ : BufTy).Contents (Elt F) → (⟨S100000x64, .f32⟩ : BufTy).Contents (Elt F) → (⟨S100000x64, .f32⟩ : BufTy).Contents (Elt F)) (V (Proc.devRef .tc main_v704)) (V (Proc.devRef .tc main_call22_v0)) := by
  simp only [unary_result', binary_result', ternary_result']; rfl

theorem rtr_call23_v0 (V : Valuation τ sig (Elt F)) :
    (StableHlo.TRef.unary (τ := τ) (Val := Elt F) (TRef.of (T := ⟨S_, .f32⟩) main_call23_cst) (TRef.of (T := ⟨S200000x64, .f32⟩) main_call23_v0) (broadcastInDim S200000x64 ![] bcast_S_S200000x64)).result V (no_index (Proc.devRef .tc main_call23_v0))
      = ((broadcastInDim S200000x64 ![] bcast_S_S200000x64) : (⟨S_, .f32⟩ : BufTy).Contents (Elt F) → (⟨S200000x64, .f32⟩ : BufTy).Contents (Elt F)) (V (Proc.devRef .tc main_call23_cst)) := by
  simp only [unary_result', binary_result', ternary_result']; rfl

theorem rtr_v709 (V : Valuation τ sig (Elt F)) :
    (StableHlo.TRef.binary (τ := τ) (Val := Elt F) (TRef.of (T := ⟨S200000x64, .f32⟩) main_v708) (TRef.of (T := ⟨S200000x64, .f32⟩) main_call23_v0) (TRef.of (T := ⟨S200000x64, .f32⟩) main_v709) maximumf).result V (no_index (Proc.devRef .tc main_v709))
      = (maximumf : (⟨S200000x64, .f32⟩ : BufTy).Contents (Elt F) → (⟨S200000x64, .f32⟩ : BufTy).Contents (Elt F) → (⟨S200000x64, .f32⟩ : BufTy).Contents (Elt F)) (V (Proc.devRef .tc main_v708)) (V (Proc.devRef .tc main_call23_v0)) := by
  simp only [unary_result', binary_result', ternary_result']; rfl

theorem rtr_call24_v0 (V : Valuation τ sig (Elt F)) :
    (StableHlo.TRef.unary (τ := τ) (Val := Elt F) (TRef.of (T := ⟨S_, .f32⟩) main_call24_cst) (TRef.of (T := ⟨S1x64, .f32⟩) main_call24_v0) (broadcastInDim S1x64 ![] bcast_S_S1x64)).result V (no_index (Proc.devRef .tc main_call24_v0))
      = ((broadcastInDim S1x64 ![] bcast_S_S1x64) : (⟨S_, .f32⟩ : BufTy).Contents (Elt F) → (⟨S1x64, .f32⟩ : BufTy).Contents (Elt F)) (V (Proc.devRef .tc main_call24_cst)) := by
  simp only [unary_result', binary_result', ternary_result']; rfl

theorem rtr_v726 (V : Valuation τ sig (Elt F)) :
    (StableHlo.TRef.binary (τ := τ) (Val := Elt F) (TRef.of (T := ⟨S1x64, .f32⟩) main_v725) (TRef.of (T := ⟨S1x64, .f32⟩) main_call24_v0) (TRef.of (T := ⟨S1x64, .f32⟩) main_v726) maximumf).result V (no_index (Proc.devRef .tc main_v726))
      = (maximumf : (⟨S1x64, .f32⟩ : BufTy).Contents (Elt F) → (⟨S1x64, .f32⟩ : BufTy).Contents (Elt F) → (⟨S1x64, .f32⟩ : BufTy).Contents (Elt F)) (V (Proc.devRef .tc main_v725)) (V (Proc.devRef .tc main_call24_v0)) := by
  simp only [unary_result', binary_result', ternary_result']; rfl

end Cert.ReferenceIdeal.Eval

end
-- ==== Proof.RefValue.lean ====
/-
  The reference's run, read against the named pieces.

  Every weakly fair execution of the reference ends with each buffer at the contents after its line of operations from
  the launch memory.  For the result buffer that is the operations' composed term of the arguments, which — cut at the
  named pieces — is the network's reference spelling applied to the argument arrays; no operation writes an argument.
-/
import proofs.«167272_j20323785244837_2_alg».proof.Proof.RefLine
import proofs.«167272_j20323785244837_2_alg».proof.Proof.Spec
import proofs.«167272_j20323785244837_2_alg».proof.Proof.LibConcat2
import proofs.«167272_j20323785244837_2_alg».proof.Proof.RefEval

set_option maxRecDepth 16384

noncomputable section

namespace Cert.ReferenceIdeal.RefValue

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

/-- The argument arrays of a memory, on one core. -/
def args (m : (ℓ : Loc nD τ sig) → Buf (Elt F) ℓ) (c : Dev nD) : Cert.Spec.Args F :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15)⟩

set_option maxHeartbeats 800000000 in
/-- The result buffer after the line holds the network, in the reference's spelling, of the argument arrays. -/
theorem value (m : (ℓ : Loc nD τ sig) → Buf (Elt F) ℓ) (c : Dev nD) :
    after ops (launchContents m c) (Proc.devRef .tc main_v735) = Cert.Spec.outR (args m c) := by
  rw [after_ops]
  -- the results of the line's operations, one rewriting pass; a concatenation's two pieces are reached through `concat2`,
  -- and each reshape and each operation of an outlined call is read by its own transport-free statement
  simp (disch := decide) only [↓Cert.LibConcat2.concat2_intro,
    ↓Cert.ReferenceIdeal.Eval.rrs_v9, ↓Cert.ReferenceIdeal.Eval.rrs_v11, ↓Cert.ReferenceIdeal.Eval.rrs_v13, ↓Cert.ReferenceIdeal.Eval.rrs_v15, ↓Cert.ReferenceIdeal.Eval.rtr_call0_v0, ↓Cert.ReferenceIdeal.Eval.rtr_call0_v1, ↓Cert.ReferenceIdeal.Eval.rtr_v28, ↓Cert.ReferenceIdeal.Eval.rrs_v62, ↓Cert.ReferenceIdeal.Eval.rrs_v64, ↓Cert.ReferenceIdeal.Eval.rrs_v66, ↓Cert.ReferenceIdeal.Eval.rrs_v68, ↓Cert.ReferenceIdeal.Eval.rtr_call1_v0, ↓Cert.ReferenceIdeal.Eval.rtr_call1_v1, ↓Cert.ReferenceIdeal.Eval.rtr_v81, ↓Cert.ReferenceIdeal.Eval.rrs_v115, ↓Cert.ReferenceIdeal.Eval.rrs_v117, ↓Cert.ReferenceIdeal.Eval.rrs_v119, ↓Cert.ReferenceIdeal.Eval.rrs_v121, ↓Cert.ReferenceIdeal.Eval.rtr_call2_v0, ↓Cert.ReferenceIdeal.Eval.rtr_call2_v1, ↓Cert.ReferenceIdeal.Eval.rtr_v135, ↓Cert.ReferenceIdeal.Eval.rtr_call3_v0, ↓Cert.ReferenceIdeal.Eval.rtr_call3_v1, ↓Cert.ReferenceIdeal.Eval.rtr_v141, ↓Cert.ReferenceIdeal.Eval.rrs_v175, ↓Cert.ReferenceIdeal.Eval.rrs_v177, ↓Cert.ReferenceIdeal.Eval.rrs_v179, ↓Cert.ReferenceIdeal.Eval.rrs_v181, ↓Cert.ReferenceIdeal.Eval.rtr_call4_v0, ↓Cert.ReferenceIdeal.Eval.rtr_call4_v1, ↓Cert.ReferenceIdeal.Eval.rtr_v195, ↓Cert.ReferenceIdeal.Eval.rtr_call5_v0, ↓Cert.ReferenceIdeal.Eval.rtr_call5_v1, ↓Cert.ReferenceIdeal.Eval.rtr_v201, ↓Cert.ReferenceIdeal.Eval.rtr_call6_v0, ↓Cert.ReferenceIdeal.Eval.rtr_v237, ↓Cert.ReferenceIdeal.Eval.rtr_call7_v0, ↓Cert.ReferenceIdeal.Eval.rtr_v241, ↓Cert.ReferenceIdeal.Eval.rrs_v243, ↓Cert.ReferenceIdeal.Eval.rrs_v245, ↓Cert.ReferenceIdeal.Eval.rrs_v247, ↓Cert.ReferenceIdeal.Eval.rrs_v249, ↓Cert.ReferenceIdeal.Eval.rtr_call8_v0, ↓Cert.ReferenceIdeal.Eval.rtr_call8_v1, ↓Cert.ReferenceIdeal.Eval.rtr_v262, ↓Cert.ReferenceIdeal.Eval.rrs_v296, ↓Cert.ReferenceIdeal.Eval.rrs_v298, ↓Cert.ReferenceIdeal.Eval.rrs_v300, ↓Cert.ReferenceIdeal.Eval.rrs_v302, ↓Cert.ReferenceIdeal.Eval.rtr_call9_v0, ↓Cert.ReferenceIdeal.Eval.rtr_call9_v1, ↓Cert.ReferenceIdeal.Eval.rtr_v315, ↓Cert.ReferenceIdeal.Eval.rrs_v349, ↓Cert.ReferenceIdeal.Eval.rrs_v351, ↓Cert.ReferenceIdeal.Eval.rrs_v353, ↓Cert.ReferenceIdeal.Eval.rrs_v355, ↓Cert.ReferenceIdeal.Eval.rtr_call10_v0, ↓Cert.ReferenceIdeal.Eval.rtr_call10_v1, ↓Cert.ReferenceIdeal.Eval.rtr_v369, ↓Cert.ReferenceIdeal.Eval.rtr_call11_v0, ↓Cert.ReferenceIdeal.Eval.rtr_call11_v1, ↓Cert.ReferenceIdeal.Eval.rtr_v375, ↓Cert.ReferenceIdeal.Eval.rrs_v409, ↓Cert.ReferenceIdeal.Eval.rrs_v411, ↓Cert.ReferenceIdeal.Eval.rrs_v413, ↓Cert.ReferenceIdeal.Eval.rrs_v415, ↓Cert.ReferenceIdeal.Eval.rtr_call12_v0, ↓Cert.ReferenceIdeal.Eval.rtr_call12_v1, ↓Cert.ReferenceIdeal.Eval.rtr_v429, ↓Cert.ReferenceIdeal.Eval.rtr_call13_v0, ↓Cert.ReferenceIdeal.Eval.rtr_call13_v1, ↓Cert.ReferenceIdeal.Eval.rtr_v435, ↓Cert.ReferenceIdeal.Eval.rtr_call14_v0, ↓Cert.ReferenceIdeal.Eval.rtr_v471, ↓Cert.ReferenceIdeal.Eval.rtr_call15_v0, ↓Cert.ReferenceIdeal.Eval.rtr_v475, ↓Cert.ReferenceIdeal.Eval.rrs_v477, ↓Cert.ReferenceIdeal.Eval.rrs_v479, ↓Cert.ReferenceIdeal.Eval.rrs_v481, ↓Cert.ReferenceIdeal.Eval.rrs_v483, ↓Cert.ReferenceIdeal.Eval.rtr_call16_v0, ↓Cert.ReferenceIdeal.Eval.rtr_call16_v1, ↓Cert.ReferenceIdeal.Eval.rtr_v496, ↓Cert.ReferenceIdeal.Eval.rrs_v530, ↓Cert.ReferenceIdeal.Eval.rrs_v532, ↓Cert.ReferenceIdeal.Eval.rrs_v534, ↓Cert.ReferenceIdeal.Eval.rrs_v536, ↓Cert.ReferenceIdeal.Eval.rtr_call17_v0, ↓Cert.ReferenceIdeal.Eval.rtr_call17_v1, ↓Cert.ReferenceIdeal.Eval.rtr_v549, ↓Cert.ReferenceIdeal.Eval.rrs_v583, ↓Cert.ReferenceIdeal.Eval.rrs_v585, ↓Cert.ReferenceIdeal.Eval.rrs_v587, ↓Cert.ReferenceIdeal.Eval.rrs_v589, ↓Cert.ReferenceIdeal.Eval.rtr_call18_v0, ↓Cert.ReferenceIdeal.Eval.rtr_call18_v1, ↓Cert.ReferenceIdeal.Eval.rtr_v603, ↓Cert.ReferenceIdeal.Eval.rtr_call19_v0, ↓Cert.ReferenceIdeal.Eval.rtr_call19_v1, ↓Cert.ReferenceIdeal.Eval.rtr_v609, ↓Cert.ReferenceIdeal.Eval.rrs_v643, ↓Cert.ReferenceIdeal.Eval.rrs_v645, ↓Cert.ReferenceIdeal.Eval.rrs_v647, ↓Cert.ReferenceIdeal.Eval.rrs_v649, ↓Cert.ReferenceIdeal.Eval.rtr_call20_v0, ↓Cert.ReferenceIdeal.Eval.rtr_call20_v1, ↓Cert.ReferenceIdeal.Eval.rtr_v663, ↓Cert.ReferenceIdeal.Eval.rtr_call21_v0, ↓Cert.ReferenceIdeal.Eval.rtr_call21_v1, ↓Cert.ReferenceIdeal.Eval.rtr_v669, ↓Cert.ReferenceIdeal.Eval.rtr_call22_v0, ↓Cert.ReferenceIdeal.Eval.rtr_v705, ↓Cert.ReferenceIdeal.Eval.rtr_call23_v0, ↓Cert.ReferenceIdeal.Eval.rtr_v709, ↓Cert.ReferenceIdeal.Eval.rtr_call24_v0, ↓Cert.ReferenceIdeal.Eval.rtr_v726,
    after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

/-- On every device, from any memory with zero counters: every weakly fair execution of @main terminates with the result
    at the network's reference spelling of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v735) = Cert.Spec.outR (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v735).trans (value m c),
      (h c main_arg0).trans (after_ops_of_not_written main_arg0 _ (by decide) (by decide) (by decide) (by decide) (by decide) (by decide) (by decide) (by decide) (by decide) (by decide) (by decide) (by decide) (by decide) (by decide) (by decide) (by decide)),
      (h c main_arg1).trans (after_ops_of_not_written main_arg1 _ (by decide) (by decide) (by decide) (by decide) (by decide) (by decide) (by decide) (by decide) (by decide) (by decide) (by decide) (by decide) (by decide) (by decide) (by decide) (by decide)),
      (h c main_arg2).trans (after_ops_of_not_written main_arg2 _ (by decide) (by decide) (by decide) (by decide) (by decide) (by decide) (by decide) (by decide) (by decide) (by decide) (by decide) (by decide) (by decide) (by decide) (by decide) (by decide)),
      (h c main_arg3).trans (after_ops_of_not_written main_arg3 _ (by decide) (by decide) (by decide) (by decide) (by decide) (by decide) (by decide) (by decide) (by decide) (by decide) (by decide) (by decide) (by decide) (by decide) (by decide) (by decide)),
      (h c main_arg4).trans (after_ops_of_not_written main_arg4 _ (by decide) (by decide) (by decide) (by decide) (by decide) (by decide) (by decide) (by decide) (by decide) (by decide) (by decide) (by decide) (by decide) (by decide) (by decide) (by decide)),
      (h c main_arg5).trans (after_ops_of_not_written main_arg5 _ (by decide) (by decide) (by decide) (by decide) (by decide) (by decide) (by decide) (by decide) (by decide) (by decide) (by decide) (by decide) (by decide) (by decide) (by decide) (by decide)),
      (h c main_arg6).trans (after_ops_of_not_written main_arg6 _ (by decide) (by decide) (by decide) (by decide) (by decide) (by decide) (by decide) (by decide) (by decide) (by decide) (by decide) (by decide) (by decide) (by decide) (by decide) (by decide)),
      (h c main_arg7).trans (after_ops_of_not_written main_arg7 _ (by decide) (by decide) (by decide) (by decide) (by decide) (by decide) (by decide) (by decide) (by decide) (by decide) (by decide) (by decide) (by decide) (by decide) (by decide) (by decide)),
      (h c main_arg8).trans (after_ops_of_not_written main_arg8 _ (by decide) (by decide) (by decide) (by decide) (by decide) (by decide) (by decide) (by decide) (by decide) (by decide) (by decide) (by decide) (by decide) (by decide) (by decide) (by decide)),
      (h c main_arg9).trans (after_ops_of_not_written main_arg9 _ (by decide) (by decide) (by decide) (by decide) (by decide) (by decide) (by decide) (by decide) (by decide) (by decide) (by decide) (by decide) (by decide) (by decide) (by decide) (by decide)),
      (h c main_arg10).trans (after_ops_of_not_written main_arg10 _ (by decide) (by decide) (by decide) (by decide) (by decide) (by decide) (by decide) (by decide) (by decide) (by decide) (by decide) (by decide) (by decide) (by decide) (by decide) (by decide)),
      (h c main_arg11).trans (after_ops_of_not_written main_arg11 _ (by decide) (by decide) (by decide) (by decide) (by decide) (by decide) (by decide) (by decide) (by decide) (by decide) (by decide) (by decide) (by decide) (by decide) (by decide) (by decide)),
      (h c main_arg12).trans (after_ops_of_not_written main_arg12 _ (by decide) (by decide) (by decide) (by decide) (by decide) (by decide) (by decide) (by decide) (by decide) (by decide) (by decide) (by decide) (by decide) (by decide) (by decide) (by decide)),
      (h c main_arg13).trans (after_ops_of_not_written main_arg13 _ (by decide) (by decide) (by decide) (by decide) (by decide) (by decide) (by decide) (by decide) (by decide) (by decide) (by decide) (by decide) (by decide) (by decide) (by decide) (by decide)),
      (h c main_arg14).trans (after_ops_of_not_written main_arg14 _ (by decide) (by decide) (by decide) (by decide) (by decide) (by decide) (by decide) (by decide) (by decide) (by decide) (by decide) (by decide) (by decide) (by decide) (by decide) (by decide)),
      (h c main_arg15).trans (after_ops_of_not_written main_arg15 _ (by decide) (by decide) (by decide) (by decide) (by decide) (by decide) (by decide) (by decide) (by decide) (by decide) (by decide) (by decide) (by decide) (by decide) (by decide) (by decide))⟩)
    (run_line m ρ)

end Cert.ReferenceIdeal.RefValue

end
-- ==== Proof.Bridge.lean ====
/-
  The two spellings of the network are one function of the arguments.

  Piece by piece: the affine map is the host's product plus the bias row; each column half of a product against two
  weight tables side by side is the host's product against that table; rows packed two to a line and combined with the
  bias written twice are the rows combined with the bias itself.  The aggregation and the tail are common.  So, layer by
  layer, the kernel's node tables are the reference's, and so is the result.
-/
import proofs.«167272_j20323785244837_2_alg».proof.Proof.Spec

set_option maxRecDepth 8192

noncomputable section

namespace Cert.Spec

open Idealize.ShloMosaic Cert.Dense

/-! ## The pieces -/

theorem linUK_eq (x : (⟨Cert.ReferenceIdeal.S100000x32, .f32⟩ : BufTy).Contents (Elt Ideal)) (w : (⟨Cert.ReferenceIdeal.S32x64, .f32⟩ : BufTy).Contents (Elt Ideal)) (b : (⟨Cert.ReferenceIdeal.S64, .f32⟩ : BufTy).Contents (Elt Ideal)) :
    linUK x w b = linU (F := Ideal) x w b := by
  unfold linUK linU
  exact affine_eq_host Cert.ReferenceIdeal.dot_S100000x32_S32x64_S100000x64_1_0_0_1_n_n rfl rfl (fun _ _ => rfl) (fun _ _ => rfl) rfl rfl
    Cert.ReferenceIdeal.Gen.bcast_S64_S1x64_1 Cert.ReferenceIdeal.Gen.bcast_S1x64_S100000x64_0_1 x w b

theorem linTK_eq (x : (⟨Cert.ReferenceIdeal.S200000x64, .f32⟩ : BufTy).Contents (Elt Ideal)) (w : (⟨Cert.ReferenceIdeal.S64x64, .f32⟩ : BufTy).Contents (Elt Ideal)) (b : (⟨Cert.ReferenceIdeal.S64, .f32⟩ : BufTy).Contents (Elt Ideal)) :
    linTK x w b = linT (F := Ideal) x w b := by
  unfold linTK linT
  exact affine_eq_host Cert.ReferenceIdeal.dot_S200000x64_S64x64_S200000x64_1_0_0_1_n_n rfl rfl (fun _ _ => rfl) (fun _ _ => rfl) rfl rfl
    Cert.ReferenceIdeal.Gen.bcast_S64_S1x64_1 Cert.ReferenceIdeal.Gen.bcast_S1x64_S200000x64_0_1 x w b

theorem mmUKl_eq (h : (⟨Cert.ReferenceIdeal.S100000x64, .f32⟩ : BufTy).Contents (Elt Ideal)) (wa wb : (⟨Cert.ReferenceIdeal.S64x64, .f32⟩ : BufTy).Contents (Elt Ideal)) : mmUKl h wa wb = mmU (F := Ideal) h wa := by
  unfold mmUKl mmU
  exact left_columns_of_product Cert.ReferenceIdeal.dot_S100000x64_S64x64_S100000x64_1_0_0_1_n_n rfl rfl (fun _ _ => rfl) (fun _ _ => rfl) rfl rfl rfl
    Cert.KernelIdeal.Gen.concatenates_S64x64_S64x64_S64x128_d1 Cert.KernelIdeal.Gen.slices_S100000x128_S100000x64_0_0 h wa wb

theorem mmUKr_eq (h : (⟨Cert.ReferenceIdeal.S100000x64, .f32⟩ : BufTy).Contents (Elt Ideal)) (wa wb : (⟨Cert.ReferenceIdeal.S64x64, .f32⟩ : BufTy).Contents (Elt Ideal)) : mmUKr h wa wb = mmU (F := Ideal) h wb := by
  unfold mmUKr mmU
  exact right_columns_of_product Cert.ReferenceIdeal.dot_S100000x64_S64x64_S100000x64_1_0_0_1_n_n rfl rfl (fun _ _ => rfl) (fun _ _ => rfl) rfl rfl rfl
    Cert.KernelIdeal.Gen.concatenates_S64x64_S64x64_S64x128_d1 Cert.KernelIdeal.Gen.slices_S100000x128_S100000x64_0_64 h wa wb

theorem combUK_eq (a : (⟨Cert.ReferenceIdeal.S100000x64, .f32⟩ : BufTy).Contents (Elt Ideal)) (ba : (⟨Cert.ReferenceIdeal.S64, .f32⟩ : BufTy).Contents (Elt Ideal)) (b : (⟨Cert.ReferenceIdeal.S100000x64, .f32⟩ : BufTy).Contents (Elt Ideal)) (bb : (⟨Cert.ReferenceIdeal.S64, .f32⟩ : BufTy).Contents (Elt Ideal)) : combUK a ba b bb = combU (F := Ideal) a ba b bb := by
  unfold combUK combU
  exact packed_meanRelu (n := 100000) (n' := 50000) (P := 64) (Q := 128) rfl rfl
    Cert.KernelIdeal.Gen.shapeCasts_S100000x64_S50000x128 Cert.KernelIdeal.Gen.shapeCasts_S50000x128_S100000x64
    Cert.KernelIdeal.Gen.shapeCasts_S64_S1x64 Cert.KernelIdeal.Gen.bcast_S1x64_S2x64_0_1 Cert.KernelIdeal.Gen.shapeCasts_S2x64_S128
    Cert.ReferenceIdeal.Gen.bcast_S64_S1x64_1 Cert.ReferenceIdeal.Gen.bcast_S1x64_S100000x64_0_1 Cert.ReferenceIdeal.Gen.bcast_S_S100000x64 a b ba bb

theorem mmTKl_eq (h : (⟨Cert.ReferenceIdeal.S200000x64, .f32⟩ : BufTy).Contents (Elt Ideal)) (wa wb : (⟨Cert.ReferenceIdeal.S64x64, .f32⟩ : BufTy).Contents (Elt Ideal)) : mmTKl h wa wb = mmT (F := Ideal) h wa := by
  unfold mmTKl mmT
  exact left_columns_of_product Cert.ReferenceIdeal.dot_S200000x64_S64x64_S200000x64_1_0_0_1_n_n rfl rfl (fun _ _ => rfl) (fun _ _ => rfl) rfl rfl rfl
    Cert.KernelIdeal.Gen.concatenates_S64x64_S64x64_S64x128_d1 Cert.KernelIdeal.Gen.slices_S200000x128_S200000x64_0_0 h wa wb

theorem mmTKr_eq (h : (⟨Cert.ReferenceIdeal.S200000x64, .f32⟩ : BufTy).Contents (Elt Ideal)) (wa wb : (⟨Cert.ReferenceIdeal.S64x64, .f32⟩ : BufTy).Contents (Elt Ideal)) : mmTKr h wa wb = mmT (F := Ideal) h wb := by
  unfold mmTKr mmT
  exact right_columns_of_product Cert.ReferenceIdeal.dot_S200000x64_S64x64_S200000x64_1_0_0_1_n_n rfl rfl (fun _ _ => rfl) (fun _ _ => rfl) rfl rfl rfl
    Cert.KernelIdeal.Gen.concatenates_S64x64_S64x64_S64x128_d1 Cert.KernelIdeal.Gen.slices_S200000x128_S200000x64_0_64 h wa wb

theorem combTK_eq (a : (⟨Cert.ReferenceIdeal.S200000x64, .f32⟩ : BufTy).Contents (Elt Ideal)) (ba : (⟨Cert.ReferenceIdeal.S64, .f32⟩ : BufTy).Contents (Elt Ideal)) (b : (⟨Cert.ReferenceIdeal.S200000x64, .f32⟩ : BufTy).Contents (Elt Ideal)) (bb : (⟨Cert.ReferenceIdeal.S64, .f32⟩ : BufTy).Contents (Elt Ideal)) : combTK a ba b bb = combT (F := Ideal) a ba b bb := by
  unfold combTK combT
  exact packed_meanRelu (n := 200000) (n' := 100000) (P := 64) (Q := 128) rfl rfl
    Cert.KernelIdeal.Gen.shapeCasts_S200000x64_S100000x128 Cert.KernelIdeal.Gen.shapeCasts_S100000x128_S200000x64
    Cert.KernelIdeal.Gen.shapeCasts_S64_S1x64 Cert.KernelIdeal.Gen.bcast_S1x64_S2x64_0_1 Cert.KernelIdeal.Gen.shapeCasts_S2x64_S128
    Cert.ReferenceIdeal.Gen.bcast_S64_S1x64_1 Cert.ReferenceIdeal.Gen.bcast_S1x64_S200000x64_0_1 Cert.ReferenceIdeal.Gen.bcast_S_S200000x64 a b ba bb

/-! ## The layers -/

theorem hu0_eq (A : Args Ideal) : hu0K A = hu0R A := linUK_eq _ _ _
theorem ht0_eq (A : Args Ideal) : ht0K A = ht0R A := linTK_eq _ _ _

theorem hu1_eq (A : Args Ideal) : hu1K A = hu1R A := by
  unfold hu1K hu1R
  rw [combUK_eq, mmUKl_eq, mmTKr_eq, hu0_eq, ht0_eq]
theorem ht1_eq (A : Args Ideal) : ht1K A = ht1R A := by
  unfold ht1K ht1R
  rw [combTK_eq, mmTKl_eq, mmUKr_eq, hu0_eq, ht0_eq]

theorem hu2_eq (A : Args Ideal) : hu2K A = hu2R A := by
  unfold hu2K hu2R
  rw [combUK_eq, mmUKl_eq, mmTKr_eq, hu1_eq, ht1_eq]
theorem ht2_eq (A : Args Ideal) : ht2K A = ht2R A := by
  unfold ht2K ht2R
  rw [combTK_eq, mmTKl_eq, mmUKr_eq, hu1_eq, ht1_eq]

theorem hu3_eq (A : Args Ideal) : hu3K A = hu3R A := by
  unfold hu3K hu3R
  rw [combUK_eq, mmUKl_eq, mmTKr_eq, hu2_eq, ht2_eq]
theorem ht3_eq (A : Args Ideal) : ht3K A = ht3R A := by
  unfold ht3K ht3R
  rw [combTK_eq, mmTKl_eq, mmUKr_eq, hu2_eq, ht2_eq]

/-- The kernel's spelling of the network and the reference's are one function of the argument arrays. -/
theorem out_eq (A : Args Ideal) : outK A = outR A := by
  unfold outK outR
  rw [hu3_eq, ht3_eq]

end Cert.Spec

end
-- ==== Proof.lean ====
/-
  The certificate of a three-layer graph network over two node types (users, transactions) and four relations.

  The kernel computes the two node embeddings, the per-layer weight transforms and the per-layer combination of
  relations in fourteen pipelined regions, and the gather / scale / scatter-sum of each relation and the final
  pooling and head on the host; the reference computes everything on the host.  At the exact instance both are the same
  function of the sixteen argument arrays:

  * an embedding block computes `x · w + b`, which is the host's product plus the broadcast bias (`Cert.Dense`);
  * a transform block multiplies a node table by TWO weight tables laid side by side; its left and right column halves
    are the host's products by the first and the second table — the same sums, term by term;
  * a combination block works on rows packed two to a line with the bias written twice; unpacked, it is the host's
    chain (add the biases, add, halve, cut at zero) on the rows themselves;
  * the degree normalisation, the aggregation and the tail are the same host operations in both programs; the kernel
    computes the normalisation once and the reference once per layer, which as functions of the edge lists is the same.

  No step moves a factor across a sum or cancels anything, so the precondition (finite inputs) is not used.
  `Cert.Spec` names the pieces and composes them in the two spellings; `Cert.Spec.out_eq` says the spellings agree;
  `Cert.KernelIdeal.Whole.value` reads the kernel's result as the kernel spelling of its arguments, and
  `Cert.ReferenceIdeal.RefValue.run` the reference's as the reference spelling.
-/
import proofs.«167272_j20323785244837_2_alg».proof.Defs
import proofs.«167272_j20323785244837_2_alg».proof.Proof.Gen.Kernel
import proofs.«167272_j20323785244837_2_alg».proof.Proof.KernelFrameP
import proofs.«167272_j20323785244837_2_alg».proof.Proof.Gen.KernelIdeal
import proofs.«167272_j20323785244837_2_alg».proof.Proof.KernelIdealFrameP2
import proofs.«167272_j20323785244837_2_alg».proof.Proof.KernelWhole
import proofs.«167272_j20323785244837_2_alg».proof.Proof.Gen.ReferenceIdeal
import proofs.«167272_j20323785244837_2_alg».proof.Proof.Gen.Pre_finite_inputs
import proofs.«167272_j20323785244837_2_alg».proof.Proof.KernelRun
import proofs.«167272_j20323785244837_2_alg».proof.Proof.RefValue
import proofs.«167272_j20323785244837_2_alg».proof.Proof.Bridge
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.GenP.frame m ρ

theorem frame_kernelIdeal [Cert.KernelIdeal.Facts] [Cert.Pre_finite_inputs.Facts] : Cert.frame_KernelIdeal :=
  fun m ρ _ => Cert.KernelIdeal.GenP.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RefValue.run (F := Ideal) m ρ)

/-- Both runs end with the result at the network of their arguments — the kernel's in the kernel's spelling, the
    reference's in the reference's —, the spellings agree, and the arguments agree by hypothesis. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.outK (Cert.KernelIdeal.Whole.args m c), ?_, ?_⟩
  · exact (θ_run Cert.KernelIdeal.defs _ _).mono
      (fun r h c => ⟨(h c).1.trans (Cert.KernelIdeal.Whole.value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.RefValue.run (F := Ideal) m' ρ')
    have hargs : Cert.ReferenceIdeal.RefValue.args m' c = Cert.KernelIdeal.Whole.args m c := by
      obtain ⟨h0, h1, h2, h3, h4, h5, h6, h7, h8, h9, h10, h11, h12, h13, h14, h15⟩ := hagree c
      unfold Cert.ReferenceIdeal.RefValue.args Cert.KernelIdeal.Whole.args
      rw [h0, h1, h2, h3, h4, h5, h6, h7, h8, h9, h10, h11, h12, h13, h14, h15]
    rw [hargs]
    exact (Cert.Spec.out_eq _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
